-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S320000x16 : Shape := ⟨2, ![320000, 16]⟩
abbrev S256x32 : Shape := ⟨2, ![256, 32]⟩
abbrev S10000 : Shape := ⟨1, ![10000]⟩
abbrev S320000 : Shape := ⟨1, ![320000]⟩
abbrev S16x128 : Shape := ⟨2, ![16, 128]⟩
abbrev S32x128 : Shape := ⟨2, ![32, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000x16 : S_.BroadcastsInDim S320000x16 (![] : Fin 0 → Fin S320000x16.rank)
  reducesTo_S320000x16_S_d0_1 : S320000x16.ReducesTo [0, 1] S_
  bcast_S_S256x32 : S_.BroadcastsInDim S256x32 (![] : Fin 0 → Fin S256x32.rank)
  reducesTo_S256x32_S_d0_1 : S256x32.ReducesTo [0, 1] S_
  bcast_S_S16x128 : S_.BroadcastsInDim S16x128 (![] : Fin 0 → Fin S16x128.rank)
  reducesTo_S16x128_S_d0_1 : S16x128.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part4 {F : FTy → Type} [FloatOps F] (main_arg16 : FVec F S8 .f32) (main_v63 : IVec S_ 1) (main_v67 : IVec S_ 1) : IVec S_ 1 :=
  let main_v68 : IVec S_ 1 := andi main_v63 main_v67
  let main_v69 : FVec F S8 .f32 := Host.absf main_arg16
  let main_cst_26 : FVec F S_ .f32 := constant S_ .f32 0x7F800000#32
  let main_v70 : FVec F S8 .f32 := broadcastInDim S8 ![] bcast_S_S8 main_cst_26
  let main_v71 : IVec S8 1 := cmpf .olt main_v69 main_v70
  let main_c_27 : IVec S_ 1 := constantI S_ 1 1#1
  let main_v72 : IVec S_ 1 := (fun x v => Host.reduce IntOp.andi x v reducesTo_S8_S_d0 h_S_) main_v71 main_c_27
  let main_v73 : IVec S_ 1 := andi main_v68 main_v72
  main_v73

def fn_part3 {F : FTy → Type} [FloatOps F] (main_arg13 : FVec F S8 .f32) (main_arg14 : FVec F S128x8 .f32) (main_arg15 : FVec F S128x8 .f32) (main_arg16 : FVec F S8 .f32) (main_v48 : IVec S_ 1) (main_v49 : FVec F S128x8 .f32) (main_v50 : FVec F S128x8 .f32) : IVec S_ 1 :=
  let main_v51 : IVec S128x8 1 := cmpf .olt main_v49 main_v50
  let main_c_19 : IVec S_ 1 := constantI S_ 1 1#1
  let main_v52 : IVec S_ 1 := (fun x v => Host.reduce IntOp.andi x v reducesTo_S128x8_S_d0_1 h_S_) main_v51 main_c_19
  let main_v53 : IVec S_ 1 := andi main_v48 main_v52
  let main_v54 : FVec F S8 .f32 := Host.absf main_arg13
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  let main_v59 : FVec F S128x8 .f32 := Host.absf main_arg14
  let main_cst_22 : FVec F S_ .f32 := constant S_ .f32 0x7F800000#32
  let main_v60 : FVec F S128x8 .f32 := broadcastInDim S128x8 ![] bcast_S_S128x8 main_cst_22
  let main_v61 : IVec S128x8 1 := cmpf .olt main_v59 main_v60
  let main_c_23 : IVec S_ 1 := constantI S_ 1 1#1
  let main_v62 : IVec S_ 1 := (fun x v => Host.reduce IntOp.andi x v reducesTo_S128x8_S_d0_1 h_S_) main_v61 main_c_23
  let main_v63 : IVec S_ 1 := andi main_v58 main_v62
  let main_v64 : FVec F S128x8 .f32 := Host.absf main_arg15
  let main_cst_24 : FVec F S_ .f32 := constant S_ .f32 0x7F800000#32
  let main_v65 : FVec F S128x8 .f32 := broadcastInDim S128x8 ![] bcast_S_S128x8 main_cst_24
  let main_v66 : IVec S128x8 1 := cmpf .olt main_v64 main_v65
  let main_c_25 : IVec S_ 1 := constantI S_ 1 1#1
  let main_v67 : IVec S_ 1 := (fun x v => Host.reduce IntOp.andi x v reducesTo_S128x8_S_d0_1 h_S_) main_v66 main_c_25
  fn_part4 (F := F) main_arg16 main_v63 main_v67

def fn_part2 {F : FTy → Type} [FloatOps F] (main_arg9 : FVec F S32x128 .f32) (main_arg10 : FVec F S128 .f32) (main_arg11 : FVec F S128x8 .f32) (main_arg12 : FVec F S128x8 .f32) (main_arg13 : FVec F S8 .f32) (main_arg14 : FVec F S128x8 .f32) (main_arg15 : FVec F S128x8 .f32) (main_arg16 : FVec F S8 .f32) (main_v33 : IVec S_ 1) : IVec S_ 1 :=
  let main_v34 : FVec F S32x128 .f32 := Host.absf main_arg9
  let main_cst_12 : FVec F S_ .f32 := constant S_ .f32 0x7F800000#32
  let main_v35 : FVec F S32x128 .f32 := broadcastInDim S32x128 ![] bcast_S_S32x128 main_cst_12
  let main_v36 : IVec S32x128 1 := cmpf .olt main_v34 main_v35
  let main_c_13 : IVec S_ 1 := constantI S_ 1 1#1
  let main_v37 : IVec S_ 1 := (fun x v => Host.reduce IntOp.andi x v reducesTo_S32x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x8 .f32 := Host.absf main_arg11
  let main_cst_16 : FVec F S_ .f32 := constant S_ .f32 0x7F800000#32
  let main_v45 : FVec F S128x8 .f32 := broadcastInDim S128x8 ![] bcast_S_S128x8 main_cst_16
  let main_v46 : IVec S128x8 1 := cmpf .olt main_v44 main_v45
  let main_c_17 : IVec S_ 1 := constantI S_ 1 1#1
  let main_v47 : IVec S_ 1 := (fun x v => Host.reduce IntOp.andi x v reducesTo_S128x8_S_d0_1 h_S_) main_v46 main_c_17
  let main_v48 : IVec S_ 1 := andi main_v43 main_v47
  let main_v49 : FVec F S128x8 .f32 := Host.absf main_arg12
  let main_cst_18 : FVec F S_ .f32 := constant S_ .f32 0x7F800000#32
  let main_v50 : FVec F S128x8 .f32 := broadcastInDim S128x8 ![] bcast_S_S128x8 main_cst_18
  fn_part3 (F := F) main_arg13 main_arg14 main_arg15 main_arg16 main_v48 main_v49 main_v50

def fn_part1 {F : FTy → Type} [FloatOps F] (main_arg6 : FVec F S32x128 .f32) (main_arg7 : FVec F S128 .f32) (main_arg8 : FVec F S128x128 .f32) (main_arg9 : FVec F S32x128 .f32) (main_arg10 : FVec F S128 .f32) (main_arg11 : FVec F S128x8 .f32) (main_arg12 : FVec F S128x8 .f32) (main_arg13 : FVec F S8 .f32) (main_arg14 : FVec F S128x8 .f32) (main_arg15 : FVec F S128x8 .f32) (main_arg16 : FVec F S8 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S32x128 .f32 := Host.absf main_arg6
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S10000x128 .f32) (main_arg1 : FVec F S320000x16 .f32) (main_arg2 : FVec F S256x32 .f32) (main_arg3 : IVec S10000 32) (main_arg4 : IVec S320000 32) (main_arg5 : FVec F S16x128 .f32) (main_arg6 : FVec F S32x128 .f32) (main_arg7 : FVec F S128 .f32) (main_arg8 : FVec F S128x128 .f32) (main_arg9 : FVec F S32x128 .f32) (main_arg10 : FVec F S128 .f32) (main_arg11 : FVec F S128x8 .f32) (main_arg12 : FVec F S128x8 .f32) (main_arg13 : FVec F S8 .f32) (main_arg14 : FVec F S128x8 .f32) (main_arg15 : FVec F S128x8 .f32) (main_arg16 : FVec F S8 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000x16 .f32 := Host.absf main_arg1
  let main_cst_0 : FVec F S_ .f32 := constant S_ .f32 0x7F800000#32
  let main_v5 : FVec F S320000x16 .f32 := broadcastInDim S320000x16 ![] bcast_S_S320000x16 main_cst_0
  let main_v6 : IVec S320000x16 1 := cmpf .olt main_v4 main_v5
  let main_c_1 : IVec S_ 1 := constantI S_ 1 1#1
  let main_v7 : IVec S_ 1 := (fun x v => Host.reduce IntOp.andi x v reducesTo_S320000x16_S_d0_1 h_S_) main_v6 main_c_1
  let main_v8 : IVec S_ 1 := andi main_v3 main_v7
  let main_v9 : FVec F S256x32 .f32 := Host.absf main_arg2
  let main_cst_2 : FVec F S_ .f32 := constant S_ .f32 0x7F800000#32
  let main_v10 : FVec F S256x32 .f32 := broadcastInDim S256x32 ![] bcast_S_S256x32 main_cst_2
  let main_v11 : IVec S256x32 1 := cmpf .olt main_v9 main_v10
  let main_c_3 : IVec S_ 1 := constantI S_ 1 1#1
  let main_v12 : IVec S_ 1 := (fun x v => Host.reduce IntOp.andi x v reducesTo_S256x32_S_d0_1 h_S_) main_v11 main_c_3
  let main_v13 : IVec S_ 1 := andi main_v8 main_v12
  let main_v14 : FVec F S16x128 .f32 := Host.absf main_arg5
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S10000x128 : Shape := ⟨2, ![10000, 128]⟩
abbrev S320000x16 : Shape := ⟨2, ![320000, 16]⟩
abbrev S256x32 : Shape := ⟨2, ![256, 32]⟩
abbrev S10000 : Shape := ⟨1, ![10000]⟩
abbrev S320000 : Shape := ⟨1, ![320000]⟩
abbrev S16x128 : Shape := ⟨2, ![16, 128]⟩
abbrev S32x128 : Shape := ⟨2, ![32, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S80x1x4000 : Shape := ⟨3, ![80, 1, 4000]⟩
abbrev S5x1x2000 : Shape := ⟨3, ![5, 1, 2000]⟩
abbrev S1x128 : Shape := ⟨2, ![1, 128]⟩
abbrev S1x8 : Shape := ⟨2, ![1, 8]⟩
abbrev S256x128 : Shape := ⟨2, ![256, 128]⟩
abbrev S256x1 : Shape := ⟨2, ![256, 1]⟩
abbrev S1x1x4000 : Shape := ⟨3, ![1, 1, 4000]⟩
abbrev S4000x16 : Shape := ⟨2, ![4000, 16]⟩
abbrev S1x4000 : Shape := ⟨2, ![1, 4000]⟩
abbrev S256x4000 : Shape := ⟨2, ![256, 4000]⟩
abbrev S4000x128 : Shape := ⟨2, ![4000, 128]⟩
abbrev S256 : Shape := ⟨1, ![256]⟩
abbrev S256x8 : Shape := ⟨2, ![256, 8]⟩
abbrev S1x1x2000 : Shape := ⟨3, ![1, 1, 2000]⟩
abbrev S2000x128 : Shape := ⟨2, ![2000, 128]⟩
abbrev S1x2000 : Shape := ⟨2, ![1, 2000]⟩
abbrev S256x2000 : Shape := ⟨2, ![256, 2000]⟩

abbrev nBuf : Space → Nat
  | .hbm => 27
  | .vmem => 32
  | .smem => 0
  | _ => 0

abbrev bufTy : (tb : Table) → Fin (tcTables nBuf tb) → BufTy
  | .hbm, ⟨0, _⟩ => ⟨S10000x128, .f32⟩
  | .hbm, ⟨1, _⟩ => ⟨S320000x16, .f32⟩
  | .hbm, ⟨2, _⟩ => ⟨S256x32, .f32⟩
  | .hbm, ⟨3, _⟩ => ⟨S10000, .i32⟩
  | .hbm, ⟨4, _⟩ => ⟨S320000, .i32⟩
  | .hbm, ⟨5, _⟩ => ⟨S16x128, .f32⟩
  | .hbm, ⟨6, _⟩ => ⟨S32x128, .f32⟩
  | .hbm, ⟨7, _⟩ => ⟨S128, .f32⟩
  | .hbm, ⟨8, _⟩ => ⟨S128x128, .f32⟩
  | .hbm, ⟨9, _⟩ => ⟨S32x128, .f32⟩
  | .hbm, ⟨10, _⟩ => ⟨S128, .f32⟩
  | .hbm, ⟨11, _⟩ => ⟨S128x8, .f32⟩
  | .hbm, ⟨12, _⟩ => ⟨S128x8, .f32⟩
  | .hbm, ⟨13, _⟩ => ⟨S8, .f32⟩
  | .hbm, ⟨14, _⟩ => ⟨S128x8, .f32⟩
  | .hbm, ⟨15, _⟩ => ⟨S128x8, .f32⟩
  | .hbm, ⟨16, _⟩ => ⟨S8, .f32⟩
  | .hbm, ⟨17, _⟩ => ⟨S80x1x4000, .i32⟩
  | .hbm, ⟨18, _⟩ => ⟨S5x1x2000, .i32⟩
  | .hbm, ⟨19, _⟩ => ⟨S1x128, .f32⟩
  | .hbm, ⟨20, _⟩ => ⟨S1x128, .f32⟩
  | .hbm, ⟨21, _⟩ => ⟨S1x8, .f32⟩
  | .hbm, ⟨22, _⟩ => ⟨S1x8, .f32⟩
  | .hbm, ⟨23, _⟩ => ⟨S256x128, .f32⟩
  | .hbm, ⟨24, _⟩ => ⟨S256x1, .f32⟩
  | .hbm, ⟨25, _⟩ => ⟨S256x8, .f32⟩
  | .hbm, ⟨26, _⟩ => ⟨S256x8, .f32⟩
  | .local _ .vmem, ⟨0, _⟩ => ⟨S1x1x4000, .i32⟩
  | .local _ .vmem, ⟨1, _⟩ => ⟨S1x1x4000, .i32⟩
  | .local _ .vmem, ⟨2, _⟩ => ⟨S4000x16, .f32⟩
  | .local _ .vmem, ⟨3, _⟩ => ⟨S4000x16, .f32⟩
  | .local _ .vmem, ⟨4, _⟩ => ⟨S256x32, .f32⟩
  | .local _ .vmem, ⟨5, _⟩ => ⟨S32x128, .f32⟩
  | .local _ .vmem, ⟨6, _⟩ => ⟨S1x128, .f32⟩
  | .local _ .vmem, ⟨7, _⟩ => ⟨S16x128, .f32⟩
  | .local _ .vmem, ⟨8, _⟩ => ⟨S256x128, .f32⟩
  | .local _ .vmem, ⟨9, _⟩ => ⟨S256x1, .f32⟩
  | .local _ .vmem, ⟨10, _⟩ => ⟨S256x128, .f32⟩
  | .local _ .vmem, ⟨11, _⟩ => ⟨S1x1x2000, .i32⟩
  | .local _ .vmem, ⟨12, _⟩ => ⟨S1x1x2000, .i32⟩
  | .local _ .vmem, ⟨13, _⟩ => ⟨S2000x128, .f32⟩
  | .local _ .vmem, ⟨14, _⟩ => ⟨S2000x128, .f32⟩
  | .local _ .vmem, ⟨15, _⟩ => ⟨S256x32, .f32⟩
  | .local _ .vmem, ⟨16, _⟩ => ⟨S32x128, .f32⟩
  | .local _ .vmem, ⟨17, _⟩ => ⟨S1x128, .f32⟩
  | .local _ .vmem, ⟨18, _⟩ => ⟨S128x128, .f32⟩
  | .local _ .vmem, ⟨19, _⟩ => ⟨S256x128, .f32⟩
  | .local _ .vmem, ⟨20, _⟩ => ⟨S256x1, .f32⟩
  | .local _ .vmem, ⟨21, _⟩ => ⟨S128x8, .f32⟩
  | .local _ .vmem, ⟨22, _⟩ => ⟨S128x8, .f32⟩
  | .local _ .vmem, ⟨23, _⟩ => ⟨S1x8, .f32⟩
  | .local _ .vmem, ⟨24, _⟩ => ⟨S128x8, .f32⟩
  | .local _ .vmem, ⟨25, _⟩ => ⟨S128x8, .f32⟩
  | .local _ .vmem, ⟨26, _⟩ => ⟨S1x8, .f32⟩
  | .local _ .vmem, ⟨27, _⟩ => ⟨S256x8, .f32⟩
  | .local _ .vmem, ⟨28, _⟩ => ⟨S256x8, .f32⟩
  | .local _ .vmem, ⟨29, _⟩ => ⟨S256x128, .f32⟩
  | .local _ .vmem, ⟨30, _⟩ => ⟨S256x128, .f32⟩
  | .local _ .vmem, ⟨31, _⟩ => ⟨S256x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6_0 : Ref sig .tc := ⟨.hbm, 23, rfl⟩
abbrev main_v6_1 : Ref sig .tc := ⟨.hbm, 24, rfl⟩
abbrev main_v7_0 : Ref sig .tc := ⟨.hbm, 25, rfl⟩
abbrev main_v7_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg12_0 : Ref sig .tc := ⟨.vmem, 25, rfl⟩
abbrev cc1_stg13_0 : Ref sig .tc := ⟨.vmem, 26, rfl⟩
abbrev cc1_stg14_0 : Ref sig .tc := ⟨.vmem, 27, rfl⟩
abbrev cc1_stg15_0 : Ref sig .tc := ⟨.vmem, 28, rfl⟩
abbrev cc1_scratch0 : Ref sig .tc := ⟨.vmem, 29, rfl⟩
abbrev cc1_scratch1 : Ref sig .tc := ⟨.vmem, 30, rfl⟩
abbrev cc1_scratch2 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25
abbrev cc1_sem14_0 : DmaSem sig := 26
abbrev cc1_sem15_0 : DmaSem sig := 27

abbrev nD : Nat := 1
abbrev τ : Topo := Topo.v7x

variable {F : FTy → Type} [FloatOps F]

abbrev grid0 : Pipeline.Grid := ⟨1, ![80], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x4000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![5], ![false]⟩

def k1_cond2 (i : grid1.Coords) : BitVec 1 :=
  let arg0 : BitVec 32 := BitVec.ofNat 32 (i 0).val
  let c4_i32 : BitVec 32 := 4#32
  let v32 : BitVec 1 := Scalar.cmpi .eq arg0 c4_i32
  let v33 : BitVec 32 := Scalar.extui v32
  let c0_i32_21 : BitVec 32 := 0#32
  let v34 : BitVec 1 := Scalar.cmpi .ne v33 c0_i32_21
  v34

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x2000 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x8 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x8 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x8 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x8 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128x8 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x8 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S256x8 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S256x8 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

class Facts₀ : Prop where
  shapeCasts_S320000_S80x1x4000 : S320000.ShapeCasts S80x1x4000
  shapeCasts_S10000_S5x1x2000 : S10000.ShapeCasts S5x1x2000
  shapeCasts_S128_S1x128 : S128.ShapeCasts S1x128
  shapeCasts_S8_S1x8 : S8.ShapeCasts S1x8
  inb_S256x32_S256x32_0_0 : ∀ a, (![0, 0] : Fin 2 → Nat) a + S256x32.size a ≤ S256x32.size a
  h_S256x32 : 0 < S256x32.numel
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x1_S256x1_0_0 : ∀ a, (![0, 0] : Fin 2 → Nat) a + S256x1.size a ≤ S256x1.size a
  h_S256x1 : 0 < S256x1.numel
  inb_S1x1x4000_S1x1x4000_0_0_0 : ∀ a, (![0, 0, 0] : Fin 3 → Nat) a + S1x1x4000.size a ≤ S1x1x4000.size a
  h_S1x1x4000 : 0 < S1x1x4000.numel
  shapeCasts_S1x1x4000_S1x4000 : S1x1x4000.ShapeCasts S1x4000
  iota_S256x1_d0_w32 : S256x1.Iotas .tc 32 [0]
  broadcasts_S1x4000_S256x4000 : S1x4000.Broadcasts S256x4000
  broadcasts_S256x1_S256x4000 : S256x1.Broadcasts S256x4000
  natLt_1_32 : 1 < 32
  inb_S4000x16_S4000x16_0_0 : ∀ a, (![0, 0] : Fin 2 → Nat) a + S4000x16.size a ≤ S4000x16.size a
  h_S4000x16 : 0 < S4000x16.numel
  inb_S16x128_S16x128_0_0 : ∀ a, (![0, 0] : Fin 2 → Nat) a + S16x128.size a ≤ S16x128.size a
  h_S16x128 : 0 < S16x128.numel
  shapeCasts_S256x1_S256x1 : S256x1.ShapeCasts S256x1
  reduces_S256x4000_S256 : S256x4000.Reduces [1] S256
  shapeCasts_S256_S256x1 : S256.ShapeCasts S256x1
  inb_S1x1x2000_S1x1x2000_0_0_0 : ∀ a, (![0, 0, 0] : Fin 3 → Nat) a + S1x1x2000.size a ≤ S1x1x2000.size a
  h_S1x1x2000 : 0 < S1x1x2000.numel
  shapeCasts_S1x1x2000_S1x2000 : S1x1x2000.ShapeCasts S1x2000
  broadcasts_S1x2000_S256x2000 : S1x2000.Broadcasts S256x2000
  broadcasts_S256x1_S256x2000 : S256x1.Broadcasts S256x2000
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  reduces_S256x2000_S256 : S256x2000.Reduces [1] S256
  broadcasts_S256x1_S256x128 : S256x1.Broadcasts S256x128
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S256x8 : S1x8.Broadcasts S256x8
  inb_S256x8_S256x8_0_0 : ∀ a, (![0, 0] : Fin 2 → Nat) a + S256x8.size a ≤ S256x8.size a
  h_S256x8 : 0 < S256x8.numel
  dot_S256x32_S32x128_S256x128_1_0_0_1_n_n_wf : DotDims.WF S256x32 S32x128 S256x128 [1] [0] [0] [1] [] []
  dot_S4000x16_S16x128_S4000x128_1_0_0_1_n_n_wf : DotDims.WF S4000x16 S16x128 S4000x128 [1] [0] [0] [1] [] []
  dot_S256x4000_S256x128_S4000x128_0_0_1_1_n_n_wf : DotDims.WF S256x4000 S256x128 S4000x128 [0] [0] [1] [1] [] []
  dot_S256x4000_S4000x128_S256x128_1_0_0_1_n_n_wf : DotDims.WF S256x4000 S4000x128 S256x128 [1] [0] [0] [1] [] []
  dot_S2000x128_S128x128_S2000x128_1_0_0_1_n_n_wf : DotDims.WF S2000x128 S128x128 S2000x128 [1] [0] [0] [1] [] []
  dot_S256x2000_S256x128_S2000x128_0_0_1_1_n_n_wf : DotDims.WF S256x2000 S256x128 S2000x128 [0] [0] [1] [1] [] []
  dot_S256x2000_S2000x128_S256x128_1_0_0_1_n_n_wf : DotDims.WF S256x2000 S2000x128 S256x128 [1] [0] [0] [1] [] []
  dot_S256x128_S128x8_S256x8_1_0_0_1_n_n_wf : DotDims.WF S256x128 S128x8 S256x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4000.size a ≤ S80x1x4000.size a
  hwx0_0 : ∀ i : grid0.Coords, EltTy.bits .i32 = 32 ∨ (Rect.block (s := S80x1x4000) S1x1x4000.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x16.size a ≤ S320000x16.size a
  hwx0_1 : ∀ i : grid0.Coords, EltTy.bits .f32 = 32 ∨ (Rect.block (s := S320000x16) S4000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S256x32.size a
  hwx0_2 : ∀ i : grid0.Coords, EltTy.bits .f32 = 32 ∨ (Rect.block (s := S256x32) S256x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x128.size a ≤ S16x128.size a
  hwx0_5 : ∀ i : grid0.Coords, EltTy.bits .f32 = 32 ∨ (Rect.block (s := S16x128) S16x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S256x1.size a
  hwx0_7 : ∀ i : grid0.Coords, EltTy.bits .f32 = 32 ∨ (Rect.block (s := S256x1) S256x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x2000.size a ≤ S5x1x2000.size a
  hwx1_0 : ∀ i : grid1.Coords, EltTy.bits .i32 = 32 ∨ (Rect.block (s := S5x1x2000) S1x1x2000.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S10000x128.size a
  hwx1_1 : ∀ i : grid1.Coords, EltTy.bits .f32 = 32 ∨ (Rect.block (s := S10000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x32.size a ≤ S256x32.size a
  hwx1_2 : ∀ i : grid1.Coords, EltTy.bits .f32 = 32 ∨ (Rect.block (s := S256x32) S256x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x128.size a ≤ S32x128.size a
  hwx1_3 : ∀ i : grid1.Coords, EltTy.bits .f32 = 32 ∨ (Rect.block (s := S32x128) S32x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x128.size a ≤ S256x128.size a
  hwx1_6 : ∀ i : grid1.Coords, EltTy.bits .f32 = 32 ∨ (Rect.block (s := S256x128) S256x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x1.size a ≤ S256x1.size a
  hwx1_7 : ∀ i : grid1.Coords, EltTy.bits .f32 = 32 ∨ (Rect.block (s := S256x1) S256x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x8.size a ≤ S128x8.size a
  hwx1_8 : ∀ i : grid1.Coords, EltTy.bits .f32 = 32 ∨ (Rect.block (s := S128x8) S128x8.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x8.size a ≤ S128x8.size a
  hwx1_9 : ∀ i : grid1.Coords, EltTy.bits .f32 = 32 ∨ (Rect.block (s := S128x8) S128x8.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x8.size a ≤ S1x8.size a
  hwx1_10 : ∀ i : grid1.Coords, EltTy.bits .f32 = 32 ∨ (Rect.block (s := S1x8) S1x8.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x8.size a ≤ S128x8.size a
  hwx1_11 : ∀ i : grid1.Coords, EltTy.bits .f32 = 32 ∨ (Rect.block (s := S128x8) S128x8.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128x8.size a ≤ S128x8.size a
  hwx1_12 : ∀ i : grid1.Coords, EltTy.bits .f32 = 32 ∨ (Rect.block (s := S128x8) S128x8.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x8.size a ≤ S1x8.size a
  hwx1_13 : ∀ i : grid1.Coords, EltTy.bits .f32 = 32 ∨ (Rect.block (s := S1x8) S1x8.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S256x8.size a ≤ S256x8.size a
  hwx1_14 : ∀ i : grid1.Coords, EltTy.bits .f32 = 32 ∨ (Rect.block (s := S256x8) S256x8.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S256x8.size a ≤ S256x8.size a
  hwx1_15 : ∀ i : grid1.Coords, EltTy.bits .f32 = 32 ∨ (Rect.block (s := S256x8) S256x8.size (cc1_transform_15 i) (hinb1_15 i)).WholeWords (EltTy.packing .f32)

variable [Facts₀]

def dot_S256x32_S32x128_S256x128_1_0_0_1_n_n : DotDims S256x32 S32x128 S256x128 where
  lhsContracting := [1]
  rhsContracting := [0]
  lhsNonContracting := [0]
  rhsNonContracting := [1]
  lhsBatch := []
  rhsBatch := []
  wf := dot_S256x32_S32x128_S256x128_1_0_0_1_n_n_wf
def dot_S4000x16_S16x128_S4000x128_1_0_0_1_n_n : DotDims S4000x16 S16x128 S4000x128 where
  lhsContracting := [1]
  rhsContracting := [0]
  lhsNonContracting := [0]
  rhsNonContracting := [1]
  lhsBatch := []
  rhsBatch := []
  wf := dot_S4000x16_S16x128_S4000x128_1_0_0_1_n_n_wf
def dot_S256x4000_S256x128_S4000x128_0_0_1_1_n_n : DotDims S256x4000 S256x128 S4000x128 where
  lhsContracting := [0]
  rhsContracting := [0]
  lhsNonContracting := [1]
  rhsNonContracting := [1]
  lhsBatch := []
  rhsBatch := []
  wf := dot_S256x4000_S256x128_S4000x128_0_0_1_1_n_n_wf
def dot_S256x4000_S4000x128_S256x128_1_0_0_1_n_n : DotDims S256x4000 S4000x128 S256x128 where
  lhsContracting := [1]
  rhsContracting := [0]
  lhsNonContracting := [0]
  rhsNonContracting := [1]
  lhsBatch := []
  rhsBatch := []
  wf := dot_S256x4000_S4000x128_S256x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S256x2000_S256x128_S2000x128_0_0_1_1_n_n : DotDims S256x2000 S256x128 S2000x128 where
  lhsContracting := [0]
  rhsContracting := [0]
  lhsNonContracting := [1]
  rhsNonContracting := [1]
  lhsBatch := []
  rhsBatch := []
  wf := dot_S256x2000_S256x128_S2000x128_0_0_1_1_n_n_wf
def dot_S256x2000_S2000x128_S256x128_1_0_0_1_n_n : DotDims S256x2000 S2000x128 S256x128 where
  lhsContracting := [1]
  rhsContracting := [0]
  lhsNonContracting := [0]
  rhsNonContracting := [1]
  lhsBatch := []
  rhsBatch := []
  wf := dot_S256x2000_S2000x128_S256x128_1_0_0_1_n_n_wf
def dot_S256x128_S128x8_S256x8_1_0_0_1_n_n : DotDims S256x128 S128x8 S256x8 where
  lhsContracting := [1]
  rhsContracting := [0]
  lhsNonContracting := [0]
  rhsNonContracting := [1]
  lhsBatch := []
  rhsBatch := []
  wf := dot_S256x128_S128x8_S256x8_1_0_0_1_n_n_wf

abbrev win0_0 : Pipeline.Window sig grid0 :=
  Pipeline.Window.ofSpec (Memref.whole main_v0) S1x1x4000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S256x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S256x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v1) S1x1x2000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S32x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6_0) S256x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6_1) S256x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S128x8.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg12) S128x8.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v4) S1x8.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg14) S128x8.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg15) S128x8.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v5) S1x8.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v7_0) S256x8.size cc1_transform_14 reads1_14 true true 1 stage1_14 sem1_14
    hrank1 hreads1_14 hinb1_14 nbuf1_14 (Memref.isWhole_whole _) hwx1_14 hstage1_14

abbrev win1_15 : Pipeline.Window sig grid1 :=
  Pipeline.Window.ofSpec (Memref.whole main_v7_1) S256x8.size cc1_transform_15 reads1_15 true true 1 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

abbrev idle1 : Fin 16 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k1_cond2 i == 1#1) | 15 => fun i => !(k1_cond2 i == 1#1) | ⟨_ + 16, h⟩ => absurd h (Nat.not_lt.2 (Nat.le_add_left _ _))

class Facts : Prop extends Facts₀ where

variable [Facts]
-- ==== ReferenceIdeal.lean ====
abbrev S10000x128 : Shape := ⟨2, ![10000, 128]⟩
abbrev S320000x16 : Shape := ⟨2, ![320000, 16]⟩
abbrev S256x32 : Shape := ⟨2, ![256, 32]⟩
abbrev S10000 : Shape := ⟨1, ![10000]⟩
abbrev S320000 : Shape := ⟨1, ![320000]⟩
abbrev S16x128 : Shape := ⟨2, ![16, 128]⟩
abbrev S32x128 : Shape := ⟨2, ![32, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S320000x128 : Shape := ⟨2, ![320000, 128]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x32 : Shape := ⟨2, ![320000, 32]⟩
abbrev S1x128 : Shape := ⟨2, ![1, 128]⟩
abbrev S10000x1 : Shape := ⟨2, ![10000, 1]⟩
abbrev S10000x32 : Shape := ⟨2, ![10000, 32]⟩
abbrev S256 : Shape := ⟨1, ![256]⟩
abbrev S256x128 : Shape := ⟨2, ![256, 128]⟩
abbrev S256x1 : Shape := ⟨2, ![256, 1]⟩
abbrev S256x8 : Shape := ⟨2, ![256, 8]⟩
abbrev S1x8 : Shape := ⟨2, ![1, 8]⟩

abbrev nBuf : Space → Nat
  | .hbm => 133
  | .vmem => 0
  | .smem => 0
  | _ => 0

abbrev hbmTy0_0 (i : Nat) : BufTy := match i % 128 with
  | 0 => ⟨S10000x128, .f32⟩
  | 1 => ⟨S320000x16, .f32⟩
  | 2 => ⟨S256x32, .f32⟩
  | 3 => ⟨S10000, .i32⟩
  | 4 => ⟨S320000, .i32⟩
  | 5 => ⟨S16x128, .f32⟩
  | 6 => ⟨S32x128, .f32⟩
  | 7 => ⟨S128, .f32⟩
  | 8 => ⟨S128x128, .f32⟩
  | 9 => ⟨S32x128, .f32⟩
  | 10 => ⟨S128, .f32⟩
  | 11 => ⟨S128x8, .f32⟩
  | 12 => ⟨S128x8, .f32⟩
  | 13 => ⟨S8, .f32⟩
  | 14 => ⟨S128x8, .f32⟩
  | 15 => ⟨S128x8, .f32⟩
  | 16 => ⟨S8, .f32⟩
  | 17 => ⟨S320000x128, .f32⟩
  | 18 => ⟨S_, .i32⟩
  | 19 => ⟨S320000, .i32⟩
  | 20 => ⟨S320000, .i1⟩
  | 21 => ⟨S_, .i32⟩
  | 22 => ⟨S320000, .i32⟩
  | 23 => ⟨S320000, .i32⟩
  | 24 => ⟨S320000, .i32⟩
  | 25 => ⟨S320000x1, .i32⟩
  | 26 => ⟨S1, .i32⟩
  | 27 => ⟨S_, .i32⟩
  | 28 => ⟨S320000x1, .i32⟩
  | 29 => ⟨S320000x1, .i1⟩
  | 30 => ⟨S1x1, .i32⟩
  | 31 => ⟨S320000x1, .i32⟩
  | 32 => ⟨S320000x1, .i1⟩
  | 33 => ⟨S320000x1, .i1⟩
  | 34 => ⟨S_, .i1⟩
  | 35 => ⟨S320000, .i1⟩
  | 36 => ⟨S320000x32, .f32⟩
  | 37 => ⟨S320000x32, .i1⟩
  | 38 => ⟨S_, .f32⟩
  | 39 => ⟨S320000x32, .f32⟩
  | 40 => ⟨S320000x32, .f32⟩
  | 41 => ⟨S320000x128, .f32⟩
  | 42 => ⟨S320000x128, .f32⟩
  | 43 => ⟨S1x128, .f32⟩
  | 44 => ⟨S320000x128, .f32⟩
  | 45 => ⟨S320000x128, .f32⟩
  | 46 => ⟨S_, .f32⟩
  | 47 => ⟨S320000x128, .f32⟩
  | 48 => ⟨S320000x128, .f32⟩
  | 49 => ⟨S10000x128, .f32⟩
  | 50 => ⟨S_, .i32⟩
  | 51 => ⟨S10000, .i32⟩
  | 52 => ⟨S10000, .i1⟩
  | 53 => ⟨S_, .i32⟩
  | 54 => ⟨S10000, .i32⟩
  | 55 => ⟨S10000, .i32⟩
  | 56 => ⟨S10000, .i32⟩
  | 57 => ⟨S10000x1, .i32⟩
  | 58 => ⟨S1, .i32⟩
  | 59 => ⟨S_, .i32⟩
  | 60 => ⟨S10000x1, .i32⟩
  | 61 => ⟨S10000x1, .i1⟩
  | 62 => ⟨S1x1, .i32⟩
  | 63 => ⟨S10000x1, .i32⟩
  | 64 => ⟨S10000x1, .i1⟩
  | 65 => ⟨S10000x1, .i1⟩
  | 66 => ⟨S_, .i1⟩
  | 67 => ⟨S10000, .i1⟩
  | 68 => ⟨S10000x32, .f32⟩
  | 69 => ⟨S10000x32, .i1⟩
  | 70 => ⟨S_, .f32⟩
  | 71 => ⟨S10000x32, .f32⟩
  | 72 => ⟨S10000x32, .f32⟩
  | 73 => ⟨S10000x128, .f32⟩
  | 74 => ⟨S10000x128, .f32⟩
  | 75 => ⟨S1x128, .f32⟩
  | 76 => ⟨S10000x128, .f32⟩
  | 77 => ⟨S10000x128, .f32⟩
  | 78 => ⟨S_, .f32⟩
  | 79 => ⟨S10000x128, .f32⟩
  | 80 => ⟨S10000x128, .f32⟩
  | 81 => ⟨S_, .f32⟩
  | 82 => ⟨S10000, .f32⟩
  | 83 => ⟨S_, .f32⟩
  | 84 => ⟨S256, .f32⟩
  | 85 => ⟨S10000x1, .i32⟩
  | 86 => ⟨S256, .f32⟩
  | 87 => ⟨S_, .f32⟩
  | 88 => ⟨S256, .f32⟩
  | 89 => ⟨S256, .f32⟩
  | 90 => ⟨S_, .f32⟩
  | 91 => ⟨S320000, .f32⟩
  | 92 => ⟨S_, .f32⟩
  | 93 => ⟨S256, .f32⟩
  | 94 => ⟨S320000x1, .i32⟩
  | 95 => ⟨S256, .f32⟩
  | 96 => ⟨S_, .f32⟩
  | 97 => ⟨S256, .f32⟩
  | 98 => ⟨S256, .f32⟩
  | 99 => ⟨S_, .f32⟩
  | 100 => ⟨S256x128, .f32⟩
  | 101 => ⟨S10000x1, .i32⟩
  | 102 => ⟨S256x128, .f32⟩
  | 103 => ⟨S256x1, .f32⟩
  | 104 => ⟨S256x128, .f32⟩
  | 105 => ⟨S256x128, .f32⟩
  | 106 => ⟨S_, .f32⟩
  | 107 => ⟨S256x128, .f32⟩
  | 108 => ⟨S320000x1, .i32⟩
  | 109 => ⟨S256x128, .f32⟩
  | 110 => ⟨S256x1, .f32⟩
  | 111 => ⟨S256x128, .f32⟩
  | 112 => ⟨S256x128, .f32⟩
  | 113 => ⟨S256x8, .f32⟩
  | 114 => ⟨S256x8, .f32⟩
  | 115 => ⟨S256x8, .f32⟩
  | 116 => ⟨S1x8, .f32⟩
  | 117 => ⟨S256x8, .f32⟩
  | 118 => ⟨S256x8, .f32⟩
  | 119 => ⟨S256x8, .f32⟩
  | 120 => ⟨S256x8, .f32⟩
  | 121 => ⟨S256x8, .f32⟩
  | 122 => ⟨S1x8, .f32⟩
  | 123 => ⟨S256x8, .f32⟩
  | 124 => ⟨S256x8, .f32⟩
  | 125 => ⟨S_, .f32⟩
  | 126 => ⟨S_, .f32⟩
  | 127 => ⟨S_, .f32⟩
  | _ => ⟨S10000x128, .f32⟩

abbrev hbmTy0_1 (i : Nat) : BufTy := match i % 128 with
  | 0 => ⟨S256x8, .f32⟩
  | 1 => ⟨S256x8, .f32⟩
  | 2 => ⟨S_, .f32⟩
  | 3 => ⟨S256x8, .f32⟩
  | 4 => ⟨S256x8, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v1 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_call1_cst : Ref sig .tc := ⟨.hbm, 46, rfl⟩
abbrev main_call1_v0 : Ref sig .tc := ⟨.hbm, 47, rfl⟩
abbrev main_v7 : Ref sig .tc := ⟨.hbm, 48, rfl⟩
abbrev main_v8 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_v14 : Ref sig .tc := ⟨.hbm, 69, rfl⟩
abbrev main_call2_cst : Ref sig .tc := ⟨.hbm, 70, rfl⟩
abbrev main_call2_v15 : Ref sig .tc := ⟨.hbm, 71, rfl⟩
abbrev main_v9 : Ref sig .tc := ⟨.hbm, 72, rfl⟩
abbrev main_v10 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_call3_cst : Ref sig .tc := ⟨.hbm, 78, rfl⟩
abbrev main_call3_v0 : Ref sig .tc := ⟨.hbm, 79, rfl⟩
abbrev main_v15 : Ref sig .tc := ⟨.hbm, 80, rfl⟩
abbrev main_cst : Ref sig .tc := ⟨.hbm, 81, rfl⟩
abbrev main_v16 : Ref sig .tc := ⟨.hbm, 82, rfl⟩
abbrev main_cst_0 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_cst_1 : Ref sig .tc := ⟨.hbm, 87, rfl⟩
abbrev main_v20 : Ref sig .tc := ⟨.hbm, 88, rfl⟩
abbrev main_v21 : Ref sig .tc := ⟨.hbm, 89, rfl⟩
abbrev main_cst_2 : Ref sig .tc := ⟨.hbm, 90, rfl⟩
abbrev main_v22 : Ref sig .tc := ⟨.hbm, 91, rfl⟩
abbrev main_cst_3 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_cst_4 : Ref sig .tc := ⟨.hbm, 96, rfl⟩
abbrev main_v26 : Ref sig .tc := ⟨.hbm, 97, rfl⟩
abbrev main_v27 : Ref sig .tc := ⟨.hbm, 98, rfl⟩
abbrev main_cst_5 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev main_v31 : Ref sig .tc := ⟨.hbm, 103, rfl⟩
abbrev main_v32 : Ref sig .tc := ⟨.hbm, 104, rfl⟩
abbrev main_v33 : Ref sig .tc := ⟨.hbm, 105, rfl⟩
abbrev main_cst_6 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_cst_7 : Ref sig .tc := ⟨.hbm, 125, rfl⟩
abbrev main_cst_8 : Ref sig .tc := ⟨.hbm, 126, rfl⟩
abbrev main_call4_v0 : Ref sig .tc := ⟨.hbm, 127, rfl⟩
abbrev main_call4_v1 : Ref sig .tc := ⟨.hbm, 128, rfl⟩
abbrev main_call4_v2 : Ref sig .tc := ⟨.hbm, 129, rfl⟩
abbrev main_call4_v3 : Ref sig .tc := ⟨.hbm, 130, rfl⟩
abbrev main_call4_v4 : Ref sig .tc := ⟨.hbm, 131, rfl⟩
abbrev main_v52 : Ref sig .tc := ⟨.hbm, 132, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x32_0 : S320000.BroadcastsInDim S320000x32 (![0] : Fin 1 → Fin S320000x32.rank)
  bcast_S_S320000x32 : S_.BroadcastsInDim S320000x32 (![] : Fin 0 → Fin S320000x32.rank)
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S1x1_S10000x1_0_1 : S1x1.BroadcastsInDim S10000x1 (![0, 1] : Fin 2 → Fin S10000x1.rank)
  reducesTo_S10000x1_S10000_d1 : S10000x1.ReducesTo [1] S10000
  bcast_S10000_S10000x32_0 : S10000.BroadcastsInDim S10000x32 (![0] : Fin 1 → Fin S10000x32.rank)
  bcast_S_S10000x32 : S_.BroadcastsInDim S10000x32 (![] : Fin 0 → Fin S10000x32.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S_S256 : S_.BroadcastsInDim S256 (![] : Fin 0 → Fin S256.rank)
  bcast_S_S256x128 : S_.BroadcastsInDim S256x128 (![] : Fin 0 → Fin S256x128.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S8_S1x8_1 : S8.BroadcastsInDim S1x8 (![1] : Fin 1 → Fin S1x8.rank)
  bcast_S1x8_S256x8_0_1 : S1x8.BroadcastsInDim S256x8 (![0, 1] : Fin 2 → Fin S256x8.rank)
  bcast_S_S256x8 : S_.BroadcastsInDim S256x8 (![] : Fin 0 → Fin S256x8.rank)
  dot_S320000x16_S16x128_S320000x128_1_0_0_1_n_n_wf : DotDims.WF S320000x16 S16x128 S320000x128 [1] [0] [0] [1] [] []
  gather_S256x32_S320000x1_S320000x32_1_0_n_n_0_1_132_wf : GatherDims.WF S256x32 S320000x1 S320000x32 [1] [0] [] [0] [] 1 ![1, 32]
  dot_S320000x32_S32x128_S320000x128_1_0_0_1_n_n_wf : DotDims.WF S320000x32 S32x128 S320000x128 [1] [0] [0] [1] [] []
  dot_S10000x128_S128x128_S10000x128_1_0_0_1_n_n_wf : DotDims.WF S10000x128 S128x128 S10000x128 [1] [0] [0] [1] [] []
  gather_S256x32_S10000x1_S10000x32_1_0_n_n_0_1_132_wf : GatherDims.WF S256x32 S10000x1 S10000x32 [1] [0] [] [0] [] 1 ![1, 32]
  dot_S10000x32_S32x128_S10000x128_1_0_0_1_n_n_wf : DotDims.WF S10000x32 S32x128 S10000x128 [1] [0] [0] [1] [] []
  scatter_S256_S10000x1_S10000_n_0_0_1_wf : ScatterDims.WF S256 S10000x1 S10000 [] [0] [0] 1
  scatter_S256_S320000x1_S320000_n_0_0_1_wf : ScatterDims.WF S256 S320000x1 S320000 [] [0] [0] 1
  scatter_S256x128_S10000x1_S10000x128_1_0_0_1_wf : ScatterDims.WF S256x128 S10000x1 S10000x128 [1] [0] [0] 1
  scatter_S256x128_S320000x1_S320000x128_1_0_0_1_wf : ScatterDims.WF S256x128 S320000x1 S320000x128 [1] [0] [0] 1
  dot_S256x128_S128x8_S256x8_1_0_0_1_n_n_wf : DotDims.WF S256x128 S128x8 S256x8 [1] [0] [0] [1] [] []

variable [Facts₀]

def dot_S320000x16_S16x128_S320000x128_1_0_0_1_n_n : DotDims S320000x16 S16x128 S320000x128 where
  lhsContracting := [1]
  rhsContracting := [0]
  lhsNonContracting := [0]
  rhsNonContracting := [1]
  lhsBatch := []
  rhsBatch := []
  wf := dot_S320000x16_S16x128_S320000x128_1_0_0_1_n_n_wf
def gather_S256x32_S320000x1_S320000x32_1_0_n_n_0_1_132 : GatherDims S256x32 S320000x1 S320000x32 where
  offsetDims := [1]
  collapsedSliceDims := [0]
  operandBatchingDims := []
  startIndicesBatchingDims := []
  startIndexMap := [0]
  indexVectorDim := 1
  sliceSizes := ![1, 32]
  wf := gather_S256x32_S320000x1_S320000x32_1_0_n_n_0_1_132_wf
def dot_S320000x32_S32x128_S320000x128_1_0_0_1_n_n : DotDims S320000x32 S32x128 S320000x128 where
  lhsContracting := [1]
  rhsContracting := [0]
  lhsNonContracting := [0]
  rhsNonContracting := [1]
  lhsBatch := []
  rhsBatch := []
  wf := dot_S320000x32_S32x128_S320000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S256x32_S10000x1_S10000x32_1_0_n_n_0_1_132 : GatherDims S256x32 S10000x1 S10000x32 where
  offsetDims := [1]
  collapsedSliceDims := [0]
  operandBatchingDims := []
  startIndicesBatchingDims := []
  startIndexMap := [0]
  indexVectorDim := 1
  sliceSizes := ![1, 32]
  wf := gather_S256x32_S10000x1_S10000x32_1_0_n_n_0_1_132_wf
def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf
def scatter_S256_S10000x1_S10000_n_0_0_1 : ScatterDims S256 S10000x1 S10000 where
  updateWindowDims := []
  insertedWindowDims := [0]
  scatterDimsToOperandDims := [0]
  indexVectorDim := 1
  wf := scatter_S256_S10000x1_S10000_n_0_0_1_wf
def scatter_S256_S320000x1_S320000_n_0_0_1 : ScatterDims S256 S320000x1 S320000 where
  updateWindowDims := []
  insertedWindowDims := [0]
  scatterDimsToOperandDims := [0]
  indexVectorDim := 1
  wf := scatter_S256_S320000x1_S320000_n_0_0_1_wf
def scatter_S256x128_S10000x1_S10000x128_1_0_0_1 : ScatterDims S256x128 S10000x1 S10000x128 where
  updateWindowDims := [1]
  insertedWindowDims := [0]
  scatterDimsToOperandDims := [0]
  indexVectorDim := 1
  wf := scatter_S256x128_S10000x1_S10000x128_1_0_0_1_wf
def scatter_S256x128_S320000x1_S320000x128_1_0_0_1 : ScatterDims S256x128 S320000x1 S320000x128 where
  updateWindowDims := [1]
  insertedWindowDims := [0]
  scatterDimsToOperandDims := [0]
  indexVectorDim := 1
  wf := scatter_S256x128_S320000x1_S320000x128_1_0_0_1_wf
def dot_S256x128_S128x8_S256x8_1_0_0_1_n_n : DotDims S256x128 S128x8 S256x8 where
  lhsContracting := [1]
  rhsContracting := [0]
  lhsNonContracting := [0]
  rhsNonContracting := [1]
  lhsBatch := []
  rhsBatch := []
  wf := dot_S256x128_S128x8_S256x8_1_0_0_1_n_n_wf

class Facts : Prop extends Facts₀ where

variable [Facts]
-- ==== Proof.KReg0Runs.lean ====
import proofs.«163481_g30743375904785_cont_sun_c4_101_2_alg».proof.Proof.Gen.Kernel.Launch
import proofs.«163481_g30743375904785_cont_sun_c4_101_2_alg».proof.Proof.Gen.Kernel.Skeleton
import proofs.«163481_g30743375904785_cont_sun_c4_101_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0 (the edge pass): what its runs share

The first pallas_call walks 80 blocks of 4000 edges. At the first block it projects the global
features once into a scratch buffer (`u · Wue + be`) and zeroes the two accumulators; at every block
it adds the block's contribution to the node sums and to the node counts. Everything here is stated
at a parameter `V`: the contents of the TensorCore's buffers when the region is entered. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: a window not
    fetched at a point has not moved its block index, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: a window not
    fetched at a point has not moved its block index, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: a window not
    fetched at a point has not moved its block index, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: a window not
    fetched at a point has not moved its block index, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: a window not
    fetched at a point has not moved its block index, and the body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: a window not
    fetched at a point has not moved its block index, and the body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The branch on the grid coordinate -/

/-- The body's one conditional: "this is the first block". -/
abbrev cond0_0 (i : grid0.Coords) : Prop := (Scalar.cmpi .ne (Scalar.extui (Scalar.cmpi .eq (BitVec.ofNat 32 (i 0).val) 0#32)) 0#32) = 1#1
/-- It holds at point 0 and nowhere else — decided over the 80 points. -/
theorem hcond0_0 : ∀ t : Fin cfg0.N, cond0_0 (grid0.coords t) ↔ t.val = 0 :=
  (by decide +kernel : ∀ t : Fin grid0.N, cond0_0 (grid0.coords t) ↔ t.val = 0)

/-! ## The scratch buffer and the invariant -/

/-- The scratch operand: a whole scoped buffer of the kernel's own, passed beside the windows. -/
abbrev scM0 : Memref sig .tc .vmem S256x128 .f32 := Memref.whole cc0_scratch0

/-- The zero offsets of a rank-2 and of a rank-3 whole-buffer access. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The scoped buffers the region never touches (the second call's staging and scratch buffers), each whole at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg12_0), ((c : Thread nD τ).loc cc1_stg12_0) ↦{fullShare} f) ∗ (∃ f : Buf (Elt F) ((c : Thread nD τ).loc cc1_stg13_0), ((c : Thread nD τ).loc cc1_stg13_0) ↦{fullShare} f) ∗ (∃ f : Buf (Elt F) ((c : Thread nD τ).loc cc1_stg14_0), ((c : Thread nD τ).loc cc1_stg14_0) ↦{fullShare} f) ∗ (∃ f : Buf (Elt F) ((c : Thread nD τ).loc cc1_stg15_0), ((c : Thread nD τ).loc cc1_stg15_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- What the launch hands the body, with the scratch as a memref owned at some contents and the untouched
    buffers bundled. -/
theorem PhiA0_eq (c : Dev nD) :
    (Pipeline.ΦA spec0 c : sProp 𝕄)
      = iprop(iprop((∃ d, owns (c : Thread nD τ) scM0 fullShare d) ∗ Rest0 (F := F) c) ∗ (∃ r, prngReg c r)) := by
  unfold Pipeline.ΦA Rest0; rw [scopedRest0_eq]; simp only [scM0, owns_whole]; try rfl

end Cert.Kernel.Hand

end
-- ==== Proof.KReg0Data.lean ====
import proofs.«163481_g30743375904785_cont_sun_c4_101_2_alg».proof.Proof.KReg0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0: what the accumulators and the scratch hold point by point, and the proof data

After the body at point `n` the node-sum accumulator (output window 6), the count accumulator (output
window 7) and the scratch hold a triple defined by recursion on `n`: at point 0 the scratch receives the
projection of the globals and each accumulator its first block's contribution added to zero; at a later
point the scratch is kept and each accumulator receives this block's contribution added to what the
point before left. Neither accumulator is written back before the last point, so what the body finds
in its buffer is what the point before left. -/

section Region0
variable (V : (c : Dev nD) → (b : Ref sig .tc) → Buf (Elt F) ((c : Thread nD τ).loc b))

/-- After point `n`: (output window 6's buffer, output window 7's buffer, the scratch). -/
def outsAt0 (c : Dev nD) : (n : ℕ) → n < cfg0.N → Vec F S256x128 .f32 × Vec F S256x1 .f32 × Vec F S256x128 .f32
  | 0, h => (k0_pay5 (iblk0 V c 0 ⟨0, h⟩) (iblk0 V c 1 ⟨0, h⟩) (iblk0 V c 5 ⟨0, h⟩) (k0_pay1 (iblk0 V c 2 ⟨0, h⟩) (iblk0 V c 3 ⟨0, h⟩) (iblk0 V c 4 ⟨0, h⟩)) (k0_pay2 (F := F)), k0_pay6 (iblk0 V c 0 ⟨0, h⟩) (k0_pay3 (F := F)), k0_pay1 (iblk0 V c 2 ⟨0, h⟩) (iblk0 V c 3 ⟨0, h⟩) (iblk0 V c 4 ⟨0, h⟩))
  | n + 1, h => (k0_pay5 (iblk0 V c 0 ⟨n + 1, h⟩) (iblk0 V c 1 ⟨n + 1, h⟩) (iblk0 V c 5 ⟨n + 1, h⟩) (outsAt0 c n (Nat.lt_of_succ_lt h)).2.2 (outsAt0 c n (Nat.lt_of_succ_lt h)).1, k0_pay6 (iblk0 V c 0 ⟨n + 1, h⟩) (outsAt0 c n (Nat.lt_of_succ_lt h)).2.1, (outsAt0 c n (Nat.lt_of_succ_lt h)).2.2)

theorem outsAt0_zero (c : Dev nD) (h : 0 < cfg0.N) :
    outsAt0 V c 0 h = (k0_pay5 (iblk0 V c 0 ⟨0, h⟩) (iblk0 V c 1 ⟨0, h⟩) (iblk0 V c 5 ⟨0, h⟩) (k0_pay1 (iblk0 V c 2 ⟨0, h⟩) (iblk0 V c 3 ⟨0, h⟩) (iblk0 V c 4 ⟨0, h⟩)) (k0_pay2 (F := F)), k0_pay6 (iblk0 V c 0 ⟨0, h⟩) (k0_pay3 (F := F)), k0_pay1 (iblk0 V c 2 ⟨0, h⟩) (iblk0 V c 3 ⟨0, h⟩) (iblk0 V c 4 ⟨0, h⟩)) := rfl

theorem outsAt0_succ (c : Dev nD) (n : ℕ) (h : n + 1 < cfg0.N) :
    outsAt0 V c (n + 1) h = (k0_pay5 (iblk0 V c 0 ⟨n + 1, h⟩) (iblk0 V c 1 ⟨n + 1, h⟩) (iblk0 V c 5 ⟨n + 1, h⟩) (outsAt0 V c n (by omega)).2.2 (outsAt0 V c n (by omega)).1, k0_pay6 (iblk0 V c 0 ⟨n + 1, h⟩) (outsAt0 V c n (by omega)).2.1, (outsAt0 V c n (by omega)).2.2) := rfl

/-- `outsAt0` at the first point. -/
theorem outsAt0_A (c : Dev nD) (t : Fin cfg0.N) (h0 : t.val = 0) :
    outsAt0 V c t.val t.isLt = (k0_pay5 (iblk0 V c 0 t) (iblk0 V c 1 t) (iblk0 V c 5 t) (k0_pay1 (iblk0 V c 2 t) (iblk0 V c 3 t) (iblk0 V c 4 t)) (k0_pay2 (F := F)), k0_pay6 (iblk0 V c 0 t) (k0_pay3 (F := F)), k0_pay1 (iblk0 V c 2 t) (iblk0 V c 3 t) (iblk0 V c 4 t)) := by
  obtain ⟨n, hn⟩ := t
  cases n with
  | zero => rfl
  | succ n => exact absurd h0 (Nat.succ_ne_zero n)

/-- `outsAt0` at a later point, over what the point before left. -/
theorem outsAt0_B (c : Dev nD) (t : Fin cfg0.N) (h0 : ¬t.val = 0) :
    outsAt0 V c t.val t.isLt = (k0_pay5 (iblk0 V c 0 t) (iblk0 V c 1 t) (iblk0 V c 5 t) (outsAt0 V c (t.val - 1) (Nat.lt_of_le_of_lt (Nat.sub_le _ _) t.isLt)).2.2 (outsAt0 V c (t.val - 1) (Nat.lt_of_le_of_lt (Nat.sub_le _ _) t.isLt)).1, k0_pay6 (iblk0 V c 0 t) (outsAt0 V c (t.val - 1) (Nat.lt_of_le_of_lt (Nat.sub_le _ _) t.isLt)).2.1, (outsAt0 V c (t.val - 1) (Nat.lt_of_le_of_lt (Nat.sub_le _ _) t.isLt)).2.2) := by
  obtain ⟨n, hn⟩ := t
  cases n with
  | zero => exact absurd rfl h0
  | succ n => rfl

/-- The invariant before position `n`: before the first point what the launch hands over (the scratch at
    anything); afterwards the scratch at what the point before left, the untouched buffers and the
    generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ Rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2.2) ∗ Rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2.2) ∗ Rest0 (F := F) c) ∗ (∃ r, prngReg c r)) := by
  cases n with
  | zero => exact absurd rfl hz
  | succ n => rfl

/-- The proof data of the region on core `c`: the arrays as the region finds them; after the body at point
    `t` each input's buffer at its block and each accumulator's at `outsAt0`'s component; the invariant
    `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := by
  dsimp only [dat0]

theorem owed_eq0 (c : Dev nD) (t : Fin (cfg0.N + 1)) : (dat0 V c).owed t = 0 := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- At a later point the node-sum accumulator's buffer holds what the point before left: it is not the first
    point, the buffer was not written back in between (only the last point writes back), the window is
    live and uncut. -/
theorem before0_6_B (c : Dev nD) (t : Fin cfg0.N) (h0 : ¬t.val = 0) (d) :
    (dat0 V c).before 6 t d = (outsAt0 V c (t.val - 1) (Nat.lt_of_le_of_lt (Nat.sub_le _ _) t.isLt)).1 := by
  have hN : t.val < 80 := lt_of_lt_of_eq t.isLt (show cfg0.N = 80 from N_0)
  rw [Dat.before_out_kept _ 6 rfl t h0 (Bool.eq_false_iff.mpr fun h => by have := (flush0_6 _).mp h; dsimp only at this; omega)
    (fun _ => rfl) (fun _ _ => rfl)]
  dsimp only [dat0]

/-- The same for the count accumulator. -/
theorem before0_7_B (c : Dev nD) (t : Fin cfg0.N) (h0 : ¬t.val = 0) (d) :
    (dat0 V c).before 7 t d = (outsAt0 V c (t.val - 1) (Nat.lt_of_le_of_lt (Nat.sub_le _ _) t.isLt)).2.1 := by
  have hN : t.val < 80 := lt_of_lt_of_eq t.isLt (show cfg0.N = 80 from N_0)
  rw [Dat.before_out_kept _ 7 rfl t h0 (Bool.eq_false_iff.mpr fun h => by have := (flush0_7 _).mp h; dsimp only at this; omega)
    (fun _ => rfl) (fun _ _ => rfl)]
  dsimp only [dat0]

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]
    · iexists _; iexact HS
    iexact HR
  iexact Hg

theorem hout0 (c : Dev nD) : (dat0 V c).Φ (Fin.last cfg0.N) ⊢ Pipeline.ΦA spec0 c :=
  Phi_out0 V c _ (by rw [Fin.val_last]; have : cfg0.N = 80 := N_0; omega)

end Region0

end Cert.Kernel.Hand

end
-- ==== Proof.KReg0RunA.lean ====
import proofs.«163481_g30743375904785_cont_sun_c4_101_2_alg».proof.Proof.KReg0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0, the first block (the grid coordinate is 0)

The body projects the global features into the scratch buffer, zeroes both accumulators, and then adds
the first block of edges to them: the node sums end at `0 + (this block's scatter)`, the counts at
`0 + (this block's counts)`, the scratch at the projection. -/

set_option maxHeartbeats 4000000 in
/-- The body at a point where the branch is taken, on whole memrefs — the six inputs at read contents,
    the two accumulators and the scratch at anything — runs to the continuation holding the inputs as they
    were, the scratch at the projection of the globals, and each accumulator at its last store's value. -/
theorem kernelRun0_A (c : Dev nD) (E : Set ℕ) (i : grid0.Coords) (arg1 : Memref sig .tc .vmem S1x1x4000 .i32) (harg1 : arg1.IsWhole) (arg2 : Memref sig .tc .vmem S4000x16 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S16x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S256x128 .f32) (harg9 : arg9.IsWhole) (hc0 : cond0_0 i)
    (x0 : Vec F S1x1x4000 .i32) (x1 : Vec F S4000x16 .f32) (x2 : Vec F S256x32 .f32) (x3 : Vec F S32x128 .f32) (x4 : Vec F S1x128 .f32) (x5 : Vec F S16x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k0_pay5 x0 x1 x5 (k0_pay1 x2 x3 x4) (k0_pay2 (F := F)))
            ∗ owns (c : Thread nD τ) arg8 fullShare (k0_pay6 x0 (k0_pay3 (F := F)))
            ∗ owns (c : Thread nD τ) arg9 fullShare (k0_pay1 x2 x3 x4)) -∗ K ⟨⟩))
      ⊢ wp frame (wpE (defs₀ (F := F)) Variants.none c none) E (cc0__edge_body i arg1 harg1 arg2 harg2 arg3 harg3 arg4 harg4 arg5 harg5 arg6 harg6 arg7 harg7 arg8 harg8 arg9 harg9) K := by
  rw [cc0__edge_body_eq_skeleton]; unfold cc0__edge_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0; subst hf1; subst hf2; subst hf3; subst hf4; subst hf5
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (fun y => ⟨_, List.mem_cons.mpr (Or.inl rfl), View.mem_set_unit_zero hz2 Gen.inb_S256x128_S256x128_0_0 y⟩), View.canon_cons_unit_zero hz2]
    simp only [View.readCov_unit_zero (S := S256x128) _ hz2, View.readAt_eq_ld, View.ld_unit_zero (S := S1x1x4000) hz3, View.ld_unit_zero (S := S4000x16) hz2, View.ld_unit_zero (S := S16x128) hz2, View.ld_unit_zero (S := S256x128) hz2, View.ld_unit_zero (S := S256x1) hz2, View.ld_unit_zero (S := S256x32) hz2, View.ld_unit_zero (S := S32x128) hz2, View.ld_unit_zero (S := S1x128) hz2]
  isplitl [H7]
  · iexists _; isplitr
    swap; · iexact H7
    ipureintro
    sl_unfold_words
    rw [View.read_writes_eq_canon _ _ _ (fun y => ⟨_, List.mem_cons.mpr (Or.inl rfl), View.mem_set_unit_zero hz2 Gen.inb_S256x1_S256x1_0_0 y⟩), View.canon_cons_unit_zero hz2]
    simp only [View.readCov_unit_zero (S := S256x1) _ hz2, View.readAt_eq_ld, View.ld_unit_zero (S := S1x1x4000) hz3, View.ld_unit_zero (S := S4000x16) hz2, View.ld_unit_zero (S := S16x128) hz2, View.ld_unit_zero (S := S256x128) hz2, View.ld_unit_zero (S := S256x1) hz2, View.ld_unit_zero (S := S256x32) hz2, View.ld_unit_zero (S := S32x128) hz2, View.ld_unit_zero (S := S1x128) hz2]
  iexists _; isplitr
  swap; · iexact H8
  ipureintro
  sl_unfold_words
  rw [View.read_writes_eq_canon _ _ _ (fun y => ⟨_, List.mem_cons.mpr (Or.inl rfl), View.mem_set_unit_zero hz2 Gen.inb_S256x128_S256x128_0_0 y⟩), View.canon_unit_zero hz2]
  simp only [View.readAt_eq_ld, View.ld_unit_zero (S := S1x1x4000) hz3, View.ld_unit_zero (S := S4000x16) hz2, View.ld_unit_zero (S := S16x128) hz2, View.ld_unit_zero (S := S256x128) hz2, View.ld_unit_zero (S := S256x1) hz2, View.ld_unit_zero (S := S256x32) hz2, View.ld_unit_zero (S := S32x128) hz2, View.ld_unit_zero (S := S1x128) hz2]

end Cert.Kernel.Hand

end
-- ==== Proof.KReg0RunB.lean ====
import proofs.«163481_g30743375904785_cont_sun_c4_101_2_alg».proof.Proof.KReg0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0, a later block (the grid coordinate is not 0)

The body reads the scratch (the projection the first block left) and both accumulators, and adds this
block of edges to them; the scratch is left as it was. -/

set_option maxHeartbeats 4000000 in
/-- The body at a point where the branch is not taken, on whole memrefs — the inputs at read contents, the
    accumulators at what the block before left (`xo6`, `xo7`), the scratch at the projection (`xs`) — runs
    to the continuation holding the inputs and the scratch as they were and each accumulator at its store's value. -/
theorem kernelRun0_B (c : Dev nD) (E : Set ℕ) (i : grid0.Coords) (arg1 : Memref sig .tc .vmem S1x1x4000 .i32) (harg1 : arg1.IsWhole) (arg2 : Memref sig .tc .vmem S4000x16 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S16x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S256x128 .f32) (harg9 : arg9.IsWhole) (hc0 : ¬cond0_0 i)
    (x0 : Vec F S1x1x4000 .i32) (x1 : Vec F S4000x16 .f32) (x2 : Vec F S256x32 .f32) (x3 : Vec F S32x128 .f32) (x4 : Vec F S1x128 .f32) (x5 : Vec F S16x128 .f32) (xo6 : Vec F S256x128 .f32) (xo7 : Vec F S256x1 .f32) (xs : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare xo6 ∗ owns (c : Thread nD τ) arg8 fullShare xo7 ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k0_pay5 x0 x1 x5 xs xo6)
            ∗ owns (c : Thread nD τ) arg8 fullShare (k0_pay6 x0 xo7)
            ∗ owns (c : Thread nD τ) arg9 fullShare xs) -∗ K ⟨⟩))
      ⊢ wp frame (wpE (defs₀ (F := F)) Variants.none c none) E (cc0__edge_body i arg1 harg1 arg2 harg2 arg3 harg3 arg4 harg4 arg5 harg5 arg6 harg6 arg7 harg7 arg8 harg8 arg9 harg9) K := by
  rw [cc0__edge_body_eq_skeleton]; unfold cc0__edge_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0; subst hf1; subst hf2; subst hf3; subst hf4; subst hf5; subst hf6; subst hf7; subst hf8
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (fun y => ⟨_, List.mem_cons.mpr (Or.inl rfl), View.mem_set_unit_zero hz2 Gen.inb_S256x128_S256x128_0_0 y⟩), View.canon_unit_zero hz2]
    simp only [View.readAt_eq_ld, View.ld_unit_zero (S := S1x1x4000) hz3, View.ld_unit_zero (S := S4000x16) hz2, View.ld_unit_zero (S := S16x128) hz2, View.ld_unit_zero (S := S256x128) hz2, View.ld_unit_zero (S := S256x1) hz2, View.ld_unit_zero (S := S256x32) hz2, View.ld_unit_zero (S := S32x128) hz2, View.ld_unit_zero (S := S1x128) hz2]
  isplitl [H7]
  · iexists _; isplitr
    swap; · iexact H7
    ipureintro
    rw [View.read_writes_eq_canon _ _ _ (fun y => ⟨_, List.mem_cons.mpr (Or.inl rfl), View.mem_set_unit_zero hz2 Gen.inb_S256x1_S256x1_0_0 y⟩), View.canon_unit_zero hz2]
    simp only [View.readAt_eq_ld, View.ld_unit_zero (S := S1x1x4000) hz3, View.ld_unit_zero (S := S4000x16) hz2, View.ld_unit_zero (S := S16x128) hz2, View.ld_unit_zero (S := S256x128) hz2, View.ld_unit_zero (S := S256x1) hz2, View.ld_unit_zero (S := S256x32) hz2, View.ld_unit_zero (S := S32x128) hz2, View.ld_unit_zero (S := S1x128) hz2]
  iexists f8; isplitr; · ipureintro; rfl
  iexact H8

end Cert.Kernel.Hand

end
-- ==== Proof.KReg0Frame.lean ====
import proofs.«163481_g30743375904785_cont_sun_c4_101_2_alg».proof.Proof.KReg0Data
import proofs.«163481_g30743375904785_cont_sun_c4_101_2_alg».proof.Proof.KReg0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0: the body obligation

At every point the inputs' buffers hold their blocks; at the first point the accumulators and the
scratch hold anything and the first-block run applies; at a later point they hold what the point before
left and the later-block run applies. The invariant hands the body the scratch and takes it back at
this point's contents. -/

section Region0
variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6, after0_7]
  by_cases h0 : t.val = 0
  · rw [outsAt0_A V c t h0]
    dsimp only
    rw [PhiS0_castSucc V c t, PhiS0_zero V c _ _ h0, PhiA0_eq]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRun0_A c Set.univ (grid0.coords t) _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outsAt0_B V c t h0]
    dsimp only
    simp only [before0_6_B V c t h0, before0_7_B V c t h0]
    rw [PhiS0_castSucc V c t, PhiS0_pos V c _ _ h0]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRun0_B c Set.univ (grid0.coords t) _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KReg1Runs.lean ====
import proofs.«163481_g30743375904785_cont_sun_c4_101_2_alg».proof.Proof.Gen.Kernel.Launch
import proofs.«163481_g30743375904785_cont_sun_c4_101_2_alg».proof.Proof.Gen.Kernel.Skeleton
import proofs.«163481_g30743375904785_cont_sun_c4_101_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second pallas_call (pipeline 1), at the buffer contents `V` its region is entered with

What the three control cases of its body share: the windows' blocks, the branch conditions in closed
form over the five grid points, where the two output windows are idle, and the three scratch buffers
as memrefs. -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input window's current staging buffer holds its block at every point

Fetched at the point or not: an input that is not fetched has not moved its block index, and the body
leaves an input's buffer as it found it. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The two branch conditions of the body -/

/-- The first `scf.if` (inside the first part): the grid coordinate is 0. -/
abbrev cond1_0 (i : grid1.Coords) : Prop := (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val % 5 = 0 :=
  (by decide +kernel : ∀ t : Fin grid1.N, cond1_0 (grid1.coords t) ↔ t.val % 5 = 0)

/-- The second `scf.if`: the grid coordinate is 4. -/
abbrev cond1_1 (i : grid1.Coords) : Prop := k1_cond2 i = 1#1
/-- It holds at point 4 only. -/
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
theorem liveAt1_10 : ∀ t : Fin cfg1.N, cfg1.idle 10 (grid1.coords t) = false := by decide +kernel
theorem liveAt1_11 : ∀ t : Fin cfg1.N, cfg1.idle 11 (grid1.coords t) = false := by decide +kernel
theorem liveAt1_12 : ∀ t : Fin cfg1.N, cfg1.idle 12 (grid1.coords t) = false := by decide +kernel
theorem liveAt1_13 : ∀ t : Fin cfg1.N, cfg1.idle 13 (grid1.coords t) = false := by decide +kernel
/-- Away from the last point the body stores nothing into the two output windows: they are idle there, -/
theorem idleAt1_14 : ∀ t : Fin cfg1.N, ¬cond1_1 (grid1.coords t) → cfg1.idle 14 (grid1.coords t) = true := by decide +kernel
theorem idleAt1_15 : ∀ t : Fin cfg1.N, ¬cond1_1 (grid1.coords t) → cfg1.idle 15 (grid1.coords t) = true := by decide +kernel
/-- and not written back. -/
theorem noFlush1_14 : ∀ t : Fin cfg1.N, ¬cond1_1 (grid1.coords t) → (cfg1.win 14).flush t = false := by decide +kernel
theorem noFlush1_15 : ∀ t : Fin cfg1.N, ¬cond1_1 (grid1.coords t) → (cfg1.win 15).flush t = false := by decide +kernel
/-- At the last point both are live. -/
theorem liveAt1_14 : ∀ t : Fin cfg1.N, cond1_1 (grid1.coords t) → cfg1.idle 14 (grid1.coords t) = false := by decide +kernel
theorem liveAt1_15 : ∀ t : Fin cfg1.N, cond1_1 (grid1.coords t) → cfg1.idle 15 (grid1.coords t) = false := by decide +kernel

/-! ## The scratch buffers and the output staging buffers as memrefs and views -/

/-- The three scratch operands: whole scoped buffers of the kernel's own. -/
abbrev scM1_0 : Memref sig .tc .vmem S256x128 .f32 := Memref.whole cc1_scratch0
abbrev scM1_1 : Memref sig .tc .vmem S256x128 .f32 := Memref.whole cc1_scratch1
abbrev scM1_2 : Memref sig .tc .vmem S256x1 .f32 := Memref.whole cc1_scratch2
/-- Their views: what each holds is stated through them. -/
abbrev VS1_0 : View sig .tc .vmem S256x128 .f32 := scM1_0.view
abbrev VS1_1 : View sig .tc .vmem S256x128 .f32 := scM1_1.view
abbrev VS1_2 : View sig .tc .vmem S256x1 .f32 := scM1_2.view
/-- One staging buffer of each output window, through which its contents are stated (the choice does not matter). -/
abbrev VO1_14 : View sig .tc .vmem S256x8 .f32 := (Memref.whole cc1_stg14_0 : Memref sig .tc .vmem S256x8 .f32).view
abbrev VO1_15 : View sig .tc .vmem S256x8 .f32 := (Memref.whole cc1_stg15_0 : Memref sig .tc .vmem S256x8 .f32).view

/-! ## The region invariant, opened

The core's scoped buffers that are no staging buffer of this pipeline are the other pipeline's staging
buffers and scratch, which this region never touches, and this kernel's three scratch buffers. -/

/-- What the region never touches: the other pipeline's scoped buffers, each at some contents, and the
    generator register at some state. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f) ∗ (∃ r, prngReg c r))

/-- The launch's invariant hands out the three scratch buffers, each at some contents, beside the untouched rest, -/
theorem PhiA1_open (c : Dev nD) :
    (Pipeline.ΦA spec1 c : sProp 𝕄)
      ⊢ iprop(rest1 c ∗ (∃ d, owns (c : Thread nD τ) scM1_0 fullShare d) ∗ (∃ d, owns (c : Thread nD τ) scM1_1 fullShare d) ∗ (∃ d, owns (c : Thread nD τ) scM1_2 fullShare d)) := by
  unfold Pipeline.ΦA rest1; rw [scopedRest1_eq]; simp only [scM1_0, scM1_1, scM1_2, owns_whole]
  iintro ⟨⟨B0, B1, B2, B3, B4, B5, B6, B7, B8, B9, B10, S0, S1, S2⟩, Hg⟩
  isplitl [B0 B1 B2 B3 B4 B5 B6 B7 B8 B9 B10 Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    iexact Hg
  isplitl [S0]; · iexact S0
  isplitl [S1]; · iexact S1
  iexact S2

/-- and takes them back at any contents. -/
theorem PhiA1_close (c : Dev nD) :
    iprop(rest1 c ∗ (∃ d, owns (c : Thread nD τ) scM1_0 fullShare d) ∗ (∃ d, owns (c : Thread nD τ) scM1_1 fullShare d) ∗ (∃ d, owns (c : Thread nD τ) scM1_2 fullShare d))
      ⊢ (Pipeline.ΦA spec1 c : sProp 𝕄) := by
  unfold Pipeline.ΦA rest1; rw [scopedRest1_eq]; simp only [scM1_0, scM1_1, scM1_2, owns_whole]
  iintro ⟨⟨B0, B1, B2, B3, B4, B5, B6, B7, B8, B9, B10, Hg⟩, S0, S1, S2⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [S0]; · iexact S0
    isplitl [S1]; · iexact S1
    iexact S2
  iexact Hg

end Cert.Kernel.Hand

end
-- ==== Proof.KReg1RunA.lean ====
import proofs.«163481_g30743375904785_cont_sun_c4_101_2_alg».proof.Proof.KReg1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at the FIRST grid point (the first conditional taken, the second not). It reads the blocks of
    windows 0–5, finds the three scratch buffers at anything, and leaves each scratch buffer with the
    pieces its stores wrote (last store first); the output windows are not touched. The pieces are the
    witness the symbolic run finds. -/
noncomputable def kernelRun1_A (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : cond1_0 i) (hc1 : ¬cond1_1 i)
    (x0 : Vec F S1x1x2000 .i32) (x1 : Vec F S2000x128 .f32) (x2 : Vec F S256x32 .f32) (x3 : Vec F S32x128 .f32) (x4 : Vec F S1x128 .f32) (x5 : Vec F S128x128 .f32) :
    Σ' (LS0 : List (View.Piece (Elt F) S256x128 .f32)) (LS1 : List (View.Piece (Elt F) S256x128 .f32)), { LS2 : List (View.Piece (Elt F) S256x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1) ∗ (∃ f, arg19.view.loc (c : Thread nD τ) ↦[arg19.view.set]{fullShare} arg19.view.writes (Elt F) f LS2)) -∗ K ⟨⟩))
          ⊢ wp frame (wpE (defs₀ (F := F)) Variants.none c none) E (cc1__node_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun E K => ?run⟩
  case run =>
    simp only [cc1__node_body_eq_skeleton]; unfold cc1__node_body_skel
    simp only [k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d17, %g17, -, G17⟩, ⟨%d18, %g18, -, G18⟩, ⟨%d19, %g19, -, G19⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [G17]; · iexists _; iexact G17
    isplitl [G18]; · iexists _; iexact G18
    iexists _; iexact G19

end Cert.Kernel.Hand

end
-- ==== Proof.KReg1RunB.lean ====
import proofs.«163481_g30743375904785_cont_sun_c4_101_2_alg».proof.Proof.KReg1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a MIDDLE grid point (neither conditional taken). It reads the blocks of windows 0, 1, 5
    and the three scratch buffers at what the point before left; the first scratch buffer is only read,
    the other two end with the pieces their stores wrote; the output windows are not touched. -/
noncomputable def kernelRun1_B (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : ¬cond1_1 i)
    (x0 : Vec F S1x1x2000 .i32) (x1 : Vec F S2000x128 .f32) (x5 : Vec F S128x128 .f32) (xs0 : Vec F S256x128 .f32) (xs1 : Vec F S256x128 .f32) (xs2 : Vec F S256x1 .f32) :
    Σ' (LS1 : List (View.Piece (Elt F) S256x128 .f32)), { LS2 : List (View.Piece (Elt F) S256x1 .f32) //
      ∀ (E : Set ℕ) (K : PUnit → sProp 𝕄),
        iprop(owns (c : Thread nD τ) arg1 fullShare x0 ∗ owns (c : Thread nD τ) arg2 fullShare x1 ∗ owns (c : Thread nD τ) arg6 fullShare x5 ∗ owns (c : Thread nD τ) arg17 fullShare xs0 ∗ owns (c : Thread nD τ) arg18 fullShare xs1 ∗ owns (c : Thread nD τ) arg19 fullShare xs2
            ∗ (iprop(owns (c : Thread nD τ) arg1 fullShare x0 ∗ owns (c : Thread nD τ) arg2 fullShare x1 ∗ owns (c : Thread nD τ) arg6 fullShare x5 ∗ owns (c : Thread nD τ) arg17 fullShare xs0 ∗ (∃ f, arg18.view.loc (c : Thread nD τ) ↦[arg18.view.set]{fullShare} arg18.view.writes (Elt F) f LS1) ∗ (∃ f, arg19.view.loc (c : Thread nD τ) ↦[arg19.view.set]{fullShare} arg19.view.writes (Elt F) f LS2)) -∗ K ⟨⟩))
          ⊢ wp frame (wpE (defs₀ (F := F)) Variants.none c none) E (cc1__node_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun E K => ?run⟩
  case run =>
    simp only [cc1__node_body_eq_skeleton]; unfold cc1__node_body_skel
    simp only [k1_part2_eq_skeleton, k1_part1_eq_skeleton]
    unfold owns
    iintro ⟨⟨%f0, %hf0, H0⟩, ⟨%f1, %hf1, H1⟩, ⟨%f2, %hf2, H2⟩, ⟨%fs17, %hfs17, G17⟩, ⟨%fs18, %hfs18, G18⟩, ⟨%fs19, %hfs19, G19⟩, Hk⟩
    obtain rfl := harg1.eq_unread hf0; obtain rfl := harg2.eq_unread hf1; obtain rfl := harg6.eq_unread hf2; obtain rfl := harg17.eq_unread hfs17; obtain rfl := harg18.eq_unread hfs18; obtain rfl := harg19.eq_unread hfs19
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg6.read_unread _
      iexact H2
    isplitl [G17]
    · iexists _; isplitr; · ipureintro; exact harg17.read_unread _
      iexact G17
    isplitl [G18]; · iexists _; iexact G18
    iexists _; iexact G19

end Cert.Kernel.Hand

end
-- ==== Proof.KReg1RunC.lean ====
import proofs.«163481_g30743375904785_cont_sun_c4_101_2_alg».proof.Proof.KReg1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at the LAST grid point (the first conditional not taken, the second taken). As at a middle
    point, and then the epilogue reads the two accumulators it has just stored, the blocks of windows
    6–13, and stores into the two output windows, found at anything. -/
noncomputable def kernelRun1_C (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : cond1_1 i)
    (x0 : Vec F S1x1x2000 .i32) (x1 : Vec F S2000x128 .f32) (x5 : Vec F S128x128 .f32) (x6 : Vec F S256x128 .f32) (x7 : Vec F S256x1 .f32) (x8 : Vec F S128x8 .f32) (x9 : Vec F S128x8 .f32) (x10 : Vec F S1x8 .f32) (x11 : Vec F S128x8 .f32) (x12 : Vec F S128x8 .f32) (x13 : Vec F S1x8 .f32) (xs0 : Vec F S256x128 .f32) (xs1 : Vec F S256x128 .f32) (xs2 : Vec F S256x1 .f32) :
    Σ' (L14 : List (View.Piece (Elt F) S256x8 .f32)) (L15 : List (View.Piece (Elt F) S256x8 .f32)) (LS1 : List (View.Piece (Elt F) S256x128 .f32)), { LS2 : List (View.Piece (Elt F) S256x1 .f32) //
      ∀ (E : Set ℕ) (K : PUnit → sProp 𝕄),
        iprop(owns (c : Thread nD τ) arg1 fullShare x0 ∗ owns (c : Thread nD τ) arg2 fullShare x1 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ owns (c : Thread nD τ) arg19 fullShare xs2
            ∗ (iprop(owns (c : Thread nD τ) arg1 fullShare x0 ∗ owns (c : Thread nD τ) arg2 fullShare x1 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ owns (c : Thread nD τ) arg17 fullShare xs0 ∗ (∃ f, arg18.view.loc (c : Thread nD τ) ↦[arg18.view.set]{fullShare} arg18.view.writes (Elt F) f LS1) ∗ (∃ f, arg19.view.loc (c : Thread nD τ) ↦[arg19.view.set]{fullShare} arg19.view.writes (Elt F) f LS2)) -∗ K ⟨⟩))
          ⊢ wp frame (wpE (defs₀ (F := F)) Variants.none c none) E (cc1__node_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun E K => ?run⟩
  case run =>
    simp only [cc1__node_body_eq_skeleton]; unfold cc1__node_body_skel
    simp only [k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d15, %g15, -, G15⟩, ⟨%d16, %g16, -, G16⟩, ⟨%fs17, %hfs17, G17⟩, ⟨%fs18, %hfs18, G18⟩, ⟨%fs19, %hfs19, G19⟩, Hk⟩
    obtain rfl := harg1.eq_unread hf0; obtain rfl := harg2.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8; obtain rfl := harg13.eq_unread hf9; obtain rfl := harg14.eq_unread hf10; obtain rfl := harg17.eq_unread hfs17; obtain rfl := harg18.eq_unread hfs18; obtain rfl := harg19.eq_unread hfs19
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]
    · iexists _; isplitr; · ipureintro; exact harg13.read_unread _
      iexact H9
    isplitl [H10]
    · iexists _; isplitr; · ipureintro; exact harg14.read_unread _
      iexact H10
    isplitl [G15]; · iexists _; iexact G15
    isplitl [G16]; · iexists _; iexact G16
    isplitl [G17]
    · iexists _; isplitr; · ipureintro; exact harg17.read_unread _
      iexact G17
    isplitl [G18]; · iexists _; iexact G18
    iexists _; iexact G19

end Cert.Kernel.Hand

end
-- ==== Proof.KReg1Outs.lean ====
import proofs.«163481_g30743375904785_cont_sun_c4_101_2_alg».proof.Proof.KReg1RunA
import proofs.«163481_g30743375904785_cont_sun_c4_101_2_alg».proof.Proof.KReg1RunB
import proofs.«163481_g30743375904785_cont_sun_c4_101_2_alg».proof.Proof.KReg1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second pallas_call's half of the frame, at the buffer contents `V` its region is entered with

The body has three control cases over the five grid points: the first point (which fills the three
scratch buffers), the middle points (which read the first scratch buffer and add into the other two),
and the last point (which, after adding, reads the two accumulators back and stores the two outputs).
The three scratch buffers are carried from point to point; the output windows are idle, and not written
back, before the last point. -/

/-! ## What each case leaves in each buffer it stores into -/

/-- At the first point the stores into the first scratch buffer cover it; what they leave: -/
theorem scover1_A_0 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : cond1_0 i) (hc1 : ¬cond1_1 i)
    (x0 : Vec F S1x1x2000 .i32) (x1 : Vec F S2000x128 .f32) (x2 : Vec F S256x32 .f32) (x3 : Vec F S32x128 .f32) (x4 : Vec F S1x128 .f32) (x5 : Vec F S128x128 .f32) (y : S256x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).1 S256x128.size (by sl_kernel_rfl) y

def sout1_A_0 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : cond1_0 i) (hc1 : ¬cond1_1 i)
    (x0 : Vec F S1x1x2000 .i32) (x1 : Vec F S2000x128 .f32) (x2 : Vec F S256x32 .f32) (x3 : Vec F S32x128 .f32) (x4 : Vec F S1x128 .f32) (x5 : Vec F S128x128 .f32) : Vec F S256x128 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).1)

/-- the same for the second scratch buffer, -/
theorem scover1_A_1 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : cond1_0 i) (hc1 : ¬cond1_1 i)
    (x0 : Vec F S1x1x2000 .i32) (x1 : Vec F S2000x128 .f32) (x2 : Vec F S256x32 .f32) (x3 : Vec F S32x128 .f32) (x4 : Vec F S1x128 .f32) (x5 : Vec F S128x128 .f32) (y : S256x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.1 S256x128.size (by sl_kernel_rfl) y

def sout1_A_1 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : cond1_0 i) (hc1 : ¬cond1_1 i)
    (x0 : Vec F S1x1x2000 .i32) (x1 : Vec F S2000x128 .f32) (x2 : Vec F S256x32 .f32) (x3 : Vec F S32x128 .f32) (x4 : Vec F S1x128 .f32) (x5 : Vec F S128x128 .f32) : Vec F S256x128 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.1)

/-- and the third. -/
theorem scover1_A_2 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : cond1_0 i) (hc1 : ¬cond1_1 i)
    (x0 : Vec F S1x1x2000 .i32) (x1 : Vec F S2000x128 .f32) (x2 : Vec F S256x32 .f32) (x3 : Vec F S32x128 .f32) (x4 : Vec F S1x128 .f32) (x5 : Vec F S128x128 .f32) (y : S256x1.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.1 S256x1.size (by sl_kernel_rfl) y

def sout1_A_2 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : cond1_0 i) (hc1 : ¬cond1_1 i)
    (x0 : Vec F S1x1x2000 .i32) (x1 : Vec F S2000x128 .f32) (x2 : Vec F S256x32 .f32) (x3 : Vec F S32x128 .f32) (x4 : Vec F S1x128 .f32) (x5 : Vec F S128x128 .f32) : Vec F S256x1 .f32 :=
  VS1_2.read (Elt F) (VS1_2.writes (Elt F) VS1_2.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.1)

/-- At a middle point the store into the second scratch buffer covers it; what it leaves: -/
theorem scover1_B_1 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : ¬cond1_1 i)
    (x0 : Vec F S1x1x2000 .i32) (x1 : Vec F S2000x128 .f32) (x5 : Vec F S128x128 .f32) (xs0 : Vec F S256x128 .f32) (xs1 : Vec F S256x128 .f32) (xs2 : Vec F S256x1 .f32) (y : S256x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 xs0 xs1 xs2).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 xs0 xs1 xs2).1 S256x128.size (by sl_kernel_rfl) y

def sout1_B_1 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : ¬cond1_1 i)
    (x0 : Vec F S1x1x2000 .i32) (x1 : Vec F S2000x128 .f32) (x5 : Vec F S128x128 .f32) (xs0 : Vec F S256x128 .f32) (xs1 : Vec F S256x128 .f32) (xs2 : Vec F S256x1 .f32) : Vec F S256x128 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 xs0 xs1 xs2).1)

/-- the same for the third scratch buffer. -/
theorem scover1_B_2 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : ¬cond1_1 i)
    (x0 : Vec F S1x1x2000 .i32) (x1 : Vec F S2000x128 .f32) (x5 : Vec F S128x128 .f32) (xs0 : Vec F S256x128 .f32) (xs1 : Vec F S256x128 .f32) (xs2 : Vec F S256x1 .f32) (y : S256x1.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 xs0 xs1 xs2).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 xs0 xs1 xs2).2.1 S256x1.size (by sl_kernel_rfl) y

def sout1_B_2 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : ¬cond1_1 i)
    (x0 : Vec F S1x1x2000 .i32) (x1 : Vec F S2000x128 .f32) (x5 : Vec F S128x128 .f32) (xs0 : Vec F S256x128 .f32) (xs1 : Vec F S256x128 .f32) (xs2 : Vec F S256x1 .f32) : Vec F S256x1 .f32 :=
  VS1_2.read (Elt F) (VS1_2.writes (Elt F) VS1_2.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 xs0 xs1 xs2).2.1)

/-- At the last point the store into output window 14's buffer covers it; what it leaves: -/
theorem cover1_C_14 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : cond1_1 i)
    (x0 : Vec F S1x1x2000 .i32) (x1 : Vec F S2000x128 .f32) (x5 : Vec F S128x128 .f32) (x6 : Vec F S256x128 .f32) (x7 : Vec F S256x1 .f32) (x8 : Vec F S128x8 .f32) (x9 : Vec F S128x8 .f32) (x10 : Vec F S1x8 .f32) (x11 : Vec F S128x8 .f32) (x12 : Vec F S128x8 .f32) (x13 : Vec F S1x8 .f32) (xs0 : Vec F S256x128 .f32) (xs1 : Vec F S256x128 .f32) (xs2 : Vec F S256x1 .f32) (y : S256x8.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2).1 S256x8.size (by sl_kernel_rfl) y

def out1_C_14 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : cond1_1 i)
    (x0 : Vec F S1x1x2000 .i32) (x1 : Vec F S2000x128 .f32) (x5 : Vec F S128x128 .f32) (x6 : Vec F S256x128 .f32) (x7 : Vec F S256x1 .f32) (x8 : Vec F S128x8 .f32) (x9 : Vec F S128x8 .f32) (x10 : Vec F S1x8 .f32) (x11 : Vec F S128x8 .f32) (x12 : Vec F S128x8 .f32) (x13 : Vec F S1x8 .f32) (xs0 : Vec F S256x128 .f32) (xs1 : Vec F S256x128 .f32) (xs2 : Vec F S256x1 .f32) : Vec F S256x8 .f32 :=
  VO1_14.read (Elt F) (VO1_14.writes (Elt F) VO1_14.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2).1)

/-- the same for output window 15's buffer, -/
theorem cover1_C_15 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : cond1_1 i)
    (x0 : Vec F S1x1x2000 .i32) (x1 : Vec F S2000x128 .f32) (x5 : Vec F S128x128 .f32) (x6 : Vec F S256x128 .f32) (x7 : Vec F S256x1 .f32) (x8 : Vec F S128x8 .f32) (x9 : Vec F S128x8 .f32) (x10 : Vec F S1x8 .f32) (x11 : Vec F S128x8 .f32) (x12 : Vec F S128x8 .f32) (x13 : Vec F S1x8 .f32) (xs0 : Vec F S256x128 .f32) (xs1 : Vec F S256x128 .f32) (xs2 : Vec F S256x1 .f32) (y : S256x8.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2).2.1 S256x8.size (by sl_kernel_rfl) y

def out1_C_15 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : cond1_1 i)
    (x0 : Vec F S1x1x2000 .i32) (x1 : Vec F S2000x128 .f32) (x5 : Vec F S128x128 .f32) (x6 : Vec F S256x128 .f32) (x7 : Vec F S256x1 .f32) (x8 : Vec F S128x8 .f32) (x9 : Vec F S128x8 .f32) (x10 : Vec F S1x8 .f32) (x11 : Vec F S128x8 .f32) (x12 : Vec F S128x8 .f32) (x13 : Vec F S1x8 .f32) (xs0 : Vec F S256x128 .f32) (xs1 : Vec F S256x128 .f32) (xs2 : Vec F S256x1 .f32) : Vec F S256x8 .f32 :=
  VO1_15.read (Elt F) (VO1_15.writes (Elt F) VO1_15.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2).2.1)

/-- the second scratch buffer, -/
theorem scover1_C_1 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : cond1_1 i)
    (x0 : Vec F S1x1x2000 .i32) (x1 : Vec F S2000x128 .f32) (x5 : Vec F S128x128 .f32) (x6 : Vec F S256x128 .f32) (x7 : Vec F S256x1 .f32) (x8 : Vec F S128x8 .f32) (x9 : Vec F S128x8 .f32) (x10 : Vec F S1x8 .f32) (x11 : Vec F S128x8 .f32) (x12 : Vec F S128x8 .f32) (x13 : Vec F S1x8 .f32) (xs0 : Vec F S256x128 .f32) (xs1 : Vec F S256x128 .f32) (xs2 : Vec F S256x1 .f32) (y : S256x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2).2.2.1 S256x128.size (by sl_kernel_rfl) y

def sout1_C_1 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : cond1_1 i)
    (x0 : Vec F S1x1x2000 .i32) (x1 : Vec F S2000x128 .f32) (x5 : Vec F S128x128 .f32) (x6 : Vec F S256x128 .f32) (x7 : Vec F S256x1 .f32) (x8 : Vec F S128x8 .f32) (x9 : Vec F S128x8 .f32) (x10 : Vec F S1x8 .f32) (x11 : Vec F S128x8 .f32) (x12 : Vec F S128x8 .f32) (x13 : Vec F S1x8 .f32) (xs0 : Vec F S256x128 .f32) (xs1 : Vec F S256x128 .f32) (xs2 : Vec F S256x1 .f32) : Vec F S256x128 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2).2.2.1)

/-- and the third. -/
theorem scover1_C_2 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : cond1_1 i)
    (x0 : Vec F S1x1x2000 .i32) (x1 : Vec F S2000x128 .f32) (x5 : Vec F S128x128 .f32) (x6 : Vec F S256x128 .f32) (x7 : Vec F S256x1 .f32) (x8 : Vec F S128x8 .f32) (x9 : Vec F S128x8 .f32) (x10 : Vec F S1x8 .f32) (x11 : Vec F S128x8 .f32) (x12 : Vec F S128x8 .f32) (x13 : Vec F S1x8 .f32) (xs0 : Vec F S256x128 .f32) (xs1 : Vec F S256x128 .f32) (xs2 : Vec F S256x1 .f32) (y : S256x1.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2).2.2.2.1 S256x1.size (by sl_kernel_rfl) y

def sout1_C_2 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : cond1_1 i)
    (x0 : Vec F S1x1x2000 .i32) (x1 : Vec F S2000x128 .f32) (x5 : Vec F S128x128 .f32) (x6 : Vec F S256x128 .f32) (x7 : Vec F S256x1 .f32) (x8 : Vec F S128x8 .f32) (x9 : Vec F S128x8 .f32) (x10 : Vec F S1x8 .f32) (x11 : Vec F S128x8 .f32) (x12 : Vec F S128x8 .f32) (x13 : Vec F S1x8 .f32) (xs0 : Vec F S256x128 .f32) (xs1 : Vec F S256x128 .f32) (xs2 : Vec F S256x1 .f32) : Vec F S256x1 .f32 :=
  VS1_2.read (Elt F) (VS1_2.writes (Elt F) VS1_2.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2).2.2.2.1)

/-- What the output windows' buffers are said to hold at the points that do not store into them: never read. -/
def ph1_14 : Vec F S256x8 .f32 := VO1_14.read (Elt F) VO1_14.junk
def ph1_15 : Vec F S256x8 .f32 := VO1_15.read (Elt F) VO1_15.junk

/-- Each window's current staging memref at point `t`, as the pipeline passes it to the body, and its wholeness. -/
abbrev ms1_0 (t : Fin cfg1.N) : Memref sig .tc .vmem S1x1x2000 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x8 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S128x8 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x8 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S128x8 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S128x8 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x8 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S256x8 .f32 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S256x8 .f32 := win1_15.stage (cfg1.slots t 15)
abbrev hs1_15 (t : Fin cfg1.N) : (ms1_15 t).IsWhole := hstage1_15 ((cfg1.slots t 15).cast nbuf1_15)

section Region1

variable (V : (c : Dev nD) → (b : Ref sig .tc) → Buf (Elt F) ((c : Thread nD τ).loc b))

/-! ## What the buffers hold after each point -/

/-- The first point: the scratch buffers as its stores leave them. -/
def stepA1 (c : Dev nD) (t : Fin cfg1.N) (hc0 : cond1_0 (grid1.coords t)) (hc1 : ¬cond1_1 (grid1.coords t)) : Vec F S256x8 .f32 × Vec F S256x8 .f32 × Vec F S256x128 .f32 × Vec F S256x128 .f32 × Vec F S256x1 .f32 :=
  (ph1_14, ph1_15, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t))

/-- A middle point, over what the point before left (`p`): the first scratch buffer kept, the other two as its stores leave them. -/
def stepB1 (c : Dev nD) (t : Fin cfg1.N) (hc0 : ¬cond1_0 (grid1.coords t)) (hc1 : ¬cond1_1 (grid1.coords t)) (p : Vec F S256x8 .f32 × Vec F S256x8 .f32 × Vec F S256x128 .f32 × Vec F S256x128 .f32 × Vec F S256x1 .f32) : Vec F S256x8 .f32 × Vec F S256x8 .f32 × Vec F S256x128 .f32 × Vec F S256x128 .f32 × Vec F S256x1 .f32 :=
  (ph1_14, ph1_15, p.2.2.1, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 5 t) p.2.2.1 p.2.2.2.1 p.2.2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 5 t) p.2.2.1 p.2.2.2.1 p.2.2.2.2)

/-- The last point, over what the point before left: as a middle point, and the two outputs as its stores leave them. -/
def stepC1 (c : Dev nD) (t : Fin cfg1.N) (hc0 : ¬cond1_0 (grid1.coords t)) (hc1 : cond1_1 (grid1.coords t)) (p : Vec F S256x8 .f32 × Vec F S256x8 .f32 × Vec F S256x128 .f32 × Vec F S256x128 .f32 × Vec F S256x1 .f32) : Vec F S256x8 .f32 × Vec F S256x8 .f32 × Vec F S256x128 .f32 × Vec F S256x128 .f32 × Vec F S256x1 .f32 :=
  (out1_C_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 5 t) (iblk1 V c 6 t) (iblk1 V c 7 t) (iblk1 V c 8 t) (iblk1 V c 9 t) (iblk1 V c 10 t) (iblk1 V c 11 t) (iblk1 V c 12 t) (iblk1 V c 13 t) p.2.2.1 p.2.2.2.1 p.2.2.2.2, out1_C_15 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 5 t) (iblk1 V c 6 t) (iblk1 V c 7 t) (iblk1 V c 8 t) (iblk1 V c 9 t) (iblk1 V c 10 t) (iblk1 V c 11 t) (iblk1 V c 12 t) (iblk1 V c 13 t) p.2.2.1 p.2.2.2.1 p.2.2.2.2, p.2.2.1, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 5 t) (iblk1 V c 6 t) (iblk1 V c 7 t) (iblk1 V c 8 t) (iblk1 V c 9 t) (iblk1 V c 10 t) (iblk1 V c 11 t) (iblk1 V c 12 t) (iblk1 V c 13 t) p.2.2.1 p.2.2.2.1 p.2.2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 5 t) (iblk1 V c 6 t) (iblk1 V c 7 t) (iblk1 V c 8 t) (iblk1 V c 9 t) (iblk1 V c 10 t) (iblk1 V c 11 t) (iblk1 V c 12 t) (iblk1 V c 13 t) p.2.2.1 p.2.2.2.1 p.2.2.2.2)

/-- A point after the first does not meet the first condition. -/
theorem not_cond1_0_succ (n : ℕ) (hn : n + 1 < cfg1.N) : ¬cond1_0 (grid1.coords ⟨n + 1, hn⟩) := fun h => by
  have h' := (hcond1_0 ⟨n + 1, hn⟩).mp h
  have hN : n + 1 < 5 := lt_of_lt_of_eq hn (show cfg1.N = 5 from N_1)
  (try dsimp only at h'); omega

/-- After point `n`: (output window 14's buffer, output window 15's buffer, the three scratch buffers). The
    output components are placeholders before the last point. -/
def outsAt1 (c : Dev nD) : (n : ℕ) → n < cfg1.N → Vec F S256x8 .f32 × Vec F S256x8 .f32 × Vec F S256x128 .f32 × Vec F S256x128 .f32 × Vec F S256x1 .f32
  | 0, hn => stepA1 V c ⟨0, hn⟩ ((hcond1_0 ⟨0, hn⟩).mpr (Nat.zero_mod _)) (fun h => (fun h => by (try dsimp only at h); omega) ((hcond1_1 ⟨0, hn⟩).mp h))
  | n + 1, hn =>
    if h1 : (n + 1) % 5 = 4 then
      stepC1 V c ⟨n + 1, hn⟩ (not_cond1_0_succ n hn) ((hcond1_1 ⟨n + 1, hn⟩).mpr h1) (outsAt1 c n (Nat.lt_of_succ_lt hn))
    else
      stepB1 V c ⟨n + 1, hn⟩ (not_cond1_0_succ n hn) (fun h => h1 ((hcond1_1 ⟨n + 1, hn⟩).mp h)) (outsAt1 c n (Nat.lt_of_succ_lt hn))

theorem outsAt1_A (c : Dev nD) (t : Fin cfg1.N) (h0 : t.val % 5 = 0) (hc0 : cond1_0 (grid1.coords t)) (hc1 : ¬cond1_1 (grid1.coords t)) :
    outsAt1 V c t.val t.isLt = stepA1 V c t hc0 hc1 := by
  obtain ⟨n, hn⟩ := t
  have hN : n < 5 := lt_of_lt_of_eq hn (show cfg1.N = 5 from N_1)
  cases n with
  | zero => rfl
  | succ n => exfalso; (try dsimp only at h0); omega

theorem outsAt1_B (c : Dev nD) (t : Fin cfg1.N) (h0 : ¬t.val % 5 = 0) (h1 : ¬t.val % 5 = 4) (hc0 : ¬cond1_0 (grid1.coords t)) (hc1 : ¬cond1_1 (grid1.coords t)) :
    outsAt1 V c t.val t.isLt = stepB1 V c t hc0 hc1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

theorem outsAt1_C (c : Dev nD) (t : Fin cfg1.N) (h0 : ¬t.val % 5 = 0) (h1 : t.val % 5 = 4) (hc0 : ¬cond1_0 (grid1.coords t)) (hc1 : cond1_1 (grid1.coords t)) :
    outsAt1 V c t.val t.isLt = stepC1 V c t hc0 hc1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-! ## The region invariant -/

/-- Before the first point the launch's invariant; before a later point the untouched rest and the three
    scratch buffers at what the point before left in them. -/
def PhiS1 (c : Dev nD) : (n : ℕ) → n ≤ cfg1.N → sProp 𝕄
  | 0, _ => Pipeline.ΦA spec1 c
  | n + 1, hn => iprop(rest1 c ∗ owns (c : Thread nD τ) scM1_0 fullShare ((outsAt1 V c n hn).2.2.1) ∗ owns (c : Thread nD τ) scM1_1 fullShare ((outsAt1 V c n hn).2.2.2.1) ∗ owns (c : Thread nD τ) scM1_2 fullShare ((outsAt1 V c n hn).2.2.2.2))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1 c ∗ owns (c : Thread nD τ) scM1_0 fullShare ((outsAt1 V c n hn).2.2.1) ∗ owns (c : Thread nD τ) scM1_1 fullShare ((outsAt1 V c n hn).2.2.2.1) ∗ owns (c : Thread nD τ) scM1_2 fullShare ((outsAt1 V c n hn).2.2.2.2)) := rfl

theorem PhiS1_pos (c : Dev nD) (n : ℕ) (h : n ≤ cfg1.N) (hz : n ≠ 0) :
    PhiS1 V c n h = iprop(rest1 c ∗ owns (c : Thread nD τ) scM1_0 fullShare ((outsAt1 V c (n - 1) (by omega)).2.2.1) ∗ owns (c : Thread nD τ) scM1_1 fullShare ((outsAt1 V c (n - 1) (by omega)).2.2.2.1) ∗ owns (c : Thread nD τ) scM1_2 fullShare ((outsAt1 V c (n - 1) (by omega)).2.2.2.2)) := by
  cases n with
  | zero => exact absurd rfl hz
  | succ n => rfl

/-! ## The pipeline's proof data -/

/-- The proof data of pipeline 1 on core `c`: the arrays as the region finds them; after the body at point `t`
    each input's buffer at its block and the outputs' at `outsAt1`'s components; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => (outsAt1 V c t.val t.isLt).1
    | ⟨15, _⟩ => (outsAt1 V c t.val t.isLt).2.1
    | ⟨_ + 16, h⟩ => absurd h (Nat.not_lt.2 (Nat.le_add_left _ _))
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := by
  dsimp only [dat1]

theorem owed_eq1 (c : Dev nD) (t : Fin (cfg1.N + 1)) : (dat1 V c).owed t = 0 := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = (outsAt1 V c t.val t.isLt).1 := by dsimp only [dat1]
theorem after1_15 (c : Dev nD) (t : Fin cfg1.N) : (dat1 V c).after 15 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d

/-! ## The statements the assembly cites (proofs below) -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t
    ∗ (dat1 V c).leavesExact 15 t)

end Region1

end Cert.Kernel.Hand

end
-- ==== Proof.KReg1Frame.lean ====
import proofs.«163481_g30743375904785_cont_sun_c4_101_2_alg».proof.Proof.KReg1Outs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second pallas_call's body obligation and the invariant's two ends -/

section Region1b

variable (V : (c : Dev nD) → (b : Ref sig .tc) → Buf (Elt F) ((c : Thread nD τ).loc b))

set_option maxHeartbeats 8000000 in
/-- The body at any point. The inputs' buffers hold their blocks; the closed forms of the two conditions say
    which case the point is in; that case's run applies. At the first point the invariant hands the three
    scratch buffers over at anything, at a later point at what the point before left; it takes them back at
    this point's contents (the stores cover them). Away from the last point the output windows' buffers pass
    through untouched; at the last point they are taken at anything and handed back covered. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13]
  rw [show (dat1 V c).owesAt () t.succ = (dat1 V c).owesAt () t.castSucc from rfl]
  rw [show (dat1 V c).Φ t.succ = PhiS1 V c (t.val + 1) t.isLt from rfl, PhiS1_succ]
  have hN : t.val < 5 := lt_of_lt_of_eq t.isLt (show cfg1.N = 5 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  rw [show (dat1 V c).leavesExact 9 t = owns (c : Thread nD τ) (ms1_9 t) fullShare ((dat1 V c).after 9 t) from by
    unfold Dat.leavesExact; rw [liveAt1_9 t], after1_9]
  rw [show (dat1 V c).leavesExact 10 t = owns (c : Thread nD τ) (ms1_10 t) fullShare ((dat1 V c).after 10 t) from by
    unfold Dat.leavesExact; rw [liveAt1_10 t], after1_10]
  rw [show (dat1 V c).leavesExact 11 t = owns (c : Thread nD τ) (ms1_11 t) fullShare ((dat1 V c).after 11 t) from by
    unfold Dat.leavesExact; rw [liveAt1_11 t], after1_11]
  rw [show (dat1 V c).leavesExact 12 t = owns (c : Thread nD τ) (ms1_12 t) fullShare ((dat1 V c).after 12 t) from by
    unfold Dat.leavesExact; rw [liveAt1_12 t], after1_12]
  rw [show (dat1 V c).leavesExact 13 t = owns (c : Thread nD τ) (ms1_13 t) fullShare ((dat1 V c).after 13 t) from by
    unfold Dat.leavesExact; rw [liveAt1_13 t], after1_13]
  by_cases h0 : t.val % 5 = 0
  · have h1 : ¬t.val % 5 = 4 := by omega
    have hz : t.val = 0 := by omega
    have hc0 : cond1_0 (grid1.coords t) := (hcond1_0 t).mpr h0
    have hc1 : ¬cond1_1 (grid1.coords t) := fun h => h1 ((hcond1_1 t).mp h)
    rw [Dat.leavesExact_idle (dat1 V c) 14 t (idleAt1_14 t hc1) (noFlush1_14 t hc1),
      Dat.leavesExact_idle (dat1 V c) 15 t (idleAt1_15 t hc1) (noFlush1_15 t hc1)]
    rw [outsAt1_A V c t h0 hc0 hc1]
    unfold stepA1 sout1_A_0 sout1_A_1 sout1_A_2; (try dsimp only)
    rw [PhiS1_castSucc V c t, PhiS1_zero V c _ _ hz]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14, H15⟩
    ihave HΦ' := (PhiA1_open c) $$ HΦ
    icases HΦ' with ⟨HR, HS0, HS1, HS2⟩
    iapply ((kernelRun1_A c (grid1.coords t) _ _ _ _ _ _ _ _ _ _ _ _ _ _ _ _ _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, ⟨%es0, HS0⟩, ⟨%es1, HS1⟩, ⟨%es2, HS2⟩⟩
    isplitl [HR HS0 HS1 HS2]
    · isplitl [HR]; · iexact HR
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _ _ _ _ _ _ _ _ _ _ _ _ _ _ _ _ _ _ _ _ _ _ _ _ _ _)
      unfold owns; iexists _; isplitr
      swap; · iexact HS2
      ipureintro; exact View.read_writes_of_cover _ _ _ _ _ (scover1_A_2 c _ _ _ _ _ _ _ _ _ _ _ _ _ _ _ _ _ _ _ _ _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · have hz : t.val ≠ 0 := fun e => h0 (by rw [e])
    have hc0 : ¬cond1_0 (grid1.coords t) := fun h => h0 ((hcond1_0 t).mp h)
    by_cases h1 : t.val % 5 = 4
    · have hc1 : cond1_1 (grid1.coords t) := (hcond1_1 t).mpr h1
      rw [show (dat1 V c).leavesExact 14 t = owns (c : Thread nD τ) (ms1_14 t) fullShare ((dat1 V c).after 14 t) from by
        unfold Dat.leavesExact; rw [liveAt1_14 t hc1], after1_14]
      rw [show (dat1 V c).leavesExact 15 t = owns (c : Thread nD τ) (ms1_15 t) fullShare ((dat1 V c).after 15 t) from by
        unfold Dat.leavesExact; rw [liveAt1_15 t hc1], after1_15]
      rw [outsAt1_C V c t h0 h1 hc0 hc1]
      unfold stepC1 out1_C_14 out1_C_15 sout1_C_1 sout1_C_2; (try dsimp only)
      rw [PhiS1_castSucc V c t, PhiS1_pos V c _ _ hz]
      iintro ⟨⟨HR, HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((kernelRun1_C c (grid1.coords t) _ _ _ _ _ _ _ _ _ _ _ _ _ _ _ _ _ _ _ _ _ _ _ _ _ _ _ _ _ _ _ _ _ _ _ _ _ _ hc0 hc1 (iblk1 V c 0 t) (iblk1 V c 1 t) (iblk1 V c 5 t) (iblk1 V c 6 t) (iblk1 V c 7 t) (iblk1 V c 8 t) (iblk1 V c 9 t) (iblk1 V c 10 t) (iblk1 V c 11 t) (iblk1 V c 12 t) (iblk1 V c 13 t) _ _ _).2.2.2.2 Set.univ _)
      isplitl [H0]; · iexact H0
      isplitl [H1]; · iexact H1
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [HS0]; · iexact HS0
      isplitl [HS1]; · iexact HS1
      isplitl [HS2]; · iexact HS2
      iintro ⟨H0, H1, H5, H6, H7, H8, H9, H10, H11, H12, H13, ⟨%e14, H14⟩, ⟨%e15, H15⟩, HS0, ⟨%es1, HS1⟩, ⟨%es2, HS2⟩⟩
      isplitl [HR HS0 HS1 HS2]
      · isplitl [HR]; · iexact HR
        isplitl [HS0]; · iexact HS0
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact HS2
        ipureintro; exact View.read_writes_of_cover _ _ _ _ _ (scover1_C_2 c _ _ _ _ _ _ _ _ _ _ _ _ _ _ _ _ _ _ _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (cover1_C_14 c _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H15
      ipureintro; exact View.read_writes_of_cover _ _ _ _ _ (cover1_C_15 c _ _ _ _ _ _ _ _ _ _ _ _ _ _ _ _ _ _ _ _ _ _ _ _ _ _ _ _ _ _ _ _ _ _ _ _ _ _ _ _ _ _ _ _ _ _ _ _ _ _ _ _ _ _ _)
    · have hc1 : ¬cond1_1 (grid1.coords t) := fun h => h1 ((hcond1_1 t).mp h)
      rw [Dat.leavesExact_idle (dat1 V c) 14 t (idleAt1_14 t hc1) (noFlush1_14 t hc1),
        Dat.leavesExact_idle (dat1 V c) 15 t (idleAt1_15 t hc1) (noFlush1_15 t hc1)]
      rw [outsAt1_B V c t h0 h1 hc0 hc1]
      unfold stepB1 sout1_B_1 sout1_B_2; (try dsimp only)
      rw [PhiS1_castSucc V c t, PhiS1_pos V c _ _ hz]
      iintro ⟨⟨HR, HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14, H15⟩
      iapply ((kernelRun1_B c (grid1.coords t) _ _ _ _ _ _ _ _ _ _ _ _ _ _ _ _ _ _ _ _ _ _ _ _ _ _ _ _ _ _ _ _ _ _ _ _ _ _ hc0 hc1 (iblk1 V c 0 t) (iblk1 V c 1 t) (iblk1 V c 5 t) _ _ _).2.2 Set.univ _)
      isplitl [H0]; · iexact H0
      isplitl [H1]; · iexact H1
      isplitl [H5]; · iexact H5
      isplitl [HS0]; · iexact HS0
      isplitl [HS1]; · iexact HS1
      isplitl [HS2]; · iexact HS2
      iintro ⟨H0, H1, H5, HS0, ⟨%es1, HS1⟩, ⟨%es2, HS2⟩⟩
      isplitl [HR HS0 HS1 HS2]
      · isplitl [HR]; · iexact HR
        isplitl [HS0]; · iexact HS0
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _ _ _ _ _ _ _ _ _ _ _ _ _ _ _ _ _ _ _)
        unfold owns; iexists _; isplitr
        swap; · iexact HS2
        ipureintro; exact View.read_writes_of_cover _ _ _ _ _ (scover1_B_2 c _ _ _ _ _ _ _ _ _ _ _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch buffers' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HR, HS0, HS1, HS2⟩
  iapply (PhiA1_close c)
  isplitl [HR]; · iexact HR
  isplitl [HS0]; · iexists _; iexact HS0
  isplitl [HS1]; · iexists _; iexact HS1
  iexists _; iexact HS2

/-- The same after the last point. -/
theorem hout1 (c : Dev nD) : (dat1 V c).Φ (Fin.last cfg1.N) ⊢ Pipeline.ΦA spec1 c :=
  Phi_out1 V c _ (by rw [Fin.val_last]; have : cfg1.N = 5 := N_1; omega)

end Region1b

end Cert.Kernel.Hand

end
-- ==== Proof.KAssembly.lean ====
import proofs.«163481_g30743375904785_cont_sun_c4_101_2_alg».proof.Proof.Gen.Kernel.Launch
import proofs.«163481_g30743375904785_cont_sun_c4_101_2_alg».proof.Proof.Gen.Kernel.Skeleton
import proofs.«163481_g30743375904785_cont_sun_c4_101_2_alg».proof.Proof.Gen.Kernel.Points
import proofs.«163481_g30743375904785_cont_sun_c4_101_2_alg».proof.Proof.Gen.Kernel.Regions
import proofs.«163481_g30743375904785_cont_sun_c4_101_2_alg».proof.Proof.KReg0Frame
import proofs.«163481_g30743375904785_cont_sun_c4_101_2_alg».proof.Proof.KReg1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  The whole program's run from the two kernel regions' halves. @main is six reshapes, then the two kernel regions, each
  entered once. Between two items every unscoped buffer of the core is held whole at a named valuation: the launch
  contents, then the reshapes' results, then what each region's write-backs leave in its two output arrays. Each region
  is a segment whose entry splits its windows' arrays out of those buffers and whose exit puts them back at the proof
  data's final contents; the carried-scratch invariant of a region starts from, and returns to, the scoped buffers at
  unnamed contents. The launch theorem for a list of segments then gives: every weakly fair execution terminates,
  nothing faults, and each unscoped buffer ends at the last valuation; read at the two results this is the second
  region's output arrays at their end, read at an argument it is the launch contents.
-/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: the six reshapes, then the two regions -/

/-- Core `c`'s buffers when the first region is entered: the launch contents after the six reshapes. -/
abbrev W1 (c : Dev nD) : Valuation τ sig (Elt F) := Gen.V1 m c
/-- The same read at the TensorCore's references. -/
abbrev E0 : (c : Dev nD) → (b : Ref sig .tc) → Buf (Elt F) ((c : Thread nD τ).loc b) := fun c b => W1 m c b
/-- After the first region: its arrays at what its write-backs leave, every other buffer as entered. -/
def W2 (c : Dev nD) : Valuation τ sig (Elt F) :=
  Pipeline.withArrays spec0 c (W1 m c) fun w => (dat0 (E0 m) c).arrAt w cfg0.N
theorem W2_arr (c : Dev nD) (w : Fin cfg0.W) :
    W2 m c (Proc.devRef .tc (Pipeline.arrRef spec0 w)) = (dat0 (E0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The second region's entry contents, at the TensorCore's references. -/
abbrev E1 : (c : Dev nD) → (b : Ref sig .tc) → Buf (Elt F) ((c : Thread nD τ).loc b) := fun c b => W2 m c b
theorem hF0 (c : Dev nD) (w : Fin cfg0.W) : (dat0 (E0 m) c).arrAt w cfg0.N = E1 m c (Pipeline.arrRef spec0 w) :=
  (W2_arr m c w).symm
theorem hrest0 (c : Dev nD) : ∀ b, b ∉ Finset.univ.image (Pipeline.arrRef spec0) → E1 m c b = E0 m c b :=
  fun b hb => W2_of_ne m c b fun w e => hb (Finset.mem_image.mpr ⟨w, Finset.mem_univ _, e⟩)
/-- After the second region. -/
def W3 (c : Dev nD) : Valuation τ sig (Elt F) :=
  Pipeline.withArrays spec1 c (W2 m c) fun w => (dat1 (E1 m) c).arrAt w cfg1.N
theorem W3_arr (c : Dev nD) (w : Fin cfg1.W) :
    W3 m c (Proc.devRef .tc (Pipeline.arrRef spec1 w)) = (dat1 (E1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E2 : (c : Dev nD) → (b : Ref sig .tc) → Buf (Elt F) ((c : Thread nD τ).loc b) := fun c b => W3 m c b
theorem hF1 (c : Dev nD) (w : Fin cfg1.W) : (dat1 (E1 m) c).arrAt w cfg1.N = E2 m c (Pipeline.arrRef spec1 w) :=
  (W3_arr m c w).symm
theorem hrest1 (c : Dev nD) : ∀ b, b ∉ Finset.univ.image (Pipeline.arrRef spec1) → E2 m c b = E1 m c b :=
  fun b hb => W3_of_ne m c b fun w e => hb (Finset.mem_image.mpr ⟨w, Finset.mem_univ _, e⟩)

/-! ## A buffer that is no region's result keeps, through both regions, what it held after the reshapes -/

theorem in0_of_ne : ∀ w : Fin cfg0.W, Pipeline.arrRef spec0 w ≠ main_v6_0 → Pipeline.arrRef spec0 w ≠ main_v6_1 →
    (cfg0.win w).isOut = false := by decide
theorem in1_of_ne : ∀ w : Fin cfg1.W, Pipeline.arrRef spec1 w ≠ main_v7_0 → Pipeline.arrRef spec1 w ≠ main_v7_1 →
    (cfg1.win w).isOut = false := by decide

theorem W2_keep (c : Dev nD) (r : Ref sig .tc) (h0 : r ≠ main_v6_0) (h1 : r ≠ main_v6_1) :
    W2 m c (Proc.devRef .tc r) = W1 m c (Proc.devRef .tc r) := by
  by_cases h : ∃ w, Pipeline.arrRef spec0 w = r
  · obtain ⟨w, rfl⟩ := h
    exact (W2_arr m c w).trans (((dat0 (E0 m) c).arrAt_in w (in0_of_ne w h0 h1) _).trans (A_eq0 (E0 m) c w))
  · exact W2_of_ne m c r fun w e => h ⟨w, e⟩

theorem W3_keep (c : Dev nD) (r : Ref sig .tc) (h0 : r ≠ main_v7_0) (h1 : r ≠ main_v7_1) :
    W3 m c (Proc.devRef .tc r) = W2 m c (Proc.devRef .tc r) := by
  by_cases h : ∃ w, Pipeline.arrRef spec1 w = r
  · obtain ⟨w, rfl⟩ := h
    exact (W3_arr m c w).trans (((dat1 (E1 m) c).arrAt_in w (in1_of_ne w h0 h1) _).trans (A_eq1 (E1 m) c w))
  · exact W3_of_ne m c r fun w e => h ⟨w, e⟩

/-- An argument array ends as launched: no reshape writes it and it is no region's result. -/
theorem W3_arg (c : Dev nD) (r : Ref sig .tc) (hW : r ∉ hostOps0_W) (h0 : r ≠ main_v6_0) (h1 : r ≠ main_v6_1)
    (h2 : r ≠ main_v7_0) (h3 : r ≠ main_v7_1) : W3 m c (Proc.devRef .tc r) = m ((c : Thread nD τ).loc r) :=
  (W3_keep m c r h2 h3).trans ((W2_keep m c r h0 h1).trans (Gen.V1_of m c r hW))

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first region over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun c t => owed_eq0 (E0 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (E0 m) c w) (E0 m c) fun w => (A_eq0 (E0 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show iprop(Pipeline.scopedRest spec0 c ∗ ∃ r, prngReg c r) ⊢ (pdats m 0 c).Φ 0 from hin0 (E0 m) c)
    isplitl [Hr]; · iexact Hr
    iexact Hp
  hout c := by
    rw [Pipeline.ownSems0_none]
    have hΦ : (pdats m 0 c).Φ (Fin.last _) ⊢ (iprop(Pipeline.scopedRest spec0 c ∗ ∃ r, prngReg c r) : sProp 𝕄) := hout0 (E0 m) c
    iintro H
    ihave H2 := hΦ $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (E0 m) c w)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun c t => owed_eq1 (E1 m) c t
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun w => q_eq1 (E1 m) c w) (E1 m c) fun w => (A_eq1 (E1 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show iprop(Pipeline.scopedRest spec1 c ∗ ∃ r, prngReg c r) ⊢ (pdats m 1 c).Φ 0 from hin1 (E1 m) c)
    isplitl [Hr]; · iexact Hr
    iexact Hp
  hout c := by
    rw [Pipeline.ownSems0_none]
    have hΦ : (pdats m 1 c).Φ (Fin.last _) ⊢ (iprop(Pipeline.scopedRest spec1 c ∗ ∃ r, prngReg c r) : sProp 𝕄) := hout1 (E1 m) c
    iintro H
    ihave H2 := hΦ $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (E1 m) c w)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (Gen.V0 m)),
    .region (reg0 m),
    .region (reg1 m) ]
theorem main_run (c : Dev nD) : main (F := F) c = Pipeline.Seg.run (segs m) := (main_chain c).trans (by chain_rfl)

set_option backward.isDefEq.respectTransparency.types false in
/-- THE RUN: every weakly fair execution of @main terminates, nothing faulting, and every final state has each
    unscoped buffer at what the two regions leave (`W3`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The run, read at the results and at the arguments -/

/-- Every weakly fair execution of @main terminates, nothing faulting; the two results end at what the second region's
    write-backs leave in its two output arrays, and every argument array ends as launched. -/
theorem run_main : θ_run defs (onTc (τ := τ) (main (F := F))) ⟨m, fun _ => 0, ρ⟩ (fun r => ∀ c : Dev nD,
      r.2.mem ((c.tc : Thread nD τ).loc main_v7_0) = (dat1 (E1 m) c).arrAt 14 cfg1.N
      ∧ r.2.mem ((c.tc : Thread nD τ).loc main_v7_1) = (dat1 (E1 m) c).arrAt 15 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_v7_0 (by decide))).trans (W3_arr m c 14),
      (h c _ (mem_uc main_v7_1 (by decide))).trans (W3_arr m c 15),
      (h c _ (mem_uc main_arg0 (by decide))).trans (W3_arg m c main_arg0 (by decide) (by decide) (by decide) (by decide) (by decide)),
      (h c _ (mem_uc main_arg1 (by decide))).trans (W3_arg m c main_arg1 (by decide) (by decide) (by decide) (by decide) (by decide)),
      (h c _ (mem_uc main_arg2 (by decide))).trans (W3_arg m c main_arg2 (by decide) (by decide) (by decide) (by decide) (by decide)),
      (h c _ (mem_uc main_arg3 (by decide))).trans (W3_arg m c main_arg3 (by decide) (by decide) (by decide) (by decide) (by decide)),
      (h c _ (mem_uc main_arg4 (by decide))).trans (W3_arg m c main_arg4 (by decide) (by decide) (by decide) (by decide) (by decide)),
      (h c _ (mem_uc main_arg5 (by decide))).trans (W3_arg m c main_arg5 (by decide) (by decide) (by decide) (by decide) (by decide)),
      (h c _ (mem_uc main_arg6 (by decide))).trans (W3_arg m c main_arg6 (by decide) (by decide) (by decide) (by decide) (by decide)),
      (h c _ (mem_uc main_arg7 (by decide))).trans (W3_arg m c main_arg7 (by decide) (by decide) (by decide) (by decide) (by decide)),
      (h c _ (mem_uc main_arg8 (by decide))).trans (W3_arg m c main_arg8 (by decide) (by decide) (by decide) (by decide) (by decide)),
      (h c _ (mem_uc main_arg9 (by decide))).trans (W3_arg m c main_arg9 (by decide) (by decide) (by decide) (by decide) (by decide)),
      (h c _ (mem_uc main_arg10 (by decide))).trans (W3_arg m c main_arg10 (by decide) (by decide) (by decide) (by decide) (by decide)),
      (h c _ (mem_uc main_arg11 (by decide))).trans (W3_arg m c main_arg11 (by decide) (by decide) (by decide) (by decide) (by decide)),
      (h c _ (mem_uc main_arg12 (by decide))).trans (W3_arg m c main_arg12 (by decide) (by decide) (by decide) (by decide) (by decide)),
      (h c _ (mem_uc main_arg13 (by decide))).trans (W3_arg m c main_arg13 (by decide) (by decide) (by decide) (by decide) (by decide)),
      (h c _ (mem_uc main_arg14 (by decide))).trans (W3_arg m c main_arg14 (by decide) (by decide) (by decide) (by decide) (by decide)),
      (h c _ (mem_uc main_arg15 (by decide))).trans (W3_arg m c main_arg15 (by decide) (by decide) (by decide) (by decide) (by decide)),
      (h c _ (mem_uc main_arg16 (by decide))).trans (W3_arg m c main_arg16 (by decide) (by decide) (by decide) (by decide) (by decide))⟩)
    (run_all m ρ)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => (h c).2.2) (run_main m ρ)

/-- What the second region reads of the first region's results: the first region's two output arrays at its end. -/
theorem E1_v6_0 (c : Dev nD) : E1 m c main_v6_0 = (dat0 (E0 m) c).arrAt 6 cfg0.N := W2_arr m c 6
theorem E1_v6_1 (c : Dev nD) : E1 m c main_v6_1 = (dat0 (E0 m) c).arrAt 7 cfg0.N := W2_arr m c 7
/-- Every other buffer the second region reads is as the first region found it. -/
theorem E1_keep (c : Dev nD) (r : Ref sig .tc) (h0 : r ≠ main_v6_0) (h1 : r ≠ main_v6_1) : E1 m c r = E0 m c r :=
  W2_keep m c r h0 h1

end Cert.Kernel.Hand

end
-- ==== Proof.Reg0Runs.lean ====
import proofs.«163481_g30743375904785_cont_sun_c4_101_2_alg».proof.Proof.Gen.KernelIdeal.Launch
import proofs.«163481_g30743375904785_cont_sun_c4_101_2_alg».proof.Proof.Gen.KernelIdeal.Skeleton
import proofs.«163481_g30743375904785_cont_sun_c4_101_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0 (the edge pass): what its runs share

The first pallas_call walks 80 blocks of 4000 edges. At the first block it projects the global
features once into a scratch buffer (`u · Wue + be`) and zeroes the two accumulators; at every block
it adds the block's contribution to the node sums and to the node counts. Everything here is stated
at a parameter `V`: the contents of the TensorCore's buffers when the region is entered. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: a window not
    fetched at a point has not moved its block index, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: a window not
    fetched at a point has not moved its block index, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: a window not
    fetched at a point has not moved its block index, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: a window not
    fetched at a point has not moved its block index, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: a window not
    fetched at a point has not moved its block index, and the body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: a window not
    fetched at a point has not moved its block index, and the body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The branch on the grid coordinate -/

/-- The body's one conditional: "this is the first block". -/
abbrev cond0_0 (i : grid0.Coords) : Prop := (Scalar.cmpi .ne (Scalar.extui (Scalar.cmpi .eq (BitVec.ofNat 32 (i 0).val) 0#32)) 0#32) = 1#1
/-- It holds at point 0 and nowhere else — decided over the 80 points. -/
theorem hcond0_0 : ∀ t : Fin cfg0.N, cond0_0 (grid0.coords t) ↔ t.val = 0 :=
  (by decide +kernel : ∀ t : Fin grid0.N, cond0_0 (grid0.coords t) ↔ t.val = 0)

/-! ## The scratch buffer and the invariant -/

/-- The scratch operand: a whole scoped buffer of the kernel's own, passed beside the windows. -/
abbrev scM0 : Memref sig .tc .vmem S256x128 .f32 := Memref.whole cc0_scratch0

/-- The zero offsets of a rank-2 and of a rank-3 whole-buffer access. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The scoped buffers the region never touches (the second call's staging and scratch buffers), each whole at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg12_0), ((c : Thread nD τ).loc cc1_stg12_0) ↦{fullShare} f) ∗ (∃ f : Buf (Elt F) ((c : Thread nD τ).loc cc1_stg13_0), ((c : Thread nD τ).loc cc1_stg13_0) ↦{fullShare} f) ∗ (∃ f : Buf (Elt F) ((c : Thread nD τ).loc cc1_stg14_0), ((c : Thread nD τ).loc cc1_stg14_0) ↦{fullShare} f) ∗ (∃ f : Buf (Elt F) ((c : Thread nD τ).loc cc1_stg15_0), ((c : Thread nD τ).loc cc1_stg15_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- What the launch hands the body, with the scratch as a memref owned at some contents and the untouched
    buffers bundled. -/
theorem PhiA0_eq (c : Dev nD) :
    (Pipeline.ΦA spec0 c : sProp 𝕄)
      = iprop(iprop((∃ d, owns (c : Thread nD τ) scM0 fullShare d) ∗ Rest0 (F := F) c) ∗ (∃ r, prngReg c r)) := by
  unfold Pipeline.ΦA Rest0; rw [scopedRest0_eq]; simp only [scM0, owns_whole]; try rfl

end Cert.KernelIdeal.Hand

end
-- ==== Proof.Reg0Data.lean ====
import proofs.«163481_g30743375904785_cont_sun_c4_101_2_alg».proof.Proof.Reg0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: what the accumulators and the scratch hold point by point, and the proof data

After the body at point `n` the node-sum accumulator (output window 6), the count accumulator (output
window 7) and the scratch hold a triple defined by recursion on `n`: at point 0 the scratch receives the
projection of the globals and each accumulator its first block's contribution added to zero; at a later
point the scratch is kept and each accumulator receives this block's contribution added to what the
point before left. Neither accumulator is written back before the last point, so what the body finds
in its buffer is what the point before left. -/

section Region0
variable (V : (c : Dev nD) → (b : Ref sig .tc) → Buf (Elt F) ((c : Thread nD τ).loc b))

/-- After point `n`: (output window 6's buffer, output window 7's buffer, the scratch). -/
def outsAt0 (c : Dev nD) : (n : ℕ) → n < cfg0.N → Vec F S256x128 .f32 × Vec F S256x1 .f32 × Vec F S256x128 .f32
  | 0, h => (k0_pay5 (iblk0 V c 0 ⟨0, h⟩) (iblk0 V c 1 ⟨0, h⟩) (iblk0 V c 5 ⟨0, h⟩) (k0_pay1 (iblk0 V c 2 ⟨0, h⟩) (iblk0 V c 3 ⟨0, h⟩) (iblk0 V c 4 ⟨0, h⟩)) (k0_pay2 (F := F)), k0_pay6 (iblk0 V c 0 ⟨0, h⟩) (k0_pay3 (F := F)), k0_pay1 (iblk0 V c 2 ⟨0, h⟩) (iblk0 V c 3 ⟨0, h⟩) (iblk0 V c 4 ⟨0, h⟩))
  | n + 1, h => (k0_pay5 (iblk0 V c 0 ⟨n + 1, h⟩) (iblk0 V c 1 ⟨n + 1, h⟩) (iblk0 V c 5 ⟨n + 1, h⟩) (outsAt0 c n (Nat.lt_of_succ_lt h)).2.2 (outsAt0 c n (Nat.lt_of_succ_lt h)).1, k0_pay6 (iblk0 V c 0 ⟨n + 1, h⟩) (outsAt0 c n (Nat.lt_of_succ_lt h)).2.1, (outsAt0 c n (Nat.lt_of_succ_lt h)).2.2)

theorem outsAt0_zero (c : Dev nD) (h : 0 < cfg0.N) :
    outsAt0 V c 0 h = (k0_pay5 (iblk0 V c 0 ⟨0, h⟩) (iblk0 V c 1 ⟨0, h⟩) (iblk0 V c 5 ⟨0, h⟩) (k0_pay1 (iblk0 V c 2 ⟨0, h⟩) (iblk0 V c 3 ⟨0, h⟩) (iblk0 V c 4 ⟨0, h⟩)) (k0_pay2 (F := F)), k0_pay6 (iblk0 V c 0 ⟨0, h⟩) (k0_pay3 (F := F)), k0_pay1 (iblk0 V c 2 ⟨0, h⟩) (iblk0 V c 3 ⟨0, h⟩) (iblk0 V c 4 ⟨0, h⟩)) := rfl

theorem outsAt0_succ (c : Dev nD) (n : ℕ) (h : n + 1 < cfg0.N) :
    outsAt0 V c (n + 1) h = (k0_pay5 (iblk0 V c 0 ⟨n + 1, h⟩) (iblk0 V c 1 ⟨n + 1, h⟩) (iblk0 V c 5 ⟨n + 1, h⟩) (outsAt0 V c n (by omega)).2.2 (outsAt0 V c n (by omega)).1, k0_pay6 (iblk0 V c 0 ⟨n + 1, h⟩) (outsAt0 V c n (by omega)).2.1, (outsAt0 V c n (by omega)).2.2) := rfl

/-- `outsAt0` at the first point. -/
theorem outsAt0_A (c : Dev nD) (t : Fin cfg0.N) (h0 : t.val = 0) :
    outsAt0 V c t.val t.isLt = (k0_pay5 (iblk0 V c 0 t) (iblk0 V c 1 t) (iblk0 V c 5 t) (k0_pay1 (iblk0 V c 2 t) (iblk0 V c 3 t) (iblk0 V c 4 t)) (k0_pay2 (F := F)), k0_pay6 (iblk0 V c 0 t) (k0_pay3 (F := F)), k0_pay1 (iblk0 V c 2 t) (iblk0 V c 3 t) (iblk0 V c 4 t)) := by
  obtain ⟨n, hn⟩ := t
  cases n with
  | zero => rfl
  | succ n => exact absurd h0 (Nat.succ_ne_zero n)

/-- `outsAt0` at a later point, over what the point before left. -/
theorem outsAt0_B (c : Dev nD) (t : Fin cfg0.N) (h0 : ¬t.val = 0) :
    outsAt0 V c t.val t.isLt = (k0_pay5 (iblk0 V c 0 t) (iblk0 V c 1 t) (iblk0 V c 5 t) (outsAt0 V c (t.val - 1) (Nat.lt_of_le_of_lt (Nat.sub_le _ _) t.isLt)).2.2 (outsAt0 V c (t.val - 1) (Nat.lt_of_le_of_lt (Nat.sub_le _ _) t.isLt)).1, k0_pay6 (iblk0 V c 0 t) (outsAt0 V c (t.val - 1) (Nat.lt_of_le_of_lt (Nat.sub_le _ _) t.isLt)).2.1, (outsAt0 V c (t.val - 1) (Nat.lt_of_le_of_lt (Nat.sub_le _ _) t.isLt)).2.2) := by
  obtain ⟨n, hn⟩ := t
  cases n with
  | zero => exact absurd rfl h0
  | succ n => rfl

/-- The invariant before position `n`: before the first point what the launch hands over (the scratch at
    anything); afterwards the scratch at what the point before left, the untouched buffers and the
    generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ Rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2.2) ∗ Rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2.2) ∗ Rest0 (F := F) c) ∗ (∃ r, prngReg c r)) := by
  cases n with
  | zero => exact absurd rfl hz
  | succ n => rfl

/-- The proof data of the region on core `c`: the arrays as the region finds them; after the body at point
    `t` each input's buffer at its block and each accumulator's at `outsAt0`'s component; the invariant
    `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := by
  dsimp only [dat0]

theorem owed_eq0 (c : Dev nD) (t : Fin (cfg0.N + 1)) : (dat0 V c).owed t = 0 := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- At a later point the node-sum accumulator's buffer holds what the point before left: it is not the first
    point, the buffer was not written back in between (only the last point writes back), the window is
    live and uncut. -/
theorem before0_6_B (c : Dev nD) (t : Fin cfg0.N) (h0 : ¬t.val = 0) (d) :
    (dat0 V c).before 6 t d = (outsAt0 V c (t.val - 1) (Nat.lt_of_le_of_lt (Nat.sub_le _ _) t.isLt)).1 := by
  have hN : t.val < 80 := lt_of_lt_of_eq t.isLt (show cfg0.N = 80 from N_0)
  rw [Dat.before_out_kept _ 6 rfl t h0 (Bool.eq_false_iff.mpr fun h => by have := (flush0_6 _).mp h; dsimp only at this; omega)
    (fun _ => rfl) (fun _ _ => rfl)]
  dsimp only [dat0]

/-- The same for the count accumulator. -/
theorem before0_7_B (c : Dev nD) (t : Fin cfg0.N) (h0 : ¬t.val = 0) (d) :
    (dat0 V c).before 7 t d = (outsAt0 V c (t.val - 1) (Nat.lt_of_le_of_lt (Nat.sub_le _ _) t.isLt)).2.1 := by
  have hN : t.val < 80 := lt_of_lt_of_eq t.isLt (show cfg0.N = 80 from N_0)
  rw [Dat.before_out_kept _ 7 rfl t h0 (Bool.eq_false_iff.mpr fun h => by have := (flush0_7 _).mp h; dsimp only at this; omega)
    (fun _ => rfl) (fun _ _ => rfl)]
  dsimp only [dat0]

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]
    · iexists _; iexact HS
    iexact HR
  iexact Hg

theorem hout0 (c : Dev nD) : (dat0 V c).Φ (Fin.last cfg0.N) ⊢ Pipeline.ΦA spec0 c :=
  Phi_out0 V c _ (by rw [Fin.val_last]; have : cfg0.N = 80 := N_0; omega)

end Region0

end Cert.KernelIdeal.Hand

end
-- ==== Proof.Reg0RunA.lean ====
import proofs.«163481_g30743375904785_cont_sun_c4_101_2_alg».proof.Proof.Reg0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0, the first block (the grid coordinate is 0)

The body projects the global features into the scratch buffer, zeroes both accumulators, and then adds
the first block of edges to them: the node sums end at `0 + (this block's scatter)`, the counts at
`0 + (this block's counts)`, the scratch at the projection. -/

set_option maxHeartbeats 4000000 in
/-- The body at a point where the branch is taken, on whole memrefs — the six inputs at read contents,
    the two accumulators and the scratch at anything — runs to the continuation holding the inputs as they
    were, the scratch at the projection of the globals, and each accumulator at its last store's value. -/
theorem kernelRun0_A (c : Dev nD) (E : Set ℕ) (i : grid0.Coords) (arg1 : Memref sig .tc .vmem S1x1x4000 .i32) (harg1 : arg1.IsWhole) (arg2 : Memref sig .tc .vmem S4000x16 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S16x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S256x128 .f32) (harg9 : arg9.IsWhole) (hc0 : cond0_0 i)
    (x0 : Vec F S1x1x4000 .i32) (x1 : Vec F S4000x16 .f32) (x2 : Vec F S256x32 .f32) (x3 : Vec F S32x128 .f32) (x4 : Vec F S1x128 .f32) (x5 : Vec F S16x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k0_pay5 x0 x1 x5 (k0_pay1 x2 x3 x4) (k0_pay2 (F := F)))
            ∗ owns (c : Thread nD τ) arg8 fullShare (k0_pay6 x0 (k0_pay3 (F := F)))
            ∗ owns (c : Thread nD τ) arg9 fullShare (k0_pay1 x2 x3 x4)) -∗ K ⟨⟩))
      ⊢ wp frame (wpE (defs₀ (F := F)) Variants.none c none) E (cc0__edge_body i arg1 harg1 arg2 harg2 arg3 harg3 arg4 harg4 arg5 harg5 arg6 harg6 arg7 harg7 arg8 harg8 arg9 harg9) K := by
  rw [cc0__edge_body_eq_skeleton]; unfold cc0__edge_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0; subst hf1; subst hf2; subst hf3; subst hf4; subst hf5
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (fun y => ⟨_, List.mem_cons.mpr (Or.inl rfl), View.mem_set_unit_zero hz2 Gen.inb_S256x128_S256x128_0_0 y⟩), View.canon_cons_unit_zero hz2]
    simp only [View.readCov_unit_zero (S := S256x128) _ hz2, View.readAt_eq_ld, View.ld_unit_zero (S := S1x1x4000) hz3, View.ld_unit_zero (S := S4000x16) hz2, View.ld_unit_zero (S := S16x128) hz2, View.ld_unit_zero (S := S256x128) hz2, View.ld_unit_zero (S := S256x1) hz2, View.ld_unit_zero (S := S256x32) hz2, View.ld_unit_zero (S := S32x128) hz2, View.ld_unit_zero (S := S1x128) hz2]
  isplitl [H7]
  · iexists _; isplitr
    swap; · iexact H7
    ipureintro
    sl_unfold_words
    rw [View.read_writes_eq_canon _ _ _ (fun y => ⟨_, List.mem_cons.mpr (Or.inl rfl), View.mem_set_unit_zero hz2 Gen.inb_S256x1_S256x1_0_0 y⟩), View.canon_cons_unit_zero hz2]
    simp only [View.readCov_unit_zero (S := S256x1) _ hz2, View.readAt_eq_ld, View.ld_unit_zero (S := S1x1x4000) hz3, View.ld_unit_zero (S := S4000x16) hz2, View.ld_unit_zero (S := S16x128) hz2, View.ld_unit_zero (S := S256x128) hz2, View.ld_unit_zero (S := S256x1) hz2, View.ld_unit_zero (S := S256x32) hz2, View.ld_unit_zero (S := S32x128) hz2, View.ld_unit_zero (S := S1x128) hz2]
  iexists _; isplitr
  swap; · iexact H8
  ipureintro
  sl_unfold_words
  rw [View.read_writes_eq_canon _ _ _ (fun y => ⟨_, List.mem_cons.mpr (Or.inl rfl), View.mem_set_unit_zero hz2 Gen.inb_S256x128_S256x128_0_0 y⟩), View.canon_unit_zero hz2]
  simp only [View.readAt_eq_ld, View.ld_unit_zero (S := S1x1x4000) hz3, View.ld_unit_zero (S := S4000x16) hz2, View.ld_unit_zero (S := S16x128) hz2, View.ld_unit_zero (S := S256x128) hz2, View.ld_unit_zero (S := S256x1) hz2, View.ld_unit_zero (S := S256x32) hz2, View.ld_unit_zero (S := S32x128) hz2, View.ld_unit_zero (S := S1x128) hz2]

end Cert.KernelIdeal.Hand

end
-- ==== Proof.Reg0RunB.lean ====
import proofs.«163481_g30743375904785_cont_sun_c4_101_2_alg».proof.Proof.Reg0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0, a later block (the grid coordinate is not 0)

The body reads the scratch (the projection the first block left) and both accumulators, and adds this
block of edges to them; the scratch is left as it was. -/

set_option maxHeartbeats 4000000 in
/-- The body at a point where the branch is not taken, on whole memrefs — the inputs at read contents, the
    accumulators at what the block before left (`xo6`, `xo7`), the scratch at the projection (`xs`) — runs
    to the continuation holding the inputs and the scratch as they were and each accumulator at its store's value. -/
theorem kernelRun0_B (c : Dev nD) (E : Set ℕ) (i : grid0.Coords) (arg1 : Memref sig .tc .vmem S1x1x4000 .i32) (harg1 : arg1.IsWhole) (arg2 : Memref sig .tc .vmem S4000x16 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S16x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S256x128 .f32) (harg9 : arg9.IsWhole) (hc0 : ¬cond0_0 i)
    (x0 : Vec F S1x1x4000 .i32) (x1 : Vec F S4000x16 .f32) (x2 : Vec F S256x32 .f32) (x3 : Vec F S32x128 .f32) (x4 : Vec F S1x128 .f32) (x5 : Vec F S16x128 .f32) (xo6 : Vec F S256x128 .f32) (xo7 : Vec F S256x1 .f32) (xs : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare xo6 ∗ owns (c : Thread nD τ) arg8 fullShare xo7 ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k0_pay5 x0 x1 x5 xs xo6)
            ∗ owns (c : Thread nD τ) arg8 fullShare (k0_pay6 x0 xo7)
            ∗ owns (c : Thread nD τ) arg9 fullShare xs) -∗ K ⟨⟩))
      ⊢ wp frame (wpE (defs₀ (F := F)) Variants.none c none) E (cc0__edge_body i arg1 harg1 arg2 harg2 arg3 harg3 arg4 harg4 arg5 harg5 arg6 harg6 arg7 harg7 arg8 harg8 arg9 harg9) K := by
  rw [cc0__edge_body_eq_skeleton]; unfold cc0__edge_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0; subst hf1; subst hf2; subst hf3; subst hf4; subst hf5; subst hf6; subst hf7; subst hf8
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (fun y => ⟨_, List.mem_cons.mpr (Or.inl rfl), View.mem_set_unit_zero hz2 Gen.inb_S256x128_S256x128_0_0 y⟩), View.canon_unit_zero hz2]
    simp only [View.readAt_eq_ld, View.ld_unit_zero (S := S1x1x4000) hz3, View.ld_unit_zero (S := S4000x16) hz2, View.ld_unit_zero (S := S16x128) hz2, View.ld_unit_zero (S := S256x128) hz2, View.ld_unit_zero (S := S256x1) hz2, View.ld_unit_zero (S := S256x32) hz2, View.ld_unit_zero (S := S32x128) hz2, View.ld_unit_zero (S := S1x128) hz2]
  isplitl [H7]
  · iexists _; isplitr
    swap; · iexact H7
    ipureintro
    rw [View.read_writes_eq_canon _ _ _ (fun y => ⟨_, List.mem_cons.mpr (Or.inl rfl), View.mem_set_unit_zero hz2 Gen.inb_S256x1_S256x1_0_0 y⟩), View.canon_unit_zero hz2]
    simp only [View.readAt_eq_ld, View.ld_unit_zero (S := S1x1x4000) hz3, View.ld_unit_zero (S := S4000x16) hz2, View.ld_unit_zero (S := S16x128) hz2, View.ld_unit_zero (S := S256x128) hz2, View.ld_unit_zero (S := S256x1) hz2, View.ld_unit_zero (S := S256x32) hz2, View.ld_unit_zero (S := S32x128) hz2, View.ld_unit_zero (S := S1x128) hz2]
  iexists f8; isplitr; · ipureintro; rfl
  iexact H8

end Cert.KernelIdeal.Hand

end
-- ==== Proof.Reg0Frame.lean ====
import proofs.«163481_g30743375904785_cont_sun_c4_101_2_alg».proof.Proof.Reg0Data
import proofs.«163481_g30743375904785_cont_sun_c4_101_2_alg».proof.Proof.Reg0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: the body obligation

At every point the inputs' buffers hold their blocks; at the first point the accumulators and the
scratch hold anything and the first-block run applies; at a later point they hold what the point before
left and the later-block run applies. The invariant hands the body the scratch and takes it back at
this point's contents. -/

section Region0
variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6, after0_7]
  by_cases h0 : t.val = 0
  · rw [outsAt0_A V c t h0]
    dsimp only
    rw [PhiS0_castSucc V c t, PhiS0_zero V c _ _ h0, PhiA0_eq]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRun0_A c Set.univ (grid0.coords t) _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outsAt0_B V c t h0]
    dsimp only
    simp only [before0_6_B V c t h0, before0_7_B V c t h0]
    rw [PhiS0_castSucc V c t, PhiS0_pos V c _ _ h0]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRun0_B c Set.univ (grid0.coords t) _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.Reg1Runs.lean ====
import proofs.«163481_g30743375904785_cont_sun_c4_101_2_alg».proof.Proof.Gen.KernelIdeal.Launch
import proofs.«163481_g30743375904785_cont_sun_c4_101_2_alg».proof.Proof.Gen.KernelIdeal.Skeleton
import proofs.«163481_g30743375904785_cont_sun_c4_101_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second pallas_call (pipeline 1), at the buffer contents `V` its region is entered with

What the three control cases of its body share: the windows' blocks, the branch conditions in closed
form over the five grid points, where the two output windows are idle, and the three scratch buffers
as memrefs. -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input window's current staging buffer holds its block at every point

Fetched at the point or not: an input that is not fetched has not moved its block index, and the body
leaves an input's buffer as it found it. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The two branch conditions of the body -/

/-- The first `scf.if` (inside the first part): the grid coordinate is 0. -/
abbrev cond1_0 (i : grid1.Coords) : Prop := (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val % 5 = 0 :=
  (by decide +kernel : ∀ t : Fin grid1.N, cond1_0 (grid1.coords t) ↔ t.val % 5 = 0)

/-- The second `scf.if`: the grid coordinate is 4. -/
abbrev cond1_1 (i : grid1.Coords) : Prop := k1_cond2 i = 1#1
/-- It holds at point 4 only. -/
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
theorem liveAt1_10 : ∀ t : Fin cfg1.N, cfg1.idle 10 (grid1.coords t) = false := by decide +kernel
theorem liveAt1_11 : ∀ t : Fin cfg1.N, cfg1.idle 11 (grid1.coords t) = false := by decide +kernel
theorem liveAt1_12 : ∀ t : Fin cfg1.N, cfg1.idle 12 (grid1.coords t) = false := by decide +kernel
theorem liveAt1_13 : ∀ t : Fin cfg1.N, cfg1.idle 13 (grid1.coords t) = false := by decide +kernel
/-- Away from the last point the body stores nothing into the two output windows: they are idle there, -/
theorem idleAt1_14 : ∀ t : Fin cfg1.N, ¬cond1_1 (grid1.coords t) → cfg1.idle 14 (grid1.coords t) = true := by decide +kernel
theorem idleAt1_15 : ∀ t : Fin cfg1.N, ¬cond1_1 (grid1.coords t) → cfg1.idle 15 (grid1.coords t) = true := by decide +kernel
/-- and not written back. -/
theorem noFlush1_14 : ∀ t : Fin cfg1.N, ¬cond1_1 (grid1.coords t) → (cfg1.win 14).flush t = false := by decide +kernel
theorem noFlush1_15 : ∀ t : Fin cfg1.N, ¬cond1_1 (grid1.coords t) → (cfg1.win 15).flush t = false := by decide +kernel
/-- At the last point both are live. -/
theorem liveAt1_14 : ∀ t : Fin cfg1.N, cond1_1 (grid1.coords t) → cfg1.idle 14 (grid1.coords t) = false := by decide +kernel
theorem liveAt1_15 : ∀ t : Fin cfg1.N, cond1_1 (grid1.coords t) → cfg1.idle 15 (grid1.coords t) = false := by decide +kernel

/-! ## The scratch buffers and the output staging buffers as memrefs and views -/

/-- The three scratch operands: whole scoped buffers of the kernel's own. -/
abbrev scM1_0 : Memref sig .tc .vmem S256x128 .f32 := Memref.whole cc1_scratch0
abbrev scM1_1 : Memref sig .tc .vmem S256x128 .f32 := Memref.whole cc1_scratch1
abbrev scM1_2 : Memref sig .tc .vmem S256x1 .f32 := Memref.whole cc1_scratch2
/-- Their views: what each holds is stated through them. -/
abbrev VS1_0 : View sig .tc .vmem S256x128 .f32 := scM1_0.view
abbrev VS1_1 : View sig .tc .vmem S256x128 .f32 := scM1_1.view
abbrev VS1_2 : View sig .tc .vmem S256x1 .f32 := scM1_2.view
/-- One staging buffer of each output window, through which its contents are stated (the choice does not matter). -/
abbrev VO1_14 : View sig .tc .vmem S256x8 .f32 := (Memref.whole cc1_stg14_0 : Memref sig .tc .vmem S256x8 .f32).view
abbrev VO1_15 : View sig .tc .vmem S256x8 .f32 := (Memref.whole cc1_stg15_0 : Memref sig .tc .vmem S256x8 .f32).view

/-! ## The region invariant, opened

The core's scoped buffers that are no staging buffer of this pipeline are the other pipeline's staging
buffers and scratch, which this region never touches, and this kernel's three scratch buffers. -/

/-- What the region never touches: the other pipeline's scoped buffers, each at some contents, and the
    generator register at some state. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f) ∗ (∃ r, prngReg c r))

/-- The launch's invariant hands out the three scratch buffers, each at some contents, beside the untouched rest, -/
theorem PhiA1_open (c : Dev nD) :
    (Pipeline.ΦA spec1 c : sProp 𝕄)
      ⊢ iprop(rest1 c ∗ (∃ d, owns (c : Thread nD τ) scM1_0 fullShare d) ∗ (∃ d, owns (c : Thread nD τ) scM1_1 fullShare d) ∗ (∃ d, owns (c : Thread nD τ) scM1_2 fullShare d)) := by
  unfold Pipeline.ΦA rest1; rw [scopedRest1_eq]; simp only [scM1_0, scM1_1, scM1_2, owns_whole]
  iintro ⟨⟨B0, B1, B2, B3, B4, B5, B6, B7, B8, B9, B10, S0, S1, S2⟩, Hg⟩
  isplitl [B0 B1 B2 B3 B4 B5 B6 B7 B8 B9 B10 Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    iexact Hg
  isplitl [S0]; · iexact S0
  isplitl [S1]; · iexact S1
  iexact S2

/-- and takes them back at any contents. -/
theorem PhiA1_close (c : Dev nD) :
    iprop(rest1 c ∗ (∃ d, owns (c : Thread nD τ) scM1_0 fullShare d) ∗ (∃ d, owns (c : Thread nD τ) scM1_1 fullShare d) ∗ (∃ d, owns (c : Thread nD τ) scM1_2 fullShare d))
      ⊢ (Pipeline.ΦA spec1 c : sProp 𝕄) := by
  unfold Pipeline.ΦA rest1; rw [scopedRest1_eq]; simp only [scM1_0, scM1_1, scM1_2, owns_whole]
  iintro ⟨⟨B0, B1, B2, B3, B4, B5, B6, B7, B8, B9, B10, Hg⟩, S0, S1, S2⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [S0]; · iexact S0
    isplitl [S1]; · iexact S1
    iexact S2
  iexact Hg

end Cert.KernelIdeal.Hand

end
-- ==== Proof.Reg1RunA.lean ====
import proofs.«163481_g30743375904785_cont_sun_c4_101_2_alg».proof.Proof.Reg1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at the FIRST grid point (the first conditional taken, the second not). It reads the blocks of
    windows 0–5, finds the three scratch buffers at anything, and leaves each scratch buffer with the
    pieces its stores wrote (last store first); the output windows are not touched. The pieces are the
    witness the symbolic run finds. -/
noncomputable def kernelRun1_A (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : cond1_0 i) (hc1 : ¬cond1_1 i)
    (x0 : Vec F S1x1x2000 .i32) (x1 : Vec F S2000x128 .f32) (x2 : Vec F S256x32 .f32) (x3 : Vec F S32x128 .f32) (x4 : Vec F S1x128 .f32) (x5 : Vec F S128x128 .f32) :
    Σ' (LS0 : List (View.Piece (Elt F) S256x128 .f32)) (LS1 : List (View.Piece (Elt F) S256x128 .f32)), { LS2 : List (View.Piece (Elt F) S256x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1) ∗ (∃ f, arg19.view.loc (c : Thread nD τ) ↦[arg19.view.set]{fullShare} arg19.view.writes (Elt F) f LS2)) -∗ K ⟨⟩))
          ⊢ wp frame (wpE (defs₀ (F := F)) Variants.none c none) E (cc1__node_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun E K => ?run⟩
  case run =>
    simp only [cc1__node_body_eq_skeleton]; unfold cc1__node_body_skel
    simp only [k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d17, %g17, -, G17⟩, ⟨%d18, %g18, -, G18⟩, ⟨%d19, %g19, -, G19⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [G17]; · iexists _; iexact G17
    isplitl [G18]; · iexists _; iexact G18
    iexists _; iexact G19

end Cert.KernelIdeal.Hand

end
-- ==== Proof.Reg1RunB.lean ====
import proofs.«163481_g30743375904785_cont_sun_c4_101_2_alg».proof.Proof.Reg1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a MIDDLE grid point (neither conditional taken). It reads the blocks of windows 0, 1, 5
    and the three scratch buffers at what the point before left; the first scratch buffer is only read,
    the other two end with the pieces their stores wrote; the output windows are not touched. -/
noncomputable def kernelRun1_B (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : ¬cond1_1 i)
    (x0 : Vec F S1x1x2000 .i32) (x1 : Vec F S2000x128 .f32) (x5 : Vec F S128x128 .f32) (xs0 : Vec F S256x128 .f32) (xs1 : Vec F S256x128 .f32) (xs2 : Vec F S256x1 .f32) :
    Σ' (LS1 : List (View.Piece (Elt F) S256x128 .f32)), { LS2 : List (View.Piece (Elt F) S256x1 .f32) //
      ∀ (E : Set ℕ) (K : PUnit → sProp 𝕄),
        iprop(owns (c : Thread nD τ) arg1 fullShare x0 ∗ owns (c : Thread nD τ) arg2 fullShare x1 ∗ owns (c : Thread nD τ) arg6 fullShare x5 ∗ owns (c : Thread nD τ) arg17 fullShare xs0 ∗ owns (c : Thread nD τ) arg18 fullShare xs1 ∗ owns (c : Thread nD τ) arg19 fullShare xs2
            ∗ (iprop(owns (c : Thread nD τ) arg1 fullShare x0 ∗ owns (c : Thread nD τ) arg2 fullShare x1 ∗ owns (c : Thread nD τ) arg6 fullShare x5 ∗ owns (c : Thread nD τ) arg17 fullShare xs0 ∗ (∃ f, arg18.view.loc (c : Thread nD τ) ↦[arg18.view.set]{fullShare} arg18.view.writes (Elt F) f LS1) ∗ (∃ f, arg19.view.loc (c : Thread nD τ) ↦[arg19.view.set]{fullShare} arg19.view.writes (Elt F) f LS2)) -∗ K ⟨⟩))
          ⊢ wp frame (wpE (defs₀ (F := F)) Variants.none c none) E (cc1__node_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun E K => ?run⟩
  case run =>
    simp only [cc1__node_body_eq_skeleton]; unfold cc1__node_body_skel
    simp only [k1_part2_eq_skeleton, k1_part1_eq_skeleton]
    unfold owns
    iintro ⟨⟨%f0, %hf0, H0⟩, ⟨%f1, %hf1, H1⟩, ⟨%f2, %hf2, H2⟩, ⟨%fs17, %hfs17, G17⟩, ⟨%fs18, %hfs18, G18⟩, ⟨%fs19, %hfs19, G19⟩, Hk⟩
    obtain rfl := harg1.eq_unread hf0; obtain rfl := harg2.eq_unread hf1; obtain rfl := harg6.eq_unread hf2; obtain rfl := harg17.eq_unread hfs17; obtain rfl := harg18.eq_unread hfs18; obtain rfl := harg19.eq_unread hfs19
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg6.read_unread _
      iexact H2
    isplitl [G17]
    · iexists _; isplitr; · ipureintro; exact harg17.read_unread _
      iexact G17
    isplitl [G18]; · iexists _; iexact G18
    iexists _; iexact G19

end Cert.KernelIdeal.Hand

end
-- ==== Proof.Reg1RunC.lean ====
import proofs.«163481_g30743375904785_cont_sun_c4_101_2_alg».proof.Proof.Reg1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at the LAST grid point (the first conditional not taken, the second taken). As at a middle
    point, and then the epilogue reads the two accumulators it has just stored, the blocks of windows
    6–13, and stores into the two output windows, found at anything. -/
noncomputable def kernelRun1_C (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : cond1_1 i)
    (x0 : Vec F S1x1x2000 .i32) (x1 : Vec F S2000x128 .f32) (x5 : Vec F S128x128 .f32) (x6 : Vec F S256x128 .f32) (x7 : Vec F S256x1 .f32) (x8 : Vec F S128x8 .f32) (x9 : Vec F S128x8 .f32) (x10 : Vec F S1x8 .f32) (x11 : Vec F S128x8 .f32) (x12 : Vec F S128x8 .f32) (x13 : Vec F S1x8 .f32) (xs0 : Vec F S256x128 .f32) (xs1 : Vec F S256x128 .f32) (xs2 : Vec F S256x1 .f32) :
    Σ' (L14 : List (View.Piece (Elt F) S256x8 .f32)) (L15 : List (View.Piece (Elt F) S256x8 .f32)) (LS1 : List (View.Piece (Elt F) S256x128 .f32)), { LS2 : List (View.Piece (Elt F) S256x1 .f32) //
      ∀ (E : Set ℕ) (K : PUnit → sProp 𝕄),
        iprop(owns (c : Thread nD τ) arg1 fullShare x0 ∗ owns (c : Thread nD τ) arg2 fullShare x1 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ owns (c : Thread nD τ) arg19 fullShare xs2
            ∗ (iprop(owns (c : Thread nD τ) arg1 fullShare x0 ∗ owns (c : Thread nD τ) arg2 fullShare x1 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ owns (c : Thread nD τ) arg17 fullShare xs0 ∗ (∃ f, arg18.view.loc (c : Thread nD τ) ↦[arg18.view.set]{fullShare} arg18.view.writes (Elt F) f LS1) ∗ (∃ f, arg19.view.loc (c : Thread nD τ) ↦[arg19.view.set]{fullShare} arg19.view.writes (Elt F) f LS2)) -∗ K ⟨⟩))
          ⊢ wp frame (wpE (defs₀ (F := F)) Variants.none c none) E (cc1__node_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun E K => ?run⟩
  case run =>
    simp only [cc1__node_body_eq_skeleton]; unfold cc1__node_body_skel
    simp only [k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d15, %g15, -, G15⟩, ⟨%d16, %g16, -, G16⟩, ⟨%fs17, %hfs17, G17⟩, ⟨%fs18, %hfs18, G18⟩, ⟨%fs19, %hfs19, G19⟩, Hk⟩
    obtain rfl := harg1.eq_unread hf0; obtain rfl := harg2.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8; obtain rfl := harg13.eq_unread hf9; obtain rfl := harg14.eq_unread hf10; obtain rfl := harg17.eq_unread hfs17; obtain rfl := harg18.eq_unread hfs18; obtain rfl := harg19.eq_unread hfs19
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]
    · iexists _; isplitr; · ipureintro; exact harg13.read_unread _
      iexact H9
    isplitl [H10]
    · iexists _; isplitr; · ipureintro; exact harg14.read_unread _
      iexact H10
    isplitl [G15]; · iexists _; iexact G15
    isplitl [G16]; · iexists _; iexact G16
    isplitl [G17]
    · iexists _; isplitr; · ipureintro; exact harg17.read_unread _
      iexact G17
    isplitl [G18]; · iexists _; iexact G18
    iexists _; iexact G19

end Cert.KernelIdeal.Hand

end
-- ==== Proof.Reg1Outs.lean ====
import proofs.«163481_g30743375904785_cont_sun_c4_101_2_alg».proof.Proof.Reg1RunA
import proofs.«163481_g30743375904785_cont_sun_c4_101_2_alg».proof.Proof.Reg1RunB
import proofs.«163481_g30743375904785_cont_sun_c4_101_2_alg».proof.Proof.Reg1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second pallas_call's half of the frame, at the buffer contents `V` its region is entered with

The body has three control cases over the five grid points: the first point (which fills the three
scratch buffers), the middle points (which read the first scratch buffer and add into the other two),
and the last point (which, after adding, reads the two accumulators back and stores the two outputs).
The three scratch buffers are carried from point to point; the output windows are idle, and not written
back, before the last point. -/

/-! ## What each case leaves in each buffer it stores into -/

/-- At the first point the stores into the first scratch buffer cover it; what they leave: -/
theorem scover1_A_0 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : cond1_0 i) (hc1 : ¬cond1_1 i)
    (x0 : Vec F S1x1x2000 .i32) (x1 : Vec F S2000x128 .f32) (x2 : Vec F S256x32 .f32) (x3 : Vec F S32x128 .f32) (x4 : Vec F S1x128 .f32) (x5 : Vec F S128x128 .f32) (y : S256x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).1 S256x128.size (by sl_kernel_rfl) y

def sout1_A_0 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : cond1_0 i) (hc1 : ¬cond1_1 i)
    (x0 : Vec F S1x1x2000 .i32) (x1 : Vec F S2000x128 .f32) (x2 : Vec F S256x32 .f32) (x3 : Vec F S32x128 .f32) (x4 : Vec F S1x128 .f32) (x5 : Vec F S128x128 .f32) : Vec F S256x128 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).1)

/-- the same for the second scratch buffer, -/
theorem scover1_A_1 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : cond1_0 i) (hc1 : ¬cond1_1 i)
    (x0 : Vec F S1x1x2000 .i32) (x1 : Vec F S2000x128 .f32) (x2 : Vec F S256x32 .f32) (x3 : Vec F S32x128 .f32) (x4 : Vec F S1x128 .f32) (x5 : Vec F S128x128 .f32) (y : S256x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.1 S256x128.size (by sl_kernel_rfl) y

def sout1_A_1 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : cond1_0 i) (hc1 : ¬cond1_1 i)
    (x0 : Vec F S1x1x2000 .i32) (x1 : Vec F S2000x128 .f32) (x2 : Vec F S256x32 .f32) (x3 : Vec F S32x128 .f32) (x4 : Vec F S1x128 .f32) (x5 : Vec F S128x128 .f32) : Vec F S256x128 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.1)

/-- and the third. -/
theorem scover1_A_2 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : cond1_0 i) (hc1 : ¬cond1_1 i)
    (x0 : Vec F S1x1x2000 .i32) (x1 : Vec F S2000x128 .f32) (x2 : Vec F S256x32 .f32) (x3 : Vec F S32x128 .f32) (x4 : Vec F S1x128 .f32) (x5 : Vec F S128x128 .f32) (y : S256x1.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.1 S256x1.size (by sl_kernel_rfl) y

def sout1_A_2 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : cond1_0 i) (hc1 : ¬cond1_1 i)
    (x0 : Vec F S1x1x2000 .i32) (x1 : Vec F S2000x128 .f32) (x2 : Vec F S256x32 .f32) (x3 : Vec F S32x128 .f32) (x4 : Vec F S1x128 .f32) (x5 : Vec F S128x128 .f32) : Vec F S256x1 .f32 :=
  VS1_2.read (Elt F) (VS1_2.writes (Elt F) VS1_2.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.1)

/-- At a middle point the store into the second scratch buffer covers it; what it leaves: -/
theorem scover1_B_1 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : ¬cond1_1 i)
    (x0 : Vec F S1x1x2000 .i32) (x1 : Vec F S2000x128 .f32) (x5 : Vec F S128x128 .f32) (xs0 : Vec F S256x128 .f32) (xs1 : Vec F S256x128 .f32) (xs2 : Vec F S256x1 .f32) (y : S256x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 xs0 xs1 xs2).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 xs0 xs1 xs2).1 S256x128.size (by sl_kernel_rfl) y

def sout1_B_1 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : ¬cond1_1 i)
    (x0 : Vec F S1x1x2000 .i32) (x1 : Vec F S2000x128 .f32) (x5 : Vec F S128x128 .f32) (xs0 : Vec F S256x128 .f32) (xs1 : Vec F S256x128 .f32) (xs2 : Vec F S256x1 .f32) : Vec F S256x128 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 xs0 xs1 xs2).1)

/-- the same for the third scratch buffer. -/
theorem scover1_B_2 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : ¬cond1_1 i)
    (x0 : Vec F S1x1x2000 .i32) (x1 : Vec F S2000x128 .f32) (x5 : Vec F S128x128 .f32) (xs0 : Vec F S256x128 .f32) (xs1 : Vec F S256x128 .f32) (xs2 : Vec F S256x1 .f32) (y : S256x1.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 xs0 xs1 xs2).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 xs0 xs1 xs2).2.1 S256x1.size (by sl_kernel_rfl) y

def sout1_B_2 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : ¬cond1_1 i)
    (x0 : Vec F S1x1x2000 .i32) (x1 : Vec F S2000x128 .f32) (x5 : Vec F S128x128 .f32) (xs0 : Vec F S256x128 .f32) (xs1 : Vec F S256x128 .f32) (xs2 : Vec F S256x1 .f32) : Vec F S256x1 .f32 :=
  VS1_2.read (Elt F) (VS1_2.writes (Elt F) VS1_2.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 xs0 xs1 xs2).2.1)

/-- At the last point the store into output window 14's buffer covers it; what it leaves: -/
theorem cover1_C_14 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : cond1_1 i)
    (x0 : Vec F S1x1x2000 .i32) (x1 : Vec F S2000x128 .f32) (x5 : Vec F S128x128 .f32) (x6 : Vec F S256x128 .f32) (x7 : Vec F S256x1 .f32) (x8 : Vec F S128x8 .f32) (x9 : Vec F S128x8 .f32) (x10 : Vec F S1x8 .f32) (x11 : Vec F S128x8 .f32) (x12 : Vec F S128x8 .f32) (x13 : Vec F S1x8 .f32) (xs0 : Vec F S256x128 .f32) (xs1 : Vec F S256x128 .f32) (xs2 : Vec F S256x1 .f32) (y : S256x8.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2).1 S256x8.size (by sl_kernel_rfl) y

def out1_C_14 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : cond1_1 i)
    (x0 : Vec F S1x1x2000 .i32) (x1 : Vec F S2000x128 .f32) (x5 : Vec F S128x128 .f32) (x6 : Vec F S256x128 .f32) (x7 : Vec F S256x1 .f32) (x8 : Vec F S128x8 .f32) (x9 : Vec F S128x8 .f32) (x10 : Vec F S1x8 .f32) (x11 : Vec F S128x8 .f32) (x12 : Vec F S128x8 .f32) (x13 : Vec F S1x8 .f32) (xs0 : Vec F S256x128 .f32) (xs1 : Vec F S256x128 .f32) (xs2 : Vec F S256x1 .f32) : Vec F S256x8 .f32 :=
  VO1_14.read (Elt F) (VO1_14.writes (Elt F) VO1_14.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2).1)

/-- the same for output window 15's buffer, -/
theorem cover1_C_15 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : cond1_1 i)
    (x0 : Vec F S1x1x2000 .i32) (x1 : Vec F S2000x128 .f32) (x5 : Vec F S128x128 .f32) (x6 : Vec F S256x128 .f32) (x7 : Vec F S256x1 .f32) (x8 : Vec F S128x8 .f32) (x9 : Vec F S128x8 .f32) (x10 : Vec F S1x8 .f32) (x11 : Vec F S128x8 .f32) (x12 : Vec F S128x8 .f32) (x13 : Vec F S1x8 .f32) (xs0 : Vec F S256x128 .f32) (xs1 : Vec F S256x128 .f32) (xs2 : Vec F S256x1 .f32) (y : S256x8.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2).2.1 S256x8.size (by sl_kernel_rfl) y

def out1_C_15 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : cond1_1 i)
    (x0 : Vec F S1x1x2000 .i32) (x1 : Vec F S2000x128 .f32) (x5 : Vec F S128x128 .f32) (x6 : Vec F S256x128 .f32) (x7 : Vec F S256x1 .f32) (x8 : Vec F S128x8 .f32) (x9 : Vec F S128x8 .f32) (x10 : Vec F S1x8 .f32) (x11 : Vec F S128x8 .f32) (x12 : Vec F S128x8 .f32) (x13 : Vec F S1x8 .f32) (xs0 : Vec F S256x128 .f32) (xs1 : Vec F S256x128 .f32) (xs2 : Vec F S256x1 .f32) : Vec F S256x8 .f32 :=
  VO1_15.read (Elt F) (VO1_15.writes (Elt F) VO1_15.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2).2.1)

/-- the second scratch buffer, -/
theorem scover1_C_1 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : cond1_1 i)
    (x0 : Vec F S1x1x2000 .i32) (x1 : Vec F S2000x128 .f32) (x5 : Vec F S128x128 .f32) (x6 : Vec F S256x128 .f32) (x7 : Vec F S256x1 .f32) (x8 : Vec F S128x8 .f32) (x9 : Vec F S128x8 .f32) (x10 : Vec F S1x8 .f32) (x11 : Vec F S128x8 .f32) (x12 : Vec F S128x8 .f32) (x13 : Vec F S1x8 .f32) (xs0 : Vec F S256x128 .f32) (xs1 : Vec F S256x128 .f32) (xs2 : Vec F S256x1 .f32) (y : S256x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2).2.2.1 S256x128.size (by sl_kernel_rfl) y

def sout1_C_1 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : cond1_1 i)
    (x0 : Vec F S1x1x2000 .i32) (x1 : Vec F S2000x128 .f32) (x5 : Vec F S128x128 .f32) (x6 : Vec F S256x128 .f32) (x7 : Vec F S256x1 .f32) (x8 : Vec F S128x8 .f32) (x9 : Vec F S128x8 .f32) (x10 : Vec F S1x8 .f32) (x11 : Vec F S128x8 .f32) (x12 : Vec F S128x8 .f32) (x13 : Vec F S1x8 .f32) (xs0 : Vec F S256x128 .f32) (xs1 : Vec F S256x128 .f32) (xs2 : Vec F S256x1 .f32) : Vec F S256x128 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2).2.2.1)

/-- and the third. -/
theorem scover1_C_2 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : cond1_1 i)
    (x0 : Vec F S1x1x2000 .i32) (x1 : Vec F S2000x128 .f32) (x5 : Vec F S128x128 .f32) (x6 : Vec F S256x128 .f32) (x7 : Vec F S256x1 .f32) (x8 : Vec F S128x8 .f32) (x9 : Vec F S128x8 .f32) (x10 : Vec F S1x8 .f32) (x11 : Vec F S128x8 .f32) (x12 : Vec F S128x8 .f32) (x13 : Vec F S1x8 .f32) (xs0 : Vec F S256x128 .f32) (xs1 : Vec F S256x128 .f32) (xs2 : Vec F S256x1 .f32) (y : S256x1.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2).2.2.2.1 S256x1.size (by sl_kernel_rfl) y

def sout1_C_2 (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : cond1_1 i)
    (x0 : Vec F S1x1x2000 .i32) (x1 : Vec F S2000x128 .f32) (x5 : Vec F S128x128 .f32) (x6 : Vec F S256x128 .f32) (x7 : Vec F S256x1 .f32) (x8 : Vec F S128x8 .f32) (x9 : Vec F S128x8 .f32) (x10 : Vec F S1x8 .f32) (x11 : Vec F S128x8 .f32) (x12 : Vec F S128x8 .f32) (x13 : Vec F S1x8 .f32) (xs0 : Vec F S256x128 .f32) (xs1 : Vec F S256x128 .f32) (xs2 : Vec F S256x1 .f32) : Vec F S256x1 .f32 :=
  VS1_2.read (Elt F) (VS1_2.writes (Elt F) VS1_2.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2).2.2.2.1)

/-- What the output windows' buffers are said to hold at the points that do not store into them: never read. -/
def ph1_14 : Vec F S256x8 .f32 := VO1_14.read (Elt F) VO1_14.junk
def ph1_15 : Vec F S256x8 .f32 := VO1_15.read (Elt F) VO1_15.junk

/-- Each window's current staging memref at point `t`, as the pipeline passes it to the body, and its wholeness. -/
abbrev ms1_0 (t : Fin cfg1.N) : Memref sig .tc .vmem S1x1x2000 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x8 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S128x8 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x8 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S128x8 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S128x8 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x8 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S256x8 .f32 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S256x8 .f32 := win1_15.stage (cfg1.slots t 15)
abbrev hs1_15 (t : Fin cfg1.N) : (ms1_15 t).IsWhole := hstage1_15 ((cfg1.slots t 15).cast nbuf1_15)

section Region1

variable (V : (c : Dev nD) → (b : Ref sig .tc) → Buf (Elt F) ((c : Thread nD τ).loc b))

/-! ## What the buffers hold after each point -/

/-- The first point: the scratch buffers as its stores leave them. -/
def stepA1 (c : Dev nD) (t : Fin cfg1.N) (hc0 : cond1_0 (grid1.coords t)) (hc1 : ¬cond1_1 (grid1.coords t)) : Vec F S256x8 .f32 × Vec F S256x8 .f32 × Vec F S256x128 .f32 × Vec F S256x128 .f32 × Vec F S256x1 .f32 :=
  (ph1_14, ph1_15, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t))

/-- A middle point, over what the point before left (`p`): the first scratch buffer kept, the other two as its stores leave them. -/
def stepB1 (c : Dev nD) (t : Fin cfg1.N) (hc0 : ¬cond1_0 (grid1.coords t)) (hc1 : ¬cond1_1 (grid1.coords t)) (p : Vec F S256x8 .f32 × Vec F S256x8 .f32 × Vec F S256x128 .f32 × Vec F S256x128 .f32 × Vec F S256x1 .f32) : Vec F S256x8 .f32 × Vec F S256x8 .f32 × Vec F S256x128 .f32 × Vec F S256x128 .f32 × Vec F S256x1 .f32 :=
  (ph1_14, ph1_15, p.2.2.1, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 5 t) p.2.2.1 p.2.2.2.1 p.2.2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 5 t) p.2.2.1 p.2.2.2.1 p.2.2.2.2)

/-- The last point, over what the point before left: as a middle point, and the two outputs as its stores leave them. -/
def stepC1 (c : Dev nD) (t : Fin cfg1.N) (hc0 : ¬cond1_0 (grid1.coords t)) (hc1 : cond1_1 (grid1.coords t)) (p : Vec F S256x8 .f32 × Vec F S256x8 .f32 × Vec F S256x128 .f32 × Vec F S256x128 .f32 × Vec F S256x1 .f32) : Vec F S256x8 .f32 × Vec F S256x8 .f32 × Vec F S256x128 .f32 × Vec F S256x128 .f32 × Vec F S256x1 .f32 :=
  (out1_C_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 5 t) (iblk1 V c 6 t) (iblk1 V c 7 t) (iblk1 V c 8 t) (iblk1 V c 9 t) (iblk1 V c 10 t) (iblk1 V c 11 t) (iblk1 V c 12 t) (iblk1 V c 13 t) p.2.2.1 p.2.2.2.1 p.2.2.2.2, out1_C_15 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 5 t) (iblk1 V c 6 t) (iblk1 V c 7 t) (iblk1 V c 8 t) (iblk1 V c 9 t) (iblk1 V c 10 t) (iblk1 V c 11 t) (iblk1 V c 12 t) (iblk1 V c 13 t) p.2.2.1 p.2.2.2.1 p.2.2.2.2, p.2.2.1, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 5 t) (iblk1 V c 6 t) (iblk1 V c 7 t) (iblk1 V c 8 t) (iblk1 V c 9 t) (iblk1 V c 10 t) (iblk1 V c 11 t) (iblk1 V c 12 t) (iblk1 V c 13 t) p.2.2.1 p.2.2.2.1 p.2.2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 5 t) (iblk1 V c 6 t) (iblk1 V c 7 t) (iblk1 V c 8 t) (iblk1 V c 9 t) (iblk1 V c 10 t) (iblk1 V c 11 t) (iblk1 V c 12 t) (iblk1 V c 13 t) p.2.2.1 p.2.2.2.1 p.2.2.2.2)

/-- A point after the first does not meet the first condition. -/
theorem not_cond1_0_succ (n : ℕ) (hn : n + 1 < cfg1.N) : ¬cond1_0 (grid1.coords ⟨n + 1, hn⟩) := fun h => by
  have h' := (hcond1_0 ⟨n + 1, hn⟩).mp h
  have hN : n + 1 < 5 := lt_of_lt_of_eq hn (show cfg1.N = 5 from N_1)
  (try dsimp only at h'); omega

/-- After point `n`: (output window 14's buffer, output window 15's buffer, the three scratch buffers). The
    output components are placeholders before the last point. -/
def outsAt1 (c : Dev nD) : (n : ℕ) → n < cfg1.N → Vec F S256x8 .f32 × Vec F S256x8 .f32 × Vec F S256x128 .f32 × Vec F S256x128 .f32 × Vec F S256x1 .f32
  | 0, hn => stepA1 V c ⟨0, hn⟩ ((hcond1_0 ⟨0, hn⟩).mpr (Nat.zero_mod _)) (fun h => (fun h => by (try dsimp only at h); omega) ((hcond1_1 ⟨0, hn⟩).mp h))
  | n + 1, hn =>
    if h1 : (n + 1) % 5 = 4 then
      stepC1 V c ⟨n + 1, hn⟩ (not_cond1_0_succ n hn) ((hcond1_1 ⟨n + 1, hn⟩).mpr h1) (outsAt1 c n (Nat.lt_of_succ_lt hn))
    else
      stepB1 V c ⟨n + 1, hn⟩ (not_cond1_0_succ n hn) (fun h => h1 ((hcond1_1 ⟨n + 1, hn⟩).mp h)) (outsAt1 c n (Nat.lt_of_succ_lt hn))

theorem outsAt1_A (c : Dev nD) (t : Fin cfg1.N) (h0 : t.val % 5 = 0) (hc0 : cond1_0 (grid1.coords t)) (hc1 : ¬cond1_1 (grid1.coords t)) :
    outsAt1 V c t.val t.isLt = stepA1 V c t hc0 hc1 := by
  obtain ⟨n, hn⟩ := t
  have hN : n < 5 := lt_of_lt_of_eq hn (show cfg1.N = 5 from N_1)
  cases n with
  | zero => rfl
  | succ n => exfalso; (try dsimp only at h0); omega

theorem outsAt1_B (c : Dev nD) (t : Fin cfg1.N) (h0 : ¬t.val % 5 = 0) (h1 : ¬t.val % 5 = 4) (hc0 : ¬cond1_0 (grid1.coords t)) (hc1 : ¬cond1_1 (grid1.coords t)) :
    outsAt1 V c t.val t.isLt = stepB1 V c t hc0 hc1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

theorem outsAt1_C (c : Dev nD) (t : Fin cfg1.N) (h0 : ¬t.val % 5 = 0) (h1 : t.val % 5 = 4) (hc0 : ¬cond1_0 (grid1.coords t)) (hc1 : cond1_1 (grid1.coords t)) :
    outsAt1 V c t.val t.isLt = stepC1 V c t hc0 hc1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-! ## The region invariant -/

/-- Before the first point the launch's invariant; before a later point the untouched rest and the three
    scratch buffers at what the point before left in them. -/
def PhiS1 (c : Dev nD) : (n : ℕ) → n ≤ cfg1.N → sProp 𝕄
  | 0, _ => Pipeline.ΦA spec1 c
  | n + 1, hn => iprop(rest1 c ∗ owns (c : Thread nD τ) scM1_0 fullShare ((outsAt1 V c n hn).2.2.1) ∗ owns (c : Thread nD τ) scM1_1 fullShare ((outsAt1 V c n hn).2.2.2.1) ∗ owns (c : Thread nD τ) scM1_2 fullShare ((outsAt1 V c n hn).2.2.2.2))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1 c ∗ owns (c : Thread nD τ) scM1_0 fullShare ((outsAt1 V c n hn).2.2.1) ∗ owns (c : Thread nD τ) scM1_1 fullShare ((outsAt1 V c n hn).2.2.2.1) ∗ owns (c : Thread nD τ) scM1_2 fullShare ((outsAt1 V c n hn).2.2.2.2)) := rfl

theorem PhiS1_pos (c : Dev nD) (n : ℕ) (h : n ≤ cfg1.N) (hz : n ≠ 0) :
    PhiS1 V c n h = iprop(rest1 c ∗ owns (c : Thread nD τ) scM1_0 fullShare ((outsAt1 V c (n - 1) (by omega)).2.2.1) ∗ owns (c : Thread nD τ) scM1_1 fullShare ((outsAt1 V c (n - 1) (by omega)).2.2.2.1) ∗ owns (c : Thread nD τ) scM1_2 fullShare ((outsAt1 V c (n - 1) (by omega)).2.2.2.2)) := by
  cases n with
  | zero => exact absurd rfl hz
  | succ n => rfl

/-! ## The pipeline's proof data -/

/-- The proof data of pipeline 1 on core `c`: the arrays as the region finds them; after the body at point `t`
    each input's buffer at its block and the outputs' at `outsAt1`'s components; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => (outsAt1 V c t.val t.isLt).1
    | ⟨15, _⟩ => (outsAt1 V c t.val t.isLt).2.1
    | ⟨_ + 16, h⟩ => absurd h (Nat.not_lt.2 (Nat.le_add_left _ _))
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := by
  dsimp only [dat1]

theorem owed_eq1 (c : Dev nD) (t : Fin (cfg1.N + 1)) : (dat1 V c).owed t = 0 := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = (outsAt1 V c t.val t.isLt).1 := by dsimp only [dat1]
theorem after1_15 (c : Dev nD) (t : Fin cfg1.N) : (dat1 V c).after 15 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d

/-! ## The statements the assembly cites (proofs below) -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t
    ∗ (dat1 V c).leavesExact 15 t)

end Region1

end Cert.KernelIdeal.Hand

end
-- ==== Proof.Reg1Frame.lean ====
import proofs.«163481_g30743375904785_cont_sun_c4_101_2_alg».proof.Proof.Reg1Outs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second pallas_call's body obligation and the invariant's two ends -/

section Region1b

variable (V : (c : Dev nD) → (b : Ref sig .tc) → Buf (Elt F) ((c : Thread nD τ).loc b))

set_option maxHeartbeats 8000000 in
/-- The body at any point. The inputs' buffers hold their blocks; the closed forms of the two conditions say
    which case the point is in; that case's run applies. At the first point the invariant hands the three
    scratch buffers over at anything, at a later point at what the point before left; it takes them back at
    this point's contents (the stores cover them). Away from the last point the output windows' buffers pass
    through untouched; at the last point they are taken at anything and handed back covered. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13]
  rw [show (dat1 V c).owesAt () t.succ = (dat1 V c).owesAt () t.castSucc from rfl]
  rw [show (dat1 V c).Φ t.succ = PhiS1 V c (t.val + 1) t.isLt from rfl, PhiS1_succ]
  have hN : t.val < 5 := lt_of_lt_of_eq t.isLt (show cfg1.N = 5 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  rw [show (dat1 V c).leavesExact 9 t = owns (c : Thread nD τ) (ms1_9 t) fullShare ((dat1 V c).after 9 t) from by
    unfold Dat.leavesExact; rw [liveAt1_9 t], after1_9]
  rw [show (dat1 V c).leavesExact 10 t = owns (c : Thread nD τ) (ms1_10 t) fullShare ((dat1 V c).after 10 t) from by
    unfold Dat.leavesExact; rw [liveAt1_10 t], after1_10]
  rw [show (dat1 V c).leavesExact 11 t = owns (c : Thread nD τ) (ms1_11 t) fullShare ((dat1 V c).after 11 t) from by
    unfold Dat.leavesExact; rw [liveAt1_11 t], after1_11]
  rw [show (dat1 V c).leavesExact 12 t = owns (c : Thread nD τ) (ms1_12 t) fullShare ((dat1 V c).after 12 t) from by
    unfold Dat.leavesExact; rw [liveAt1_12 t], after1_12]
  rw [show (dat1 V c).leavesExact 13 t = owns (c : Thread nD τ) (ms1_13 t) fullShare ((dat1 V c).after 13 t) from by
    unfold Dat.leavesExact; rw [liveAt1_13 t], after1_13]
  by_cases h0 : t.val % 5 = 0
  · have h1 : ¬t.val % 5 = 4 := by omega
    have hz : t.val = 0 := by omega
    have hc0 : cond1_0 (grid1.coords t) := (hcond1_0 t).mpr h0
    have hc1 : ¬cond1_1 (grid1.coords t) := fun h => h1 ((hcond1_1 t).mp h)
    rw [Dat.leavesExact_idle (dat1 V c) 14 t (idleAt1_14 t hc1) (noFlush1_14 t hc1),
      Dat.leavesExact_idle (dat1 V c) 15 t (idleAt1_15 t hc1) (noFlush1_15 t hc1)]
    rw [outsAt1_A V c t h0 hc0 hc1]
    unfold stepA1 sout1_A_0 sout1_A_1 sout1_A_2; (try dsimp only)
    rw [PhiS1_castSucc V c t, PhiS1_zero V c _ _ hz]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14, H15⟩
    ihave HΦ' := (PhiA1_open c) $$ HΦ
    icases HΦ' with ⟨HR, HS0, HS1, HS2⟩
    iapply ((kernelRun1_A c (grid1.coords t) _ _ _ _ _ _ _ _ _ _ _ _ _ _ _ _ _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, ⟨%es0, HS0⟩, ⟨%es1, HS1⟩, ⟨%es2, HS2⟩⟩
    isplitl [HR HS0 HS1 HS2]
    · isplitl [HR]; · iexact HR
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _ _ _ _ _ _ _ _ _ _ _ _ _ _ _ _ _ _ _ _ _ _ _ _ _ _)
      unfold owns; iexists _; isplitr
      swap; · iexact HS2
      ipureintro; exact View.read_writes_of_cover _ _ _ _ _ (scover1_A_2 c _ _ _ _ _ _ _ _ _ _ _ _ _ _ _ _ _ _ _ _ _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · have hz : t.val ≠ 0 := fun e => h0 (by rw [e])
    have hc0 : ¬cond1_0 (grid1.coords t) := fun h => h0 ((hcond1_0 t).mp h)
    by_cases h1 : t.val % 5 = 4
    · have hc1 : cond1_1 (grid1.coords t) := (hcond1_1 t).mpr h1
      rw [show (dat1 V c).leavesExact 14 t = owns (c : Thread nD τ) (ms1_14 t) fullShare ((dat1 V c).after 14 t) from by
        unfold Dat.leavesExact; rw [liveAt1_14 t hc1], after1_14]
      rw [show (dat1 V c).leavesExact 15 t = owns (c : Thread nD τ) (ms1_15 t) fullShare ((dat1 V c).after 15 t) from by
        unfold Dat.leavesExact; rw [liveAt1_15 t hc1], after1_15]
      rw [outsAt1_C V c t h0 h1 hc0 hc1]
      unfold stepC1 out1_C_14 out1_C_15 sout1_C_1 sout1_C_2; (try dsimp only)
      rw [PhiS1_castSucc V c t, PhiS1_pos V c _ _ hz]
      iintro ⟨⟨HR, HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((kernelRun1_C c (grid1.coords t) _ _ _ _ _ _ _ _ _ _ _ _ _ _ _ _ _ _ _ _ _ _ _ _ _ _ _ _ _ _ _ _ _ _ _ _ _ _ hc0 hc1 (iblk1 V c 0 t) (iblk1 V c 1 t) (iblk1 V c 5 t) (iblk1 V c 6 t) (iblk1 V c 7 t) (iblk1 V c 8 t) (iblk1 V c 9 t) (iblk1 V c 10 t) (iblk1 V c 11 t) (iblk1 V c 12 t) (iblk1 V c 13 t) _ _ _).2.2.2.2 Set.univ _)
      isplitl [H0]; · iexact H0
      isplitl [H1]; · iexact H1
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [HS0]; · iexact HS0
      isplitl [HS1]; · iexact HS1
      isplitl [HS2]; · iexact HS2
      iintro ⟨H0, H1, H5, H6, H7, H8, H9, H10, H11, H12, H13, ⟨%e14, H14⟩, ⟨%e15, H15⟩, HS0, ⟨%es1, HS1⟩, ⟨%es2, HS2⟩⟩
      isplitl [HR HS0 HS1 HS2]
      · isplitl [HR]; · iexact HR
        isplitl [HS0]; · iexact HS0
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact HS2
        ipureintro; exact View.read_writes_of_cover _ _ _ _ _ (scover1_C_2 c _ _ _ _ _ _ _ _ _ _ _ _ _ _ _ _ _ _ _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (cover1_C_14 c _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H15
      ipureintro; exact View.read_writes_of_cover _ _ _ _ _ (cover1_C_15 c _ _ _ _ _ _ _ _ _ _ _ _ _ _ _ _ _ _ _ _ _ _ _ _ _ _ _ _ _ _ _ _ _ _ _ _ _ _ _ _ _ _ _ _ _ _ _ _ _ _ _ _ _ _ _)
    · have hc1 : ¬cond1_1 (grid1.coords t) := fun h => h1 ((hcond1_1 t).mp h)
      rw [Dat.leavesExact_idle (dat1 V c) 14 t (idleAt1_14 t hc1) (noFlush1_14 t hc1),
        Dat.leavesExact_idle (dat1 V c) 15 t (idleAt1_15 t hc1) (noFlush1_15 t hc1)]
      rw [outsAt1_B V c t h0 h1 hc0 hc1]
      unfold stepB1 sout1_B_1 sout1_B_2; (try dsimp only)
      rw [PhiS1_castSucc V c t, PhiS1_pos V c _ _ hz]
      iintro ⟨⟨HR, HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14, H15⟩
      iapply ((kernelRun1_B c (grid1.coords t) _ _ _ _ _ _ _ _ _ _ _ _ _ _ _ _ _ _ _ _ _ _ _ _ _ _ _ _ _ _ _ _ _ _ _ _ _ _ hc0 hc1 (iblk1 V c 0 t) (iblk1 V c 1 t) (iblk1 V c 5 t) _ _ _).2.2 Set.univ _)
      isplitl [H0]; · iexact H0
      isplitl [H1]; · iexact H1
      isplitl [H5]; · iexact H5
      isplitl [HS0]; · iexact HS0
      isplitl [HS1]; · iexact HS1
      isplitl [HS2]; · iexact HS2
      iintro ⟨H0, H1, H5, HS0, ⟨%es1, HS1⟩, ⟨%es2, HS2⟩⟩
      isplitl [HR HS0 HS1 HS2]
      · isplitl [HR]; · iexact HR
        isplitl [HS0]; · iexact HS0
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _ _ _ _ _ _ _ _ _ _ _ _ _ _ _ _ _ _ _)
        unfold owns; iexists _; isplitr
        swap; · iexact HS2
        ipureintro; exact View.read_writes_of_cover _ _ _ _ _ (scover1_B_2 c _ _ _ _ _ _ _ _ _ _ _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch buffers' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HR, HS0, HS1, HS2⟩
  iapply (PhiA1_close c)
  isplitl [HR]; · iexact HR
  isplitl [HS0]; · iexists _; iexact HS0
  isplitl [HS1]; · iexists _; iexact HS1
  iexists _; iexact HS2

/-- The same after the last point. -/
theorem hout1 (c : Dev nD) : (dat1 V c).Φ (Fin.last cfg1.N) ⊢ Pipeline.ΦA spec1 c :=
  Phi_out1 V c _ (by rw [Fin.val_last]; have : cfg1.N = 5 := N_1; omega)

end Region1b

end Cert.KernelIdeal.Hand

end
-- ==== Proof.Assembly.lean ====
import proofs.«163481_g30743375904785_cont_sun_c4_101_2_alg».proof.Proof.Gen.KernelIdeal.Launch
import proofs.«163481_g30743375904785_cont_sun_c4_101_2_alg».proof.Proof.Gen.KernelIdeal.Skeleton
import proofs.«163481_g30743375904785_cont_sun_c4_101_2_alg».proof.Proof.Gen.KernelIdeal.Points
import proofs.«163481_g30743375904785_cont_sun_c4_101_2_alg».proof.Proof.Gen.KernelIdeal.Regions
import proofs.«163481_g30743375904785_cont_sun_c4_101_2_alg».proof.Proof.Reg0Frame
import proofs.«163481_g30743375904785_cont_sun_c4_101_2_alg».proof.Proof.Reg1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
  The whole program's run from the two kernel regions' halves. @main is six reshapes, then the two kernel regions, each
  entered once. Between two items every unscoped buffer of the core is held whole at a named valuation: the launch
  contents, then the reshapes' results, then what each region's write-backs leave in its two output arrays. Each region
  is a segment whose entry splits its windows' arrays out of those buffers and whose exit puts them back at the proof
  data's final contents; the carried-scratch invariant of a region starts from, and returns to, the scoped buffers at
  unnamed contents. The launch theorem for a list of segments then gives: every weakly fair execution terminates,
  nothing faults, and each unscoped buffer ends at the last valuation; read at the two results this is the second
  region's output arrays at their end, read at an argument it is the launch contents.
-/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: the six reshapes, then the two regions -/

/-- Core `c`'s buffers when the first region is entered: the launch contents after the six reshapes. -/
abbrev W1 (c : Dev nD) : Valuation τ sig (Elt F) := Gen.V1 m c
/-- The same read at the TensorCore's references. -/
abbrev E0 : (c : Dev nD) → (b : Ref sig .tc) → Buf (Elt F) ((c : Thread nD τ).loc b) := fun c b => W1 m c b
/-- After the first region: its arrays at what its write-backs leave, every other buffer as entered. -/
def W2 (c : Dev nD) : Valuation τ sig (Elt F) :=
  Pipeline.withArrays spec0 c (W1 m c) fun w => (dat0 (E0 m) c).arrAt w cfg0.N
theorem W2_arr (c : Dev nD) (w : Fin cfg0.W) :
    W2 m c (Proc.devRef .tc (Pipeline.arrRef spec0 w)) = (dat0 (E0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The second region's entry contents, at the TensorCore's references. -/
abbrev E1 : (c : Dev nD) → (b : Ref sig .tc) → Buf (Elt F) ((c : Thread nD τ).loc b) := fun c b => W2 m c b
theorem hF0 (c : Dev nD) (w : Fin cfg0.W) : (dat0 (E0 m) c).arrAt w cfg0.N = E1 m c (Pipeline.arrRef spec0 w) :=
  (W2_arr m c w).symm
theorem hrest0 (c : Dev nD) : ∀ b, b ∉ Finset.univ.image (Pipeline.arrRef spec0) → E1 m c b = E0 m c b :=
  fun b hb => W2_of_ne m c b fun w e => hb (Finset.mem_image.mpr ⟨w, Finset.mem_univ _, e⟩)
/-- After the second region. -/
def W3 (c : Dev nD) : Valuation τ sig (Elt F) :=
  Pipeline.withArrays spec1 c (W2 m c) fun w => (dat1 (E1 m) c).arrAt w cfg1.N
theorem W3_arr (c : Dev nD) (w : Fin cfg1.W) :
    W3 m c (Proc.devRef .tc (Pipeline.arrRef spec1 w)) = (dat1 (E1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E2 : (c : Dev nD) → (b : Ref sig .tc) → Buf (Elt F) ((c : Thread nD τ).loc b) := fun c b => W3 m c b
theorem hF1 (c : Dev nD) (w : Fin cfg1.W) : (dat1 (E1 m) c).arrAt w cfg1.N = E2 m c (Pipeline.arrRef spec1 w) :=
  (W3_arr m c w).symm
theorem hrest1 (c : Dev nD) : ∀ b, b ∉ Finset.univ.image (Pipeline.arrRef spec1) → E2 m c b = E1 m c b :=
  fun b hb => W3_of_ne m c b fun w e => hb (Finset.mem_image.mpr ⟨w, Finset.mem_univ _, e⟩)

/-! ## A buffer that is no region's result keeps, through both regions, what it held after the reshapes -/

theorem in0_of_ne : ∀ w : Fin cfg0.W, Pipeline.arrRef spec0 w ≠ main_v6_0 → Pipeline.arrRef spec0 w ≠ main_v6_1 →
    (cfg0.win w).isOut = false := by decide
theorem in1_of_ne : ∀ w : Fin cfg1.W, Pipeline.arrRef spec1 w ≠ main_v7_0 → Pipeline.arrRef spec1 w ≠ main_v7_1 →
    (cfg1.win w).isOut = false := by decide

theorem W2_keep (c : Dev nD) (r : Ref sig .tc) (h0 : r ≠ main_v6_0) (h1 : r ≠ main_v6_1) :
    W2 m c (Proc.devRef .tc r) = W1 m c (Proc.devRef .tc r) := by
  by_cases h : ∃ w, Pipeline.arrRef spec0 w = r
  · obtain ⟨w, rfl⟩ := h
    exact (W2_arr m c w).trans (((dat0 (E0 m) c).arrAt_in w (in0_of_ne w h0 h1) _).trans (A_eq0 (E0 m) c w))
  · exact W2_of_ne m c r fun w e => h ⟨w, e⟩

theorem W3_keep (c : Dev nD) (r : Ref sig .tc) (h0 : r ≠ main_v7_0) (h1 : r ≠ main_v7_1) :
    W3 m c (Proc.devRef .tc r) = W2 m c (Proc.devRef .tc r) := by
  by_cases h : ∃ w, Pipeline.arrRef spec1 w = r
  · obtain ⟨w, rfl⟩ := h
    exact (W3_arr m c w).trans (((dat1 (E1 m) c).arrAt_in w (in1_of_ne w h0 h1) _).trans (A_eq1 (E1 m) c w))
  · exact W3_of_ne m c r fun w e => h ⟨w, e⟩

/-- An argument array ends as launched: no reshape writes it and it is no region's result. -/
theorem W3_arg (c : Dev nD) (r : Ref sig .tc) (hW : r ∉ hostOps0_W) (h0 : r ≠ main_v6_0) (h1 : r ≠ main_v6_1)
    (h2 : r ≠ main_v7_0) (h3 : r ≠ main_v7_1) : W3 m c (Proc.devRef .tc r) = m ((c : Thread nD τ).loc r) :=
  (W3_keep m c r h2 h3).trans ((W2_keep m c r h0 h1).trans (Gen.V1_of m c r hW))

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first region over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun c t => owed_eq0 (E0 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (E0 m) c w) (E0 m c) fun w => (A_eq0 (E0 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show iprop(Pipeline.scopedRest spec0 c ∗ ∃ r, prngReg c r) ⊢ (pdats m 0 c).Φ 0 from hin0 (E0 m) c)
    isplitl [Hr]; · iexact Hr
    iexact Hp
  hout c := by
    rw [Pipeline.ownSems0_none]
    have hΦ : (pdats m 0 c).Φ (Fin.last _) ⊢ (iprop(Pipeline.scopedRest spec0 c ∗ ∃ r, prngReg c r) : sProp 𝕄) := hout0 (E0 m) c
    iintro H
    ihave H2 := hΦ $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (E0 m) c w)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun c t => owed_eq1 (E1 m) c t
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun w => q_eq1 (E1 m) c w) (E1 m c) fun w => (A_eq1 (E1 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show iprop(Pipeline.scopedRest spec1 c ∗ ∃ r, prngReg c r) ⊢ (pdats m 1 c).Φ 0 from hin1 (E1 m) c)
    isplitl [Hr]; · iexact Hr
    iexact Hp
  hout c := by
    rw [Pipeline.ownSems0_none]
    have hΦ : (pdats m 1 c).Φ (Fin.last _) ⊢ (iprop(Pipeline.scopedRest spec1 c ∗ ∃ r, prngReg c r) : sProp 𝕄) := hout1 (E1 m) c
    iintro H
    ihave H2 := hΦ $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (E1 m) c w)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (Gen.V0 m)),
    .region (reg0 m),
    .region (reg1 m) ]
theorem main_run (c : Dev nD) : main (F := F) c = Pipeline.Seg.run (segs m) := (main_chain c).trans (by chain_rfl)

set_option backward.isDefEq.respectTransparency.types false in
/-- THE RUN: every weakly fair execution of @main terminates, nothing faulting, and every final state has each
    unscoped buffer at what the two regions leave (`W3`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The run, read at the results and at the arguments -/

/-- Every weakly fair execution of @main terminates, nothing faulting; the two results end at what the second region's
    write-backs leave in its two output arrays, and every argument array ends as launched. -/
theorem run_main : θ_run defs (onTc (τ := τ) (main (F := F))) ⟨m, fun _ => 0, ρ⟩ (fun r => ∀ c : Dev nD,
      r.2.mem ((c.tc : Thread nD τ).loc main_v7_0) = (dat1 (E1 m) c).arrAt 14 cfg1.N
      ∧ r.2.mem ((c.tc : Thread nD τ).loc main_v7_1) = (dat1 (E1 m) c).arrAt 15 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_v7_0 (by decide))).trans (W3_arr m c 14),
      (h c _ (mem_uc main_v7_1 (by decide))).trans (W3_arr m c 15),
      (h c _ (mem_uc main_arg0 (by decide))).trans (W3_arg m c main_arg0 (by decide) (by decide) (by decide) (by decide) (by decide)),
      (h c _ (mem_uc main_arg1 (by decide))).trans (W3_arg m c main_arg1 (by decide) (by decide) (by decide) (by decide) (by decide)),
      (h c _ (mem_uc main_arg2 (by decide))).trans (W3_arg m c main_arg2 (by decide) (by decide) (by decide) (by decide) (by decide)),
      (h c _ (mem_uc main_arg3 (by decide))).trans (W3_arg m c main_arg3 (by decide) (by decide) (by decide) (by decide) (by decide)),
      (h c _ (mem_uc main_arg4 (by decide))).trans (W3_arg m c main_arg4 (by decide) (by decide) (by decide) (by decide) (by decide)),
      (h c _ (mem_uc main_arg5 (by decide))).trans (W3_arg m c main_arg5 (by decide) (by decide) (by decide) (by decide) (by decide)),
      (h c _ (mem_uc main_arg6 (by decide))).trans (W3_arg m c main_arg6 (by decide) (by decide) (by decide) (by decide) (by decide)),
      (h c _ (mem_uc main_arg7 (by decide))).trans (W3_arg m c main_arg7 (by decide) (by decide) (by decide) (by decide) (by decide)),
      (h c _ (mem_uc main_arg8 (by decide))).trans (W3_arg m c main_arg8 (by decide) (by decide) (by decide) (by decide) (by decide)),
      (h c _ (mem_uc main_arg9 (by decide))).trans (W3_arg m c main_arg9 (by decide) (by decide) (by decide) (by decide) (by decide)),
      (h c _ (mem_uc main_arg10 (by decide))).trans (W3_arg m c main_arg10 (by decide) (by decide) (by decide) (by decide) (by decide)),
      (h c _ (mem_uc main_arg11 (by decide))).trans (W3_arg m c main_arg11 (by decide) (by decide) (by decide) (by decide) (by decide)),
      (h c _ (mem_uc main_arg12 (by decide))).trans (W3_arg m c main_arg12 (by decide) (by decide) (by decide) (by decide) (by decide)),
      (h c _ (mem_uc main_arg13 (by decide))).trans (W3_arg m c main_arg13 (by decide) (by decide) (by decide) (by decide) (by decide)),
      (h c _ (mem_uc main_arg14 (by decide))).trans (W3_arg m c main_arg14 (by decide) (by decide) (by decide) (by decide) (by decide)),
      (h c _ (mem_uc main_arg15 (by decide))).trans (W3_arg m c main_arg15 (by decide) (by decide) (by decide) (by decide) (by decide)),
      (h c _ (mem_uc main_arg16 (by decide))).trans (W3_arg m c main_arg16 (by decide) (by decide) (by decide) (by decide) (by decide))⟩)
    (run_all m ρ)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => (h c).2.2) (run_main m ρ)

/-- What the second region reads of the first region's results: the first region's two output arrays at its end. -/
theorem E1_v6_0 (c : Dev nD) : E1 m c main_v6_0 = (dat0 (E0 m) c).arrAt 6 cfg0.N := W2_arr m c 6
theorem E1_v6_1 (c : Dev nD) : E1 m c main_v6_1 = (dat0 (E0 m) c).arrAt 7 cfg0.N := W2_arr m c 7
/-- Every other buffer the second region reads is as the first region found it. -/
theorem E1_keep (c : Dev nD) (r : Ref sig .tc) (h0 : r ≠ main_v6_0) (h1 : r ≠ main_v6_1) : E1 m c r = E0 m c r :=
  W2_keep m c r h0 h1

end Cert.KernelIdeal.Hand

end
-- ==== Proof.Reg0Arr.lean ====
import proofs.«163481_g30743375904785_cont_sun_c4_101_2_alg».proof.Proof.Reg0Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: the two result arrays at the region's end

Each accumulator's window has ONE block, the whole array, at block index (0, 0) at every point, written
back only after the last point. So the array ends holding what the body left in the accumulator's
buffer at point 79. -/

section Region0
variable (V : (c : Dev nD) → (b : Ref sig .tc) → Buf (Elt F) ((c : Thread nD τ).loc b))

/-- The last point. -/
def t0_79 : Fin cfg0.N := ⟨79, by rw [show cfg0.N = 80 from N_0]; decide⟩

/-- The accumulator of window 6 after the last point, as contents of its result array (the one block IS the array). -/
abbrev result6 (c : Dev nD) : Buf (Elt F) ((c : Thread nD τ).loc main_v6_0) := (outsAt0 V c 79 (by rw [show cfg0.N = 80 from N_0]; omega)).1

/-- Window 6's block index is zero at every point. -/
theorem idx0_6 : ∀ (t : Fin cfg0.N) (a : Fin 2), win0_6.index t a = 0 :=
  (by decide +kernel : ∀ (t : Fin grid0.N) (a : Fin 2), win0_6.index t a = 0)

/-- The one write-back, at the last point, writes it: block (0, 0) read through zero offsets is the array. -/
theorem flushed_eq0_6 (c : Dev nD) (t : Fin cfg0.N) (hf : (cfg0.win 6).flush t = true) :
    (dat0 V c).flushed 6 t = ((cfg0.win 6).blk t).view.read (Elt F) (result6 V c) := by
  have hN : cfg0.N = 80 := N_0
  have h79 : t.val = 79 := by have := (flush0_6 t).mp hf; have := t.isLt; omega
  obtain rfl : t = t0_79 := Fin.ext h79
  show (cfg0.win 6).cut (grid0.coords t0_79) ((dat0 V c).after 6 t0_79) = _
  rw [after0_6]
  have hz' : (fun a => win0_6.index t0_79 a * main_v6_0.ty.shape.size a) = fun _ => 0 := funext fun a => by rw [idx0_6]; exact Nat.zero_mul _
  exact (Memref.read_access_unit_zero (Elt F) main_v6_0 hz' (fun a => by rw [congrFun hz' a]; simp) (result6 V c)).symm

/-- So window 6's result array ends holding the accumulator after the last point: that point's block covers it. -/
theorem arrAt0_6 (c : Dev nD) : (dat0 V c).arrAt 6 cfg0.N = (outsAt0 V c 79 (by rw [show cfg0.N = 80 from N_0]; omega)).1 :=
  (dat0 V c).arrAt_eq_of_cover 6 (result6 V c) (flushed_eq0_6 V c) fun i =>
    ⟨t0_79, (flush0_6 t0_79).mpr rfl, by
      show i ∈ ((View.whole main_v6_0).slice (win0_6.rect t0_79)).set
      rw [View.set_slice_whole, Rect.mem_set_unit]
      intro a
      have h0 : (i 0 : Nat) < 256 := (i 0).isLt
      have h1 : (i 1 : Nat) < 128 := (i 1).isLt
      match a with
      | ⟨0, _⟩ => show win0_6.index t0_79 0 * win0_6.size 0 ≤ (i 0 : Nat) ∧ (i 0 : Nat) < win0_6.index t0_79 0 * win0_6.size 0 + win0_6.xsize (grid0.coords t0_79) 0
                  rw [show win0_6.index t0_79 0 * win0_6.size 0 = 0 from by rw [idx0_6]; exact Nat.zero_mul _, show win0_6.xsize (grid0.coords t0_79) 0 = 256 from by decide +kernel]; omega
      | ⟨1, _⟩ => show win0_6.index t0_79 1 * win0_6.size 1 ≤ (i 1 : Nat) ∧ (i 1 : Nat) < win0_6.index t0_79 1 * win0_6.size 1 + win0_6.xsize (grid0.coords t0_79) 1
                  rw [show win0_6.index t0_79 1 * win0_6.size 1 = 0 from by rw [idx0_6]; exact Nat.zero_mul _, show win0_6.xsize (grid0.coords t0_79) 1 = 128 from by decide +kernel]; omega⟩

/-- The accumulator of window 7 after the last point, as contents of its result array (the one block IS the array). -/
abbrev result7 (c : Dev nD) : Buf (Elt F) ((c : Thread nD τ).loc main_v6_1) := (outsAt0 V c 79 (by rw [show cfg0.N = 80 from N_0]; omega)).2.1

/-- Window 7's block index is zero at every point. -/
theorem idx0_7 : ∀ (t : Fin cfg0.N) (a : Fin 2), win0_7.index t a = 0 :=
  (by decide +kernel : ∀ (t : Fin grid0.N) (a : Fin 2), win0_7.index t a = 0)

/-- The one write-back, at the last point, writes it: block (0, 0) read through zero offsets is the array. -/
theorem flushed_eq0_7 (c : Dev nD) (t : Fin cfg0.N) (hf : (cfg0.win 7).flush t = true) :
    (dat0 V c).flushed 7 t = ((cfg0.win 7).blk t).view.read (Elt F) (result7 V c) := by
  have hN : cfg0.N = 80 := N_0
  have h79 : t.val = 79 := by have := (flush0_7 t).mp hf; have := t.isLt; omega
  obtain rfl : t = t0_79 := Fin.ext h79
  show (cfg0.win 7).cut (grid0.coords t0_79) ((dat0 V c).after 7 t0_79) = _
  rw [after0_7]
  have hz' : (fun a => win0_7.index t0_79 a * main_v6_1.ty.shape.size a) = fun _ => 0 := funext fun a => by rw [idx0_7]; exact Nat.zero_mul _
  exact (Memref.read_access_unit_zero (Elt F) main_v6_1 hz' (fun a => by rw [congrFun hz' a]; simp) (result7 V c)).symm

/-- So window 7's result array ends holding the accumulator after the last point: that point's block covers it. -/
theorem arrAt0_7 (c : Dev nD) : (dat0 V c).arrAt 7 cfg0.N = (outsAt0 V c 79 (by rw [show cfg0.N = 80 from N_0]; omega)).2.1 :=
  (dat0 V c).arrAt_eq_of_cover 7 (result7 V c) (flushed_eq0_7 V c) fun i =>
    ⟨t0_79, (flush0_7 t0_79).mpr rfl, by
      show i ∈ ((View.whole main_v6_1).slice (win0_7.rect t0_79)).set
      rw [View.set_slice_whole, Rect.mem_set_unit]
      intro a
      have h0 : (i 0 : Nat) < 256 := (i 0).isLt
      have h1 : (i 1 : Nat) < 1 := (i 1).isLt
      match a with
      | ⟨0, _⟩ => show win0_7.index t0_79 0 * win0_7.size 0 ≤ (i 0 : Nat) ∧ (i 0 : Nat) < win0_7.index t0_79 0 * win0_7.size 0 + win0_7.xsize (grid0.coords t0_79) 0
                  rw [show win0_7.index t0_79 0 * win0_7.size 0 = 0 from by rw [idx0_7]; exact Nat.zero_mul _, show win0_7.xsize (grid0.coords t0_79) 0 = 256 from by decide +kernel]; omega
      | ⟨1, _⟩ => show win0_7.index t0_79 1 * win0_7.size 1 ≤ (i 1 : Nat) ∧ (i 1 : Nat) < win0_7.index t0_79 1 * win0_7.size 1 + win0_7.xsize (grid0.coords t0_79) 1
                  rw [show win0_7.index t0_79 1 * win0_7.size 1 = 0 from by rw [idx0_7]; exact Nat.zero_mul _, show win0_7.xsize (grid0.coords t0_79) 1 = 1 from by decide +kernel]; omega⟩

end Region0

end Cert.KernelIdeal.Hand

end
-- ==== Proof.Spec.lean ====
/-
  The one-hot entry the two kernels build from a block of graph ids: `ohv g b` is 1 when the id word `g` is the
  number of graph `b` (as a 32-bit word), and 0 otherwise. A word outside `[0, 256)` matches no graph.
-/
import Mathlib.Data.EReal.Inv

namespace Cert.Spec

/-- The one-hot entry of id word `g` at graph `b`. -/
noncomputable def ohv (g : BitVec 32) (b : Fin 256) : EReal := if g = BitVec.ofNat 32 b.val then 1 else 0

theorem ohv_def (g : BitVec 32) (b : Fin 256) : ohv g b = if g = BitVec.ofNat 32 b.val then (1 : EReal) else 0 := rfl

/-- Distinct graphs have distinct words. -/
theorem ofNat_inj {b b' : Fin 256} (h : BitVec.ofNat 32 b.val = BitVec.ofNat 32 b'.val) : b = b' := by
  have hb := b.isLt; have hb' := b'.isLt
  have := congrArg BitVec.toNat h
  simp only [BitVec.toNat_ofNat] at this
  apply Fin.ext
  omega

/-- At the word of graph `g`, the entry at `b` is 1 exactly when `b = g`. -/
theorem ohv_ofNat (g b : Fin 256) : ohv (BitVec.ofNat 32 g.val) b = if g = b then (1 : EReal) else 0 := by
  unfold ohv
  by_cases h : g = b
  · subst h; rw [if_pos rfl, if_pos rfl]
  · rw [if_neg h, if_neg (fun e => h (ofNat_inj e))]

end Cert.Spec
-- ==== Proof.Reg0Value.lean ====
import proofs.«163481_g30743375904785_cont_sun_c4_101_2_alg».proof.Proof.Gen.KernelIdeal.Skeleton
import proofs.«163481_g30743375904785_cont_sun_c4_101_2_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.KernelVsHost

set_option maxRecDepth 16384

noncomputable section

namespace Cert.KernelIdeal.Hand

open Idealize.ShloMosaic Idealize.ShloMosaic.ValueIdx
open Cert.KernelIdeal Cert.KernelIdeal.Gen Cert.Spec
open scoped BigOperators

/-! # Region 0's arithmetic, read at an index over the extended reals

Each stored value of the edge pass as plain arithmetic: the one-hot matrix of a block of graph ids,
the projection of the globals (a matrix product plus a bias row), a block's contribution to the node
sums (scatter of the rectified per-edge rows through the one-hot matrix) and to the node counts (the
one-hot matrix's row sums). -/

/-- A comparison bit, widened and converted, is the one-hot entry. -/
theorem sitofp_cmpi_eq (g : BitVec 32) (b : Fin 256) :
    (FloatOps.sitofp (F := Ideal) .f32 ((IntOp.cmpi .eq g (BitVec.ofNat 32 b.val)).setWidth 32) : EReal) = ohv g b := by
  show ((((IntOp.cmpi .eq g (BitVec.ofNat 32 b.val)).setWidth 32).toInt : ℝ) : EReal) = ohv g b
  rw [toInt_setWidth_bit, ohv_def]
  by_cases h : g = BitVec.ofNat 32 b.val
  · rw [IntOp.cmpi_eq.mpr h, if_pos h]
    have e1 : ((1#1 : BitVec 1).toNat : ℤ) = 1 := by decide
    rw [e1]; simp
  · rw [eq_zero_of_ne_one (fun h1 => h (IntOp.cmpi_eq.mp h1)), if_neg h]
    have e0 : ((0#1 : BitVec 1).toNat : ℤ) = 0 := by decide
    rw [e0]; simp

/-- The one-hot matrix of a block of ids: entry (b, j) is 1 when edge j's id is graph b. -/
theorem k0_pay4_apply (ids : Vec Ideal S1x1x4000 .i32) (b : Fin 256) (j : Fin 4000) :
    (k0_pay4 (F := Ideal) ids) (ix2 b j) = ohv (ids (ix3 (0 : Fin 1) (0 : Fin 1) j)) b := by
  have h6 : broadcastTo S256x4000 (shapeCast S1x4000 ids shapeCasts_S1x1x4000_S1x4000) broadcasts_S1x4000_S256x4000 (ix2 b j)
      = ids (ix3 (0 : Fin 1) (0 : Fin 1) j) :=
    (broadcastTo_1b_ab_apply _ _ b j).trans (shapeCast_1ab_ab_apply ids _ (0 : Fin 1) j)
  have h7 : broadcastTo S256x4000 (iota .tc S256x1 32 [0] iota_S256x1_d0_w32) broadcasts_S256x1_S256x4000 (ix2 b j)
      = BitVec.ofNat 32 b.val := by
    refine (broadcastTo_apply _ _ (ix2 b j) (ix2 b (0 : Fin 1)) fun ax => ?_).trans
      (iota_single_apply .tc S256x1 32 0 _ (ix2 b (0 : Fin 1)))
    match ax with
    | ⟨0, _⟩ => rfl
    | ⟨1, _⟩ => rfl
  have key : (k0_pay4 (F := Ideal) ids) (ix2 b j)
      = FloatOps.sitofp (F := Ideal) .f32 ((IntOp.cmpi .eq (ids (ix3 (0 : Fin 1) (0 : Fin 1) j)) (BitVec.ofNat 32 b.val)).setWidth 32) := by
    show FloatOps.sitofp (F := Ideal) .f32 ((IntOp.cmpi .eq
        (broadcastTo S256x4000 (shapeCast S1x4000 ids shapeCasts_S1x1x4000_S1x4000) broadcasts_S1x4000_S256x4000 (ix2 b j))
        (broadcastTo S256x4000 (iota .tc S256x1 32 [0] iota_S256x1_d0_w32) broadcasts_S256x1_S256x4000 (ix2 b j))).setWidth 32) = _
    rw [h6, h7]
  exact key.trans (sitofp_cmpi_eq _ b)

theorem k0_pay2_apply (b : Fin 256) (k : Fin 128) : (k0_pay2 (F := Ideal)) (ix2 b k) = 0 :=
  (show (k0_pay2 (F := Ideal)) (ix2 b k) = Ideal.ofBits .f32 0x00000000#32 from rfl).trans Ideal.ofBits_zero_f32

theorem k0_pay3_apply (b : Fin 256) : (k0_pay3 (F := Ideal)) (ix2 b (0 : Fin 1)) = 0 :=
  (show (k0_pay3 (F := Ideal)) (ix2 b (0 : Fin 1)) = Ideal.ofBits .f32 0x00000000#32 from rfl).trans Ideal.ofBits_zero_f32

theorem mm_proj_apply (L : FVec Ideal S256x32 .f32) (R : FVec Ideal S32x128 .f32) (b : Fin 256) (k : Fin 128) :
    matmul dot_S256x32_S32x128_S256x128_1_0_0_1_n_n none L R (constant S256x128 .f32 0x00000000#32) (ix2 b k)
      = ∑ q : Fin 32, L (ix2 b q) * R (ix2 q k) := by
  show FloatOps.matmul dot_S256x32_S32x128_S256x128_1_0_0_1_n_n none L R (constant S256x128 .f32 0x00000000#32) (ix2 b k) = _
  rw [Ideal.matmul_constant_zero_apply, ← Equiv.sum_comp (contrEquiv1 dot_S256x32_S32x128_S256x128_1_0_0_1_n_n 32 rfl rfl).symm]
  refine Finset.sum_congr rfl fun q _ => ?_
  have cq := contrEquiv1_symm_val dot_S256x32_S32x128_S256x128_1_0_0_1_n_n 32 rfl rfl q
  have l : dot_S256x32_S32x128_S256x128_1_0_0_1_n_n.lhsIdx (ix2 b k) ((contrEquiv1 dot_S256x32_S32x128_S256x128_1_0_0_1_n_n 32 rfl rfl).symm q) = ix2 b q := by
    funext ax; apply Fin.ext
    match ax with
    | ⟨0, _⟩ => simp [DotDims.lhsIdx, dot_S256x32_S32x128_S256x128_1_0_0_1_n_n]; rfl
    | ⟨1, _⟩ => exact (DotDims.lhsIdx_val_of_single dot_S256x32_S32x128_S256x128_1_0_0_1_n_n rfl _ _).trans cq
  have r : dot_S256x32_S32x128_S256x128_1_0_0_1_n_n.rhsIdx (ix2 b k) ((contrEquiv1 dot_S256x32_S32x128_S256x128_1_0_0_1_n_n 32 rfl rfl).symm q) = ix2 q k := by
    funext ax; apply Fin.ext
    match ax with
    | ⟨0, _⟩ => exact (DotDims.rhsIdx_val_of_single dot_S256x32_S32x128_S256x128_1_0_0_1_n_n rfl _ _).trans cq
    | ⟨1, _⟩ => simp [DotDims.rhsIdx, dot_S256x32_S32x128_S256x128_1_0_0_1_n_n]; rfl
  rw [l, r]

theorem mm_edge_apply (L : FVec Ideal S4000x16 .f32) (R : FVec Ideal S16x128 .f32) (j : Fin 4000) (k : Fin 128) :
    matmul dot_S4000x16_S16x128_S4000x128_1_0_0_1_n_n none L R (constant S4000x128 .f32 0x00000000#32) (ix2 j k)
      = ∑ q : Fin 16, L (ix2 j q) * R (ix2 q k) := by
  show FloatOps.matmul dot_S4000x16_S16x128_S4000x128_1_0_0_1_n_n none L R (constant S4000x128 .f32 0x00000000#32) (ix2 j k) = _
  rw [Ideal.matmul_constant_zero_apply, ← Equiv.sum_comp (contrEquiv1 dot_S4000x16_S16x128_S4000x128_1_0_0_1_n_n 16 rfl rfl).symm]
  refine Finset.sum_congr rfl fun q _ => ?_
  have cq := contrEquiv1_symm_val dot_S4000x16_S16x128_S4000x128_1_0_0_1_n_n 16 rfl rfl q
  have l : dot_S4000x16_S16x128_S4000x128_1_0_0_1_n_n.lhsIdx (ix2 j k) ((contrEquiv1 dot_S4000x16_S16x128_S4000x128_1_0_0_1_n_n 16 rfl rfl).symm q) = ix2 j q := by
    funext ax; apply Fin.ext
    match ax with
    | ⟨0, _⟩ => simp [DotDims.lhsIdx, dot_S4000x16_S16x128_S4000x128_1_0_0_1_n_n]; rfl
    | ⟨1, _⟩ => exact (DotDims.lhsIdx_val_of_single dot_S4000x16_S16x128_S4000x128_1_0_0_1_n_n rfl _ _).trans cq
  have r : dot_S4000x16_S16x128_S4000x128_1_0_0_1_n_n.rhsIdx (ix2 j k) ((contrEquiv1 dot_S4000x16_S16x128_S4000x128_1_0_0_1_n_n 16 rfl rfl).symm q) = ix2 q k := by
    funext ax; apply Fin.ext
    match ax with
    | ⟨0, _⟩ => exact (DotDims.rhsIdx_val_of_single dot_S4000x16_S16x128_S4000x128_1_0_0_1_n_n rfl _ _).trans cq
    | ⟨1, _⟩ => simp [DotDims.rhsIdx, dot_S4000x16_S16x128_S4000x128_1_0_0_1_n_n]; rfl
  rw [l, r]

theorem mm_gather_apply (L : FVec Ideal S256x4000 .f32) (R : FVec Ideal S256x128 .f32) (j : Fin 4000) (k : Fin 128) :
    matmul dot_S256x4000_S256x128_S4000x128_0_0_1_1_n_n none L R (constant S4000x128 .f32 0x00000000#32) (ix2 j k)
      = ∑ q : Fin 256, L (ix2 q j) * R (ix2 q k) := by
  show FloatOps.matmul dot_S256x4000_S256x128_S4000x128_0_0_1_1_n_n none L R (constant S4000x128 .f32 0x00000000#32) (ix2 j k) = _
  rw [Ideal.matmul_constant_zero_apply, ← Equiv.sum_comp (contrEquiv1 dot_S256x4000_S256x128_S4000x128_0_0_1_1_n_n 256 rfl rfl).symm]
  refine Finset.sum_congr rfl fun q _ => ?_
  have cq := contrEquiv1_symm_val dot_S256x4000_S256x128_S4000x128_0_0_1_1_n_n 256 rfl rfl q
  have l : dot_S256x4000_S256x128_S4000x128_0_0_1_1_n_n.lhsIdx (ix2 j k) ((contrEquiv1 dot_S256x4000_S256x128_S4000x128_0_0_1_1_n_n 256 rfl rfl).symm q) = ix2 q j := by
    funext ax; apply Fin.ext
    match ax with
    | ⟨0, _⟩ => exact (DotDims.lhsIdx_val_of_single dot_S256x4000_S256x128_S4000x128_0_0_1_1_n_n rfl _ _).trans cq
    | ⟨1, _⟩ => simp [DotDims.lhsIdx, dot_S256x4000_S256x128_S4000x128_0_0_1_1_n_n]; rfl
  have r : dot_S256x4000_S256x128_S4000x128_0_0_1_1_n_n.rhsIdx (ix2 j k) ((contrEquiv1 dot_S256x4000_S256x128_S4000x128_0_0_1_1_n_n 256 rfl rfl).symm q) = ix2 q k := by
    funext ax; apply Fin.ext
    match ax with
    | ⟨0, _⟩ => exact (DotDims.rhsIdx_val_of_single dot_S256x4000_S256x128_S4000x128_0_0_1_1_n_n rfl _ _).trans cq
    | ⟨1, _⟩ => simp [DotDims.rhsIdx, dot_S256x4000_S256x128_S4000x128_0_0_1_1_n_n]; rfl
  rw [l, r]

theorem mm_scatter_apply (L : FVec Ideal S256x4000 .f32) (R : FVec Ideal S4000x128 .f32) (b : Fin 256) (k : Fin 128) :
    matmul dot_S256x4000_S4000x128_S256x128_1_0_0_1_n_n none L R (constant S256x128 .f32 0x00000000#32) (ix2 b k)
      = ∑ q : Fin 4000, L (ix2 b q) * R (ix2 q k) := by
  show FloatOps.matmul dot_S256x4000_S4000x128_S256x128_1_0_0_1_n_n none L R (constant S256x128 .f32 0x00000000#32) (ix2 b k) = _
  rw [Ideal.matmul_constant_zero_apply, ← Equiv.sum_comp (contrEquiv1 dot_S256x4000_S4000x128_S256x128_1_0_0_1_n_n 4000 rfl rfl).symm]
  refine Finset.sum_congr rfl fun q _ => ?_
  have cq := contrEquiv1_symm_val dot_S256x4000_S4000x128_S256x128_1_0_0_1_n_n 4000 rfl rfl q
  have l : dot_S256x4000_S4000x128_S256x128_1_0_0_1_n_n.lhsIdx (ix2 b k) ((contrEquiv1 dot_S256x4000_S4000x128_S256x128_1_0_0_1_n_n 4000 rfl rfl).symm q) = ix2 b q := by
    funext ax; apply Fin.ext
    match ax with
    | ⟨0, _⟩ => simp [DotDims.lhsIdx, dot_S256x4000_S4000x128_S256x128_1_0_0_1_n_n]; rfl
    | ⟨1, _⟩ => exact (DotDims.lhsIdx_val_of_single dot_S256x4000_S4000x128_S256x128_1_0_0_1_n_n rfl _ _).trans cq
  have r : dot_S256x4000_S4000x128_S256x128_1_0_0_1_n_n.rhsIdx (ix2 b k) ((contrEquiv1 dot_S256x4000_S4000x128_S256x128_1_0_0_1_n_n 4000 rfl rfl).symm q) = ix2 q k := by
    funext ax; apply Fin.ext
    match ax with
    | ⟨0, _⟩ => exact (DotDims.rhsIdx_val_of_single dot_S256x4000_S4000x128_S256x128_1_0_0_1_n_n rfl _ _).trans cq
    | ⟨1, _⟩ => simp [DotDims.rhsIdx, dot_S256x4000_S4000x128_S256x128_1_0_0_1_n_n]; rfl
  rw [l, r]

/-- The projection of the globals: `u · Wue` plus the bias row. -/
theorem k0_pay1_apply (u : Vec Ideal S256x32 .f32) (Wue : Vec Ideal S32x128 .f32) (be : Vec Ideal S1x128 .f32) (b : Fin 256) (k : Fin 128) :
    (k0_pay1 (F := Ideal) u Wue be) (ix2 b k) = (∑ q : Fin 32, u (ix2 b q) * Wue (ix2 q k)) + be (ix2 (0 : Fin 1) k) := by
  have hb : broadcastTo S256x128 (shapeCast S1x128 be shapeCasts_S1x128_S1x128) broadcasts_S1x128_S256x128 (ix2 b k) = be (ix2 (0 : Fin 1) k) :=
    (broadcastTo_1b_ab_apply _ _ b k).trans (congrFun (shapeCast_self be _) _)
  show shapeCast S256x128 (addf (F := Ideal) (φ := .f32) (matmul (F := Ideal) (φ₁ := .f32) (φ₂ := .f32) dot_S256x32_S32x128_S256x128_1_0_0_1_n_n none u Wue (constant S256x128 .f32 0x00000000#32))
      (broadcastTo S256x128 (shapeCast S1x128 be shapeCasts_S1x128_S1x128) broadcasts_S1x128_S256x128)) shapeCasts_S256x128_S256x128 (ix2 b k) = _
  rw [shapeCast_self]
  show matmul (F := Ideal) (φ₁ := .f32) (φ₂ := .f32) dot_S256x32_S32x128_S256x128_1_0_0_1_n_n none u Wue (constant S256x128 .f32 0x00000000#32) (ix2 b k)
      + broadcastTo S256x128 (shapeCast S1x128 be shapeCasts_S1x128_S1x128) broadcasts_S1x128_S256x128 (ix2 b k) = _
  rw [mm_proj_apply, hb]

/-- The one-hot matrix's row sum, read through the keepdims column. -/
theorem rowsum_apply (M : FVec Ideal S256x4000 .f32) (hφ : FKind.Formats .f32) (hacc : (0x00000000#32 : BitVec 32) = FKind.add.neutral .f32 hφ) (b : Fin 256) :
    shapeCast S256x1 (multiReduction .add [1] S256 M 0x00000000#32 reduces_S256x4000_S256 hφ hacc) shapeCasts_S256_S256x1 (ix2 b (0 : Fin 1))
      = ∑ j : Fin 4000, M (ix2 b j) := by
  refine (shapeCast_apply _ _ (ix2 b (0 : Fin 1)) (ix1 b) (by
    rw [Shape.rowMajor_val_one, Shape.rowMajor_val_two]
    show b.val = b.val * 1 + 0
    omega)).trans ?_
  refine (Ideal.multiReduction_add_single M 0x00000000#32 reduces_S256x4000_S256 hφ hacc (ix1 b)).trans ?_
  refine Finset.sum_congr rfl fun j _ => congrArg M ?_
  funext a; apply Fin.ext
  match a with
  | ⟨0, _⟩ => rfl
  | ⟨1, _⟩ => rfl

/-- A block's contribution to the node counts: the count plus the number of the block's edges in graph b. -/
theorem k0_pay6_apply (ids : Vec Ideal S1x1x4000 .i32) (cnt : Vec Ideal S256x1 .f32) (b : Fin 256) :
    (k0_pay6 (F := Ideal) ids cnt) (ix2 b (0 : Fin 1)) = cnt (ix2 b (0 : Fin 1)) + ∑ j : Fin 4000, ohv (ids (ix3 (0 : Fin 1) (0 : Fin 1) j)) b := by
  show shapeCast S256x1 cnt shapeCasts_S256x1_S256x1 (ix2 b (0 : Fin 1))
      + shapeCast S256x1 (multiReduction .add [1] S256 (k0_pay4 (F := Ideal) ids) 0x00000000#32 reduces_S256x4000_S256 (.inl rfl) rfl) shapeCasts_S256_S256x1 (ix2 b (0 : Fin 1)) = _
  rw [shapeCast_self]
  refine congrArg (cnt (ix2 b (0 : Fin 1)) + ·) ((rowsum_apply _ _ _ b).trans ?_)
  exact Finset.sum_congr rfl fun j _ => k0_pay4_apply ids b j

/-- A block's contribution to the node sums: each edge's row — its features through `We` plus its graph's projected
    globals, rectified — added into its graph's row. -/
theorem k0_pay5_apply (ids : Vec Ideal S1x1x4000 .i32) (ea : Vec Ideal S4000x16 .f32) (We : Vec Ideal S16x128 .f32)
    (ue acc : Vec Ideal S256x128 .f32) (b : Fin 256) (k : Fin 128) :
    (k0_pay5 (F := Ideal) ids ea We ue acc) (ix2 b k) = acc (ix2 b k) + ∑ j : Fin 4000, ohv (ids (ix3 (0 : Fin 1) (0 : Fin 1) j)) b *
      max ((∑ q : Fin 16, ea (ix2 j q) * We (ix2 q k)) + ∑ b' : Fin 256, ohv (ids (ix3 (0 : Fin 1) (0 : Fin 1) j)) b' * ue (ix2 b' k)) 0 := by
  have hrow : ∀ j : Fin 4000,
      (maximumf (addf (matmul (F := Ideal) (φ₁ := .f32) (φ₂ := .f32) dot_S4000x16_S16x128_S4000x128_1_0_0_1_n_n none ea We (constant S4000x128 .f32 0x00000000#32))
          (matmul (F := Ideal) (φ₁ := .f32) (φ₂ := .f32) dot_S256x4000_S256x128_S4000x128_0_0_1_1_n_n none (k0_pay4 (F := Ideal) ids) ue (constant S4000x128 .f32 0x00000000#32)))
        (broadcast S4000x128 (Scalar.ofBits .f32 0x00000000#32)) : FVec Ideal S4000x128 .f32) (ix2 j k)
      = max ((∑ q : Fin 16, ea (ix2 j q) * We (ix2 q k)) + ∑ b' : Fin 256, ohv (ids (ix3 (0 : Fin 1) (0 : Fin 1) j)) b' * ue (ix2 b' k)) 0 := by
    intro j
    show max (matmul (F := Ideal) (φ₁ := .f32) (φ₂ := .f32) dot_S4000x16_S16x128_S4000x128_1_0_0_1_n_n none ea We (constant S4000x128 .f32 0x00000000#32) (ix2 j k)
        + matmul (F := Ideal) (φ₁ := .f32) (φ₂ := .f32) dot_S256x4000_S256x128_S4000x128_0_0_1_1_n_n none (k0_pay4 (F := Ideal) ids) ue (constant S4000x128 .f32 0x00000000#32) (ix2 j k)) (Ideal.ofBits .f32 0x00000000#32) = _
    rw [mm_edge_apply, mm_gather_apply, Ideal.ofBits_zero_f32]
    refine congrArg (fun x => max ((∑ q : Fin 16, ea (ix2 j q) * We (ix2 q k)) + x) 0) (Finset.sum_congr rfl fun b' _ => ?_)
    rw [k0_pay4_apply]
  show shapeCast S256x128 acc shapeCasts_S256x128_S256x128 (ix2 b k)
      + matmul (F := Ideal) (φ₁ := .f32) (φ₂ := .f32) dot_S256x4000_S4000x128_S256x128_1_0_0_1_n_n none (k0_pay4 (F := Ideal) ids)
          (maximumf (addf (matmul (F := Ideal) (φ₁ := .f32) (φ₂ := .f32) dot_S4000x16_S16x128_S4000x128_1_0_0_1_n_n none ea We (constant S4000x128 .f32 0x00000000#32))
              (matmul (F := Ideal) (φ₁ := .f32) (φ₂ := .f32) dot_S256x4000_S256x128_S4000x128_0_0_1_1_n_n none (k0_pay4 (F := Ideal) ids) ue (constant S4000x128 .f32 0x00000000#32)))
            (broadcast S4000x128 (Scalar.ofBits .f32 0x00000000#32)))
          (constant S256x128 .f32 0x00000000#32) (ix2 b k) = _
  rw [shapeCast_self, mm_scatter_apply]
  refine congrArg (acc (ix2 b k) + ·) (Finset.sum_congr rfl fun j _ => ?_)
  rw [k0_pay4_apply, hrow j]

end Cert.KernelIdeal.Hand

end
-- ==== Proof.OneHot.lean ====
/-
  The algebra that joins a one-hot matrix product to a gather and to a segment sum, on the extended reals.
  A one-hot column `b ↦ [g = b]` times a table picks the table's row `g`; a one-hot row `j ↦ [p j]` times a
  family sums the family over the indices that satisfy `p`; a sum over `T` blocks of `J` consecutive indices is the
  sum over all `T * J` indices; an accumulator that starts at zero and adds one term per step holds their sum.
  Only `0 * x = 0`, `1 * x = x`, `0 + x = x` and the commutative-monoid laws of `+` are used: none of them fails at
  an infinity, so no finiteness hypothesis appears.
-/
import Mathlib.Data.EReal.Inv
import Mathlib.Algebra.BigOperators.Group.Finset.Basic
import Mathlib.Algebra.BigOperators.Fin
import Mathlib.Logic.Equiv.Fin.Basic

namespace Cert.Algebra

open Finset

/-- A one-hot column picks one entry of a table: `∑ b, [g = b] * f b = f g`. -/
theorem sum_onehot_mul {ι : Type*} [Fintype ι] [DecidableEq ι] (g : ι) (f : ι → EReal) :
    ∑ b, (if g = b then (1 : EReal) else 0) * f b = f g := by
  rw [Finset.sum_eq_single g]
  · rw [if_pos rfl, one_mul]
  · intro b _ hb
    rw [if_neg (fun h => hb h.symm), zero_mul]
  · intro h; exact absurd (Finset.mem_univ g) h

/-- A column that matches no entry contributes nothing. -/
theorem sum_nomatch_mul {ι : Type*} [Fintype ι] (p : ι → Prop) [DecidablePred p] (hp : ∀ b, ¬ p b) (f : ι → EReal) :
    ∑ b, (if p b then (1 : EReal) else 0) * f b = 0 := by
  refine Finset.sum_eq_zero fun b _ => ?_
  rw [if_neg (hp b), zero_mul]

/-- A one-hot row sums a family over the indices it marks. -/
theorem sum_indicator_mul {ι : Type*} [Fintype ι] (p : ι → Prop) [DecidablePred p] (f : ι → EReal) :
    ∑ j, (if p j then (1 : EReal) else 0) * f j = ∑ j ∈ Finset.univ.filter p, f j := by
  rw [Finset.sum_filter]
  refine Finset.sum_congr rfl fun j _ => ?_
  by_cases h : p j
  · rw [if_pos h, if_pos h, one_mul]
  · rw [if_neg h, if_neg h, zero_mul]

/-- The count of the marked indices, as the sum of the one-hot row. -/
theorem sum_indicator {ι : Type*} [Fintype ι] (p : ι → Prop) [DecidablePred p] :
    ∑ j, (if p j then (1 : EReal) else 0) = ∑ j ∈ Finset.univ.filter p, (1 : EReal) := by
  rw [Finset.sum_filter]

/-- `T` blocks of `J` consecutive indices exhaust `Fin (T * J)`: the double sum over (block, offset) of a function of
    `J * t + j` is the single sum. -/
theorem sum_blocks (T J : ℕ) (g : ℕ → EReal) :
    ∑ t : Fin T, ∑ j : Fin J, g (J * t.val + j.val) = ∑ e : Fin (T * J), g e.val := by
  rw [← Fintype.sum_prod_type', ← (finProdFinEquiv (m := T) (n := J)).sum_comp]
  refine Finset.sum_congr rfl fun p _ => ?_
  rw [finProdFinEquiv_apply_val, add_comm]

/-- The same over a filter: the marked indices block by block. -/
theorem sum_blocks_filter (T J : ℕ) (p : ℕ → Prop) [DecidablePred p] (g : ℕ → EReal) :
    ∑ t : Fin T, ∑ j ∈ Finset.univ.filter (fun j : Fin J => p (J * t.val + j.val)), g (J * t.val + j.val)
      = ∑ e ∈ Finset.univ.filter (fun e : Fin (T * J) => p e.val), g e.val := by
  simp only [Finset.sum_filter]
  exact sum_blocks T J fun e => if p e then g e else 0

/-- The same for a function of the index itself. -/
theorem sum_blocks_fin (T J : ℕ) (F : Fin (T * J) → EReal)
    (hlt : ∀ (t : Fin T) (j : Fin J), J * t.val + j.val < T * J) :
    ∑ t : Fin T, ∑ j : Fin J, F ⟨J * t.val + j.val, hlt t j⟩ = ∑ e : Fin (T * J), F e := by
  rw [← Fintype.sum_prod_type', ← (finProdFinEquiv (m := T) (n := J)).sum_comp]
  refine Finset.sum_congr rfl fun p _ => ?_
  congr 1
  apply Fin.ext
  show J * p.1.val + p.2.val = (finProdFinEquiv p).val
  rw [finProdFinEquiv_apply_val, add_comm]

/-- An index inside block `t` at offset `j` is below the total. -/
theorem block_lt {T J : ℕ} (t : Fin T) (j : Fin J) : J * t.val + j.val < T * J := by
  have ht := t.isLt; have hj := j.isLt
  calc J * t.val + j.val < J * t.val + J := by omega
    _ = J * (t.val + 1) := by ring
    _ ≤ J * T := Nat.mul_le_mul_left _ ht
    _ = T * J := Nat.mul_comm _ _

/-- An accumulator that is `0 + s 0` after the first step and adds `s (n+1)` at each later one holds the sum of the terms. -/
theorem acc_eq_sum (a s : ℕ → EReal) (h0 : a 0 = 0 + s 0) (hs : ∀ n, a (n + 1) = a n + s (n + 1)) (n : ℕ) :
    a n = ∑ t ∈ Finset.range (n + 1), s t := by
  induction n with
  | zero => rw [h0, zero_add, Finset.sum_range_one]
  | succ n ih => rw [hs, ih, Finset.sum_range_succ _ (n + 1)]

/-- The same with the bound on the steps carried along. -/
theorem acc_eq_sum_lt (N : ℕ) (a s : ℕ → EReal) (h0 : 0 < N → a 0 = 0 + s 0) (hs : ∀ n, n + 1 < N → a (n + 1) = a n + s (n + 1))
    (n : ℕ) (hn : n < N) : a n = ∑ t ∈ Finset.range (n + 1), s t := by
  induction n with
  | zero => rw [h0 hn, zero_add, Finset.sum_range_one]
  | succ n ih => rw [hs n hn, ih (by omega), Finset.sum_range_succ _ (n + 1)]

end Cert.Algebra
-- ==== Proof.Blocks.lean ====
import proofs.«163481_g30743375904785_cont_sun_c4_101_2_alg».proof.Proof.Gen.KernelIdeal.Launch
import proofs.«163481_g30743375904785_cont_sun_c4_101_2_alg».proof.Proof.Gen.KernelIdeal.Points
import Idealize.ShloMosaic.Lib.Pipeline.FrameBody
import Idealize.ShloMosaic.Lib.Pipeline.Value
import Idealize.ShloMosaic.Lib.ValueIdx

set_option maxRecDepth 16384

/-!
  Each window's block at a grid point, read at an index, as the window's array at a global index. The id windows and
  the row windows move one block per point along their leading axis: entry `j` of the id block at point `t` is entry
  `(t, 0, j)` of the blocked id array, row `j` of the row block at point `t` is row `B t + j` of the array (`B` the
  block's row count). (The fixed windows, whose block is the whole array at every point, are read in the module BlocksFixed.)
-/

noncomputable section

namespace Cert.KernelIdeal.Hand

open Idealize.ShloMosaic Idealize.ShloMosaic.TcCoe
open Idealize.ShloMosaic.Pipeline (Dat Cfg Window)
open Idealize.ShloMosaic.ValueIdx
open Cert.KernelIdeal Cert.KernelIdeal.Gen

variable {F : FTy → Type} [FloatOps F]

theorem lt80 (t : Fin cfg0.N) : t.val < 80 := lt_of_lt_of_eq t.isLt (show cfg0.N = 80 from N_0)
theorem lt5 (t : Fin cfg1.N) : t.val < 5 := lt_of_lt_of_eq t.isLt (show cfg1.N = 5 from N_1)

/-! ## The moving windows -/

theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx1_0 : ∀ t : Fin cfg1.N, win1_0.index t (0 : Fin 3) = t.val ∧ win1_0.index t (1 : Fin 3) = 0 ∧ win1_0.index t (2 : Fin 3) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)

/-- Entry `j` of the edge-id block at point `t` is entry `(t, 0, j)` of the blocked edge-id array. -/
theorem blk0_0_apply (A : S80x1x4000.Idx → Elt F .i32) (t : Fin cfg0.N) (j : Fin 4000) :
    ((cfg0.win 0).blk t).view.read (Elt F) A (ix3 (0 : Fin 1) (0 : Fin 1) j)
      = A (ix3 (⟨t.val, lt80 t⟩ : Fin 80) (0 : Fin 1) j) := by
  obtain ⟨e0, e1, e2⟩ := idx0_0 t
  show A (((cfg0.win 0).blk t).view.emb (ix3 (0 : Fin 1) (0 : Fin 1) j)) = _
  congr 1
  funext a; apply Fin.ext
  match a with
  | ⟨0, _⟩ => show win0_0.index t (0 : Fin 3) * 1 + 1 * 0 = t.val; omega
  | ⟨1, _⟩ => show win0_0.index t (1 : Fin 3) * 1 + 1 * 0 = 0; omega
  | ⟨2, _⟩ => show win0_0.index t (2 : Fin 3) * 4000 + 1 * j.val = j.val; omega

/-- Row `j` of the edge block at point `t` is row `4000 t + j` of the edge array. -/
theorem blk0_1_apply (A : S320000x16.Idx → Elt F .f32) (t : Fin cfg0.N) (j : Fin 4000) (q : Fin 16) :
    ((cfg0.win 1).blk t).view.read (Elt F) A (ix2 j q)
      = A (ix2 (⟨4000 * t.val + j.val, by have := lt80 t; omega⟩ : Fin 320000) q) := by
  obtain ⟨e0, e1⟩ := idx0_1 t
  show A (((cfg0.win 1).blk t).view.emb (ix2 j q)) = _
  congr 1
  funext a; apply Fin.ext
  match a with
  | ⟨0, _⟩ => show win0_1.index t (0 : Fin 2) * 4000 + 1 * j.val = 4000 * t.val + j.val; omega
  | ⟨1, _⟩ => show win0_1.index t (1 : Fin 2) * 16 + 1 * q.val = q.val; omega

/-- Entry `j` of the node-id block at point `t` is entry `(t, 0, j)` of the blocked node-id array. -/
theorem blk1_0_apply (A : S5x1x2000.Idx → Elt F .i32) (t : Fin cfg1.N) (j : Fin 2000) :
    ((cfg1.win 0).blk t).view.read (Elt F) A (ix3 (0 : Fin 1) (0 : Fin 1) j)
      = A (ix3 (⟨t.val, lt5 t⟩ : Fin 5) (0 : Fin 1) j) := by
  obtain ⟨e0, e1, e2⟩ := idx1_0 t
  show A (((cfg1.win 0).blk t).view.emb (ix3 (0 : Fin 1) (0 : Fin 1) j)) = _
  congr 1
  funext a; apply Fin.ext
  match a with
  | ⟨0, _⟩ => show win1_0.index t (0 : Fin 3) * 1 + 1 * 0 = t.val; omega
  | ⟨1, _⟩ => show win1_0.index t (1 : Fin 3) * 1 + 1 * 0 = 0; omega
  | ⟨2, _⟩ => show win1_0.index t (2 : Fin 3) * 2000 + 1 * j.val = j.val; omega

/-- Row `j` of the node block at point `t` is row `2000 t + j` of the node array. -/
theorem blk1_1_apply (A : S10000x128.Idx → Elt F .f32) (t : Fin cfg1.N) (j : Fin 2000) (q : Fin 128) :
    ((cfg1.win 1).blk t).view.read (Elt F) A (ix2 j q)
      = A (ix2 (⟨2000 * t.val + j.val, by have := lt5 t; omega⟩ : Fin 10000) q) := by
  obtain ⟨e0, e1⟩ := idx1_1 t
  show A (((cfg1.win 1).blk t).view.emb (ix2 j q)) = _
  congr 1
  funext a; apply Fin.ext
  match a with
  | ⟨0, _⟩ => show win1_1.index t (0 : Fin 2) * 2000 + 1 * j.val = 2000 * t.val + j.val; omega
  | ⟨1, _⟩ => show win1_1.index t (1 : Fin 2) * 128 + 1 * q.val = q.val; omega

end Cert.KernelIdeal.Hand

end
-- ==== Proof.BlocksFixed.lean ====
/-
  The fixed windows of the two kernel regions: at every grid point the window's index is 0 on both axes and its
  block has the array's extents, so the block read at (i, q) is the array at (i, q). One lemma per window: the
  index map decided over the grid, then the block's coordinate on each axis, index times extent plus the offset.
-/
import proofs.«163481_g30743375904785_cont_sun_c4_101_2_alg».proof.Proof.Gen.KernelIdeal.Launch
import proofs.«163481_g30743375904785_cont_sun_c4_101_2_alg».proof.Proof.Gen.KernelIdeal.Points
import Idealize.ShloMosaic.Lib.Pipeline.FrameBody
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.ShloMosaic.Pipeline (Dat Cfg Window)
open Idealize.ShloMosaic.ValueIdx
open Cert.KernelIdeal Cert.KernelIdeal.Gen

variable {F : FTy → Type} [FloatOps F]

theorem idx0_2 : ∀ t : Fin cfg0.N, win0_2.index t (0 : Fin 2) = 0 ∧ win0_2.index t (1 : Fin 2) = 0 :=
  (by decide +kernel : ∀ t : Fin grid0.N, _)
theorem blk0_2_apply (A : S256x32.Idx → Elt F .f32) (t : Fin cfg0.N) (i : Fin 256) (q : Fin 32) :
    ((cfg0.win 2).blk t).view.read (Elt F) A (ix2 i q) = A (ix2 i q) := by
  obtain ⟨e0, e1⟩ := idx0_2 t
  show A (((cfg0.win 2).blk t).view.emb (ix2 i q)) = _
  congr 1
  funext a; apply Fin.ext
  match a with
  | ⟨0, _⟩ => show win0_2.index t (0 : Fin 2) * 256 + 1 * i.val = i.val; omega
  | ⟨1, _⟩ => show win0_2.index t (1 : Fin 2) * 32 + 1 * q.val = q.val; omega

theorem idx0_3 : ∀ t : Fin cfg0.N, win0_3.index t (0 : Fin 2) = 0 ∧ win0_3.index t (1 : Fin 2) = 0 :=
  (by decide +kernel : ∀ t : Fin grid0.N, _)
theorem blk0_3_apply (A : S32x128.Idx → Elt F .f32) (t : Fin cfg0.N) (i : Fin 32) (q : Fin 128) :
    ((cfg0.win 3).blk t).view.read (Elt F) A (ix2 i q) = A (ix2 i q) := by
  obtain ⟨e0, e1⟩ := idx0_3 t
  show A (((cfg0.win 3).blk t).view.emb (ix2 i q)) = _
  congr 1
  funext a; apply Fin.ext
  match a with
  | ⟨0, _⟩ => show win0_3.index t (0 : Fin 2) * 32 + 1 * i.val = i.val; omega
  | ⟨1, _⟩ => show win0_3.index t (1 : Fin 2) * 128 + 1 * q.val = q.val; omega

theorem idx0_4 : ∀ t : Fin cfg0.N, win0_4.index t (0 : Fin 2) = 0 ∧ win0_4.index t (1 : Fin 2) = 0 :=
  (by decide +kernel : ∀ t : Fin grid0.N, _)
theorem blk0_4_apply (A : S1x128.Idx → Elt F .f32) (t : Fin cfg0.N) (i : Fin 1) (q : Fin 128) :
    ((cfg0.win 4).blk t).view.read (Elt F) A (ix2 i q) = A (ix2 i q) := by
  obtain ⟨e0, e1⟩ := idx0_4 t
  show A (((cfg0.win 4).blk t).view.emb (ix2 i q)) = _
  congr 1
  funext a; apply Fin.ext
  match a with
  | ⟨0, _⟩ => show win0_4.index t (0 : Fin 2) * 1 + 1 * i.val = i.val; omega
  | ⟨1, _⟩ => show win0_4.index t (1 : Fin 2) * 128 + 1 * q.val = q.val; omega

theorem idx0_5 : ∀ t : Fin cfg0.N, win0_5.index t (0 : Fin 2) = 0 ∧ win0_5.index t (1 : Fin 2) = 0 :=
  (by decide +kernel : ∀ t : Fin grid0.N, _)
theorem blk0_5_apply (A : S16x128.Idx → Elt F .f32) (t : Fin cfg0.N) (i : Fin 16) (q : Fin 128) :
    ((cfg0.win 5).blk t).view.read (Elt F) A (ix2 i q) = A (ix2 i q) := by
  obtain ⟨e0, e1⟩ := idx0_5 t
  show A (((cfg0.win 5).blk t).view.emb (ix2 i q)) = _
  congr 1
  funext a; apply Fin.ext
  match a with
  | ⟨0, _⟩ => show win0_5.index t (0 : Fin 2) * 16 + 1 * i.val = i.val; omega
  | ⟨1, _⟩ => show win0_5.index t (1 : Fin 2) * 128 + 1 * q.val = q.val; omega

theorem idx1_2 : ∀ t : Fin cfg1.N, win1_2.index t (0 : Fin 2) = 0 ∧ win1_2.index t (1 : Fin 2) = 0 :=
  (by decide +kernel : ∀ t : Fin grid1.N, _)
theorem blk1_2_apply (A : S256x32.Idx → Elt F .f32) (t : Fin cfg1.N) (i : Fin 256) (q : Fin 32) :
    ((cfg1.win 2).blk t).view.read (Elt F) A (ix2 i q) = A (ix2 i q) := by
  obtain ⟨e0, e1⟩ := idx1_2 t
  show A (((cfg1.win 2).blk t).view.emb (ix2 i q)) = _
  congr 1
  funext a; apply Fin.ext
  match a with
  | ⟨0, _⟩ => show win1_2.index t (0 : Fin 2) * 256 + 1 * i.val = i.val; omega
  | ⟨1, _⟩ => show win1_2.index t (1 : Fin 2) * 32 + 1 * q.val = q.val; omega

theorem idx1_3 : ∀ t : Fin cfg1.N, win1_3.index t (0 : Fin 2) = 0 ∧ win1_3.index t (1 : Fin 2) = 0 :=
  (by decide +kernel : ∀ t : Fin grid1.N, _)
theorem blk1_3_apply (A : S32x128.Idx → Elt F .f32) (t : Fin cfg1.N) (i : Fin 32) (q : Fin 128) :
    ((cfg1.win 3).blk t).view.read (Elt F) A (ix2 i q) = A (ix2 i q) := by
  obtain ⟨e0, e1⟩ := idx1_3 t
  show A (((cfg1.win 3).blk t).view.emb (ix2 i q)) = _
  congr 1
  funext a; apply Fin.ext
  match a with
  | ⟨0, _⟩ => show win1_3.index t (0 : Fin 2) * 32 + 1 * i.val = i.val; omega
  | ⟨1, _⟩ => show win1_3.index t (1 : Fin 2) * 128 + 1 * q.val = q.val; omega

theorem idx1_4 : ∀ t : Fin cfg1.N, win1_4.index t (0 : Fin 2) = 0 ∧ win1_4.index t (1 : Fin 2) = 0 :=
  (by decide +kernel : ∀ t : Fin grid1.N, _)
theorem blk1_4_apply (A : S1x128.Idx → Elt F .f32) (t : Fin cfg1.N) (i : Fin 1) (q : Fin 128) :
    ((cfg1.win 4).blk t).view.read (Elt F) A (ix2 i q) = A (ix2 i q) := by
  obtain ⟨e0, e1⟩ := idx1_4 t
  show A (((cfg1.win 4).blk t).view.emb (ix2 i q)) = _
  congr 1
  funext a; apply Fin.ext
  match a with
  | ⟨0, _⟩ => show win1_4.index t (0 : Fin 2) * 1 + 1 * i.val = i.val; omega
  | ⟨1, _⟩ => show win1_4.index t (1 : Fin 2) * 128 + 1 * q.val = q.val; omega

theorem idx1_5 : ∀ t : Fin cfg1.N, win1_5.index t (0 : Fin 2) = 0 ∧ win1_5.index t (1 : Fin 2) = 0 :=
  (by decide +kernel : ∀ t : Fin grid1.N, _)
theorem blk1_5_apply (A : S128x128.Idx → Elt F .f32) (t : Fin cfg1.N) (i : Fin 128) (q : Fin 128) :
    ((cfg1.win 5).blk t).view.read (Elt F) A (ix2 i q) = A (ix2 i q) := by
  obtain ⟨e0, e1⟩ := idx1_5 t
  show A (((cfg1.win 5).blk t).view.emb (ix2 i q)) = _
  congr 1
  funext a; apply Fin.ext
  match a with
  | ⟨0, _⟩ => show win1_5.index t (0 : Fin 2) * 128 + 1 * i.val = i.val; omega
  | ⟨1, _⟩ => show win1_5.index t (1 : Fin 2) * 128 + 1 * q.val = q.val; omega

theorem idx1_6 : ∀ t : Fin cfg1.N, win1_6.index t (0 : Fin 2) = 0 ∧ win1_6.index t (1 : Fin 2) = 0 :=
  (by decide +kernel : ∀ t : Fin grid1.N, _)
theorem blk1_6_apply (A : S256x128.Idx → Elt F .f32) (t : Fin cfg1.N) (i : Fin 256) (q : Fin 128) :
    ((cfg1.win 6).blk t).view.read (Elt F) A (ix2 i q) = A (ix2 i q) := by
  obtain ⟨e0, e1⟩ := idx1_6 t
  show A (((cfg1.win 6).blk t).view.emb (ix2 i q)) = _
  congr 1
  funext a; apply Fin.ext
  match a with
  | ⟨0, _⟩ => show win1_6.index t (0 : Fin 2) * 256 + 1 * i.val = i.val; omega
  | ⟨1, _⟩ => show win1_6.index t (1 : Fin 2) * 128 + 1 * q.val = q.val; omega

theorem idx1_7 : ∀ t : Fin cfg1.N, win1_7.index t (0 : Fin 2) = 0 ∧ win1_7.index t (1 : Fin 2) = 0 :=
  (by decide +kernel : ∀ t : Fin grid1.N, _)
theorem blk1_7_apply (A : S256x1.Idx → Elt F .f32) (t : Fin cfg1.N) (i : Fin 256) (q : Fin 1) :
    ((cfg1.win 7).blk t).view.read (Elt F) A (ix2 i q) = A (ix2 i q) := by
  obtain ⟨e0, e1⟩ := idx1_7 t
  show A (((cfg1.win 7).blk t).view.emb (ix2 i q)) = _
  congr 1
  funext a; apply Fin.ext
  match a with
  | ⟨0, _⟩ => show win1_7.index t (0 : Fin 2) * 256 + 1 * i.val = i.val; omega
  | ⟨1, _⟩ => show win1_7.index t (1 : Fin 2) * 1 + 1 * q.val = q.val; omega

theorem idx1_8 : ∀ t : Fin cfg1.N, win1_8.index t (0 : Fin 2) = 0 ∧ win1_8.index t (1 : Fin 2) = 0 :=
  (by decide +kernel : ∀ t : Fin grid1.N, _)
theorem blk1_8_apply (A : S128x8.Idx → Elt F .f32) (t : Fin cfg1.N) (i : Fin 128) (q : Fin 8) :
    ((cfg1.win 8).blk t).view.read (Elt F) A (ix2 i q) = A (ix2 i q) := by
  obtain ⟨e0, e1⟩ := idx1_8 t
  show A (((cfg1.win 8).blk t).view.emb (ix2 i q)) = _
  congr 1
  funext a; apply Fin.ext
  match a with
  | ⟨0, _⟩ => show win1_8.index t (0 : Fin 2) * 128 + 1 * i.val = i.val; omega
  | ⟨1, _⟩ => show win1_8.index t (1 : Fin 2) * 8 + 1 * q.val = q.val; omega

theorem idx1_9 : ∀ t : Fin cfg1.N, win1_9.index t (0 : Fin 2) = 0 ∧ win1_9.index t (1 : Fin 2) = 0 :=
  (by decide +kernel : ∀ t : Fin grid1.N, _)
theorem blk1_9_apply (A : S128x8.Idx → Elt F .f32) (t : Fin cfg1.N) (i : Fin 128) (q : Fin 8) :
    ((cfg1.win 9).blk t).view.read (Elt F) A (ix2 i q) = A (ix2 i q) := by
  obtain ⟨e0, e1⟩ := idx1_9 t
  show A (((cfg1.win 9).blk t).view.emb (ix2 i q)) = _
  congr 1
  funext a; apply Fin.ext
  match a with
  | ⟨0, _⟩ => show win1_9.index t (0 : Fin 2) * 128 + 1 * i.val = i.val; omega
  | ⟨1, _⟩ => show win1_9.index t (1 : Fin 2) * 8 + 1 * q.val = q.val; omega

theorem idx1_10 : ∀ t : Fin cfg1.N, win1_10.index t (0 : Fin 2) = 0 ∧ win1_10.index t (1 : Fin 2) = 0 :=
  (by decide +kernel : ∀ t : Fin grid1.N, _)
theorem blk1_10_apply (A : S1x8.Idx → Elt F .f32) (t : Fin cfg1.N) (i : Fin 1) (q : Fin 8) :
    ((cfg1.win 10).blk t).view.read (Elt F) A (ix2 i q) = A (ix2 i q) := by
  obtain ⟨e0, e1⟩ := idx1_10 t
  show A (((cfg1.win 10).blk t).view.emb (ix2 i q)) = _
  congr 1
  funext a; apply Fin.ext
  match a with
  | ⟨0, _⟩ => show win1_10.index t (0 : Fin 2) * 1 + 1 * i.val = i.val; omega
  | ⟨1, _⟩ => show win1_10.index t (1 : Fin 2) * 8 + 1 * q.val = q.val; omega

theorem idx1_11 : ∀ t : Fin cfg1.N, win1_11.index t (0 : Fin 2) = 0 ∧ win1_11.index t (1 : Fin 2) = 0 :=
  (by decide +kernel : ∀ t : Fin grid1.N, _)
theorem blk1_11_apply (A : S128x8.Idx → Elt F .f32) (t : Fin cfg1.N) (i : Fin 128) (q : Fin 8) :
    ((cfg1.win 11).blk t).view.read (Elt F) A (ix2 i q) = A (ix2 i q) := by
  obtain ⟨e0, e1⟩ := idx1_11 t
  show A (((cfg1.win 11).blk t).view.emb (ix2 i q)) = _
  congr 1
  funext a; apply Fin.ext
  match a with
  | ⟨0, _⟩ => show win1_11.index t (0 : Fin 2) * 128 + 1 * i.val = i.val; omega
  | ⟨1, _⟩ => show win1_11.index t (1 : Fin 2) * 8 + 1 * q.val = q.val; omega

theorem idx1_12 : ∀ t : Fin cfg1.N, win1_12.index t (0 : Fin 2) = 0 ∧ win1_12.index t (1 : Fin 2) = 0 :=
  (by decide +kernel : ∀ t : Fin grid1.N, _)
theorem blk1_12_apply (A : S128x8.Idx → Elt F .f32) (t : Fin cfg1.N) (i : Fin 128) (q : Fin 8) :
    ((cfg1.win 12).blk t).view.read (Elt F) A (ix2 i q) = A (ix2 i q) := by
  obtain ⟨e0, e1⟩ := idx1_12 t
  show A (((cfg1.win 12).blk t).view.emb (ix2 i q)) = _
  congr 1
  funext a; apply Fin.ext
  match a with
  | ⟨0, _⟩ => show win1_12.index t (0 : Fin 2) * 128 + 1 * i.val = i.val; omega
  | ⟨1, _⟩ => show win1_12.index t (1 : Fin 2) * 8 + 1 * q.val = q.val; omega

theorem idx1_13 : ∀ t : Fin cfg1.N, win1_13.index t (0 : Fin 2) = 0 ∧ win1_13.index t (1 : Fin 2) = 0 :=
  (by decide +kernel : ∀ t : Fin grid1.N, _)
theorem blk1_13_apply (A : S1x8.Idx → Elt F .f32) (t : Fin cfg1.N) (i : Fin 1) (q : Fin 8) :
    ((cfg1.win 13).blk t).view.read (Elt F) A (ix2 i q) = A (ix2 i q) := by
  obtain ⟨e0, e1⟩ := idx1_13 t
  show A (((cfg1.win 13).blk t).view.emb (ix2 i q)) = _
  congr 1
  funext a; apply Fin.ext
  match a with
  | ⟨0, _⟩ => show win1_13.index t (0 : Fin 2) * 1 + 1 * i.val = i.val; omega
  | ⟨1, _⟩ => show win1_13.index t (1 : Fin 2) * 8 + 1 * q.val = q.val; omega

end Cert.KernelIdeal.Hand

end
-- ==== Proof.KVal0.lean ====
import proofs.«163481_g30743375904785_cont_sun_c4_101_2_alg».proof.Proof.Reg0Data
import proofs.«163481_g30743375904785_cont_sun_c4_101_2_alg».proof.Proof.Reg0Value
import proofs.«163481_g30743375904785_cont_sun_c4_101_2_alg».proof.Proof.Spec
import proofs.«163481_g30743375904785_cont_sun_c4_101_2_alg».proof.Proof.OneHot
import proofs.«163481_g30743375904785_cont_sun_c4_101_2_alg».proof.Proof.Blocks
import proofs.«163481_g30743375904785_cont_sun_c4_101_2_alg».proof.Proof.BlocksFixed
import Idealize.ShloMosaic.PureOps.Ideal.Laws
import Idealize.ShloMosaic.Lib.ValueIdx

set_option maxRecDepth 16384

/-!
  What the first kernel region leaves in its two output buffers, at the ideal instance. The scratch holds, from the first
  point on, the per-graph table (graph features through their weights, plus the bias). Point `t` adds to the sum of
  graph `b`, over the 4000 edges of its block, the one-hot entry of the edge's id at `b` times the edge's rectified
  activation, whose graph term is the one-hot product of the id with the table; and to the count of `b` the one-hot
  row's sum. Over the 80 points these are sums over all 320000 edges, that is over the edges whose id is `b`'s word,
  and for such an edge the one-hot product with the table is the table's row `b`.
-/

noncomputable section

namespace Cert.KernelIdeal.Hand

open Idealize.ShloMosaic Idealize.ShloMosaic.TcCoe
open Idealize.ShloMosaic.Pipeline (Dat Cfg Window)
open Idealize.ShloMosaic.ValueIdx
open Cert.KernelIdeal Cert.KernelIdeal.Gen
open Cert.Spec

variable (V : (c : Dev nD) → (b : Ref sig .tc) → Buf (Elt Ideal) ((c : Thread nD τ).loc b))

/-- The first grid point. -/
abbrev t00 : Fin cfg0.N := ⟨0, by rw [show cfg0.N = 80 from N_0]; omega⟩

/-- The blocks the body loads at point `t`, at their literal shapes: the ids, the edge rows, and the four fixed windows. -/
def ids0 (c : Dev nD) (t : Fin cfg0.N) : Vec Ideal S1x1x4000 .i32 := iblk0 V c 0 t
def ea0 (c : Dev nD) (t : Fin cfg0.N) : Vec Ideal S4000x16 .f32 := iblk0 V c 1 t
def u0 (c : Dev nD) (t : Fin cfg0.N) : Vec Ideal S256x32 .f32 := iblk0 V c 2 t
def Wue0 (c : Dev nD) (t : Fin cfg0.N) : Vec Ideal S32x128 .f32 := iblk0 V c 3 t
def be0 (c : Dev nD) (t : Fin cfg0.N) : Vec Ideal S1x128 .f32 := iblk0 V c 4 t
def We0 (c : Dev nD) (t : Fin cfg0.N) : Vec Ideal S16x128 .f32 := iblk0 V c 5 t

/-- The per-graph table the first point writes into the scratch: the graph features through their weights, plus the bias row. -/
def ue0 (c : Dev nD) : Vec Ideal S256x128 .f32 := k0_pay1 (u0 V c t00) (Wue0 V c t00) (be0 V c t00)

/-- The scratch holds that table after every point: only the first point stores into it. -/
theorem scratch0_eq (c : Dev nD) (n : ℕ) (h : n < cfg0.N) : (outsAt0 V c n h).2.2 = ue0 V c := by
  induction n with
  | zero => rfl
  | succ n ih => exact ih (Nat.lt_of_succ_lt h)

/-- What point `t` adds to the sum of graph `b`, column `k`: over the block's 4000 edges, the one-hot entry times the
    rectified sum of the edge's projected attributes and its graph's table row (itself a one-hot product). -/
def term0 (c : Dev nD) (b : Fin 256) (k : Fin 128) (t : ℕ) : EReal :=
  if ht : t < cfg0.N then
    ∑ j : Fin 4000, ohv (ids0 V c ⟨t, ht⟩ (ix3 (0 : Fin 1) (0 : Fin 1) j)) b *
      max ((∑ q : Fin 16, ea0 V c ⟨t, ht⟩ (ix2 j q) * We0 V c ⟨t, ht⟩ (ix2 q k))
        + ∑ b' : Fin 256, ohv (ids0 V c ⟨t, ht⟩ (ix3 (0 : Fin 1) (0 : Fin 1) j)) b' * ue0 V c (ix2 b' k)) 0
  else 0

/-- What point `t` adds to the count of graph `b`: the block's one-hot row, summed. -/
def cterm0 (c : Dev nD) (b : Fin 256) (t : ℕ) : EReal :=
  if ht : t < cfg0.N then ∑ j : Fin 4000, ohv (ids0 V c ⟨t, ht⟩ (ix3 (0 : Fin 1) (0 : Fin 1) j)) b else 0

/-- The first output buffer after the first point: zero plus the point's term. -/
theorem acc0_zero (c : Dev nD) (b : Fin 256) (k : Fin 128) (h0 : 0 < cfg0.N) :
    (outsAt0 V c 0 h0).1 (ix2 b k) = 0 + term0 V c b k 0 := by
  unfold term0; rw [dif_pos h0]
  refine (k0_pay5_apply (ids0 V c ⟨0, h0⟩) (ea0 V c ⟨0, h0⟩) (We0 V c ⟨0, h0⟩) (ue0 V c) (k0_pay2 (F := Ideal)) b k).trans ?_
  rw [k0_pay2_apply]

/-- The first output buffer after a later point: what the point before left plus the point's term. -/
theorem acc0_succ (c : Dev nD) (b : Fin 256) (k : Fin 128) (n : ℕ) (hn : n + 1 < cfg0.N) :
    (outsAt0 V c (n + 1) hn).1 (ix2 b k) = (outsAt0 V c n (Nat.lt_of_succ_lt hn)).1 (ix2 b k) + term0 V c b k (n + 1) := by
  unfold term0; rw [dif_pos hn]
  refine (k0_pay5_apply (ids0 V c ⟨n + 1, hn⟩) (ea0 V c ⟨n + 1, hn⟩) (We0 V c ⟨n + 1, hn⟩)
    (outsAt0 V c n (Nat.lt_of_succ_lt hn)).2.2 (outsAt0 V c n (Nat.lt_of_succ_lt hn)).1 b k).trans ?_
  rw [scratch0_eq V c n (Nat.lt_of_succ_lt hn)]

/-- After point `n` the first output buffer holds, at `(b, k)`, the sum of the points' terms so far. -/
theorem acc0_eq_sum (c : Dev nD) (b : Fin 256) (k : Fin 128) (n : ℕ) (h : n < cfg0.N) :
    (outsAt0 V c n h).1 (ix2 b k) = ∑ t ∈ Finset.range (n + 1), term0 V c b k t := by
  induction n with
  | zero => rw [acc0_zero V c b k h, zero_add, Finset.sum_range_one]
  | succ n ih => rw [acc0_succ V c b k n h, ih (Nat.lt_of_succ_lt h), Finset.sum_range_succ _ (n + 1)]

theorem cnt0_zero (c : Dev nD) (b : Fin 256) (h0 : 0 < cfg0.N) :
    (outsAt0 V c 0 h0).2.1 (ix2 b (0 : Fin 1)) = 0 + cterm0 V c b 0 := by
  unfold cterm0; rw [dif_pos h0]
  refine (k0_pay6_apply (ids0 V c ⟨0, h0⟩) (k0_pay3 (F := Ideal)) b).trans ?_
  rw [k0_pay3_apply]

theorem cnt0_succ (c : Dev nD) (b : Fin 256) (n : ℕ) (hn : n + 1 < cfg0.N) :
    (outsAt0 V c (n + 1) hn).2.1 (ix2 b (0 : Fin 1))
      = (outsAt0 V c n (Nat.lt_of_succ_lt hn)).2.1 (ix2 b (0 : Fin 1)) + cterm0 V c b (n + 1) := by
  unfold cterm0; rw [dif_pos hn]
  exact k0_pay6_apply (ids0 V c ⟨n + 1, hn⟩) (outsAt0 V c n (Nat.lt_of_succ_lt hn)).2.1 b

/-- After point `n` the second output buffer holds, at `b`, the sum of the points' one-hot row sums so far. -/
theorem cnt0_eq_sum (c : Dev nD) (b : Fin 256) (n : ℕ) (h : n < cfg0.N) :
    (outsAt0 V c n h).2.1 (ix2 b (0 : Fin 1)) = ∑ t ∈ Finset.range (n + 1), cterm0 V c b t := by
  induction n with
  | zero => rw [cnt0_zero V c b h, zero_add, Finset.sum_range_one]
  | succ n ih => rw [cnt0_succ V c b n h, ih (Nat.lt_of_succ_lt h), Finset.sum_range_succ _ (n + 1)]

/-! ## The blocks read off the arrays the region finds -/

/-- The arrays behind the six input windows, at their literal shapes. -/
def arrIds0 (c : Dev nD) : S80x1x4000.Idx → BitVec 32 := V c main_v0
def arrEa0 (c : Dev nD) : S320000x16.Idx → EReal := V c main_arg1
def arrU0 (c : Dev nD) : S256x32.Idx → EReal := V c main_arg2
def arrWue0 (c : Dev nD) : S32x128.Idx → EReal := V c main_arg6
def arrBe0 (c : Dev nD) : S1x128.Idx → EReal := V c main_v2
def arrWe0 (c : Dev nD) : S16x128.Idx → EReal := V c main_arg5

theorem ids0_apply (c : Dev nD) (t : Fin cfg0.N) (j : Fin 4000) :
    ids0 V c t (ix3 (0 : Fin 1) (0 : Fin 1) j) = arrIds0 V c (ix3 (⟨t.val, lt80 t⟩ : Fin 80) (0 : Fin 1) j) :=
  blk0_0_apply (F := Ideal) (V c main_v0) t j
theorem ea0_apply (c : Dev nD) (t : Fin cfg0.N) (j : Fin 4000) (q : Fin 16) :
    ea0 V c t (ix2 j q) = arrEa0 V c (ix2 (⟨4000 * t.val + j.val, by have := lt80 t; omega⟩ : Fin 320000) q) :=
  blk0_1_apply (F := Ideal) (V c main_arg1) t j q
theorem u0_apply (c : Dev nD) (t : Fin cfg0.N) (i : Fin 256) (q : Fin 32) : u0 V c t (ix2 i q) = arrU0 V c (ix2 i q) :=
  blk0_2_apply (F := Ideal) (V c main_arg2) t i q
theorem Wue0_apply (c : Dev nD) (t : Fin cfg0.N) (i : Fin 32) (q : Fin 128) : Wue0 V c t (ix2 i q) = arrWue0 V c (ix2 i q) :=
  blk0_3_apply (F := Ideal) (V c main_arg6) t i q
theorem be0_apply (c : Dev nD) (t : Fin cfg0.N) (i : Fin 1) (q : Fin 128) : be0 V c t (ix2 i q) = arrBe0 V c (ix2 i q) :=
  blk0_4_apply (F := Ideal) (V c main_v2) t i q
theorem We0_apply (c : Dev nD) (t : Fin cfg0.N) (i : Fin 16) (q : Fin 128) : We0 V c t (ix2 i q) = arrWe0 V c (ix2 i q) :=
  blk0_5_apply (F := Ideal) (V c main_arg5) t i q

/-- The scratch table at `(b, k)`: graph `b`'s features through the weights' column `k`, plus the bias. -/
theorem ue0_apply (c : Dev nD) (b : Fin 256) (k : Fin 128) :
    ue0 V c (ix2 b k) = (∑ q : Fin 32, arrU0 V c (ix2 b q) * arrWue0 V c (ix2 q k)) + arrBe0 V c (ix2 (0 : Fin 1) k) := by
  unfold ue0
  refine (k0_pay1_apply (u0 V c t00) (Wue0 V c t00) (be0 V c t00) b k).trans ?_
  simp only [u0_apply, Wue0_apply, be0_apply]

/-- An edge's activation as the kernel forms it: the rectified sum of its projected attributes and the one-hot product
    of its id with the table. -/
def actK0 (c : Dev nD) (g : BitVec 32) (e : Fin 320000) (k : Fin 128) : EReal :=
  max ((∑ q : Fin 16, arrEa0 V c (ix2 e q) * arrWe0 V c (ix2 q k)) + ∑ b' : Fin 256, ohv g b' * ue0 V c (ix2 b' k)) 0

/-- A point's term over the arrays: its 4000 edges are the edges `4000 t + j`. -/
theorem term0_global (c : Dev nD) (b : Fin 256) (k : Fin 128) (t : Fin 80) :
    term0 V c b k t.val = ∑ j : Fin 4000,
      ohv (arrIds0 V c (ix3 t (0 : Fin 1) j)) b
        * actK0 V c (arrIds0 V c (ix3 t (0 : Fin 1) j)) (⟨4000 * t.val + j.val, Cert.Algebra.block_lt t j⟩ : Fin 320000) k := by
  have ht : t.val < cfg0.N := by rw [show cfg0.N = 80 from N_0]; exact t.isLt
  unfold term0 actK0; rw [dif_pos ht]
  simp only [ids0_apply, ea0_apply, We0_apply]

theorem cterm0_global (c : Dev nD) (b : Fin 256) (t : Fin 80) :
    cterm0 V c b t.val = ∑ j : Fin 4000, ohv (arrIds0 V c (ix3 t (0 : Fin 1) j)) b := by
  have ht : t.val < cfg0.N := by rw [show cfg0.N = 80 from N_0]; exact t.isLt
  unfold cterm0; rw [dif_pos ht]
  simp only [ids0_apply]

/-! ## The first region's two results, over the flat edge ids -/

section Final
variable (c : Dev nD) (e2g : S320000.Idx → BitVec 32)
  (hids : ∀ (t : Fin 80) (j : Fin 4000), arrIds0 V c (ix3 t (0 : Fin 1) j) = e2g (ix1 (⟨4000 * t.val + j.val, Cert.Algebra.block_lt t j⟩ : Fin 320000)))
include hids

/-- The sum the first region leaves for graph `b`, column `k`: over the edges whose id is `b`'s word, the rectified sum
    of the edge's projected attributes and the table's row `b`. -/
theorem acc0_final (b : Fin 256) (k : Fin 128) (h79 : 79 < cfg0.N) :
    (outsAt0 V c 79 h79).1 (ix2 b k)
      = ∑ e ∈ Finset.univ.filter (fun e : Fin 320000 => e2g (ix1 e) = BitVec.ofNat 32 b.val),
          max ((∑ q : Fin 16, arrEa0 V c (ix2 e q) * arrWe0 V c (ix2 q k)) + ue0 V c (ix2 b k)) 0 := by
  rw [acc0_eq_sum V c b k 79 h79, ← Fin.sum_univ_eq_sum_range (fun t => term0 V c b k t) 80]
  rw [show (∑ t : Fin 80, term0 V c b k t.val)
      = ∑ t : Fin 80, ∑ j : Fin 4000, (fun e : Fin (80 * 4000) => ohv (e2g (ix1 (e : Fin 320000))) b * actK0 V c (e2g (ix1 (e : Fin 320000))) e k)
          ⟨4000 * t.val + j.val, Cert.Algebra.block_lt t j⟩ from
    Finset.sum_congr rfl fun t _ => (term0_global V c b k t).trans (Finset.sum_congr rfl fun j _ => by rw [hids t j])]
  refine (Cert.Algebra.sum_blocks_fin 80 4000
    (fun e : Fin (80 * 4000) => ohv (e2g (ix1 (e : Fin 320000))) b * actK0 V c (e2g (ix1 (e : Fin 320000))) e k)
    (fun t j => Cert.Algebra.block_lt t j)).trans ?_
  show (∑ e : Fin 320000, ohv (e2g (ix1 e)) b * actK0 V c (e2g (ix1 e)) e k) = _
  simp only [ohv_def]
  rw [Cert.Algebra.sum_indicator_mul (fun e : Fin 320000 => e2g (ix1 e) = BitVec.ofNat 32 b.val)]
  refine Finset.sum_congr rfl fun e he => ?_
  have hg : e2g (ix1 e) = BitVec.ofNat 32 b.val := (Finset.mem_filter.mp he).2
  unfold actK0
  rw [hg]
  simp only [ohv_ofNat]
  rw [Cert.Algebra.sum_onehot_mul b fun b' => ue0 V c (ix2 b' k)]

/-- The count the first region leaves for graph `b`: one per edge whose id is `b`'s word. -/
theorem cnt0_final (b : Fin 256) (h79 : 79 < cfg0.N) :
    (outsAt0 V c 79 h79).2.1 (ix2 b (0 : Fin 1))
      = ∑ e ∈ Finset.univ.filter (fun e : Fin 320000 => e2g (ix1 e) = BitVec.ofNat 32 b.val), (1 : EReal) := by
  rw [cnt0_eq_sum V c b 79 h79, ← Fin.sum_univ_eq_sum_range (fun t => cterm0 V c b t) 80]
  rw [show (∑ t : Fin 80, cterm0 V c b t.val)
      = ∑ t : Fin 80, ∑ j : Fin 4000, (fun e : Fin (80 * 4000) => ohv (e2g (ix1 (e : Fin 320000))) b)
          ⟨4000 * t.val + j.val, Cert.Algebra.block_lt t j⟩ from
    Finset.sum_congr rfl fun t _ => (cterm0_global V c b t).trans (Finset.sum_congr rfl fun j _ => by rw [hids t j])]
  refine (Cert.Algebra.sum_blocks_fin 80 4000
    (fun e : Fin (80 * 4000) => ohv (e2g (ix1 (e : Fin 320000))) b)
    (fun t j => Cert.Algebra.block_lt t j)).trans ?_
  show (∑ e : Fin 320000, ohv (e2g (ix1 e)) b) = _
  simp only [ohv_def]
  exact Cert.Algebra.sum_indicator (fun e : Fin 320000 => e2g (ix1 e) = BitVec.ofNat 32 b.val)

end Final

end Cert.KernelIdeal.Hand

end
-- ==== Proof.Reg1Pieces.lean ====
import proofs.«163481_g30743375904785_cont_sun_c4_101_2_alg».proof.Proof.Reg1Outs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The found pieces read back as the skeleton's payloads

Every load and every store of the body is of a whole buffer, so what a buffer holds after a case is its last
stored payload, and what a load after a store reads is that store's payload. -/

theorem hz2 : (![0, 0] : Fin 2 → Nat) = fun _ => 0 := funext fun a => by fin_cases a <;> rfl
theorem hz3 : (![0, 0, 0] : Fin 3 → Nat) = fun _ => 0 := funext fun a => by fin_cases a <;> rfl

/-- The first point leaves the projected per-graph input in the first scratch buffer; -/
theorem sout1_A_0_eq (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : cond1_0 i) (hc1 : ¬cond1_1 i)
    (x0 : Vec F S1x1x2000 .i32) (x1 : Vec F S2000x128 .f32) (x2 : Vec F S256x32 .f32) (x3 : Vec F S32x128 .f32) (x4 : Vec F S1x128 .f32) (x5 : Vec F S128x128 .f32) :
    sout1_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 = k1_pay7 x2 x3 x4 := by
  unfold sout1_A_0
  rw [View.read_writes_eq_canon _ _ _ (scover1_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5)]
  unfold kernelRun1_A
  dsimp only
  sl_unfold_words
  simp only [View.canon_unit_zero (S := S256x128) hz2, View.canon_cons_unit_zero (S := S256x128) hz2, View.readCov_unit_zero (S := S256x128) _ hz2, View.canon_unit_zero (S := S256x1) hz2, View.canon_cons_unit_zero (S := S256x1) hz2, View.readCov_unit_zero (S := S256x1) _ hz2, View.canon_unit_zero (S := S256x8) hz2, View.canon_cons_unit_zero (S := S256x8) hz2, View.readCov_unit_zero (S := S256x8) _ hz2, View.readAt_eq_ld, harg1.read_unread, harg2.read_unread, harg3.read_unread, harg4.read_unread, harg5.read_unread, harg6.read_unread, View.ld_unit_zero (S := S1x1x2000) hz3, View.ld_unit_zero (S := S2000x128) hz2, View.ld_unit_zero (S := S256x32) hz2, View.ld_unit_zero (S := S32x128) hz2, View.ld_unit_zero (S := S1x128) hz2, View.ld_unit_zero (S := S128x128) hz2, View.ld_unit_zero (S := S256x128) hz2, View.ld_unit_zero (S := S256x1) hz2, View.ld_unit_zero (S := S128x8) hz2, View.ld_unit_zero (S := S1x8) hz2, View.ld_unit_zero (S := S256x8) hz2]

/-- in the second, the first block's contribution added to the zero block it has just stored, over the projection it has just stored; -/
theorem sout1_A_1_eq (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : cond1_0 i) (hc1 : ¬cond1_1 i)
    (x0 : Vec F S1x1x2000 .i32) (x1 : Vec F S2000x128 .f32) (x2 : Vec F S256x32 .f32) (x3 : Vec F S32x128 .f32) (x4 : Vec F S1x128 .f32) (x5 : Vec F S128x128 .f32) :
    sout1_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 = k1_pay11 x0 x1 x5 (k1_pay7 x2 x3 x4) k1_pay8 := by
  unfold sout1_A_1
  rw [View.read_writes_eq_canon _ _ _ (scover1_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5)]
  unfold kernelRun1_A
  dsimp only
  sl_unfold_words
  simp only [View.canon_unit_zero (S := S256x128) hz2, View.canon_cons_unit_zero (S := S256x128) hz2, View.readCov_unit_zero (S := S256x128) _ hz2, View.canon_unit_zero (S := S256x1) hz2, View.canon_cons_unit_zero (S := S256x1) hz2, View.readCov_unit_zero (S := S256x1) _ hz2, View.canon_unit_zero (S := S256x8) hz2, View.canon_cons_unit_zero (S := S256x8) hz2, View.readCov_unit_zero (S := S256x8) _ hz2, View.readAt_eq_ld, harg1.read_unread, harg2.read_unread, harg3.read_unread, harg4.read_unread, harg5.read_unread, harg6.read_unread, View.ld_unit_zero (S := S1x1x2000) hz3, View.ld_unit_zero (S := S2000x128) hz2, View.ld_unit_zero (S := S256x32) hz2, View.ld_unit_zero (S := S32x128) hz2, View.ld_unit_zero (S := S1x128) hz2, View.ld_unit_zero (S := S128x128) hz2, View.ld_unit_zero (S := S256x128) hz2, View.ld_unit_zero (S := S256x1) hz2, View.ld_unit_zero (S := S128x8) hz2, View.ld_unit_zero (S := S1x8) hz2, View.ld_unit_zero (S := S256x8) hz2]

/-- in the third, the first block's counts added to the zero column. -/
theorem sout1_A_2_eq (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : cond1_0 i) (hc1 : ¬cond1_1 i)
    (x0 : Vec F S1x1x2000 .i32) (x1 : Vec F S2000x128 .f32) (x2 : Vec F S256x32 .f32) (x3 : Vec F S32x128 .f32) (x4 : Vec F S1x128 .f32) (x5 : Vec F S128x128 .f32) :
    sout1_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 = k1_pay12 x0 k1_pay9 := by
  unfold sout1_A_2
  rw [View.read_writes_eq_canon _ _ _ (scover1_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5)]
  unfold kernelRun1_A
  dsimp only
  sl_unfold_words
  simp only [View.canon_unit_zero (S := S256x128) hz2, View.canon_cons_unit_zero (S := S256x128) hz2, View.readCov_unit_zero (S := S256x128) _ hz2, View.canon_unit_zero (S := S256x1) hz2, View.canon_cons_unit_zero (S := S256x1) hz2, View.readCov_unit_zero (S := S256x1) _ hz2, View.canon_unit_zero (S := S256x8) hz2, View.canon_cons_unit_zero (S := S256x8) hz2, View.readCov_unit_zero (S := S256x8) _ hz2, View.readAt_eq_ld, harg1.read_unread, harg2.read_unread, harg3.read_unread, harg4.read_unread, harg5.read_unread, harg6.read_unread, View.ld_unit_zero (S := S1x1x2000) hz3, View.ld_unit_zero (S := S2000x128) hz2, View.ld_unit_zero (S := S256x32) hz2, View.ld_unit_zero (S := S32x128) hz2, View.ld_unit_zero (S := S1x128) hz2, View.ld_unit_zero (S := S128x128) hz2, View.ld_unit_zero (S := S256x128) hz2, View.ld_unit_zero (S := S256x1) hz2, View.ld_unit_zero (S := S128x8) hz2, View.ld_unit_zero (S := S1x8) hz2, View.ld_unit_zero (S := S256x8) hz2]

/-- A middle point adds its block's contribution to the second scratch buffer -/
theorem sout1_B_1_eq (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : ¬cond1_1 i)
    (x0 : Vec F S1x1x2000 .i32) (x1 : Vec F S2000x128 .f32) (x5 : Vec F S128x128 .f32) (xs0 : Vec F S256x128 .f32) (xs1 : Vec F S256x128 .f32) (xs2 : Vec F S256x1 .f32) :
    sout1_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 xs0 xs1 xs2 = k1_pay11 x0 x1 x5 xs0 xs1 := by
  unfold sout1_B_1
  rw [View.read_writes_eq_canon _ _ _ (scover1_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 xs0 xs1 xs2)]
  unfold kernelRun1_B
  dsimp only
  sl_unfold_words
  simp only [View.canon_unit_zero (S := S256x128) hz2, View.canon_cons_unit_zero (S := S256x128) hz2, View.readCov_unit_zero (S := S256x128) _ hz2, View.canon_unit_zero (S := S256x1) hz2, View.canon_cons_unit_zero (S := S256x1) hz2, View.readCov_unit_zero (S := S256x1) _ hz2, View.canon_unit_zero (S := S256x8) hz2, View.canon_cons_unit_zero (S := S256x8) hz2, View.readCov_unit_zero (S := S256x8) _ hz2, View.readAt_eq_ld, harg1.read_unread, harg2.read_unread, harg6.read_unread, harg17.read_unread, harg18.read_unread, harg19.read_unread, View.ld_unit_zero (S := S1x1x2000) hz3, View.ld_unit_zero (S := S2000x128) hz2, View.ld_unit_zero (S := S256x32) hz2, View.ld_unit_zero (S := S32x128) hz2, View.ld_unit_zero (S := S1x128) hz2, View.ld_unit_zero (S := S128x128) hz2, View.ld_unit_zero (S := S256x128) hz2, View.ld_unit_zero (S := S256x1) hz2, View.ld_unit_zero (S := S128x8) hz2, View.ld_unit_zero (S := S1x8) hz2, View.ld_unit_zero (S := S256x8) hz2]

/-- and its counts to the third. -/
theorem sout1_B_2_eq (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : ¬cond1_1 i)
    (x0 : Vec F S1x1x2000 .i32) (x1 : Vec F S2000x128 .f32) (x5 : Vec F S128x128 .f32) (xs0 : Vec F S256x128 .f32) (xs1 : Vec F S256x128 .f32) (xs2 : Vec F S256x1 .f32) :
    sout1_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 xs0 xs1 xs2 = k1_pay12 x0 xs2 := by
  unfold sout1_B_2
  rw [View.read_writes_eq_canon _ _ _ (scover1_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 xs0 xs1 xs2)]
  unfold kernelRun1_B
  dsimp only
  sl_unfold_words
  simp only [View.canon_unit_zero (S := S256x128) hz2, View.canon_cons_unit_zero (S := S256x128) hz2, View.readCov_unit_zero (S := S256x128) _ hz2, View.canon_unit_zero (S := S256x1) hz2, View.canon_cons_unit_zero (S := S256x1) hz2, View.readCov_unit_zero (S := S256x1) _ hz2, View.canon_unit_zero (S := S256x8) hz2, View.canon_cons_unit_zero (S := S256x8) hz2, View.readCov_unit_zero (S := S256x8) _ hz2, View.readAt_eq_ld, harg1.read_unread, harg2.read_unread, harg6.read_unread, harg17.read_unread, harg18.read_unread, harg19.read_unread, View.ld_unit_zero (S := S1x1x2000) hz3, View.ld_unit_zero (S := S2000x128) hz2, View.ld_unit_zero (S := S256x32) hz2, View.ld_unit_zero (S := S32x128) hz2, View.ld_unit_zero (S := S1x128) hz2, View.ld_unit_zero (S := S128x128) hz2, View.ld_unit_zero (S := S256x128) hz2, View.ld_unit_zero (S := S256x1) hz2, View.ld_unit_zero (S := S128x8) hz2, View.ld_unit_zero (S := S1x8) hz2, View.ld_unit_zero (S := S256x8) hz2]

/-- The last point adds as a middle point does, -/
theorem sout1_C_1_eq (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : cond1_1 i)
    (x0 : Vec F S1x1x2000 .i32) (x1 : Vec F S2000x128 .f32) (x5 : Vec F S128x128 .f32) (x6 : Vec F S256x128 .f32) (x7 : Vec F S256x1 .f32) (x8 : Vec F S128x8 .f32) (x9 : Vec F S128x8 .f32) (x10 : Vec F S1x8 .f32) (x11 : Vec F S128x8 .f32) (x12 : Vec F S128x8 .f32) (x13 : Vec F S1x8 .f32) (xs0 : Vec F S256x128 .f32) (xs1 : Vec F S256x128 .f32) (xs2 : Vec F S256x1 .f32) :
    sout1_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2 = k1_pay11 x0 x1 x5 xs0 xs1 := by
  unfold sout1_C_1
  rw [View.read_writes_eq_canon _ _ _ (scover1_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2)]
  unfold kernelRun1_C
  dsimp only
  sl_unfold_words
  simp only [View.canon_unit_zero (S := S256x128) hz2, View.canon_cons_unit_zero (S := S256x128) hz2, View.readCov_unit_zero (S := S256x128) _ hz2, View.canon_unit_zero (S := S256x1) hz2, View.canon_cons_unit_zero (S := S256x1) hz2, View.readCov_unit_zero (S := S256x1) _ hz2, View.canon_unit_zero (S := S256x8) hz2, View.canon_cons_unit_zero (S := S256x8) hz2, View.readCov_unit_zero (S := S256x8) _ hz2, View.readAt_eq_ld, harg1.read_unread, harg2.read_unread, harg6.read_unread, harg7.read_unread, harg8.read_unread, harg9.read_unread, harg10.read_unread, harg11.read_unread, harg12.read_unread, harg13.read_unread, harg14.read_unread, harg17.read_unread, harg18.read_unread, harg19.read_unread, View.ld_unit_zero (S := S1x1x2000) hz3, View.ld_unit_zero (S := S2000x128) hz2, View.ld_unit_zero (S := S256x32) hz2, View.ld_unit_zero (S := S32x128) hz2, View.ld_unit_zero (S := S1x128) hz2, View.ld_unit_zero (S := S128x128) hz2, View.ld_unit_zero (S := S256x128) hz2, View.ld_unit_zero (S := S256x1) hz2, View.ld_unit_zero (S := S128x8) hz2, View.ld_unit_zero (S := S1x8) hz2, View.ld_unit_zero (S := S256x8) hz2]

/-- to both accumulators, -/
theorem sout1_C_2_eq (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : cond1_1 i)
    (x0 : Vec F S1x1x2000 .i32) (x1 : Vec F S2000x128 .f32) (x5 : Vec F S128x128 .f32) (x6 : Vec F S256x128 .f32) (x7 : Vec F S256x1 .f32) (x8 : Vec F S128x8 .f32) (x9 : Vec F S128x8 .f32) (x10 : Vec F S1x8 .f32) (x11 : Vec F S128x8 .f32) (x12 : Vec F S128x8 .f32) (x13 : Vec F S1x8 .f32) (xs0 : Vec F S256x128 .f32) (xs1 : Vec F S256x128 .f32) (xs2 : Vec F S256x1 .f32) :
    sout1_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2 = k1_pay12 x0 xs2 := by
  unfold sout1_C_2
  rw [View.read_writes_eq_canon _ _ _ (scover1_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2)]
  unfold kernelRun1_C
  dsimp only
  sl_unfold_words
  simp only [View.canon_unit_zero (S := S256x128) hz2, View.canon_cons_unit_zero (S := S256x128) hz2, View.readCov_unit_zero (S := S256x128) _ hz2, View.canon_unit_zero (S := S256x1) hz2, View.canon_cons_unit_zero (S := S256x1) hz2, View.readCov_unit_zero (S := S256x1) _ hz2, View.canon_unit_zero (S := S256x8) hz2, View.canon_cons_unit_zero (S := S256x8) hz2, View.readCov_unit_zero (S := S256x8) _ hz2, View.readAt_eq_ld, harg1.read_unread, harg2.read_unread, harg6.read_unread, harg7.read_unread, harg8.read_unread, harg9.read_unread, harg10.read_unread, harg11.read_unread, harg12.read_unread, harg13.read_unread, harg14.read_unread, harg17.read_unread, harg18.read_unread, harg19.read_unread, View.ld_unit_zero (S := S1x1x2000) hz3, View.ld_unit_zero (S := S2000x128) hz2, View.ld_unit_zero (S := S256x32) hz2, View.ld_unit_zero (S := S32x128) hz2, View.ld_unit_zero (S := S1x128) hz2, View.ld_unit_zero (S := S128x128) hz2, View.ld_unit_zero (S := S256x128) hz2, View.ld_unit_zero (S := S256x1) hz2, View.ld_unit_zero (S := S128x8) hz2, View.ld_unit_zero (S := S1x8) hz2, View.ld_unit_zero (S := S256x8) hz2]

/-- then stores the first head of the two normalised aggregates (this region's accumulators as just completed, and the other region's results) into output window 14's buffer -/
theorem out1_C_14_eq (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : cond1_1 i)
    (x0 : Vec F S1x1x2000 .i32) (x1 : Vec F S2000x128 .f32) (x5 : Vec F S128x128 .f32) (x6 : Vec F S256x128 .f32) (x7 : Vec F S256x1 .f32) (x8 : Vec F S128x8 .f32) (x9 : Vec F S128x8 .f32) (x10 : Vec F S1x8 .f32) (x11 : Vec F S128x8 .f32) (x12 : Vec F S128x8 .f32) (x13 : Vec F S1x8 .f32) (xs0 : Vec F S256x128 .f32) (xs1 : Vec F S256x128 .f32) (xs2 : Vec F S256x1 .f32) :
    out1_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2 = k1_pay4 (k1_pay11 x0 x1 x5 xs0 xs1) (k1_pay12 x0 xs2) x6 x7 x8 x9 x10 := by
  unfold out1_C_14
  rw [View.read_writes_eq_canon _ _ _ (cover1_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2)]
  unfold kernelRun1_C
  dsimp only
  sl_unfold_words
  simp only [View.canon_unit_zero (S := S256x128) hz2, View.canon_cons_unit_zero (S := S256x128) hz2, View.readCov_unit_zero (S := S256x128) _ hz2, View.canon_unit_zero (S := S256x1) hz2, View.canon_cons_unit_zero (S := S256x1) hz2, View.readCov_unit_zero (S := S256x1) _ hz2, View.canon_unit_zero (S := S256x8) hz2, View.canon_cons_unit_zero (S := S256x8) hz2, View.readCov_unit_zero (S := S256x8) _ hz2, View.readAt_eq_ld, harg1.read_unread, harg2.read_unread, harg6.read_unread, harg7.read_unread, harg8.read_unread, harg9.read_unread, harg10.read_unread, harg11.read_unread, harg12.read_unread, harg13.read_unread, harg14.read_unread, harg17.read_unread, harg18.read_unread, harg19.read_unread, View.ld_unit_zero (S := S1x1x2000) hz3, View.ld_unit_zero (S := S2000x128) hz2, View.ld_unit_zero (S := S256x32) hz2, View.ld_unit_zero (S := S32x128) hz2, View.ld_unit_zero (S := S1x128) hz2, View.ld_unit_zero (S := S128x128) hz2, View.ld_unit_zero (S := S256x128) hz2, View.ld_unit_zero (S := S256x1) hz2, View.ld_unit_zero (S := S128x8) hz2, View.ld_unit_zero (S := S1x8) hz2, View.ld_unit_zero (S := S256x8) hz2]

/-- and the second head, clamped, into output window 15's. -/
theorem out1_C_15_eq (c : Dev nD) (i : grid1.Coords) (arg1 : Memref sig .tc .vmem S1x1x2000 .i32) (harg1 : arg1.IsWhole) (arg2 : Memref sig .tc .vmem S2000x128 .f32) (harg2 : arg2.IsWhole) (arg3 : Memref sig .tc .vmem S256x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x1 .f32) (harg8 : arg8.IsWhole) (arg9 : Memref sig .tc .vmem S128x8 .f32) (harg9 : arg9.IsWhole) (arg10 : Memref sig .tc .vmem S128x8 .f32) (harg10 : arg10.IsWhole) (arg11 : Memref sig .tc .vmem S1x8 .f32) (harg11 : arg11.IsWhole) (arg12 : Memref sig .tc .vmem S128x8 .f32) (harg12 : arg12.IsWhole) (arg13 : Memref sig .tc .vmem S128x8 .f32) (harg13 : arg13.IsWhole) (arg14 : Memref sig .tc .vmem S1x8 .f32) (harg14 : arg14.IsWhole) (arg15 : Memref sig .tc .vmem S256x8 .f32) (harg15 : arg15.IsWhole) (arg16 : Memref sig .tc .vmem S256x8 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x1 .f32) (harg19 : arg19.IsWhole) (hc0 : ¬cond1_0 i) (hc1 : cond1_1 i)
    (x0 : Vec F S1x1x2000 .i32) (x1 : Vec F S2000x128 .f32) (x5 : Vec F S128x128 .f32) (x6 : Vec F S256x128 .f32) (x7 : Vec F S256x1 .f32) (x8 : Vec F S128x8 .f32) (x9 : Vec F S128x8 .f32) (x10 : Vec F S1x8 .f32) (x11 : Vec F S128x8 .f32) (x12 : Vec F S128x8 .f32) (x13 : Vec F S1x8 .f32) (xs0 : Vec F S256x128 .f32) (xs1 : Vec F S256x128 .f32) (xs2 : Vec F S256x1 .f32) :
    out1_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2 = k1_pay1 (k1_pay5 (k1_pay11 x0 x1 x5 xs0 xs1) (k1_pay12 x0 xs2) x6 x7 x11 x12) (k1_pay6 x13) := by
  unfold out1_C_15
  rw [View.read_writes_eq_canon _ _ _ (cover1_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x5 x6 x7 x8 x9 x10 x11 x12 x13 xs0 xs1 xs2)]
  unfold kernelRun1_C
  dsimp only
  sl_unfold_words
  simp only [View.canon_unit_zero (S := S256x128) hz2, View.canon_cons_unit_zero (S := S256x128) hz2, View.readCov_unit_zero (S := S256x128) _ hz2, View.canon_unit_zero (S := S256x1) hz2, View.canon_cons_unit_zero (S := S256x1) hz2, View.readCov_unit_zero (S := S256x1) _ hz2, View.canon_unit_zero (S := S256x8) hz2, View.canon_cons_unit_zero (S := S256x8) hz2, View.readCov_unit_zero (S := S256x8) _ hz2, View.readAt_eq_ld, harg1.read_unread, harg2.read_unread, harg6.read_unread, harg7.read_unread, harg8.read_unread, harg9.read_unread, harg10.read_unread, harg11.read_unread, harg12.read_unread, harg13.read_unread, harg14.read_unread, harg17.read_unread, harg18.read_unread, harg19.read_unread, View.ld_unit_zero (S := S1x1x2000) hz3, View.ld_unit_zero (S := S2000x128) hz2, View.ld_unit_zero (S := S256x32) hz2, View.ld_unit_zero (S := S32x128) hz2, View.ld_unit_zero (S := S1x128) hz2, View.ld_unit_zero (S := S128x128) hz2, View.ld_unit_zero (S := S256x128) hz2, View.ld_unit_zero (S := S256x1) hz2, View.ld_unit_zero (S := S128x8) hz2, View.ld_unit_zero (S := S1x8) hz2, View.ld_unit_zero (S := S256x8) hz2]

end Cert.KernelIdeal.Hand

end
-- ==== Proof.Reg1Out.lean ====
import proofs.«163481_g30743375904785_cont_sun_c4_101_2_alg».proof.Proof.Reg1Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # What the second pallas_call's buffers hold point by point, in the skeleton's payloads, and its result arrays -/

section Region1

variable (V : (c : Dev nD) → (b : Ref sig .tc) → Buf (Elt F) ((c : Thread nD τ).loc b))

/-! ## One point's step, in payloads -/

set_option maxHeartbeats 1000000 in
/-- The first point: the projected per-graph input, and the two accumulators with the first block added to zero. -/
theorem stepA1_eq (c : Dev nD) (t : Fin cfg1.N) (hc0 : cond1_0 (grid1.coords t)) (hc1 : ¬cond1_1 (grid1.coords t)) :
    (stepA1 V c t hc0 hc1).2.2 = (k1_pay7 (iblk1 V c 2 t) (iblk1 V c 3 t) (iblk1 V c 4 t), k1_pay11 (iblk1 V c 0 t) (iblk1 V c 1 t) (iblk1 V c 5 t) (k1_pay7 (iblk1 V c 2 t) (iblk1 V c 3 t) (iblk1 V c 4 t)) k1_pay8, k1_pay12 (iblk1 V c 0 t) k1_pay9) := by
  unfold stepA1; dsimp only
  refine Prod.ext ?_ (Prod.ext ?_ ?_)
  · exact sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t)
  · exact sout1_A_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t)
  · exact sout1_A_2_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t)

set_option maxHeartbeats 1000000 in
/-- A middle point: the first scratch buffer kept, the point's block added to the two accumulators. -/
theorem stepB1_eq (c : Dev nD) (t : Fin cfg1.N) (hc0 : ¬cond1_0 (grid1.coords t)) (hc1 : ¬cond1_1 (grid1.coords t)) (p : Vec F S256x8 .f32 × Vec F S256x8 .f32 × Vec F S256x128 .f32 × Vec F S256x128 .f32 × Vec F S256x1 .f32) :
    (stepB1 V c t hc0 hc1 p).2.2 = (p.2.2.1, k1_pay11 (iblk1 V c 0 t) (iblk1 V c 1 t) (iblk1 V c 5 t) p.2.2.1 p.2.2.2.1, k1_pay12 (iblk1 V c 0 t) p.2.2.2.2) := by
  unfold stepB1; dsimp only
  refine Prod.ext rfl (Prod.ext ?_ ?_)
  · exact sout1_B_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 5 t) p.2.2.1 p.2.2.2.1 p.2.2.2.2
  · exact sout1_B_2_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 5 t) p.2.2.1 p.2.2.2.1 p.2.2.2.2

set_option maxHeartbeats 1000000 in
/-- The last point: the same for the scratch buffers, -/
theorem stepC1_eq (c : Dev nD) (t : Fin cfg1.N) (hc0 : ¬cond1_0 (grid1.coords t)) (hc1 : cond1_1 (grid1.coords t)) (p : Vec F S256x8 .f32 × Vec F S256x8 .f32 × Vec F S256x128 .f32 × Vec F S256x128 .f32 × Vec F S256x1 .f32) :
    (stepC1 V c t hc0 hc1 p).2.2 = (p.2.2.1, k1_pay11 (iblk1 V c 0 t) (iblk1 V c 1 t) (iblk1 V c 5 t) p.2.2.1 p.2.2.2.1, k1_pay12 (iblk1 V c 0 t) p.2.2.2.2) := by
  unfold stepC1; dsimp only
  refine Prod.ext rfl (Prod.ext ?_ ?_)
  · exact sout1_C_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 5 t) (iblk1 V c 6 t) (iblk1 V c 7 t) (iblk1 V c 8 t) (iblk1 V c 9 t) (iblk1 V c 10 t) (iblk1 V c 11 t) (iblk1 V c 12 t) (iblk1 V c 13 t) p.2.2.1 p.2.2.2.1 p.2.2.2.2
  · exact sout1_C_2_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 5 t) (iblk1 V c 6 t) (iblk1 V c 7 t) (iblk1 V c 8 t) (iblk1 V c 9 t) (iblk1 V c 10 t) (iblk1 V c 11 t) (iblk1 V c 12 t) (iblk1 V c 13 t) p.2.2.1 p.2.2.2.1 p.2.2.2.2

set_option maxHeartbeats 1000000 in
/-- and the two outputs: the heads of the normalised accumulators the point has just completed. -/
theorem stepC1_out (c : Dev nD) (t : Fin cfg1.N) (hc0 : ¬cond1_0 (grid1.coords t)) (hc1 : cond1_1 (grid1.coords t)) (p : Vec F S256x8 .f32 × Vec F S256x8 .f32 × Vec F S256x128 .f32 × Vec F S256x128 .f32 × Vec F S256x1 .f32) :
    (stepC1 V c t hc0 hc1 p).1 = k1_pay4 (k1_pay11 (iblk1 V c 0 t) (iblk1 V c 1 t) (iblk1 V c 5 t) p.2.2.1 p.2.2.2.1) (k1_pay12 (iblk1 V c 0 t) p.2.2.2.2) (iblk1 V c 6 t) (iblk1 V c 7 t) (iblk1 V c 8 t) (iblk1 V c 9 t) (iblk1 V c 10 t)
    ∧ (stepC1 V c t hc0 hc1 p).2.1 = k1_pay1 (k1_pay5 (k1_pay11 (iblk1 V c 0 t) (iblk1 V c 1 t) (iblk1 V c 5 t) p.2.2.1 p.2.2.2.1) (k1_pay12 (iblk1 V c 0 t) p.2.2.2.2) (iblk1 V c 6 t) (iblk1 V c 7 t) (iblk1 V c 11 t) (iblk1 V c 12 t)) (k1_pay6 (iblk1 V c 13 t)) := by
  unfold stepC1; dsimp only
  constructor
  · exact out1_C_14_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 5 t) (iblk1 V c 6 t) (iblk1 V c 7 t) (iblk1 V c 8 t) (iblk1 V c 9 t) (iblk1 V c 10 t) (iblk1 V c 11 t) (iblk1 V c 12 t) (iblk1 V c 13 t) p.2.2.1 p.2.2.2.1 p.2.2.2.2
  · exact out1_C_15_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) scM1_0 (Memref.isWhole_whole _) scM1_1 (Memref.isWhole_whole _) scM1_2 (Memref.isWhole_whole _) hc0 hc1 (iblk1 V c 0 t) (iblk1 V c 1 t) (iblk1 V c 5 t) (iblk1 V c 6 t) (iblk1 V c 7 t) (iblk1 V c 8 t) (iblk1 V c 9 t) (iblk1 V c 10 t) (iblk1 V c 11 t) (iblk1 V c 12 t) (iblk1 V c 13 t) p.2.2.1 p.2.2.2.1 p.2.2.2.2

/-! ## The recursion's value equations -/

/-- After the first point. -/
theorem outsAt1_zero (c : Dev nD) (h : 0 < cfg1.N) :
    (outsAt1 V c 0 h).2.2 = ((k1_pay7 (iblk1 V c 2 ⟨0, h⟩) (iblk1 V c 3 ⟨0, h⟩) (iblk1 V c 4 ⟨0, h⟩)), k1_pay11 (iblk1 V c 0 ⟨0, h⟩) (iblk1 V c 1 ⟨0, h⟩) (iblk1 V c 5 ⟨0, h⟩) (k1_pay7 (iblk1 V c 2 ⟨0, h⟩) (iblk1 V c 3 ⟨0, h⟩) (iblk1 V c 4 ⟨0, h⟩)) k1_pay8, k1_pay12 (iblk1 V c 0 ⟨0, h⟩) k1_pay9) := by
  have hc0 : cond1_0 (grid1.coords ⟨0, h⟩) := (hcond1_0 ⟨0, h⟩).mpr (Nat.zero_mod _)
  have hc1 : ¬cond1_1 (grid1.coords ⟨0, h⟩) := fun hh => by
    have h' := (hcond1_1 ⟨0, h⟩).mp hh
    (try dsimp only at h'); omega
  rw [show outsAt1 V c 0 h = stepA1 V c ⟨0, h⟩ hc0 hc1 from outsAt1_A V c ⟨0, h⟩ (Nat.zero_mod _) hc0 hc1]
  exact stepA1_eq V c ⟨0, h⟩ hc0 hc1

/-- After a later point: the first scratch buffer unchanged, the two accumulators with the point's block added. -/
theorem outsAt1_succ (c : Dev nD) (n : ℕ) (h : n + 1 < cfg1.N) :
    (outsAt1 V c (n + 1) h).2.2 = ((outsAt1 V c n (Nat.lt_of_succ_lt h)).2.2.1, k1_pay11 (iblk1 V c 0 ⟨n + 1, h⟩) (iblk1 V c 1 ⟨n + 1, h⟩) (iblk1 V c 5 ⟨n + 1, h⟩) (outsAt1 V c n (Nat.lt_of_succ_lt h)).2.2.1 (outsAt1 V c n (Nat.lt_of_succ_lt h)).2.2.2.1, k1_pay12 (iblk1 V c 0 ⟨n + 1, h⟩) (outsAt1 V c n (Nat.lt_of_succ_lt h)).2.2.2.2) := by
  by_cases h1 : (n + 1) % 5 = 4
  · rw [show outsAt1 V c (n + 1) h = stepC1 V c ⟨n + 1, h⟩ (not_cond1_0_succ n h) ((hcond1_1 ⟨n + 1, h⟩).mpr h1) (outsAt1 V c n (Nat.lt_of_succ_lt h)) from dif_pos h1]
    exact stepC1_eq V c ⟨n + 1, h⟩ (not_cond1_0_succ n h) ((hcond1_1 ⟨n + 1, h⟩).mpr h1) (outsAt1 V c n (Nat.lt_of_succ_lt h))
  · rw [show outsAt1 V c (n + 1) h = stepB1 V c ⟨n + 1, h⟩ (not_cond1_0_succ n h) (fun hh => h1 ((hcond1_1 ⟨n + 1, h⟩).mp hh)) (outsAt1 V c n (Nat.lt_of_succ_lt h)) from dif_neg h1]
    exact stepB1_eq V c ⟨n + 1, h⟩ (not_cond1_0_succ n h) (fun hh => h1 ((hcond1_1 ⟨n + 1, h⟩).mp hh)) (outsAt1 V c n (Nat.lt_of_succ_lt h))

/-- After the last point the two output buffers hold the two heads applied to the normalised accumulators this point
    has just completed (the epilogue reads the accumulators after the point's own additions). -/
theorem outsAt1_last (c : Dev nD) (h : 4 < cfg1.N) :
    (outsAt1 V c 4 h).1 = k1_pay4 (outsAt1 V c 4 h).2.2.2.1 (outsAt1 V c 4 h).2.2.2.2 (iblk1 V c 6 ⟨4, h⟩) (iblk1 V c 7 ⟨4, h⟩) (iblk1 V c 8 ⟨4, h⟩) (iblk1 V c 9 ⟨4, h⟩) (iblk1 V c 10 ⟨4, h⟩)
    ∧ (outsAt1 V c 4 h).2.1 = k1_pay1 (k1_pay5 (outsAt1 V c 4 h).2.2.2.1 (outsAt1 V c 4 h).2.2.2.2 (iblk1 V c 6 ⟨4, h⟩) (iblk1 V c 7 ⟨4, h⟩) (iblk1 V c 11 ⟨4, h⟩) (iblk1 V c 12 ⟨4, h⟩)) (k1_pay6 (iblk1 V c 13 ⟨4, h⟩)) := by
  have h1 : (3 + 1) % 5 = 4 := rfl
  have hc0 := not_cond1_0_succ 3 h
  have hc1 : cond1_1 (grid1.coords ⟨3 + 1, h⟩) := (hcond1_1 ⟨3 + 1, h⟩).mpr h1
  rw [show outsAt1 V c 4 h = stepC1 V c ⟨3 + 1, h⟩ hc0 hc1 (outsAt1 V c 3 (Nat.lt_of_succ_lt h)) from dif_pos h1]
  have e2 := stepC1_eq V c ⟨3 + 1, h⟩ hc0 hc1 (outsAt1 V c 3 (Nat.lt_of_succ_lt h))
  have ea := congrArg (fun q => q.1) (congrArg (fun q => q.2) e2)
  have eb := congrArg (fun q => q.2) (congrArg (fun q => q.2) e2)
  have eo := stepC1_out V c ⟨3 + 1, h⟩ hc0 hc1 (outsAt1 V c 3 (Nat.lt_of_succ_lt h))
  dsimp only at ea eb
  exact ⟨eo.1.trans (by rw [ea, eb]), eo.2.trans (by rw [ea, eb])⟩
/-! ## The two result arrays

Each output window has one block, the whole array, written back once, after the last point. -/

theorem h4_lt : 4 < cfg1.N := by rw [show cfg1.N = 5 from N_1]; omega

/-- Output window 14's buffer after the last point, as contents of its array. -/
abbrev result1_14 (c : Dev nD) : Buf (Elt F) ((c : Thread nD τ).loc main_v7_0) := (outsAt1 V c 4 h4_lt).1
/-- Output window 15's. -/
abbrev result1_15 (c : Dev nD) : Buf (Elt F) ((c : Thread nD τ).loc main_v7_1) := (outsAt1 V c 4 h4_lt).2.1

theorem flushed1_14 (c : Dev nD) (t : Fin cfg1.N) (hf : (cfg1.win 14).flush t = true) :
    (dat1 V c).flushed 14 t = ((cfg1.win 14).blk t).view.read (Elt F) (result1_14 V c) := by
  have hN : cfg1.N = 5 := N_1
  have h4 : t.val = 4 := by have := (flush1_14 t).mp hf; have := t.isLt; omega
  obtain rfl : t = t1_4 := Fin.ext h4
  show (cfg1.win 14).cut (grid1.coords t1_4) ((dat1 V c).after 14 t1_4) = _
  rw [after1_14]
  have hz' : (fun a => win1_14.index t1_4 a * main_v7_0.ty.shape.size a) = fun _ => 0 := funext fun a => by fin_cases a <;> decide
  exact (Memref.read_access_unit_zero (Elt F) main_v7_0 hz' (fun a => by rw [congrFun hz' a]; simp) (result1_14 V c)).symm

theorem flushed1_15 (c : Dev nD) (t : Fin cfg1.N) (hf : (cfg1.win 15).flush t = true) :
    (dat1 V c).flushed 15 t = ((cfg1.win 15).blk t).view.read (Elt F) (result1_15 V c) := by
  have hN : cfg1.N = 5 := N_1
  have h4 : t.val = 4 := by have := (flush1_15 t).mp hf; have := t.isLt; omega
  obtain rfl : t = t1_4 := Fin.ext h4
  show (cfg1.win 15).cut (grid1.coords t1_4) ((dat1 V c).after 15 t1_4) = _
  rw [after1_15]
  have hz' : (fun a => win1_15.index t1_4 a * main_v7_1.ty.shape.size a) = fun _ => 0 := funext fun a => by fin_cases a <;> decide
  exact (Memref.read_access_unit_zero (Elt F) main_v7_1 hz' (fun a => by rw [congrFun hz' a]; simp) (result1_15 V c)).symm

/-- Output window 14's array when the region ends: what the last point left in its buffer. -/
theorem arrAt1_14 (c : Dev nD) : (dat1 V c).arrAt 14 cfg1.N = (outsAt1 V c 4 (by rw [show cfg1.N = 5 from N_1]; omega)).1 :=
  (dat1 V c).arrAt_eq_of_cover 14 (result1_14 V c) (flushed1_14 V c) fun i =>
    ⟨t1_4, (flush1_14 t1_4).mpr rfl, by
      show i ∈ ((View.whole main_v7_0).slice (win1_14.rect t1_4)).set
      rw [View.set_slice_whole, Rect.mem_set_unit]
      intro a
      have h0 : (i 0 : Nat) < 256 := (i 0).isLt
      have h1 : (i 1 : Nat) < 8 := (i 1).isLt
      match a with
      | ⟨0, _⟩ => show win1_14.index t1_4 0 * win1_14.size 0 ≤ (i 0 : Nat) ∧ (i 0 : Nat) < win1_14.index t1_4 0 * win1_14.size 0 + win1_14.xsize (grid1.coords t1_4) 0
                  rw [show win1_14.index t1_4 0 * win1_14.size 0 = 0 from by decide +kernel, show win1_14.xsize (grid1.coords t1_4) 0 = 256 from by decide +kernel]; omega
      | ⟨1, _⟩ => show win1_14.index t1_4 1 * win1_14.size 1 ≤ (i 1 : Nat) ∧ (i 1 : Nat) < win1_14.index t1_4 1 * win1_14.size 1 + win1_14.xsize (grid1.coords t1_4) 1
                  rw [show win1_14.index t1_4 1 * win1_14.size 1 = 0 from by decide +kernel, show win1_14.xsize (grid1.coords t1_4) 1 = 8 from by decide +kernel]; omega⟩

/-- Output window 15's. -/
theorem arrAt1_15 (c : Dev nD) : (dat1 V c).arrAt 15 cfg1.N = (outsAt1 V c 4 (by rw [show cfg1.N = 5 from N_1]; omega)).2.1 :=
  (dat1 V c).arrAt_eq_of_cover 15 (result1_15 V c) (flushed1_15 V c) fun i =>
    ⟨t1_4, (flush1_15 t1_4).mpr rfl, by
      show i ∈ ((View.whole main_v7_1).slice (win1_15.rect t1_4)).set
      rw [View.set_slice_whole, Rect.mem_set_unit]
      intro a
      have h0 : (i 0 : Nat) < 256 := (i 0).isLt
      have h1 : (i 1 : Nat) < 8 := (i 1).isLt
      match a with
      | ⟨0, _⟩ => show win1_15.index t1_4 0 * win1_15.size 0 ≤ (i 0 : Nat) ∧ (i 0 : Nat) < win1_15.index t1_4 0 * win1_15.size 0 + win1_15.xsize (grid1.coords t1_4) 0
                  rw [show win1_15.index t1_4 0 * win1_15.size 0 = 0 from by decide +kernel, show win1_15.xsize (grid1.coords t1_4) 0 = 256 from by decide +kernel]; omega
      | ⟨1, _⟩ => show win1_15.index t1_4 1 * win1_15.size 1 ≤ (i 1 : Nat) ∧ (i 1 : Nat) < win1_15.index t1_4 1 * win1_15.size 1 + win1_15.xsize (grid1.coords t1_4) 1
                  rw [show win1_15.index t1_4 1 * win1_15.size 1 = 0 from by decide +kernel, show win1_15.xsize (grid1.coords t1_4) 1 = 8 from by decide +kernel]; omega⟩

end Region1

end Cert.KernelIdeal.Hand

end
-- ==== Proof.Reg1Value.lean ====
import proofs.«163481_g30743375904785_cont_sun_c4_101_2_alg».proof.Proof.Gen.KernelIdeal.Skeleton
import proofs.«163481_g30743375904785_cont_sun_c4_101_2_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.KernelVsHost

set_option maxRecDepth 16384

noncomputable section

namespace Cert.KernelIdeal.Hand

open Idealize.ShloMosaic Idealize.ShloMosaic.ValueIdx
open Cert.KernelIdeal Cert.KernelIdeal.Gen Cert.Spec
open Finset

/-! # The second pallas_call's payloads read at an index, at the extended reals

Each payload of the body, at an explicit index, as plain extended-real arithmetic over its operands. -/

/-! ## The one-hot block -/

theorem bcast_ids_apply (ids : Vec Ideal S1x1x2000 .i32) (b : Fin 256) (j : Fin 2000) :
    broadcastTo S256x2000 (shapeCast S1x2000 ids shapeCasts_S1x1x2000_S1x2000) broadcasts_S1x2000_S256x2000 (ix2 b j)
      = ids (ix3 (0 : Fin 1) (0 : Fin 1) j) := by
  rw [broadcastTo_apply _ _ (ix2 b j) (ix2 (0 : Fin 1) j) (by intro a; fin_cases a <;> rfl)]
  exact shapeCast_apply ids _ (ix2 (0 : Fin 1) j) (ix3 (0 : Fin 1) (0 : Fin 1) j) (by simp [Shape.rowMajor_val_two, Shape.rowMajor_val_three])

theorem bcast_iota_apply (b : Fin 256) (j : Fin 2000) :
    broadcastTo S256x2000 (iota .tc S256x1 32 [0] iota_S256x1_d0_w32) broadcasts_S256x1_S256x2000 (ix2 b j)
      = BitVec.ofNat 32 b.val := by
  rw [broadcastTo_apply _ _ (ix2 b j) (ix2 b (0 : Fin 1)) (by intro a; fin_cases a <;> rfl)]
  show BitVec.ofNat 32 (0 * 256 + b.val) = _
  rw [Nat.zero_mul, Nat.zero_add]

/-- Entry `(b, j)` of the one-hot block is 1 when the `j`-th id of the block is the word of graph `b`, else 0:
    the comparison's bit widened to a word and converted. -/
theorem k1_pay10_apply (ids : Vec Ideal S1x1x2000 .i32) (b : Fin 256) (j : Fin 2000) :
    (k1_pay10 (F := Ideal) ids) (ix2 b j) = ohv (ids (ix3 (0 : Fin 1) (0 : Fin 1) j)) b := by
  unfold k1_pay10
  show (((((IntOp.cmpi .eq (broadcastTo S256x2000 (shapeCast S1x2000 ids shapeCasts_S1x1x2000_S1x2000) broadcasts_S1x2000_S256x2000 (ix2 b j))
      (broadcastTo S256x2000 (iota .tc S256x1 32 [0] iota_S256x1_d0_w32) broadcasts_S256x1_S256x2000 (ix2 b j))).setWidth 32).toInt : ℤ) : ℝ) : EReal) = _
  rw [bcast_ids_apply, bcast_iota_apply, ohv_def]
  by_cases h : ids (ix3 (0 : Fin 1) (0 : Fin 1) j) = BitVec.ofNat 32 b.val
  · rw [if_pos h, h]; simp [IntOp.cmpi]
  · rw [if_neg h]
    have hb : (ids (ix3 (0 : Fin 1) (0 : Fin 1) j) == BitVec.ofNat 32 b.val) = false := beq_eq_false_iff_ne.mpr h
    simp [IntOp.cmpi, hb]

/-! ## The matrix products -/

/-! The operand indices of `dot_S256x32_S32x128_S256x128_1_0_0_1_n_n` at an output index and a contraction index, coordinate by coordinate. -/
theorem lhs_un_free (i : S256x128.Idx) (q : dot_S256x32_S32x128_S256x128_1_0_0_1_n_n.contr.Idx) : (dot_S256x32_S32x128_S256x128_1_0_0_1_n_n.lhsIdx i q 0).val = (i 0).val := by
  unfold DotDims.lhsIdx
  rw [dif_neg (show ¬(0 : Fin S256x32.rank) ∈ dot_S256x32_S32x128_S256x128_1_0_0_1_n_n.lhsBatch by decide), dif_pos (show (0 : Fin S256x32.rank) ∈ dot_S256x32_S32x128_S256x128_1_0_0_1_n_n.lhsNonContracting by decide)]
  rfl
theorem lhs_un_con (i : S256x128.Idx) (q : dot_S256x32_S32x128_S256x128_1_0_0_1_n_n.contr.Idx) : (dot_S256x32_S32x128_S256x128_1_0_0_1_n_n.lhsIdx i q 1).val = (q ⟨0, by decide⟩).val :=
  dot_S256x32_S32x128_S256x128_1_0_0_1_n_n.lhsIdx_val_of_single rfl i q
theorem rhs_un_con (i : S256x128.Idx) (q : dot_S256x32_S32x128_S256x128_1_0_0_1_n_n.contr.Idx) : (dot_S256x32_S32x128_S256x128_1_0_0_1_n_n.rhsIdx i q 0).val = (q ⟨0, by decide⟩).val :=
  dot_S256x32_S32x128_S256x128_1_0_0_1_n_n.rhsIdx_val_of_single rfl i q
theorem rhs_un_free (i : S256x128.Idx) (q : dot_S256x32_S32x128_S256x128_1_0_0_1_n_n.contr.Idx) : (dot_S256x32_S32x128_S256x128_1_0_0_1_n_n.rhsIdx i q 1).val = (i 1).val := by
  unfold DotDims.rhsIdx
  rw [dif_neg (show ¬(1 : Fin S32x128.rank) ∈ dot_S256x32_S32x128_S256x128_1_0_0_1_n_n.rhsBatch by decide), dif_pos (show (1 : Fin S32x128.rank) ∈ dot_S256x32_S32x128_S256x128_1_0_0_1_n_n.rhsNonContracting by decide)]
  rfl

/-- The product into a zero accumulator, read at an index: the sum over the one contracted axis. -/
theorem mm_un_apply (l : FVec Ideal S256x32 .f32) (r : FVec Ideal S32x128 .f32) (p : Fin 256) (c : Fin 128) :
    matmul dot_S256x32_S32x128_S256x128_1_0_0_1_n_n none l r (constant S256x128 .f32 0x00000000#32) (ix2 p c) = ∑ q : Fin 32, l (ix2 p q) * r (ix2 q c) := by
  unfold matmul
  rw [Ideal.matmul_constant_zero_apply, ← Equiv.sum_comp (contrEquiv1 dot_S256x32_S32x128_S256x128_1_0_0_1_n_n 32 rfl rfl).symm]
  refine Finset.sum_congr rfl fun q _ => ?_
  have hq := contrEquiv1_symm_val dot_S256x32_S32x128_S256x128_1_0_0_1_n_n 32 rfl rfl q
  have el : dot_S256x32_S32x128_S256x128_1_0_0_1_n_n.lhsIdx (ix2 p c) ((contrEquiv1 dot_S256x32_S32x128_S256x128_1_0_0_1_n_n 32 rfl rfl).symm q) = ix2 p q := funext fun a => Fin.ext (by
    match a with
    | ⟨0, _⟩ => exact lhs_un_free _ _
    | ⟨1, _⟩ => exact (lhs_un_con _ _).trans hq)
  have er : dot_S256x32_S32x128_S256x128_1_0_0_1_n_n.rhsIdx (ix2 p c) ((contrEquiv1 dot_S256x32_S32x128_S256x128_1_0_0_1_n_n 32 rfl rfl).symm q) = ix2 q c := funext fun a => Fin.ext (by
    match a with
    | ⟨0, _⟩ => exact (rhs_un_con _ _).trans hq
    | ⟨1, _⟩ => exact rhs_un_free _ _)
  rw [el, er]

/-! The operand indices of `dot_S2000x128_S128x128_S2000x128_1_0_0_1_n_n` at an output index and a contraction index, coordinate by coordinate. -/
theorem lhs_xw_free (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_xw_con (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem rhs_xw_con (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem rhs_xw_free (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into a zero accumulator, read at an index: the sum over the one contracted axis. -/
theorem mm_xw_apply (l : FVec Ideal S2000x128 .f32) (r : FVec Ideal S128x128 .f32) (p : Fin 2000) (c : Fin 128) :
    matmul dot_S2000x128_S128x128_S2000x128_1_0_0_1_n_n none l r (constant S2000x128 .f32 0x00000000#32) (ix2 p c) = ∑ q : Fin 128, l (ix2 p q) * r (ix2 q c) := by
  unfold matmul
  rw [Ideal.matmul_constant_zero_apply, ← Equiv.sum_comp (contrEquiv1 dot_S2000x128_S128x128_S2000x128_1_0_0_1_n_n 128 rfl rfl).symm]
  refine Finset.sum_congr rfl fun q _ => ?_
  have hq := contrEquiv1_symm_val dot_S2000x128_S128x128_S2000x128_1_0_0_1_n_n 128 rfl rfl q
  have el : dot_S2000x128_S128x128_S2000x128_1_0_0_1_n_n.lhsIdx (ix2 p c) ((contrEquiv1 dot_S2000x128_S128x128_S2000x128_1_0_0_1_n_n 128 rfl rfl).symm q) = ix2 p q := funext fun a => Fin.ext (by
    match a with
    | ⟨0, _⟩ => exact lhs_xw_free _ _
    | ⟨1, _⟩ => exact (lhs_xw_con _ _).trans hq)
  have er : dot_S2000x128_S128x128_S2000x128_1_0_0_1_n_n.rhsIdx (ix2 p c) ((contrEquiv1 dot_S2000x128_S128x128_S2000x128_1_0_0_1_n_n 128 rfl rfl).symm q) = ix2 q c := funext fun a => Fin.ext (by
    match a with
    | ⟨0, _⟩ => exact (rhs_xw_con _ _).trans hq
    | ⟨1, _⟩ => exact rhs_xw_free _ _)
  rw [el, er]

/-! The operand indices of `dot_S256x2000_S256x128_S2000x128_0_0_1_1_n_n` at an output index and a contraction index, coordinate by coordinate. -/
theorem lhs_gat_free (i : S2000x128.Idx) (q : dot_S256x2000_S256x128_S2000x128_0_0_1_1_n_n.contr.Idx) : (dot_S256x2000_S256x128_S2000x128_0_0_1_1_n_n.lhsIdx i q 1).val = (i 0).val := by
  unfold DotDims.lhsIdx
  rw [dif_neg (show ¬(1 : Fin S256x2000.rank) ∈ dot_S256x2000_S256x128_S2000x128_0_0_1_1_n_n.lhsBatch by decide), dif_pos (show (1 : Fin S256x2000.rank) ∈ dot_S256x2000_S256x128_S2000x128_0_0_1_1_n_n.lhsNonContracting by decide)]
  rfl
theorem lhs_gat_con (i : S2000x128.Idx) (q : dot_S256x2000_S256x128_S2000x128_0_0_1_1_n_n.contr.Idx) : (dot_S256x2000_S256x128_S2000x128_0_0_1_1_n_n.lhsIdx i q 0).val = (q ⟨0, by decide⟩).val :=
  dot_S256x2000_S256x128_S2000x128_0_0_1_1_n_n.lhsIdx_val_of_single rfl i q
theorem rhs_gat_con (i : S2000x128.Idx) (q : dot_S256x2000_S256x128_S2000x128_0_0_1_1_n_n.contr.Idx) : (dot_S256x2000_S256x128_S2000x128_0_0_1_1_n_n.rhsIdx i q 0).val = (q ⟨0, by decide⟩).val :=
  dot_S256x2000_S256x128_S2000x128_0_0_1_1_n_n.rhsIdx_val_of_single rfl i q
theorem rhs_gat_free (i : S2000x128.Idx) (q : dot_S256x2000_S256x128_S2000x128_0_0_1_1_n_n.contr.Idx) : (dot_S256x2000_S256x128_S2000x128_0_0_1_1_n_n.rhsIdx i q 1).val = (i 1).val := by
  unfold DotDims.rhsIdx
  rw [dif_neg (show ¬(1 : Fin S256x128.rank) ∈ dot_S256x2000_S256x128_S2000x128_0_0_1_1_n_n.rhsBatch by decide), dif_pos (show (1 : Fin S256x128.rank) ∈ dot_S256x2000_S256x128_S2000x128_0_0_1_1_n_n.rhsNonContracting by decide)]
  rfl

/-- The product into a zero accumulator, read at an index: the sum over the one contracted axis. -/
theorem mm_gat_apply (l : FVec Ideal S256x2000 .f32) (r : FVec Ideal S256x128 .f32) (p : Fin 2000) (c : Fin 128) :
    matmul dot_S256x2000_S256x128_S2000x128_0_0_1_1_n_n none l r (constant S2000x128 .f32 0x00000000#32) (ix2 p c) = ∑ q : Fin 256, l (ix2 q p) * r (ix2 q c) := by
  unfold matmul
  rw [Ideal.matmul_constant_zero_apply, ← Equiv.sum_comp (contrEquiv1 dot_S256x2000_S256x128_S2000x128_0_0_1_1_n_n 256 rfl rfl).symm]
  refine Finset.sum_congr rfl fun q _ => ?_
  have hq := contrEquiv1_symm_val dot_S256x2000_S256x128_S2000x128_0_0_1_1_n_n 256 rfl rfl q
  have el : dot_S256x2000_S256x128_S2000x128_0_0_1_1_n_n.lhsIdx (ix2 p c) ((contrEquiv1 dot_S256x2000_S256x128_S2000x128_0_0_1_1_n_n 256 rfl rfl).symm q) = ix2 q p := funext fun a => Fin.ext (by
    match a with
    | ⟨1, _⟩ => exact lhs_gat_free _ _
    | ⟨0, _⟩ => exact (lhs_gat_con _ _).trans hq)
  have er : dot_S256x2000_S256x128_S2000x128_0_0_1_1_n_n.rhsIdx (ix2 p c) ((contrEquiv1 dot_S256x2000_S256x128_S2000x128_0_0_1_1_n_n 256 rfl rfl).symm q) = ix2 q c := funext fun a => Fin.ext (by
    match a with
    | ⟨0, _⟩ => exact (rhs_gat_con _ _).trans hq
    | ⟨1, _⟩ => exact rhs_gat_free _ _)
  rw [el, er]

/-! The operand indices of `dot_S256x2000_S2000x128_S256x128_1_0_0_1_n_n` at an output index and a contraction index, coordinate by coordinate. -/
theorem lhs_seg_free (i : S256x128.Idx) (q : dot_S256x2000_S2000x128_S256x128_1_0_0_1_n_n.contr.Idx) : (dot_S256x2000_S2000x128_S256x128_1_0_0_1_n_n.lhsIdx i q 0).val = (i 0).val := by
  unfold DotDims.lhsIdx
  rw [dif_neg (show ¬(0 : Fin S256x2000.rank) ∈ dot_S256x2000_S2000x128_S256x128_1_0_0_1_n_n.lhsBatch by decide), dif_pos (show (0 : Fin S256x2000.rank) ∈ dot_S256x2000_S2000x128_S256x128_1_0_0_1_n_n.lhsNonContracting by decide)]
  rfl
theorem lhs_seg_con (i : S256x128.Idx) (q : dot_S256x2000_S2000x128_S256x128_1_0_0_1_n_n.contr.Idx) : (dot_S256x2000_S2000x128_S256x128_1_0_0_1_n_n.lhsIdx i q 1).val = (q ⟨0, by decide⟩).val :=
  dot_S256x2000_S2000x128_S256x128_1_0_0_1_n_n.lhsIdx_val_of_single rfl i q
theorem rhs_seg_con (i : S256x128.Idx) (q : dot_S256x2000_S2000x128_S256x128_1_0_0_1_n_n.contr.Idx) : (dot_S256x2000_S2000x128_S256x128_1_0_0_1_n_n.rhsIdx i q 0).val = (q ⟨0, by decide⟩).val :=
  dot_S256x2000_S2000x128_S256x128_1_0_0_1_n_n.rhsIdx_val_of_single rfl i q
theorem rhs_seg_free (i : S256x128.Idx) (q : dot_S256x2000_S2000x128_S256x128_1_0_0_1_n_n.contr.Idx) : (dot_S256x2000_S2000x128_S256x128_1_0_0_1_n_n.rhsIdx i q 1).val = (i 1).val := by
  unfold DotDims.rhsIdx
  rw [dif_neg (show ¬(1 : Fin S2000x128.rank) ∈ dot_S256x2000_S2000x128_S256x128_1_0_0_1_n_n.rhsBatch by decide), dif_pos (show (1 : Fin S2000x128.rank) ∈ dot_S256x2000_S2000x128_S256x128_1_0_0_1_n_n.rhsNonContracting by decide)]
  rfl

/-- The product into a zero accumulator, read at an index: the sum over the one contracted axis. -/
theorem mm_seg_apply (l : FVec Ideal S256x2000 .f32) (r : FVec Ideal S2000x128 .f32) (p : Fin 256) (c : Fin 128) :
    matmul dot_S256x2000_S2000x128_S256x128_1_0_0_1_n_n none l r (constant S256x128 .f32 0x00000000#32) (ix2 p c) = ∑ q : Fin 2000, l (ix2 p q) * r (ix2 q c) := by
  unfold matmul
  rw [Ideal.matmul_constant_zero_apply, ← Equiv.sum_comp (contrEquiv1 dot_S256x2000_S2000x128_S256x128_1_0_0_1_n_n 2000 rfl rfl).symm]
  refine Finset.sum_congr rfl fun q _ => ?_
  have hq := contrEquiv1_symm_val dot_S256x2000_S2000x128_S256x128_1_0_0_1_n_n 2000 rfl rfl q
  have el : dot_S256x2000_S2000x128_S256x128_1_0_0_1_n_n.lhsIdx (ix2 p c) ((contrEquiv1 dot_S256x2000_S2000x128_S256x128_1_0_0_1_n_n 2000 rfl rfl).symm q) = ix2 p q := funext fun a => Fin.ext (by
    match a with
    | ⟨0, _⟩ => exact lhs_seg_free _ _
    | ⟨1, _⟩ => exact (lhs_seg_con _ _).trans hq)
  have er : dot_S256x2000_S2000x128_S256x128_1_0_0_1_n_n.rhsIdx (ix2 p c) ((contrEquiv1 dot_S256x2000_S2000x128_S256x128_1_0_0_1_n_n 2000 rfl rfl).symm q) = ix2 q c := funext fun a => Fin.ext (by
    match a with
    | ⟨0, _⟩ => exact (rhs_seg_con _ _).trans hq
    | ⟨1, _⟩ => exact rhs_seg_free _ _)
  rw [el, er]

/-! The operand indices of `dot_S256x128_S128x8_S256x8_1_0_0_1_n_n` at an output index and a contraction index, coordinate by coordinate. -/
theorem lhs_hd_free (i : S256x8.Idx) (q : dot_S256x128_S128x8_S256x8_1_0_0_1_n_n.contr.Idx) : (dot_S256x128_S128x8_S256x8_1_0_0_1_n_n.lhsIdx i q 0).val = (i 0).val := by
  unfold DotDims.lhsIdx
  rw [dif_neg (show ¬(0 : Fin S256x128.rank) ∈ dot_S256x128_S128x8_S256x8_1_0_0_1_n_n.lhsBatch by decide), dif_pos (show (0 : Fin S256x128.rank) ∈ dot_S256x128_S128x8_S256x8_1_0_0_1_n_n.lhsNonContracting by decide)]
  rfl
theorem lhs_hd_con (i : S256x8.Idx) (q : dot_S256x128_S128x8_S256x8_1_0_0_1_n_n.contr.Idx) : (dot_S256x128_S128x8_S256x8_1_0_0_1_n_n.lhsIdx i q 1).val = (q ⟨0, by decide⟩).val :=
  dot_S256x128_S128x8_S256x8_1_0_0_1_n_n.lhsIdx_val_of_single rfl i q
theorem rhs_hd_con (i : S256x8.Idx) (q : dot_S256x128_S128x8_S256x8_1_0_0_1_n_n.contr.Idx) : (dot_S256x128_S128x8_S256x8_1_0_0_1_n_n.rhsIdx i q 0).val = (q ⟨0, by decide⟩).val :=
  dot_S256x128_S128x8_S256x8_1_0_0_1_n_n.rhsIdx_val_of_single rfl i q
theorem rhs_hd_free (i : S256x8.Idx) (q : dot_S256x128_S128x8_S256x8_1_0_0_1_n_n.contr.Idx) : (dot_S256x128_S128x8_S256x8_1_0_0_1_n_n.rhsIdx i q 1).val = (i 1).val := by
  unfold DotDims.rhsIdx
  rw [dif_neg (show ¬(1 : Fin S128x8.rank) ∈ dot_S256x128_S128x8_S256x8_1_0_0_1_n_n.rhsBatch by decide), dif_pos (show (1 : Fin S128x8.rank) ∈ dot_S256x128_S128x8_S256x8_1_0_0_1_n_n.rhsNonContracting by decide)]
  rfl

/-- The product into a zero accumulator, read at an index: the sum over the one contracted axis. -/
theorem mm_hd_apply (l : FVec Ideal S256x128 .f32) (r : FVec Ideal S128x8 .f32) (p : Fin 256) (c : Fin 8) :
    matmul dot_S256x128_S128x8_S256x8_1_0_0_1_n_n none l r (constant S256x8 .f32 0x00000000#32) (ix2 p c) = ∑ q : Fin 128, l (ix2 p q) * r (ix2 q c) := by
  unfold matmul
  rw [Ideal.matmul_constant_zero_apply, ← Equiv.sum_comp (contrEquiv1 dot_S256x128_S128x8_S256x8_1_0_0_1_n_n 128 rfl rfl).symm]
  refine Finset.sum_congr rfl fun q _ => ?_
  have hq := contrEquiv1_symm_val dot_S256x128_S128x8_S256x8_1_0_0_1_n_n 128 rfl rfl q
  have el : dot_S256x128_S128x8_S256x8_1_0_0_1_n_n.lhsIdx (ix2 p c) ((contrEquiv1 dot_S256x128_S128x8_S256x8_1_0_0_1_n_n 128 rfl rfl).symm q) = ix2 p q := funext fun a => Fin.ext (by
    match a with
    | ⟨0, _⟩ => exact lhs_hd_free _ _
    | ⟨1, _⟩ => exact (lhs_hd_con _ _).trans hq)
  have er : dot_S256x128_S128x8_S256x8_1_0_0_1_n_n.rhsIdx (ix2 p c) ((contrEquiv1 dot_S256x128_S128x8_S256x8_1_0_0_1_n_n 128 rfl rfl).symm q) = ix2 q c := funext fun a => Fin.ext (by
    match a with
    | ⟨0, _⟩ => exact (rhs_hd_con _ _).trans hq
    | ⟨1, _⟩ => exact rhs_hd_free _ _)
  rw [el, er]

/-! ## The payloads -/

/-- The zero blocks the first point stores. -/
theorem k1_pay8_apply (b : Fin 256) (k : Fin 128) : (k1_pay8 (F := Ideal)) (ix2 b k) = 0 := by
  unfold k1_pay8
  rw [shapeCast_self]
  show Ideal.ofBits .f32 0x00000000#32 = 0
  exact Ideal.ofBits_zero_f32

theorem k1_pay9_apply (b : Fin 256) : (k1_pay9 (F := Ideal)) (ix2 b (0 : Fin 1)) = 0 := by
  unfold k1_pay9
  rw [shapeCast_self]
  show Ideal.ofBits .f32 0x00000000#32 = 0
  exact Ideal.ofBits_zero_f32

/-- The projected per-graph input. -/
theorem k1_pay7_apply (u : Vec Ideal S256x32 .f32) (Wun : Vec Ideal S32x128 .f32) (bn : Vec Ideal S1x128 .f32) (b : Fin 256) (k : Fin 128) :
    (k1_pay7 (F := Ideal) u Wun bn) (ix2 b k) = (∑ q : Fin 32, u (ix2 b q) * Wun (ix2 q k)) + bn (ix2 (0 : Fin 1) k) := by
  unfold k1_pay7
  simp only [shapeCast_self, addf_apply]
  rw [broadcastTo_apply bn _ (ix2 b k) (ix2 (0 : Fin 1) k) (by intro a; fin_cases a <;> rfl)]
  exact congrArg₂ (· + ·) (mm_un_apply u Wun b k) rfl

/-- The count accumulator: the block's number of ids equal to graph `b` added. -/
theorem k1_pay12_apply (ids : Vec Ideal S1x1x2000 .i32) (cnt : Vec Ideal S256x1 .f32) (b : Fin 256) :
    (k1_pay12 (F := Ideal) ids cnt) (ix2 b (0 : Fin 1)) = cnt (ix2 b (0 : Fin 1)) + ∑ j : Fin 2000, ohv (ids (ix3 (0 : Fin 1) (0 : Fin 1) j)) b := by
  unfold k1_pay12
  rw [shapeCast_self]
  show cnt (ix2 b (0 : Fin 1)) + shapeCast S256x1 (multiReduction (F := Ideal) .add [1] S256 (k1_pay10 ids) 0x00000000#32 reduces_S256x2000_S256 (.inl rfl) rfl) shapeCasts_S256_S256x1 (ix2 b (0 : Fin 1)) = _
  congr 1
  rw [shapeCast_apply _ _ (ix2 b (0 : Fin 1)) (ix1 b) (by simp [Shape.rowMajor_val_two, Shape.rowMajor_val_one])]
  refine (Ideal.multiReduction_add_single (k1_pay10 (F := Ideal) ids) 0x00000000#32 reduces_S256x2000_S256 (.inl rfl) rfl (ix1 b)).trans ?_
  show ∑ j : Fin 2000, (k1_pay10 (F := Ideal) ids) (reduces_S256x2000_S256.lift (ix1 b) j) = _
  refine Finset.sum_congr rfl fun j _ => ?_
  have e : reduces_S256x2000_S256.lift (ix1 b) j = ix2 b j := by
    funext a; fin_cases a <;> rfl
  rw [e]; exact k1_pay10_apply ids b j

/-- The feature accumulator: each node of the block that belongs to graph `b` adds its rectified message, which is its own
    projection plus the projected input of its graph. -/
theorem k1_pay11_apply (ids : Vec Ideal S1x1x2000 .i32) (x : Vec Ideal S2000x128 .f32) (Wn : Vec Ideal S128x128 .f32)
    (un acc : Vec Ideal S256x128 .f32) (b : Fin 256) (k : Fin 128) :
    (k1_pay11 (F := Ideal) ids x Wn un acc) (ix2 b k)
      = acc (ix2 b k) + ∑ j : Fin 2000, ohv (ids (ix3 (0 : Fin 1) (0 : Fin 1) j)) b
          * max ((∑ q : Fin 128, x (ix2 j q) * Wn (ix2 q k)) + ∑ b' : Fin 256, ohv (ids (ix3 (0 : Fin 1) (0 : Fin 1) j)) b' * un (ix2 b' k)) 0 := by
  unfold k1_pay11
  simp only [shapeCast_self, addf_apply]
  refine congrArg₂ (· + ·) rfl ?_
  refine (mm_seg_apply _ _ b k).trans ?_
  refine Finset.sum_congr rfl fun j _ => ?_
  refine congrArg₂ (· * ·) (k1_pay10_apply ids b j) ?_
  simp only [maximumf_apply, addf_apply, broadcast_apply]
  refine congrArg₂ max (congrArg₂ (· + ·) (mm_xw_apply x Wn j k) ?_) Ideal.ofBits_zero_f32
  refine (mm_gat_apply _ un j k).trans ?_
  exact Finset.sum_congr rfl fun b' _ => congrArg (· * un (ix2 b' k)) (k1_pay10_apply ids b' j)

/-- An accumulator divided by its count, the count raised to at least one. -/
theorem k1_pay2_apply (acc : Vec Ideal S256x128 .f32) (cnt : Vec Ideal S256x1 .f32) (b : Fin 256) (k : Fin 128) :
    (k1_pay2 (F := Ideal) acc cnt) (ix2 b k) = Ideal.div (acc (ix2 b k)) (max (cnt (ix2 b (0 : Fin 1))) (Ideal.ofBits .f32 0x3F800000#32)) := by
  unfold k1_pay2
  simp only [divf_apply]
  rw [broadcastTo_apply _ _ (ix2 b k) (ix2 b (0 : Fin 1)) (by intro a; fin_cases a <;> rfl)]
  rfl

theorem k1_pay3_apply (acc : Vec Ideal S256x128 .f32) (cnt : Vec Ideal S256x1 .f32) (b : Fin 256) (k : Fin 128) :
    (k1_pay3 (F := Ideal) acc cnt) (ix2 b k) = Ideal.div (acc (ix2 b k)) (max (cnt (ix2 b (0 : Fin 1))) (Ideal.ofBits .f32 0x3F800000#32)) := by
  unfold k1_pay3
  simp only [shapeCast_self, divf_apply]
  rw [broadcastTo_apply _ _ (ix2 b k) (ix2 b (0 : Fin 1)) (by intro a; fin_cases a <;> rfl)]
  rfl

/-- The first head: the two normalised aggregates against their weights, plus the bias. -/
theorem k1_pay4_apply (accN : Vec Ideal S256x128 .f32) (cntN : Vec Ideal S256x1 .f32) (accE : Vec Ideal S256x128 .f32) (cntE : Vec Ideal S256x1 .f32)
    (Wgn Wge : Vec Ideal S128x8 .f32) (bg : Vec Ideal S1x8 .f32) (b : Fin 256) (a : Fin 8) :
    (k1_pay4 (F := Ideal) accN cntN accE cntE Wgn Wge bg) (ix2 b a)
      = ((∑ k : Fin 128, (k1_pay2 (F := Ideal) accN cntN) (ix2 b k) * Wgn (ix2 k a)) + ∑ k : Fin 128, (k1_pay3 (F := Ideal) accE cntE) (ix2 b k) * Wge (ix2 k a))
        + bg (ix2 (0 : Fin 1) a) := by
  unfold k1_pay4
  simp only [shapeCast_self, addf_apply]
  rw [broadcastTo_apply bg _ (ix2 b a) (ix2 (0 : Fin 1) a) (by intro a'; fin_cases a' <;> rfl)]
  exact congrArg₂ (· + ·) (congrArg₂ (· + ·) (mm_hd_apply _ Wgn b a) (mm_hd_apply _ Wge b a)) rfl

/-- The second head, clamped to [-20, 2]. -/
theorem k1_pay1_apply (accN : Vec Ideal S256x128 .f32) (cntN : Vec Ideal S256x1 .f32) (accE : Vec Ideal S256x128 .f32) (cntE : Vec Ideal S256x1 .f32)
    (Wgn Wge : Vec Ideal S128x8 .f32) (bg : Vec Ideal S1x8 .f32) (b : Fin 256) (a : Fin 8) :
    (k1_pay1 (F := Ideal) (k1_pay5 accN cntN accE cntE Wgn Wge) (k1_pay6 bg)) (ix2 b a)
      = min (Ideal.ofBits .f32 0x40000000#32) (max (Ideal.ofBits .f32 0xC1A00000#32)
          (((∑ k : Fin 128, (k1_pay2 (F := Ideal) accN cntN) (ix2 b k) * Wgn (ix2 k a)) + ∑ k : Fin 128, (k1_pay3 (F := Ideal) accE cntE) (ix2 b k) * Wge (ix2 k a))
            + bg (ix2 (0 : Fin 1) a))) := by
  unfold k1_pay1 k1_pay5 k1_pay6
  simp only [shapeCast_self, addf_apply, minimumf_apply, maximumf_apply, broadcast_apply]
  rw [broadcastTo_apply bg _ (ix2 b a) (ix2 (0 : Fin 1) a) (by intro a'; fin_cases a' <;> rfl)]
  exact congrArg₂ min rfl (congrArg₂ max rfl (congrArg₂ (· + ·) (congrArg₂ (· + ·) (mm_hd_apply _ Wgn b a) (mm_hd_apply _ Wge b a)) rfl))

end Cert.KernelIdeal.Hand

end
-- ==== Proof.HeadSpec.lean ====
/-
  The common form of the two programs' results, on the extended reals. For a family of `N` items with graph ids
  `ids`, rows `rows` of width `D`, and a per-graph feature table `u`: the segment sum of graph `b`, column `k`, is the
  sum, over the items whose id is `b`'s word, of the rectified `rows·W + (u_b·Wu + bias)`; the segment count is the
  number of those items; a mean is a sum over its count, the count at least the word of 1.0; a head at `(b, a)` is the
  node mean and the edge mean of `b` through the head's weights, plus its bias; the clip is to the interval from the
  word of -20.0 to the word of 2.0.
-/
import Idealize.ShloMosaic.PureOps.Ideal.Laws
import Idealize.ShloMosaic.Lib.ValueIdx

noncomputable section

namespace Cert.Spec

open Idealize.ShloMosaic Idealize.ShloMosaic.ValueIdx

/-- The word of 1.0 is the real 1. -/
theorem ofBits_one : Ideal.ofBits .f32 0x3F800000#32 = 1 := by
  simp [Ideal.ofBits, Ideal.ieee, -EReal.coe_mul]; norm_num

/-- A mean: the sum over the count, the count at least the word of 1.0. -/
def meanOf (s cnt : EReal) : EReal := Ideal.div s (max cnt (Ideal.ofBits .f32 0x3F800000#32))

/-- The segment sum of graph `b`, column `k`. -/
def segSum {N D : ℕ} (ids : (⟨1, ![N]⟩ : Shape).Idx → BitVec 32) (rows : (⟨2, ![N, D]⟩ : Shape).Idx → EReal)
    (W : (⟨2, ![D, 128]⟩ : Shape).Idx → EReal) (u : (⟨2, ![256, 32]⟩ : Shape).Idx → EReal)
    (Wu : (⟨2, ![32, 128]⟩ : Shape).Idx → EReal) (bias : (⟨1, ![128]⟩ : Shape).Idx → EReal) (b : Fin 256) (k : Fin 128) : EReal :=
  ∑ n ∈ Finset.univ.filter (fun n : Fin N => ids (ix1 n) = BitVec.ofNat 32 b.val),
    max ((∑ q : Fin D, rows (ix2 n q) * W (ix2 q k)) + ((∑ q : Fin 32, u (ix2 b q) * Wu (ix2 q k)) + bias (ix1 k))) 0

/-- The segment count of graph `b`. -/
def segCnt {N : ℕ} (ids : (⟨1, ![N]⟩ : Shape).Idx → BitVec 32) (b : Fin 256) : EReal :=
  ∑ n ∈ Finset.univ.filter (fun n : Fin N => ids (ix1 n) = BitVec.ofNat 32 b.val), (1 : EReal)

/-- A head at `(b, a)`. -/
def headSpec (ns : Fin 256 → Fin 128 → EReal) (nc : Fin 256 → EReal) (es : Fin 256 → Fin 128 → EReal) (ec : Fin 256 → EReal)
    (Wn We : (⟨2, ![128, 8]⟩ : Shape).Idx → EReal) (bias : (⟨1, ![8]⟩ : Shape).Idx → EReal) (b : Fin 256) (a : Fin 8) : EReal :=
  ((∑ k : Fin 128, meanOf (ns b k) (nc b) * Wn (ix2 k a)) + ∑ k : Fin 128, meanOf (es b k) (ec b) * We (ix2 k a)) + bias (ix1 a)

/-- The clip. -/
def clipSpec (x : EReal) : EReal := min (Ideal.ofBits .f32 0x40000000#32) (max (Ideal.ofBits .f32 0xC1A00000#32) x)

end Cert.Spec

end
-- ==== Proof.KVal1.lean ====
import proofs.«163481_g30743375904785_cont_sun_c4_101_2_alg».proof.Proof.Reg1Out
import proofs.«163481_g30743375904785_cont_sun_c4_101_2_alg».proof.Proof.Reg1Value
import proofs.«163481_g30743375904785_cont_sun_c4_101_2_alg».proof.Proof.Spec
import proofs.«163481_g30743375904785_cont_sun_c4_101_2_alg».proof.Proof.HeadSpec
import proofs.«163481_g30743375904785_cont_sun_c4_101_2_alg».proof.Proof.OneHot
import proofs.«163481_g30743375904785_cont_sun_c4_101_2_alg».proof.Proof.Blocks
import proofs.«163481_g30743375904785_cont_sun_c4_101_2_alg».proof.Proof.BlocksFixed
import Idealize.ShloMosaic.PureOps.Ideal.Laws
import Idealize.ShloMosaic.Lib.ValueIdx

set_option maxRecDepth 16384

/-!
  What the second kernel region leaves, at the ideal instance. Its three scratch buffers are the per-graph table
  (written at the first point, kept), the per-graph sum of node activations and the per-graph node count, accumulated
  over the 5 points of 2000 nodes exactly as the first region accumulates over edges. At the last point the two outputs
  are the two heads: graph `b`'s node mean and edge mean (each sum over its count, the count at least one), through
  the head's weights, plus its bias; the second head clipped.
-/

noncomputable section

namespace Cert.KernelIdeal.Hand

open Idealize.ShloMosaic Idealize.ShloMosaic.TcCoe
open Idealize.ShloMosaic.Pipeline (Dat Cfg Window)
open Idealize.ShloMosaic.ValueIdx
open Cert.KernelIdeal Cert.KernelIdeal.Gen
open Cert.Spec

variable (V : (c : Dev nD) → (b : Ref sig .tc) → Buf (Elt Ideal) ((c : Thread nD τ).loc b))

/-- The first grid point. -/
abbrev t10 : Fin cfg1.N := ⟨0, by rw [show cfg1.N = 5 from N_1]; omega⟩

/-- The blocks the body loads at point `t`, at their literal shapes. -/
def ids1 (c : Dev nD) (t : Fin cfg1.N) : Vec Ideal S1x1x2000 .i32 := iblk1 V c 0 t
def x1 (c : Dev nD) (t : Fin cfg1.N) : Vec Ideal S2000x128 .f32 := iblk1 V c 1 t
def u1 (c : Dev nD) (t : Fin cfg1.N) : Vec Ideal S256x32 .f32 := iblk1 V c 2 t
def Wun1 (c : Dev nD) (t : Fin cfg1.N) : Vec Ideal S32x128 .f32 := iblk1 V c 3 t
def bn1 (c : Dev nD) (t : Fin cfg1.N) : Vec Ideal S1x128 .f32 := iblk1 V c 4 t
def Wn1 (c : Dev nD) (t : Fin cfg1.N) : Vec Ideal S128x128 .f32 := iblk1 V c 5 t

/-- The per-graph table the first point writes into the first scratch buffer. -/
def un1 (c : Dev nD) : Vec Ideal S256x128 .f32 := k1_pay7 (u1 V c t10) (Wun1 V c t10) (bn1 V c t10)

/-- The three scratch buffers after the first point and after a later one, one component at a time. -/
theorem s17_zero (c : Dev nD) (h : 0 < cfg1.N) : (outsAt1 V c 0 h).2.2.1 = un1 V c :=
  congrArg (fun p => p.1) (outsAt1_zero V c h)
theorem s17_succ (c : Dev nD) (n : ℕ) (h : n + 1 < cfg1.N) :
    (outsAt1 V c (n + 1) h).2.2.1 = (outsAt1 V c n (Nat.lt_of_succ_lt h)).2.2.1 :=
  congrArg (fun p => p.1) (outsAt1_succ V c n h)
theorem s18_zero (c : Dev nD) (h : 0 < cfg1.N) :
    (outsAt1 V c 0 h).2.2.2.1 = k1_pay11 (ids1 V c ⟨0, h⟩) (x1 V c ⟨0, h⟩) (Wn1 V c ⟨0, h⟩) (un1 V c) (k1_pay8 (F := Ideal)) :=
  congrArg (fun p => p.2.1) (outsAt1_zero V c h)
theorem s18_succ (c : Dev nD) (n : ℕ) (h : n + 1 < cfg1.N) :
    (outsAt1 V c (n + 1) h).2.2.2.1 = k1_pay11 (ids1 V c ⟨n + 1, h⟩) (x1 V c ⟨n + 1, h⟩) (Wn1 V c ⟨n + 1, h⟩)
      (outsAt1 V c n (Nat.lt_of_succ_lt h)).2.2.1 (outsAt1 V c n (Nat.lt_of_succ_lt h)).2.2.2.1 :=
  congrArg (fun p => p.2.1) (outsAt1_succ V c n h)
theorem s19_zero (c : Dev nD) (h : 0 < cfg1.N) :
    (outsAt1 V c 0 h).2.2.2.2 = k1_pay12 (ids1 V c ⟨0, h⟩) (k1_pay9 (F := Ideal)) :=
  congrArg (fun p => p.2.2) (outsAt1_zero V c h)
theorem s19_succ (c : Dev nD) (n : ℕ) (h : n + 1 < cfg1.N) :
    (outsAt1 V c (n + 1) h).2.2.2.2 = k1_pay12 (ids1 V c ⟨n + 1, h⟩) (outsAt1 V c n (Nat.lt_of_succ_lt h)).2.2.2.2 :=
  congrArg (fun p => p.2.2) (outsAt1_succ V c n h)

/-- The first scratch buffer holds the table after every point: only the first point stores into it. -/
theorem scratch1_eq (c : Dev nD) (n : ℕ) (h : n < cfg1.N) : (outsAt1 V c n h).2.2.1 = un1 V c := by
  induction n with
  | zero => exact s17_zero V c h
  | succ n ih => exact (s17_succ V c n h).trans (ih (Nat.lt_of_succ_lt h))

/-- What point `t` adds to the sum of graph `b`, column `k`, over the block's 2000 nodes. -/
def term1 (c : Dev nD) (b : Fin 256) (k : Fin 128) (t : ℕ) : EReal :=
  if ht : t < cfg1.N then
    ∑ j : Fin 2000, ohv (ids1 V c ⟨t, ht⟩ (ix3 (0 : Fin 1) (0 : Fin 1) j)) b *
      max ((∑ q : Fin 128, x1 V c ⟨t, ht⟩ (ix2 j q) * Wn1 V c ⟨t, ht⟩ (ix2 q k))
        + ∑ b' : Fin 256, ohv (ids1 V c ⟨t, ht⟩ (ix3 (0 : Fin 1) (0 : Fin 1) j)) b' * un1 V c (ix2 b' k)) 0
  else 0

/-- What point `t` adds to the count of graph `b`. -/
def cterm1 (c : Dev nD) (b : Fin 256) (t : ℕ) : EReal :=
  if ht : t < cfg1.N then ∑ j : Fin 2000, ohv (ids1 V c ⟨t, ht⟩ (ix3 (0 : Fin 1) (0 : Fin 1) j)) b else 0

theorem acc1_zero (c : Dev nD) (b : Fin 256) (k : Fin 128) (h0 : 0 < cfg1.N) :
    (outsAt1 V c 0 h0).2.2.2.1 (ix2 b k) = 0 + term1 V c b k 0 := by
  unfold term1; rw [dif_pos h0, s18_zero V c h0]
  refine (k1_pay11_apply (ids1 V c ⟨0, h0⟩) (x1 V c ⟨0, h0⟩) (Wn1 V c ⟨0, h0⟩) (un1 V c) (k1_pay8 (F := Ideal)) b k).trans ?_
  rw [k1_pay8_apply]

theorem acc1_succ (c : Dev nD) (b : Fin 256) (k : Fin 128) (n : ℕ) (hn : n + 1 < cfg1.N) :
    (outsAt1 V c (n + 1) hn).2.2.2.1 (ix2 b k)
      = (outsAt1 V c n (Nat.lt_of_succ_lt hn)).2.2.2.1 (ix2 b k) + term1 V c b k (n + 1) := by
  unfold term1; rw [dif_pos hn, s18_succ V c n hn]
  refine (k1_pay11_apply (ids1 V c ⟨n + 1, hn⟩) (x1 V c ⟨n + 1, hn⟩) (Wn1 V c ⟨n + 1, hn⟩)
    (outsAt1 V c n (Nat.lt_of_succ_lt hn)).2.2.1 (outsAt1 V c n (Nat.lt_of_succ_lt hn)).2.2.2.1 b k).trans ?_
  rw [scratch1_eq V c n (Nat.lt_of_succ_lt hn)]

/-- After point `n` the second scratch buffer holds, at `(b, k)`, the sum of the points' terms so far. -/
theorem acc1_eq_sum (c : Dev nD) (b : Fin 256) (k : Fin 128) (n : ℕ) (h : n < cfg1.N) :
    (outsAt1 V c n h).2.2.2.1 (ix2 b k) = ∑ t ∈ Finset.range (n + 1), term1 V c b k t := by
  induction n with
  | zero => rw [acc1_zero V c b k h, zero_add, Finset.sum_range_one]
  | succ n ih => rw [acc1_succ V c b k n h, ih (Nat.lt_of_succ_lt h), Finset.sum_range_succ _ (n + 1)]

theorem cnt1_zero (c : Dev nD) (b : Fin 256) (h0 : 0 < cfg1.N) :
    (outsAt1 V c 0 h0).2.2.2.2 (ix2 b (0 : Fin 1)) = 0 + cterm1 V c b 0 := by
  unfold cterm1; rw [dif_pos h0, s19_zero V c h0]
  refine (k1_pay12_apply (ids1 V c ⟨0, h0⟩) (k1_pay9 (F := Ideal)) b).trans ?_
  rw [k1_pay9_apply]

theorem cnt1_succ (c : Dev nD) (b : Fin 256) (n : ℕ) (hn : n + 1 < cfg1.N) :
    (outsAt1 V c (n + 1) hn).2.2.2.2 (ix2 b (0 : Fin 1))
      = (outsAt1 V c n (Nat.lt_of_succ_lt hn)).2.2.2.2 (ix2 b (0 : Fin 1)) + cterm1 V c b (n + 1) := by
  unfold cterm1; rw [dif_pos hn, s19_succ V c n hn]
  exact k1_pay12_apply (ids1 V c ⟨n + 1, hn⟩) (outsAt1 V c n (Nat.lt_of_succ_lt hn)).2.2.2.2 b

/-- After point `n` the third scratch buffer holds, at `b`, the sum of the points' one-hot row sums so far. -/
theorem cnt1_eq_sum (c : Dev nD) (b : Fin 256) (n : ℕ) (h : n < cfg1.N) :
    (outsAt1 V c n h).2.2.2.2 (ix2 b (0 : Fin 1)) = ∑ t ∈ Finset.range (n + 1), cterm1 V c b t := by
  induction n with
  | zero => rw [cnt1_zero V c b h, zero_add, Finset.sum_range_one]
  | succ n ih => rw [cnt1_succ V c b n h, ih (Nat.lt_of_succ_lt h), Finset.sum_range_succ _ (n + 1)]

/-! ## The blocks read off the arrays the region finds -/

def arrIds1 (c : Dev nD) : S5x1x2000.Idx → BitVec 32 := V c main_v1
def arrX1 (c : Dev nD) : S10000x128.Idx → EReal := V c main_arg0
def arrU1 (c : Dev nD) : S256x32.Idx → EReal := V c main_arg2
def arrWun1 (c : Dev nD) : S32x128.Idx → EReal := V c main_arg9
def arrBn1 (c : Dev nD) : S1x128.Idx → EReal := V c main_v3
def arrWn1 (c : Dev nD) : S128x128.Idx → EReal := V c main_arg8

theorem ids1_apply (c : Dev nD) (t : Fin cfg1.N) (j : Fin 2000) :
    ids1 V c t (ix3 (0 : Fin 1) (0 : Fin 1) j) = arrIds1 V c (ix3 (⟨t.val, lt5 t⟩ : Fin 5) (0 : Fin 1) j) :=
  blk1_0_apply (F := Ideal) (V c main_v1) t j
theorem x1_apply (c : Dev nD) (t : Fin cfg1.N) (j : Fin 2000) (q : Fin 128) :
    x1 V c t (ix2 j q) = arrX1 V c (ix2 (⟨2000 * t.val + j.val, by have := lt5 t; omega⟩ : Fin 10000) q) :=
  blk1_1_apply (F := Ideal) (V c main_arg0) t j q
theorem u1_apply (c : Dev nD) (t : Fin cfg1.N) (i : Fin 256) (q : Fin 32) : u1 V c t (ix2 i q) = arrU1 V c (ix2 i q) :=
  blk1_2_apply (F := Ideal) (V c main_arg2) t i q
theorem Wun1_apply (c : Dev nD) (t : Fin cfg1.N) (i : Fin 32) (q : Fin 128) : Wun1 V c t (ix2 i q) = arrWun1 V c (ix2 i q) :=
  blk1_3_apply (F := Ideal) (V c main_arg9) t i q
theorem bn1_apply (c : Dev nD) (t : Fin cfg1.N) (i : Fin 1) (q : Fin 128) : bn1 V c t (ix2 i q) = arrBn1 V c (ix2 i q) :=
  blk1_4_apply (F := Ideal) (V c main_v3) t i q
theorem Wn1_apply (c : Dev nD) (t : Fin cfg1.N) (i : Fin 128) (q : Fin 128) : Wn1 V c t (ix2 i q) = arrWn1 V c (ix2 i q) :=
  blk1_5_apply (F := Ideal) (V c main_arg8) t i q

/-- The scratch table at `(b, k)`. -/
theorem un1_apply (c : Dev nD) (b : Fin 256) (k : Fin 128) :
    un1 V c (ix2 b k) = (∑ q : Fin 32, arrU1 V c (ix2 b q) * arrWun1 V c (ix2 q k)) + arrBn1 V c (ix2 (0 : Fin 1) k) := by
  unfold un1
  refine (k1_pay7_apply (u1 V c t10) (Wun1 V c t10) (bn1 V c t10) b k).trans ?_
  simp only [u1_apply, Wun1_apply, bn1_apply]

/-- A node's activation as the kernel forms it. -/
def actK1 (c : Dev nD) (g : BitVec 32) (n : Fin 10000) (k : Fin 128) : EReal :=
  max ((∑ q : Fin 128, arrX1 V c (ix2 n q) * arrWn1 V c (ix2 q k)) + ∑ b' : Fin 256, ohv g b' * un1 V c (ix2 b' k)) 0

theorem term1_global (c : Dev nD) (b : Fin 256) (k : Fin 128) (t : Fin 5) :
    term1 V c b k t.val = ∑ j : Fin 2000,
      ohv (arrIds1 V c (ix3 t (0 : Fin 1) j)) b
        * actK1 V c (arrIds1 V c (ix3 t (0 : Fin 1) j)) (⟨2000 * t.val + j.val, Cert.Algebra.block_lt t j⟩ : Fin 10000) k := by
  have ht : t.val < cfg1.N := by rw [show cfg1.N = 5 from N_1]; exact t.isLt
  unfold term1 actK1; rw [dif_pos ht]
  simp only [ids1_apply, x1_apply, Wn1_apply]

theorem cterm1_global (c : Dev nD) (b : Fin 256) (t : Fin 5) :
    cterm1 V c b t.val = ∑ j : Fin 2000, ohv (arrIds1 V c (ix3 t (0 : Fin 1) j)) b := by
  have ht : t.val < cfg1.N := by rw [show cfg1.N = 5 from N_1]; exact t.isLt
  unfold cterm1; rw [dif_pos ht]
  simp only [ids1_apply]

/-! ## The second region's two accumulators, over the flat node ids -/

section Final
variable (c : Dev nD) (n2g : S10000.Idx → BitVec 32)
  (hids : ∀ (t : Fin 5) (j : Fin 2000), arrIds1 V c (ix3 t (0 : Fin 1) j) = n2g (ix1 (⟨2000 * t.val + j.val, Cert.Algebra.block_lt t j⟩ : Fin 10000)))
include hids

theorem acc1_final (b : Fin 256) (k : Fin 128) (h4 : 4 < cfg1.N) :
    (outsAt1 V c 4 h4).2.2.2.1 (ix2 b k)
      = ∑ n ∈ Finset.univ.filter (fun n : Fin 10000 => n2g (ix1 n) = BitVec.ofNat 32 b.val),
          max ((∑ q : Fin 128, arrX1 V c (ix2 n q) * arrWn1 V c (ix2 q k)) + un1 V c (ix2 b k)) 0 := by
  rw [acc1_eq_sum V c b k 4 h4, ← Fin.sum_univ_eq_sum_range (fun t => term1 V c b k t) 5]
  rw [show (∑ t : Fin 5, term1 V c b k t.val)
      = ∑ t : Fin 5, ∑ j : Fin 2000, (fun e : Fin (5 * 2000) => ohv (n2g (ix1 (e : Fin 10000))) b * actK1 V c (n2g (ix1 (e : Fin 10000))) e k)
          ⟨2000 * t.val + j.val, Cert.Algebra.block_lt t j⟩ from
    Finset.sum_congr rfl fun t _ => (term1_global V c b k t).trans (Finset.sum_congr rfl fun j _ => by rw [hids t j])]
  refine (Cert.Algebra.sum_blocks_fin 5 2000
    (fun e : Fin (5 * 2000) => ohv (n2g (ix1 (e : Fin 10000))) b * actK1 V c (n2g (ix1 (e : Fin 10000))) e k)
    (fun t j => Cert.Algebra.block_lt t j)).trans ?_
  show (∑ e : Fin 10000, ohv (n2g (ix1 e)) b * actK1 V c (n2g (ix1 e)) e k) = _
  simp only [ohv_def]
  rw [Cert.Algebra.sum_indicator_mul (fun e : Fin 10000 => n2g (ix1 e) = BitVec.ofNat 32 b.val)]
  refine Finset.sum_congr rfl fun e he => ?_
  have hg : n2g (ix1 e) = BitVec.ofNat 32 b.val := (Finset.mem_filter.mp he).2
  unfold actK1
  rw [hg]
  simp only [ohv_ofNat]
  rw [Cert.Algebra.sum_onehot_mul b fun b' => un1 V c (ix2 b' k)]

theorem cnt1_final (b : Fin 256) (h4 : 4 < cfg1.N) :
    (outsAt1 V c 4 h4).2.2.2.2 (ix2 b (0 : Fin 1))
      = ∑ n ∈ Finset.univ.filter (fun n : Fin 10000 => n2g (ix1 n) = BitVec.ofNat 32 b.val), (1 : EReal) := by
  rw [cnt1_eq_sum V c b 4 h4, ← Fin.sum_univ_eq_sum_range (fun t => cterm1 V c b t) 5]
  rw [show (∑ t : Fin 5, cterm1 V c b t.val)
      = ∑ t : Fin 5, ∑ j : Fin 2000, (fun e : Fin (5 * 2000) => ohv (n2g (ix1 (e : Fin 10000))) b)
          ⟨2000 * t.val + j.val, Cert.Algebra.block_lt t j⟩ from
    Finset.sum_congr rfl fun t _ => (cterm1_global V c b t).trans (Finset.sum_congr rfl fun j _ => by rw [hids t j])]
  refine (Cert.Algebra.sum_blocks_fin 5 2000
    (fun e : Fin (5 * 2000) => ohv (n2g (ix1 (e : Fin 10000))) b)
    (fun t j => Cert.Algebra.block_lt t j)).trans ?_
  show (∑ e : Fin 10000, ohv (n2g (ix1 e)) b) = _
  simp only [ohv_def]
  exact Cert.Algebra.sum_indicator (fun e : Fin 10000 => n2g (ix1 e) = BitVec.ofNat 32 b.val)

end Final

/-! ## The last point: the two heads -/

/-- The blocks only the last point loads, at their literal shapes: the first region's two results and the heads' weights and biases. -/
def accE1 (c : Dev nD) (t : Fin cfg1.N) : Vec Ideal S256x128 .f32 := iblk1 V c 6 t
def cntE1 (c : Dev nD) (t : Fin cfg1.N) : Vec Ideal S256x1 .f32 := iblk1 V c 7 t
def Wnm1 (c : Dev nD) (t : Fin cfg1.N) : Vec Ideal S128x8 .f32 := iblk1 V c 8 t
def Wem1 (c : Dev nD) (t : Fin cfg1.N) : Vec Ideal S128x8 .f32 := iblk1 V c 9 t
def bm1 (c : Dev nD) (t : Fin cfg1.N) : Vec Ideal S1x8 .f32 := iblk1 V c 10 t
def Wns1 (c : Dev nD) (t : Fin cfg1.N) : Vec Ideal S128x8 .f32 := iblk1 V c 11 t
def Wes1 (c : Dev nD) (t : Fin cfg1.N) : Vec Ideal S128x8 .f32 := iblk1 V c 12 t
def bs1 (c : Dev nD) (t : Fin cfg1.N) : Vec Ideal S1x8 .f32 := iblk1 V c 13 t

def arrAccE1 (c : Dev nD) : S256x128.Idx → EReal := V c main_v6_0
def arrCntE1 (c : Dev nD) : S256x1.Idx → EReal := V c main_v6_1
def arrWnm1 (c : Dev nD) : S128x8.Idx → EReal := V c main_arg11
def arrWem1 (c : Dev nD) : S128x8.Idx → EReal := V c main_arg12
def arrBm1 (c : Dev nD) : S1x8.Idx → EReal := V c main_v4
def arrWns1 (c : Dev nD) : S128x8.Idx → EReal := V c main_arg14
def arrWes1 (c : Dev nD) : S128x8.Idx → EReal := V c main_arg15
def arrBs1 (c : Dev nD) : S1x8.Idx → EReal := V c main_v5

theorem accE1_apply (c : Dev nD) (t : Fin cfg1.N) (i : Fin 256) (q : Fin 128) : accE1 V c t (ix2 i q) = arrAccE1 V c (ix2 i q) :=
  blk1_6_apply (F := Ideal) (V c main_v6_0) t i q
theorem cntE1_apply (c : Dev nD) (t : Fin cfg1.N) (i : Fin 256) (q : Fin 1) : cntE1 V c t (ix2 i q) = arrCntE1 V c (ix2 i q) :=
  blk1_7_apply (F := Ideal) (V c main_v6_1) t i q
theorem Wnm1_apply (c : Dev nD) (t : Fin cfg1.N) (i : Fin 128) (q : Fin 8) : Wnm1 V c t (ix2 i q) = arrWnm1 V c (ix2 i q) :=
  blk1_8_apply (F := Ideal) (V c main_arg11) t i q
theorem Wem1_apply (c : Dev nD) (t : Fin cfg1.N) (i : Fin 128) (q : Fin 8) : Wem1 V c t (ix2 i q) = arrWem1 V c (ix2 i q) :=
  blk1_9_apply (F := Ideal) (V c main_arg12) t i q
theorem bm1_apply (c : Dev nD) (t : Fin cfg1.N) (i : Fin 1) (q : Fin 8) : bm1 V c t (ix2 i q) = arrBm1 V c (ix2 i q) :=
  blk1_10_apply (F := Ideal) (V c main_v4) t i q
theorem Wns1_apply (c : Dev nD) (t : Fin cfg1.N) (i : Fin 128) (q : Fin 8) : Wns1 V c t (ix2 i q) = arrWns1 V c (ix2 i q) :=
  blk1_11_apply (F := Ideal) (V c main_arg14) t i q
theorem Wes1_apply (c : Dev nD) (t : Fin cfg1.N) (i : Fin 128) (q : Fin 8) : Wes1 V c t (ix2 i q) = arrWes1 V c (ix2 i q) :=
  blk1_12_apply (F := Ideal) (V c main_arg15) t i q
theorem bs1_apply (c : Dev nD) (t : Fin cfg1.N) (i : Fin 1) (q : Fin 8) : bs1 V c t (ix2 i q) = arrBs1 V c (ix2 i q) :=
  blk1_13_apply (F := Ideal) (V c main_v5) t i q

/-- The first output at `(b, a)` after the last point: the node mean and the edge mean of graph `b`, each through its
    weights' column `a`, plus the bias. -/
theorem out14_apply (c : Dev nD) (b : Fin 256) (a : Fin 8) (h4 : 4 < cfg1.N) :
    (outsAt1 V c 4 h4).1 (ix2 b a)
      = ((∑ k : Fin 128, meanOf ((outsAt1 V c 4 h4).2.2.2.1 (ix2 b k)) ((outsAt1 V c 4 h4).2.2.2.2 (ix2 b (0 : Fin 1))) * arrWnm1 V c (ix2 k a))
          + ∑ k : Fin 128, meanOf (arrAccE1 V c (ix2 b k)) (arrCntE1 V c (ix2 b (0 : Fin 1))) * arrWem1 V c (ix2 k a))
        + arrBm1 V c (ix2 (0 : Fin 1) a) := by
  rw [(outsAt1_last V c h4).1]
  refine (k1_pay4_apply (outsAt1 V c 4 h4).2.2.2.1 (outsAt1 V c 4 h4).2.2.2.2 (accE1 V c ⟨4, h4⟩) (cntE1 V c ⟨4, h4⟩)
    (Wnm1 V c ⟨4, h4⟩) (Wem1 V c ⟨4, h4⟩) (bm1 V c ⟨4, h4⟩) b a).trans ?_
  simp only [k1_pay2_apply, k1_pay3_apply, accE1_apply, cntE1_apply, Wnm1_apply, Wem1_apply, bm1_apply, meanOf]

/-- The second output at `(b, a)`: the same form through the second head's weights, clipped to the interval from -20 to 2. -/
theorem out15_apply (c : Dev nD) (b : Fin 256) (a : Fin 8) (h4 : 4 < cfg1.N) :
    (outsAt1 V c 4 h4).2.1 (ix2 b a)
      = min (Ideal.ofBits .f32 0x40000000#32) (max (Ideal.ofBits .f32 0xC1A00000#32)
          (((∑ k : Fin 128, meanOf ((outsAt1 V c 4 h4).2.2.2.1 (ix2 b k)) ((outsAt1 V c 4 h4).2.2.2.2 (ix2 b (0 : Fin 1))) * arrWns1 V c (ix2 k a))
              + ∑ k : Fin 128, meanOf (arrAccE1 V c (ix2 b k)) (arrCntE1 V c (ix2 b (0 : Fin 1))) * arrWes1 V c (ix2 k a))
            + arrBs1 V c (ix2 (0 : Fin 1) a))) := by
  rw [(outsAt1_last V c h4).2]
  refine (k1_pay1_apply (outsAt1 V c 4 h4).2.2.2.1 (outsAt1 V c 4 h4).2.2.2.2 (accE1 V c ⟨4, h4⟩) (cntE1 V c ⟨4, h4⟩)
    (Wns1 V c ⟨4, h4⟩) (Wes1 V c ⟨4, h4⟩) (bs1 V c ⟨4, h4⟩) b a).trans ?_
  simp only [k1_pay2_apply, k1_pay3_apply, accE1_apply, cntE1_apply, Wns1_apply, Wes1_apply, bs1_apply, meanOf]

end Cert.KernelIdeal.Hand

end
-- ==== Proof.Entry.lean ====
import proofs.«163481_g30743375904785_cont_sun_c4_101_2_alg».proof.Proof.Gen.KernelIdeal.Launch
import proofs.«163481_g30743375904785_cont_sun_c4_101_2_alg».proof.Proof.Gen.KernelIdeal.Points
import Idealize.ShloMosaic.Lib.Pipeline.FrameBody
import Idealize.ShloMosaic.Lib.Pipeline.Value
import Idealize.ShloMosaic.Lib.ValueIdx
import proofs.«163481_g30743375904785_cont_sun_c4_101_2_alg».proof.Proof.Gen.KernelIdeal.Regions
import Idealize.ShloMosaic.Lib.StableHlo.Run
import Idealize.ShloMosaic.Lib.ValueLayout
set_option maxRecDepth 16384

/-!
  What the first kernel region finds in the six buffers the reshapes wrote, read at an index: the blocked id
  arrays `[80, 1, 4000]` and `[5, 1, 2000]` hold the flat ids in row-major order (entry `(t, 0, j)` is id
  `4000 t + j`, respectively `2000 t + j`), and each bias row `[1, n]` holds the bias vector.
-/

noncomputable section

namespace Cert.KernelIdeal.Hand

open Idealize.ShloMosaic Idealize.ShloMosaic.TcCoe
open Idealize.ShloMosaic.Pipeline (Dat Cfg Window)
open Idealize.ShloMosaic.ValueIdx
open Cert.KernelIdeal Cert.KernelIdeal.Gen

variable {F : FTy → Type} [FloatOps F]

variable (m : (ℓ : Loc nD τ sig) → Buf (Elt F) ℓ)

/-- The blocked edge ids are the flat edge ids, reshaped. -/
theorem V1_v0 (c : Dev nD) : (Gen.V1 m c (Proc.devRef .tc main_v0) : S80x1x4000.Idx → Elt F .i32)
    = shapeCast S80x1x4000 (m ((c : Thread nD τ).loc main_arg4)) shapeCasts_S320000_S80x1x4000 := by
  show StableHlo.after hostOps0 (fun b => m (c, b)) (Proc.devRef .tc main_v0) = _
  after_results; rfl
/-- The blocked node ids are the flat node ids, reshaped. -/
theorem V1_v1 (c : Dev nD) : (Gen.V1 m c (Proc.devRef .tc main_v1) : S5x1x2000.Idx → Elt F .i32)
    = shapeCast S5x1x2000 (m ((c : Thread nD τ).loc main_arg3)) shapeCasts_S10000_S5x1x2000 := by
  show StableHlo.after hostOps0 (fun b => m (c, b)) (Proc.devRef .tc main_v1) = _
  after_results; rfl
theorem V1_v2 (c : Dev nD) : (Gen.V1 m c (Proc.devRef .tc main_v2) : S1x128.Idx → Elt F .f32)
    = shapeCast S1x128 (m ((c : Thread nD τ).loc main_arg7)) shapeCasts_S128_S1x128 := by
  show StableHlo.after hostOps0 (fun b => m (c, b)) (Proc.devRef .tc main_v2) = _
  after_results; rfl
theorem V1_v3 (c : Dev nD) : (Gen.V1 m c (Proc.devRef .tc main_v3) : S1x128.Idx → Elt F .f32)
    = shapeCast S1x128 (m ((c : Thread nD τ).loc main_arg10)) shapeCasts_S128_S1x128 := by
  show StableHlo.after hostOps0 (fun b => m (c, b)) (Proc.devRef .tc main_v3) = _
  after_results; rfl
theorem V1_v4 (c : Dev nD) : (Gen.V1 m c (Proc.devRef .tc main_v4) : S1x8.Idx → Elt F .f32)
    = shapeCast S1x8 (m ((c : Thread nD τ).loc main_arg13)) shapeCasts_S8_S1x8 := by
  show StableHlo.after hostOps0 (fun b => m (c, b)) (Proc.devRef .tc main_v4) = _
  after_results; rfl
theorem V1_v5 (c : Dev nD) : (Gen.V1 m c (Proc.devRef .tc main_v5) : S1x8.Idx → Elt F .f32)
    = shapeCast S1x8 (m ((c : Thread nD τ).loc main_arg16)) shapeCasts_S8_S1x8 := by
  show StableHlo.after hostOps0 (fun b => m (c, b)) (Proc.devRef .tc main_v5) = _
  after_results; rfl

section Casts
variable {α : Type}

/-- A flat array of `T * J` entries cast to `[T, 1, J]` reads, at `(t, 0, j)`, the entry `J t + j`. -/
theorem cast_blocked_apply {T J : ℕ} (x : (⟨1, ![T * J]⟩ : Shape).Idx → α)
    (h : (⟨1, ![T * J]⟩ : Shape).ShapeCasts ⟨3, ![T, 1, J]⟩) (t : Fin T) (j : Fin J) :
    shapeCast ⟨3, ![T, 1, J]⟩ x h (ix3 t (0 : Fin 1) j)
      = x (ix1 (⟨J * t.val + j.val, by
          have ht := t.isLt; have hj := j.isLt
          calc J * t.val + j.val < J * t.val + J := by omega
            _ = J * (t.val + 1) := by ring
            _ ≤ J * T := Nat.mul_le_mul_left _ ht
            _ = T * J := Nat.mul_comm _ _⟩ : Fin (T * J))) :=
  shapeCast_apply x h _ _ (by
    rw [Shape.rowMajor_val_one, Shape.rowMajor_val_three]
    show J * t.val + j.val = (t.val * 1 + 0) * J + j.val
    rw [Nat.mul_one, Nat.add_zero, Nat.mul_comm])

/-- A vector `[n]` cast to the row `[1, n]` reads, at `(0, k)`, the entry `k`. -/
theorem cast_row_apply {n : ℕ} (x : (⟨1, ![n]⟩ : Shape).Idx → α)
    (h : (⟨1, ![n]⟩ : Shape).ShapeCasts ⟨2, ![1, n]⟩) (k : Fin n) :
    shapeCast ⟨2, ![1, n]⟩ x h (ix2 (0 : Fin 1) k) = x (ix1 k) :=
  shapeCast_apply x h _ _ (by
    rw [Shape.rowMajor_val_one, Shape.rowMajor_val_two]
    show k.val = 0 * n + k.val
    rw [Nat.zero_mul, Nat.zero_add])

end Casts

end Cert.KernelIdeal.Hand

end
-- ==== Proof.KFinal.lean ====
import proofs.«163481_g30743375904785_cont_sun_c4_101_2_alg».proof.Proof.Assembly
import proofs.«163481_g30743375904785_cont_sun_c4_101_2_alg».proof.Proof.Reg0Arr
import proofs.«163481_g30743375904785_cont_sun_c4_101_2_alg».proof.Proof.KVal0
import proofs.«163481_g30743375904785_cont_sun_c4_101_2_alg».proof.Proof.KVal1
import proofs.«163481_g30743375904785_cont_sun_c4_101_2_alg».proof.Proof.Entry
import proofs.«163481_g30743375904785_cont_sun_c4_101_2_alg».proof.Proof.HeadSpec
import Idealize.ShloMosaic.PureOps.Ideal.Laws
import Idealize.ShloMosaic.Lib.ValueIdx

set_option maxRecDepth 16384

/-!
  The idealized kernel's two results as functions of the launch memory. The first region is entered from the
  reshapes' results, so its id blocks are the flat edge ids in order and its bias row is the edge bias; its two output
  arrays end at the segment sum and the segment count of the edges. The second region is entered from that, so its
  id blocks are the flat node ids, its windows 6 and 7 are the first region's two results, and at its last point its
  two outputs are the two heads over the node and edge means.
-/

noncomputable section

namespace Cert.KernelIdeal.Hand

open Idealize.ShloMosaic Idealize.ShloMosaic.TcCoe
open Idealize.ShloMosaic.Pipeline (Dat Cfg Window)
open Idealize.ShloMosaic.ValueIdx
open Cert.KernelIdeal Cert.KernelIdeal.Gen
open Cert.Spec

variable (m : (ℓ : Loc nD τ sig) → Buf (Elt Ideal) ℓ)

/-! ## The seventeen arguments at their literal shapes -/
def A0 (c : Dev nD) : S10000x128.Idx → EReal := m ((c : Thread nD τ).loc main_arg0)
def A1 (c : Dev nD) : S320000x16.Idx → EReal := m ((c : Thread nD τ).loc main_arg1)
def A2 (c : Dev nD) : S256x32.Idx → EReal := m ((c : Thread nD τ).loc main_arg2)
def A3 (c : Dev nD) : S10000.Idx → BitVec 32 := m ((c : Thread nD τ).loc main_arg3)
def A4 (c : Dev nD) : S320000.Idx → BitVec 32 := m ((c : Thread nD τ).loc main_arg4)
def A5 (c : Dev nD) : S16x128.Idx → EReal := m ((c : Thread nD τ).loc main_arg5)
def A6 (c : Dev nD) : S32x128.Idx → EReal := m ((c : Thread nD τ).loc main_arg6)
def A7 (c : Dev nD) : S128.Idx → EReal := m ((c : Thread nD τ).loc main_arg7)
def A8 (c : Dev nD) : S128x128.Idx → EReal := m ((c : Thread nD τ).loc main_arg8)
def A9 (c : Dev nD) : S32x128.Idx → EReal := m ((c : Thread nD τ).loc main_arg9)
def A10 (c : Dev nD) : S128.Idx → EReal := m ((c : Thread nD τ).loc main_arg10)
def A11 (c : Dev nD) : S128x8.Idx → EReal := m ((c : Thread nD τ).loc main_arg11)
def A12 (c : Dev nD) : S128x8.Idx → EReal := m ((c : Thread nD τ).loc main_arg12)
def A13 (c : Dev nD) : S8.Idx → EReal := m ((c : Thread nD τ).loc main_arg13)
def A14 (c : Dev nD) : S128x8.Idx → EReal := m ((c : Thread nD τ).loc main_arg14)
def A15 (c : Dev nD) : S128x8.Idx → EReal := m ((c : Thread nD τ).loc main_arg15)
def A16 (c : Dev nD) : S8.Idx → EReal := m ((c : Thread nD τ).loc main_arg16)

/-! ## What the first region is entered from -/

theorem E0_arg (c : Dev nD) (r : Ref sig .tc) (h : r ∉ hostOps0_W) : E0 m c r = m ((c : Thread nD τ).loc r) :=
  Gen.V1_of m c r h

theorem ids0_entry (c : Dev nD) (t : Fin 80) (j : Fin 4000) :
    arrIds0 (E0 m) c (ix3 t (0 : Fin 1) j) = A4 m c (ix1 (⟨4000 * t.val + j.val, Cert.Algebra.block_lt t j⟩ : Fin 320000)) := by
  show (Gen.V1 m c (Proc.devRef .tc main_v0) : S80x1x4000.Idx → Elt Ideal .i32) (ix3 t (0 : Fin 1) j) = _
  rw [V1_v0]
  exact cast_blocked_apply (T := 80) (J := 4000) (m ((c : Thread nD τ).loc main_arg4)) shapeCasts_S320000_S80x1x4000 t j

theorem ea0_entry (c : Dev nD) : arrEa0 (E0 m) c = A1 m c := E0_arg m c main_arg1 (by decide)
theorem u0_entry (c : Dev nD) : arrU0 (E0 m) c = A2 m c := E0_arg m c main_arg2 (by decide)
theorem Wue0_entry (c : Dev nD) : arrWue0 (E0 m) c = A6 m c := E0_arg m c main_arg6 (by decide)
theorem We0_entry (c : Dev nD) : arrWe0 (E0 m) c = A5 m c := E0_arg m c main_arg5 (by decide)
theorem be0_entry (c : Dev nD) (k : Fin 128) : arrBe0 (E0 m) c (ix2 (0 : Fin 1) k) = A7 m c (ix1 k) := by
  show (Gen.V1 m c (Proc.devRef .tc main_v2) : S1x128.Idx → Elt Ideal .f32) (ix2 (0 : Fin 1) k) = _
  rw [V1_v2]
  exact cast_row_apply (m ((c : Thread nD τ).loc main_arg7)) shapeCasts_S128_S1x128 k

theorem h79 : 79 < cfg0.N := by rw [show cfg0.N = 80 from N_0]; omega
theorem h4 : 4 < cfg1.N := by rw [show cfg1.N = 5 from N_1]; omega

/-- The first region's first result: the edges' segment sum. -/
theorem edgeSum_eq (c : Dev nD) (b : Fin 256) (k : Fin 128) :
    (outsAt0 (E0 m) c 79 h79).1 (ix2 b k) = segSum (A4 m c) (A1 m c) (A5 m c) (A2 m c) (A6 m c) (A7 m c) b k := by
  rw [acc0_final (E0 m) c (A4 m c) (ids0_entry m c) b k h79]
  unfold segSum
  refine Finset.sum_congr rfl fun e _ => ?_
  rw [ue0_apply, ea0_entry, We0_entry, u0_entry, Wue0_entry, be0_entry]

/-- The first region's second result: the edges' segment count. -/
theorem edgeCnt_eq (c : Dev nD) (b : Fin 256) :
    (outsAt0 (E0 m) c 79 h79).2.1 (ix2 b (0 : Fin 1)) = segCnt (A4 m c) b :=
  cnt0_final (E0 m) c (A4 m c) (ids0_entry m c) b h79

/-! ## What the second region is entered from -/

theorem E1_arg (c : Dev nD) (r : Ref sig .tc) (h : r ∉ hostOps0_W) (h0 : r ≠ main_v6_0) (h1 : r ≠ main_v6_1) :
    E1 m c r = m ((c : Thread nD τ).loc r) :=
  (E1_keep m c r h0 h1).trans (E0_arg m c r h)

theorem ids1_entry (c : Dev nD) (t : Fin 5) (j : Fin 2000) :
    arrIds1 (E1 m) c (ix3 t (0 : Fin 1) j) = A3 m c (ix1 (⟨2000 * t.val + j.val, Cert.Algebra.block_lt t j⟩ : Fin 10000)) := by
  have e : (E1 m c main_v1 : S5x1x2000.Idx → Elt Ideal .i32) = Gen.V1 m c (Proc.devRef .tc main_v1) :=
    E1_keep m c main_v1 (by decide) (by decide)
  show (E1 m c main_v1 : S5x1x2000.Idx → Elt Ideal .i32) (ix3 t (0 : Fin 1) j) = _
  rw [e, V1_v1]
  exact cast_blocked_apply (T := 5) (J := 2000) (m ((c : Thread nD τ).loc main_arg3)) shapeCasts_S10000_S5x1x2000 t j

theorem x1_entry (c : Dev nD) : arrX1 (E1 m) c = A0 m c := E1_arg m c main_arg0 (by decide) (by decide) (by decide)
theorem u1_entry (c : Dev nD) : arrU1 (E1 m) c = A2 m c := E1_arg m c main_arg2 (by decide) (by decide) (by decide)
theorem Wun1_entry (c : Dev nD) : arrWun1 (E1 m) c = A9 m c := E1_arg m c main_arg9 (by decide) (by decide) (by decide)
theorem Wn1_entry (c : Dev nD) : arrWn1 (E1 m) c = A8 m c := E1_arg m c main_arg8 (by decide) (by decide) (by decide)
theorem bn1_entry (c : Dev nD) (k : Fin 128) : arrBn1 (E1 m) c (ix2 (0 : Fin 1) k) = A10 m c (ix1 k) := by
  have e : (E1 m c main_v3 : S1x128.Idx → Elt Ideal .f32) = Gen.V1 m c (Proc.devRef .tc main_v3) :=
    E1_keep m c main_v3 (by decide) (by decide)
  show (E1 m c main_v3 : S1x128.Idx → Elt Ideal .f32) (ix2 (0 : Fin 1) k) = _
  rw [e, V1_v3]
  exact cast_row_apply (m ((c : Thread nD τ).loc main_arg10)) shapeCasts_S128_S1x128 k
theorem Wnm1_entry (c : Dev nD) : arrWnm1 (E1 m) c = A11 m c := E1_arg m c main_arg11 (by decide) (by decide) (by decide)
theorem Wem1_entry (c : Dev nD) : arrWem1 (E1 m) c = A12 m c := E1_arg m c main_arg12 (by decide) (by decide) (by decide)
theorem Wns1_entry (c : Dev nD) : arrWns1 (E1 m) c = A14 m c := E1_arg m c main_arg14 (by decide) (by decide) (by decide)
theorem Wes1_entry (c : Dev nD) : arrWes1 (E1 m) c = A15 m c := E1_arg m c main_arg15 (by decide) (by decide) (by decide)
theorem bm1_entry (c : Dev nD) (a : Fin 8) : arrBm1 (E1 m) c (ix2 (0 : Fin 1) a) = A13 m c (ix1 a) := by
  have e : (E1 m c main_v4 : S1x8.Idx → Elt Ideal .f32) = Gen.V1 m c (Proc.devRef .tc main_v4) :=
    E1_keep m c main_v4 (by decide) (by decide)
  show (E1 m c main_v4 : S1x8.Idx → Elt Ideal .f32) (ix2 (0 : Fin 1) a) = _
  rw [e, V1_v4]
  exact cast_row_apply (m ((c : Thread nD τ).loc main_arg13)) shapeCasts_S8_S1x8 a
theorem bs1_entry (c : Dev nD) (a : Fin 8) : arrBs1 (E1 m) c (ix2 (0 : Fin 1) a) = A16 m c (ix1 a) := by
  have e : (E1 m c main_v5 : S1x8.Idx → Elt Ideal .f32) = Gen.V1 m c (Proc.devRef .tc main_v5) :=
    E1_keep m c main_v5 (by decide) (by decide)
  show (E1 m c main_v5 : S1x8.Idx → Elt Ideal .f32) (ix2 (0 : Fin 1) a) = _
  rw [e, V1_v5]
  exact cast_row_apply (m ((c : Thread nD τ).loc main_arg16)) shapeCasts_S8_S1x8 a

/-- The second region's window 6 is the first region's first result. -/
theorem accE1_entry (c : Dev nD) (b : Fin 256) (k : Fin 128) :
    arrAccE1 (E1 m) c (ix2 b k) = segSum (A4 m c) (A1 m c) (A5 m c) (A2 m c) (A6 m c) (A7 m c) b k := by
  show (E1 m c main_v6_0 : S256x128.Idx → EReal) (ix2 b k) = _
  rw [show (E1 m c main_v6_0 : S256x128.Idx → EReal) = (outsAt0 (E0 m) c 79 h79).1 from
    (E1_v6_0 m c).trans (arrAt0_6 (E0 m) c)]
  exact edgeSum_eq m c b k
/-- Its window 7 is the first region's second result. -/
theorem cntE1_entry (c : Dev nD) (b : Fin 256) :
    arrCntE1 (E1 m) c (ix2 b (0 : Fin 1)) = segCnt (A4 m c) b := by
  show (E1 m c main_v6_1 : S256x1.Idx → EReal) (ix2 b (0 : Fin 1)) = _
  rw [show (E1 m c main_v6_1 : S256x1.Idx → EReal) = (outsAt0 (E0 m) c 79 h79).2.1 from
    (E1_v6_1 m c).trans (arrAt0_7 (E0 m) c)]
  exact edgeCnt_eq m c b

/-- The second region's sum accumulator after its last point: the nodes' segment sum. -/
theorem nodeSum_eq (c : Dev nD) (b : Fin 256) (k : Fin 128) :
    (outsAt1 (E1 m) c 4 h4).2.2.2.1 (ix2 b k) = segSum (A3 m c) (A0 m c) (A8 m c) (A2 m c) (A9 m c) (A10 m c) b k := by
  rw [acc1_final (E1 m) c (A3 m c) (ids1_entry m c) b k h4]
  unfold segSum
  refine Finset.sum_congr rfl fun e _ => ?_
  rw [un1_apply, x1_entry, Wn1_entry, u1_entry, Wun1_entry, bn1_entry]

/-- Its count accumulator: the nodes' segment count. -/
theorem nodeCnt_eq (c : Dev nD) (b : Fin 256) :
    (outsAt1 (E1 m) c 4 h4).2.2.2.2 (ix2 b (0 : Fin 1)) = segCnt (A3 m c) b :=
  cnt1_final (E1 m) c (A3 m c) (ids1_entry m c) b h4

/-! ## The two results -/

/-- The first result at `(b, a)`: the mean head. -/
def meanK (c : Dev nD) (b : Fin 256) (a : Fin 8) : EReal :=
  headSpec (segSum (A3 m c) (A0 m c) (A8 m c) (A2 m c) (A9 m c) (A10 m c)) (segCnt (A3 m c))
    (segSum (A4 m c) (A1 m c) (A5 m c) (A2 m c) (A6 m c) (A7 m c)) (segCnt (A4 m c)) (A11 m c) (A12 m c) (A13 m c) b a

/-- The second result at `(b, a)`: the clipped log-deviation head. -/
def logstdK (c : Dev nD) (b : Fin 256) (a : Fin 8) : EReal :=
  clipSpec (headSpec (segSum (A3 m c) (A0 m c) (A8 m c) (A2 m c) (A9 m c) (A10 m c)) (segCnt (A3 m c))
    (segSum (A4 m c) (A1 m c) (A5 m c) (A2 m c) (A6 m c) (A7 m c)) (segCnt (A4 m c)) (A14 m c) (A15 m c) (A16 m c) b a)

theorem kernel_mean (c : Dev nD) (b : Fin 256) (a : Fin 8) :
    ((dat1 (E1 m) c).arrAt 14 cfg1.N : S256x8.Idx → EReal) (ix2 b a) = meanK m c b a := by
  rw [show ((dat1 (E1 m) c).arrAt 14 cfg1.N : S256x8.Idx → EReal) = (outsAt1 (E1 m) c 4 h4).1 from arrAt1_14 (E1 m) c]
  rw [out14_apply (E1 m) c b a h4]
  unfold meanK headSpec
  simp only [nodeSum_eq, nodeCnt_eq, accE1_entry, cntE1_entry, Wnm1_entry, Wem1_entry, bm1_entry]

theorem kernel_logstd (c : Dev nD) (b : Fin 256) (a : Fin 8) :
    ((dat1 (E1 m) c).arrAt 15 cfg1.N : S256x8.Idx → EReal) (ix2 b a) = logstdK m c b a := by
  rw [show ((dat1 (E1 m) c).arrAt 15 cfg1.N : S256x8.Idx → EReal) = (outsAt1 (E1 m) c 4 h4).2.1 from arrAt1_15 (E1 m) c]
  rw [out15_apply (E1 m) c b a h4]
  unfold logstdK clipSpec headSpec
  simp only [nodeSum_eq, nodeCnt_eq, accE1_entry, cntE1_entry, Wns1_entry, Wes1_entry, bs1_entry]

end Cert.KernelIdeal.Hand

end
-- ==== Proof.RefOps.lean ====
import proofs.«163481_g30743375904785_cont_sun_c4_101_2_alg».proof.Proof.Gen.ReferenceIdeal
import Idealize.ShloMosaic.Lib.StableHlo.Run

/-! The reference program's @main as one straight line of host operations: the five outlined
    functions (the two gathers of the per-graph features by graph id, with their index wrap-around
    and out-of-range mask; the two rectifiers; the clip) unfolded at their call sites over each
    call's own buffers. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 116 operations in order, the calls unfolded. -/
abbrev ops : List (HloOp τ sig (Elt F)) :=
  [ binary main_arg1 main_arg5 main_v0 ((fun l r => Host.dotGeneral dot_S320000x16_S16x128_S320000x128_1_0_0_1_n_n none l r) : (⟨S320000x16, .f32⟩ : BufTy).Contents (Elt F) → (⟨S16x128, .f32⟩ : BufTy).Contents (Elt F) → (⟨S320000x128, .f32⟩ : BufTy).Contents (Elt F)),
    TRef.nullary main_call0.c (constantI S_ 32 0#32),
    TRef.unary main_call0.c main_call0.v0 (broadcastInDim S320000 ![] bcast_S_S320000),
    TRef.binary (.of main_arg4) main_call0.v0 main_call0.v1 (cmpi .slt),
    TRef.nullary main_call0.c_0 (constantI S_ 32 256#32),
    TRef.unary main_call0.c_0 main_call0.v2 (broadcastInDim S320000 ![] bcast_S_S320000),
    TRef.binary (.of main_arg4) main_call0.v2 main_call0.v3 addi,
    TRef.ternary main_call0.v1 main_call0.v3 (.of main_arg4) main_call0.call0.v0 select,
    TRef.unary main_call0.call0.v0 main_call0.v5 (broadcastInDim S320000x1 ![0] bcast_S320000_S320000x1_0),
    TRef.nullary main_call0.c_1 (constantI S1 32 255#32),
    TRef.nullary main_call0.c_2 (constantI S_ 32 0#32),
    TRef.unary main_call0.c_2 main_call0.v6 (broadcastInDim S320000x1 ![] bcast_S_S320000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S320000x1 ![0, 1] bcast_S1x1_S320000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S320000x1_S320000_d1 h_S_),
    TRef.binary (.of main_arg2) main_call0.v5 main_call0.v13 (fun x i => Host.gather gather_S256x32_S320000x1_S320000x32_1_0_n_n_0_1_132 x i),
    TRef.unary main_call0.v12 main_call0.v14 (broadcastInDim S320000x32 ![0] bcast_S320000_S320000x32_0),
    TRef.nullary main_call0.cst (constant S_ .f32 0x7FC00000#32),
    TRef.unary main_call0.cst main_call0.v15 (broadcastInDim S320000x32 ![] bcast_S_S320000x32),
    TRef.ternary main_call0.v14 main_call0.v13 main_call0.v15 main_call0.v16 select,
    binary main_v1 main_arg6 main_v2 ((fun l r => Host.dotGeneral dot_S320000x32_S32x128_S320000x128_1_0_0_1_n_n none l r) : (⟨S320000x32, .f32⟩ : BufTy).Contents (Elt F) → (⟨S32x128, .f32⟩ : BufTy).Contents (Elt F) → (⟨S320000x128, .f32⟩ : BufTy).Contents (Elt F)),
    binary main_v0 main_v2 main_v3 (addf : (⟨S320000x128, .f32⟩ : BufTy).Contents (Elt F) → (⟨S320000x128, .f32⟩ : BufTy).Contents (Elt F) → (⟨S320000x128, .f32⟩ : BufTy).Contents (Elt F)),
    unary main_arg7 main_v4 (broadcastInDim S1x128 ![1] bcast_S128_S1x128_1 : (⟨S128, .f32⟩ : BufTy).Contents (Elt F) → (⟨S1x128, .f32⟩ : BufTy).Contents (Elt F)),
    unary main_v4 main_v5 (broadcastInDim S320000x128 ![0, 1] bcast_S1x128_S320000x128_0_1 : (⟨S1x128, .f32⟩ : BufTy).Contents (Elt F) → (⟨S320000x128, .f32⟩ : BufTy).Contents (Elt F)),
    binary main_v3 main_v5 main_v6 (addf : (⟨S320000x128, .f32⟩ : BufTy).Contents (Elt F) → (⟨S320000x128, .f32⟩ : BufTy).Contents (Elt F) → (⟨S320000x128, .f32⟩ : BufTy).Contents (Elt F)),
    TRef.nullary main_call1.cst (constant S_ .f32 0x00000000#32),
    TRef.unary main_call1.cst main_call1.v0 (broadcastInDim S320000x128 ![] bcast_S_S320000x128),
    TRef.binary (.of main_v6) main_call1.v0 main_call1.v1 maximumf,
    binary main_arg0 main_arg8 main_v8 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    TRef.nullary main_call2.c (constantI S_ 32 0#32),
    TRef.unary main_call2.c main_call2.v0 (broadcastInDim S10000 ![] bcast_S_S10000),
    TRef.binary (.of main_arg3) main_call2.v0 main_call2.v1 (cmpi .slt),
    TRef.nullary main_call2.c_0 (constantI S_ 32 256#32),
    TRef.unary main_call2.c_0 main_call2.v2 (broadcastInDim S10000 ![] bcast_S_S10000),
    TRef.binary (.of main_arg3) main_call2.v2 main_call2.v3 addi,
    TRef.ternary main_call2.v1 main_call2.v3 (.of main_arg3) main_call2.call0.v0 select,
    TRef.unary main_call2.call0.v0 main_call2.v5 (broadcastInDim S10000x1 ![0] bcast_S10000_S10000x1_0),
    TRef.nullary main_call2.c_1 (constantI S1 32 255#32),
    TRef.nullary main_call2.c_2 (constantI S_ 32 0#32),
    TRef.unary main_call2.c_2 main_call2.v6 (broadcastInDim S10000x1 ![] bcast_S_S10000x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S10000x1 ![0, 1] bcast_S1x1_S10000x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S10000x1_S10000_d1 h_S_),
    TRef.binary (.of main_arg2) main_call2.v5 main_call2.v13 (fun x i => Host.gather gather_S256x32_S10000x1_S10000x32_1_0_n_n_0_1_132 x i),
    TRef.unary main_call2.v12 main_call2.v14 (broadcastInDim S10000x32 ![0] bcast_S10000_S10000x32_0),
    TRef.nullary main_call2.cst (constant S_ .f32 0x7FC00000#32),
    TRef.unary main_call2.cst main_call2.v15 (broadcastInDim S10000x32 ![] bcast_S_S10000x32),
    TRef.ternary main_call2.v14 main_call2.v13 main_call2.v15 main_call2.v16 select,
    binary main_v9 main_arg9 main_v10 ((fun l r => Host.dotGeneral dot_S10000x32_S32x128_S10000x128_1_0_0_1_n_n none l r) : (⟨S10000x32, .f32⟩ : BufTy).Contents (Elt F) → (⟨S32x128, .f32⟩ : BufTy).Contents (Elt F) → (⟨S10000x128, .f32⟩ : BufTy).Contents (Elt F)),
    binary main_v8 main_v10 main_v11 (addf : (⟨S10000x128, .f32⟩ : BufTy).Contents (Elt F) → (⟨S10000x128, .f32⟩ : BufTy).Contents (Elt F) → (⟨S10000x128, .f32⟩ : BufTy).Contents (Elt F)),
    unary main_arg10 main_v12 (broadcastInDim S1x128 ![1] bcast_S128_S1x128_1 : (⟨S128, .f32⟩ : BufTy).Contents (Elt F) → (⟨S1x128, .f32⟩ : BufTy).Contents (Elt F)),
    unary main_v12 main_v13 (broadcastInDim S10000x128 ![0, 1] bcast_S1x128_S10000x128_0_1 : (⟨S1x128, .f32⟩ : BufTy).Contents (Elt F) → (⟨S10000x128, .f32⟩ : BufTy).Contents (Elt F)),
    binary main_v11 main_v13 main_v14 (addf : (⟨S10000x128, .f32⟩ : BufTy).Contents (Elt F) → (⟨S10000x128, .f32⟩ : BufTy).Contents (Elt F) → (⟨S10000x128, .f32⟩ : BufTy).Contents (Elt F)),
    TRef.nullary main_call3.cst (constant S_ .f32 0x00000000#32),
    TRef.unary main_call3.cst main_call3.v0 (broadcastInDim S10000x128 ![] bcast_S_S10000x128),
    TRef.binary (.of main_v14) main_call3.v0 main_call3.v1 maximumf,
    nullary main_cst (constant S_ .f32 0x3F800000#32),
    unary main_cst main_v16 (broadcastInDim S10000 ![] bcast_S_S10000 : (⟨S_, .f32⟩ : BufTy).Contents (Elt F) → (⟨S10000, .f32⟩ : BufTy).Contents (Elt F)),
    nullary main_cst_0 (constant S_ .f32 0x00000000#32),
    unary main_cst_0 main_v17 (broadcastInDim S256 ![] bcast_S_S256 : (⟨S_, .f32⟩ : BufTy).Contents (Elt F) → (⟨S256, .f32⟩ : BufTy).Contents (Elt F)),
    unary main_arg3 main_v18 (broadcastInDim S10000x1 ![0] bcast_S10000_S10000x1_0 : (⟨S10000, .i32⟩ : BufTy).Contents (Elt F) → (⟨S10000x1, .i32⟩ : BufTy).Contents (Elt F)),
    ternary main_v17 main_v18 main_v16 main_v19 ((fun x i u => Host.scatterAdd scatter_S256_S10000x1_S10000_n_0_0_1 x i u) : (⟨S256, .f32⟩ : BufTy).Contents (Elt F) → (⟨S10000x1, .i32⟩ : BufTy).Contents (Elt F) → (⟨S10000, .f32⟩ : BufTy).Contents (Elt F) → (⟨S256, .f32⟩ : BufTy).Contents (Elt F)),
    nullary main_cst_1 (constant S_ .f32 0x3F800000#32),
    unary main_cst_1 main_v20 (broadcastInDim S256 ![] bcast_S_S256 : (⟨S_, .f32⟩ : BufTy).Contents (Elt F) → (⟨S256, .f32⟩ : BufTy).Contents (Elt F)),
    binary main_v19 main_v20 main_v21 (maximumf : (⟨S256, .f32⟩ : BufTy).Contents (Elt F) → (⟨S256, .f32⟩ : BufTy).Contents (Elt F) → (⟨S256, .f32⟩ : BufTy).Contents (Elt F)),
    nullary main_cst_2 (constant S_ .f32 0x3F800000#32),
    unary main_cst_2 main_v22 (broadcastInDim S320000 ![] bcast_S_S320000 : (⟨S_, .f32⟩ : BufTy).Contents (Elt F) → (⟨S320000, .f32⟩ : BufTy).Contents (Elt F)),
    nullary main_cst_3 (constant S_ .f32 0x00000000#32),
    unary main_cst_3 main_v23 (broadcastInDim S256 ![] bcast_S_S256 : (⟨S_, .f32⟩ : BufTy).Contents (Elt F) → (⟨S256, .f32⟩ : BufTy).Contents (Elt F)),
    unary main_arg4 main_v24 (broadcastInDim S320000x1 ![0] bcast_S320000_S320000x1_0 : (⟨S320000, .i32⟩ : BufTy).Contents (Elt F) → (⟨S320000x1, .i32⟩ : BufTy).Contents (Elt F)),
    ternary main_v23 main_v24 main_v22 main_v25 ((fun x i u => Host.scatterAdd scatter_S256_S320000x1_S320000_n_0_0_1 x i u) : (⟨S256, .f32⟩ : BufTy).Contents (Elt F) → (⟨S320000x1, .i32⟩ : BufTy).Contents (Elt F) → (⟨S320000, .f32⟩ : BufTy).Contents (Elt F) → (⟨S256, .f32⟩ : BufTy).Contents (Elt F)),
    nullary main_cst_4 (constant S_ .f32 0x3F800000#32),
    unary main_cst_4 main_v26 (broadcastInDim S256 ![] bcast_S_S256 : (⟨S_, .f32⟩ : BufTy).Contents (Elt F) → (⟨S256, .f32⟩ : BufTy).Contents (Elt F)),
    binary main_v25 main_v26 main_v27 (maximumf : (⟨S256, .f32⟩ : BufTy).Contents (Elt F) → (⟨S256, .f32⟩ : BufTy).Contents (Elt F) → (⟨S256, .f32⟩ : BufTy).Contents (Elt F)),
    nullary main_cst_5 (constant S_ .f32 0x00000000#32),
    unary main_cst_5 main_v28 (broadcastInDim S256x128 ![] bcast_S_S256x128 : (⟨S_, .f32⟩ : BufTy).Contents (Elt F) → (⟨S256x128, .f32⟩ : BufTy).Contents (Elt F)),
    unary main_arg3 main_v29 (broadcastInDim S10000x1 ![0] bcast_S10000_S10000x1_0 : (⟨S10000, .i32⟩ : BufTy).Contents (Elt F) → (⟨S10000x1, .i32⟩ : BufTy).Contents (Elt F)),
    ternary main_v28 main_v29 main_v15 main_v30 ((fun x i u => Host.scatterAdd scatter_S256x128_S10000x1_S10000x128_1_0_0_1 x i u) : (⟨S256x128, .f32⟩ : BufTy).Contents (Elt F) → (⟨S10000x1, .i32⟩ : BufTy).Contents (Elt F) → (⟨S10000x128, .f32⟩ : BufTy).Contents (Elt F) → (⟨S256x128, .f32⟩ : BufTy).Contents (Elt F)),
    unary main_v21 main_v31 (broadcastInDim S256x1 ![0] bcast_S256_S256x1_0 : (⟨S256, .f32⟩ : BufTy).Contents (Elt F) → (⟨S256x1, .f32⟩ : BufTy).Contents (Elt F)),
    unary main_v31 main_v32 (broadcastInDim S256x128 ![0, 1] bcast_S256x1_S256x128_0_1 : (⟨S256x1, .f32⟩ : BufTy).Contents (Elt F) → (⟨S256x128, .f32⟩ : BufTy).Contents (Elt F)),
    binary main_v30 main_v32 main_v33 (Host.divf : (⟨S256x128, .f32⟩ : BufTy).Contents (Elt F) → (⟨S256x128, .f32⟩ : BufTy).Contents (Elt F) → (⟨S256x128, .f32⟩ : BufTy).Contents (Elt F)),
    nullary main_cst_6 (constant S_ .f32 0x00000000#32),
    unary main_cst_6 main_v34 (broadcastInDim S256x128 ![] bcast_S_S256x128 : (⟨S_, .f32⟩ : BufTy).Contents (Elt F) → (⟨S256x128, .f32⟩ : BufTy).Contents (Elt F)),
    unary main_arg4 main_v35 (broadcastInDim S320000x1 ![0] bcast_S320000_S320000x1_0 : (⟨S320000, .i32⟩ : BufTy).Contents (Elt F) → (⟨S320000x1, .i32⟩ : BufTy).Contents (Elt F)),
    ternary main_v34 main_v35 main_v7 main_v36 ((fun x i u => Host.scatterAdd scatter_S256x128_S320000x1_S320000x128_1_0_0_1 x i u) : (⟨S256x128, .f32⟩ : BufTy).Contents (Elt F) → (⟨S320000x1, .i32⟩ : BufTy).Contents (Elt F) → (⟨S320000x128, .f32⟩ : BufTy).Contents (Elt F) → (⟨S256x128, .f32⟩ : BufTy).Contents (Elt F)),
    unary main_v27 main_v37 (broadcastInDim S256x1 ![0] bcast_S256_S256x1_0 : (⟨S256, .f32⟩ : BufTy).Contents (Elt F) → (⟨S256x1, .f32⟩ : BufTy).Contents (Elt F)),
    unary main_v37 main_v38 (broadcastInDim S256x128 ![0, 1] bcast_S256x1_S256x128_0_1 : (⟨S256x1, .f32⟩ : BufTy).Contents (Elt F) → (⟨S256x128, .f32⟩ : BufTy).Contents (Elt F)),
    binary main_v36 main_v38 main_v39 (Host.divf : (⟨S256x128, .f32⟩ : BufTy).Contents (Elt F) → (⟨S256x128, .f32⟩ : BufTy).Contents (Elt F) → (⟨S256x128, .f32⟩ : BufTy).Contents (Elt F)),
    binary main_v33 main_arg11 main_v40 ((fun l r => Host.dotGeneral dot_S256x128_S128x8_S256x8_1_0_0_1_n_n none l r) : (⟨S256x128, .f32⟩ : BufTy).Contents (Elt F) → (⟨S128x8, .f32⟩ : BufTy).Contents (Elt F) → (⟨S256x8, .f32⟩ : BufTy).Contents (Elt F)),
    binary main_v39 main_arg12 main_v41 ((fun l r => Host.dotGeneral dot_S256x128_S128x8_S256x8_1_0_0_1_n_n none l r) : (⟨S256x128, .f32⟩ : BufTy).Contents (Elt F) → (⟨S128x8, .f32⟩ : BufTy).Contents (Elt F) → (⟨S256x8, .f32⟩ : BufTy).Contents (Elt F)),
    binary main_v40 main_v41 main_v42 (addf : (⟨S256x8, .f32⟩ : BufTy).Contents (Elt F) → (⟨S256x8, .f32⟩ : BufTy).Contents (Elt F) → (⟨S256x8, .f32⟩ : BufTy).Contents (Elt F)),
    unary main_arg13 main_v43 (broadcastInDim S1x8 ![1] bcast_S8_S1x8_1 : (⟨S8, .f32⟩ : BufTy).Contents (Elt F) → (⟨S1x8, .f32⟩ : BufTy).Contents (Elt F)),
    unary main_v43 main_v44 (broadcastInDim S256x8 ![0, 1] bcast_S1x8_S256x8_0_1 : (⟨S1x8, .f32⟩ : BufTy).Contents (Elt F) → (⟨S256x8, .f32⟩ : BufTy).Contents (Elt F)),
    binary main_v42 main_v44 main_v45 (addf : (⟨S256x8, .f32⟩ : BufTy).Contents (Elt F) → (⟨S256x8, .f32⟩ : BufTy).Contents (Elt F) → (⟨S256x8, .f32⟩ : BufTy).Contents (Elt F)),
    binary main_v33 main_arg14 main_v46 ((fun l r => Host.dotGeneral dot_S256x128_S128x8_S256x8_1_0_0_1_n_n none l r) : (⟨S256x128, .f32⟩ : BufTy).Contents (Elt F) → (⟨S128x8, .f32⟩ : BufTy).Contents (Elt F) → (⟨S256x8, .f32⟩ : BufTy).Contents (Elt F)),
    binary main_v39 main_arg15 main_v47 ((fun l r => Host.dotGeneral dot_S256x128_S128x8_S256x8_1_0_0_1_n_n none l r) : (⟨S256x128, .f32⟩ : BufTy).Contents (Elt F) → (⟨S128x8, .f32⟩ : BufTy).Contents (Elt F) → (⟨S256x8, .f32⟩ : BufTy).Contents (Elt F)),
    binary main_v46 main_v47 main_v48 (addf : (⟨S256x8, .f32⟩ : BufTy).Contents (Elt F) → (⟨S256x8, .f32⟩ : BufTy).Contents (Elt F) → (⟨S256x8, .f32⟩ : BufTy).Contents (Elt F)),
    unary main_arg16 main_v49 (broadcastInDim S1x8 ![1] bcast_S8_S1x8_1 : (⟨S8, .f32⟩ : BufTy).Contents (Elt F) → (⟨S1x8, .f32⟩ : BufTy).Contents (Elt F)),
    unary main_v49 main_v50 (broadcastInDim S256x8 ![0, 1] bcast_S1x8_S256x8_0_1 : (⟨S1x8, .f32⟩ : BufTy).Contents (Elt F) → (⟨S256x8, .f32⟩ : BufTy).Contents (Elt F)),
    binary main_v48 main_v50 main_v51 (addf : (⟨S256x8, .f32⟩ : BufTy).Contents (Elt F) → (⟨S256x8, .f32⟩ : BufTy).Contents (Elt F) → (⟨S256x8, .f32⟩ : BufTy).Contents (Elt F)),
    nullary main_cst_7 (constant S_ .f32 0xC1A00000#32),
    nullary main_cst_8 (constant S_ .f32 0x40000000#32),
    TRef.unary (.of main_cst_7) main_call4.v0 id,
    TRef.unary main_call4.v0 main_call4.v1 (broadcastInDim S256x8 ![] bcast_S_S256x8),
    TRef.binary main_call4.v1 (.of main_v51) main_call4.v2 maximumf,
    TRef.unary (.of main_cst_8) main_call4.v3 id,
    TRef.unary main_call4.v3 main_call4.v4 (broadcastInDim S256x8 ![] bcast_S_S256x8),
    TRef.binary main_call4.v4 main_call4.v2 main_call4.v5 minimumf ]

set_option maxRecDepth 65536 in
/-- @main is that straight line: the functions unfolded at their calls, sequencing reassociated. -/
theorem main_eq (c : Dev nD) : main (F := F) c = seq ops := by
  simp only [main, main_part0, main_part1, fn_take.body, fn_where.body, fn_relu.body, fn_take_0.body, fn_where_1.body,
    fn_relu_2.body, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., binary_bufs_sub .., binary_bufs_sub .., unary_bufs_sub .., unary_bufs_sub .., binary_bufs_sub .., binary_bufs_sub .., binary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub ..⟩

end Cert.ReferenceIdeal.RefRun

end
-- ==== Proof.RefDefs.lean ====
import proofs.«163481_g30743375904785_cont_sun_c4_101_2_alg».proof.Proof.Gen.ReferenceIdeal

/-! The reference's two results as pure terms of its seventeen argument arrays: the edge and node
    activations, the per-graph counts and sums, the two means, the two linear heads and the clip. -/

noncomputable section

namespace Cert.ReferenceIdeal.RefRun

open Cert.ReferenceIdeal Cert.ReferenceIdeal.Gen Idealize.ShloMosaic

variable {F : FTy → Type} [FloatOps F]

/-! ## The gather of a per-graph row by graph id -/

/-- Edge graph ids with a negative id shifted up by the number of graphs, as a column. -/
def colE (ids : IVec S320000 32) : IVec S320000x1 32 :=
  broadcastInDim S320000x1 ![0] bcast_S320000_S320000x1_0
    (select (cmpi .slt ids (broadcastInDim S320000 ![] bcast_S_S320000 (constantI S_ 32 0#32)))
      (addi ids (broadcastInDim S320000 ![] bcast_S_S320000 (constantI S_ 32 256#32))) ids)

/-- Which edges' shifted id is a graph: at least 0 and at most 255. -/
def maskE (ids : IVec S320000 32) : IVec S320000 1 :=
  Host.reduce IntOp.andi
    (andi (cmpi .sge (colE ids) (broadcastInDim S320000x1 ![] bcast_S_S320000x1 (constantI S_ 32 0#32)))
      (cmpi .sle (colE ids) (broadcastInDim S320000x1 ![0, 1] bcast_S1x1_S320000x1_0_1
        (broadcastInDim S1x1 ![1] bcast_S1_S1x1_1 (constantI S1 32 255#32)))))
    (constantI S_ 1 1#1) reducesTo_S320000x1_S320000_d1 h_S_

/-- The graph features of each edge's graph; the literal word where the shifted id is no graph. -/
def takeE (u : FVec F S256x32 .f32) (ids : IVec S320000 32) : FVec F S320000x32 .f32 :=
  select (broadcastInDim S320000x32 ![0] bcast_S320000_S320000x32_0 (maskE ids))
    (Host.gather gather_S256x32_S320000x1_S320000x32_1_0_n_n_0_1_132 u (colE ids))
    (broadcastInDim S320000x32 ![] bcast_S_S320000x32 (constant S_ .f32 0x7FC00000#32))

/-- Node graph ids with a negative id shifted up by the number of graphs, as a column. -/
def colN (ids : IVec S10000 32) : IVec S10000x1 32 :=
  broadcastInDim S10000x1 ![0] bcast_S10000_S10000x1_0
    (select (cmpi .slt ids (broadcastInDim S10000 ![] bcast_S_S10000 (constantI S_ 32 0#32)))
      (addi ids (broadcastInDim S10000 ![] bcast_S_S10000 (constantI S_ 32 256#32))) ids)

/-- Which nodes' shifted id is a graph: at least 0 and at most 255. -/
def maskN (ids : IVec S10000 32) : IVec S10000 1 :=
  Host.reduce IntOp.andi
    (andi (cmpi .sge (colN ids) (broadcastInDim S10000x1 ![] bcast_S_S10000x1 (constantI S_ 32 0#32)))
      (cmpi .sle (colN ids) (broadcastInDim S10000x1 ![0, 1] bcast_S1x1_S10000x1_0_1
        (broadcastInDim S1x1 ![1] bcast_S1_S1x1_1 (constantI S1 32 255#32)))))
    (constantI S_ 1 1#1) reducesTo_S10000x1_S10000_d1 h_S_

/-- The graph features of each node's graph; the literal word where the shifted id is no graph. -/
def takeN (u : FVec F S256x32 .f32) (ids : IVec S10000 32) : FVec F S10000x32 .f32 :=
  select (broadcastInDim S10000x32 ![0] bcast_S10000_S10000x32_0 (maskN ids))
    (Host.gather gather_S256x32_S10000x1_S10000x32_1_0_n_n_0_1_132 u (colN ids))
    (broadcastInDim S10000x32 ![] bcast_S_S10000x32 (constant S_ .f32 0x7FC00000#32))

/-! ## The activations -/

/-- The edge activations: the rectified sum of the two products and the bias row. -/
def e1 (ea : FVec F S320000x16 .f32) (u : FVec F S256x32 .f32) (e2g : IVec S320000 32)
    (We : FVec F S16x128 .f32) (Wue : FVec F S32x128 .f32) (be : FVec F S128 .f32) : FVec F S320000x128 .f32 :=
  maximumf
    (addf
      (addf (Host.dotGeneral dot_S320000x16_S16x128_S320000x128_1_0_0_1_n_n none ea We)
        (Host.dotGeneral dot_S320000x32_S32x128_S320000x128_1_0_0_1_n_n none (takeE u e2g) Wue))
      (broadcastInDim S320000x128 ![0, 1] bcast_S1x128_S320000x128_0_1 (broadcastInDim S1x128 ![1] bcast_S128_S1x128_1 be)))
    (broadcastInDim S320000x128 ![] bcast_S_S320000x128 (constant S_ .f32 0x00000000#32))

/-- The node activations: the rectified sum of the two products and the bias row. -/
def n1 (x : FVec F S10000x128 .f32) (u : FVec F S256x32 .f32) (n2g : IVec S10000 32)
    (Wn : FVec F S128x128 .f32) (Wun : FVec F S32x128 .f32) (bn : FVec F S128 .f32) : FVec F S10000x128 .f32 :=
  maximumf
    (addf
      (addf (Host.dotGeneral dot_S10000x128_S128x128_S10000x128_1_0_0_1_n_n none x Wn)
        (Host.dotGeneral dot_S10000x32_S32x128_S10000x128_1_0_0_1_n_n none (takeN u n2g) Wun))
      (broadcastInDim S10000x128 ![0, 1] bcast_S1x128_S10000x128_0_1 (broadcastInDim S1x128 ![1] bcast_S128_S1x128_1 bn)))
    (broadcastInDim S10000x128 ![] bcast_S_S10000x128 (constant S_ .f32 0x00000000#32))

/-! ## Counts, sums and means per graph -/

/-- The number of nodes of each graph, at least one. -/
def ncnt (n2g : IVec S10000 32) : FVec F S256 .f32 :=
  maximumf
    (Host.scatterAdd scatter_S256_S10000x1_S10000_n_0_0_1
      (broadcastInDim S256 ![] bcast_S_S256 (constant S_ .f32 0x00000000#32))
      (broadcastInDim S10000x1 ![0] bcast_S10000_S10000x1_0 n2g)
      (broadcastInDim S10000 ![] bcast_S_S10000 (constant S_ .f32 0x3F800000#32)))
    (broadcastInDim S256 ![] bcast_S_S256 (constant S_ .f32 0x3F800000#32))

/-- The number of edges of each graph, at least one. -/
def ecnt (e2g : IVec S320000 32) : FVec F S256 .f32 :=
  maximumf
    (Host.scatterAdd scatter_S256_S320000x1_S320000_n_0_0_1
      (broadcastInDim S256 ![] bcast_S_S256 (constant S_ .f32 0x00000000#32))
      (broadcastInDim S320000x1 ![0] bcast_S320000_S320000x1_0 e2g)
      (broadcastInDim S320000 ![] bcast_S_S320000 (constant S_ .f32 0x3F800000#32)))
    (broadcastInDim S256 ![] bcast_S_S256 (constant S_ .f32 0x3F800000#32))

/-- The mean node activation of each graph: the per-graph sum over the count. -/
def nagg (act : FVec F S10000x128 .f32) (n2g : IVec S10000 32) : FVec F S256x128 .f32 :=
  Host.divf
    (Host.scatterAdd scatter_S256x128_S10000x1_S10000x128_1_0_0_1
      (broadcastInDim S256x128 ![] bcast_S_S256x128 (constant S_ .f32 0x00000000#32))
      (broadcastInDim S10000x1 ![0] bcast_S10000_S10000x1_0 n2g) act)
    (broadcastInDim S256x128 ![0, 1] bcast_S256x1_S256x128_0_1 (broadcastInDim S256x1 ![0] bcast_S256_S256x1_0 (ncnt n2g)))

/-- The mean edge activation of each graph: the per-graph sum over the count. -/
def eagg (act : FVec F S320000x128 .f32) (e2g : IVec S320000 32) : FVec F S256x128 .f32 :=
  Host.divf
    (Host.scatterAdd scatter_S256x128_S320000x1_S320000x128_1_0_0_1
      (broadcastInDim S256x128 ![] bcast_S_S256x128 (constant S_ .f32 0x00000000#32))
      (broadcastInDim S320000x1 ![0] bcast_S320000_S320000x1_0 e2g) act)
    (broadcastInDim S256x128 ![0, 1] bcast_S256x1_S256x128_0_1 (broadcastInDim S256x1 ![0] bcast_S256_S256x1_0 (ecnt e2g)))

/-! ## The heads -/

/-- A linear head: the two means through their weights, plus the bias row. -/
def head (na ea : FVec F S256x128 .f32) (Wn We : FVec F S128x8 .f32) (b : FVec F S8 .f32) : FVec F S256x8 .f32 :=
  addf
    (addf (Host.dotGeneral dot_S256x128_S128x8_S256x8_1_0_0_1_n_n none na Wn)
      (Host.dotGeneral dot_S256x128_S128x8_S256x8_1_0_0_1_n_n none ea We))
    (broadcastInDim S256x8 ![0, 1] bcast_S1x8_S256x8_0_1 (broadcastInDim S1x8 ![1] bcast_S8_S1x8_1 b))

/-- The clip to the interval from -20 to 2: the larger of the lower bound and the value, then the
    smaller of the upper bound and that. -/
def clip (x : FVec F S256x8 .f32) : FVec F S256x8 .f32 :=
  minimumf (broadcastInDim S256x8 ![] bcast_S_S256x8 (id (constant S_ .f32 0x40000000#32)))
    (maximumf (broadcastInDim S256x8 ![] bcast_S_S256x8 (id (constant S_ .f32 0xC1A00000#32))) x)

/-! ## The two results -/

/-- The first result (the mean head), of the seventeen arguments in order. -/
def res_mean (a0 : FVec F S10000x128 .f32) (a1 : FVec F S320000x16 .f32) (a2 : FVec F S256x32 .f32)
    (a3 : IVec S10000 32) (a4 : IVec S320000 32) (a5 : FVec F S16x128 .f32) (a6 : FVec F S32x128 .f32)
    (a7 : FVec F S128 .f32) (a8 : FVec F S128x128 .f32) (a9 : FVec F S32x128 .f32) (a10 : FVec F S128 .f32)
    (a11 a12 : FVec F S128x8 .f32) (a13 : FVec F S8 .f32) (a14 a15 : FVec F S128x8 .f32) (a16 : FVec F S8 .f32) :
    FVec F S256x8 .f32 :=
  head (nagg (n1 a0 a2 a3 a8 a9 a10) a3) (eagg (e1 a1 a2 a4 a5 a6 a7) a4) a11 a12 a13

/-- The second result (the clipped log-deviation head), of the seventeen arguments in order. -/
def res_logstd (a0 : FVec F S10000x128 .f32) (a1 : FVec F S320000x16 .f32) (a2 : FVec F S256x32 .f32)
    (a3 : IVec S10000 32) (a4 : IVec S320000 32) (a5 : FVec F S16x128 .f32) (a6 : FVec F S32x128 .f32)
    (a7 : FVec F S128 .f32) (a8 : FVec F S128x128 .f32) (a9 : FVec F S32x128 .f32) (a10 : FVec F S128 .f32)
    (a11 a12 : FVec F S128x8 .f32) (a13 : FVec F S8 .f32) (a14 a15 : FVec F S128x8 .f32) (a16 : FVec F S8 .f32) :
    FVec F S256x8 .f32 :=
  clip (head (nagg (n1 a0 a2 a3 a8 a9 a10) a3) (eagg (e1 a1 a2 a4 a5 a6 a7) a4) a14 a15 a16)

end Cert.ReferenceIdeal.RefRun

end
-- ==== Proof.RefAfterArgs.lean ====
import proofs.«163481_g30743375904785_cont_sun_c4_101_2_alg».proof.Proof.RefOps
import proofs.«163481_g30743375904785_cont_sun_c4_101_2_alg».proof.Proof.RefDefs

/-! The seventeen argument buffers after the reference's straight line of operations: none of the
    operations writes one, so each holds what it held. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A set of writes that is one listed reference lies in the listed references. -/
theorem writes_sub_of_mem {W : List (Ref sig .tc)} {op : HloOp τ sig (Elt F)} {y : Ref sig .tc}
    (h : op.writes = {Proc.devRef .tc y}) (hy : y ∈ W) :
    op.writes ⊆ (W.map (Proc.devRef (τ := τ) .tc)).toFinset := by
  rw [h]; exact Finset.singleton_subset_iff.mpr (List.mem_toFinset.mpr (List.mem_map_of_mem hy))

/-- The references the operations write, in order: every buffer but the arguments', each once. -/
abbrev written : List (Ref sig .tc) :=
  [ main_v0, main_call0.c.ref, main_call0.v0.ref, main_call0.v1.ref, main_call0.c_0.ref, main_call0.v2.ref, main_call0.v3.ref, main_call0.call0.v0.ref, main_call0.v5.ref, main_call0.c_1.ref, main_call0.c_2.ref, main_call0.v6.ref, main_call0.v7.ref, main_call0.v8.ref, main_call0.v9.ref, main_call0.v10.ref, main_call0.v11.ref, main_call0.c_3.ref, main_call0.v12.ref, main_call0.v13.ref, main_call0.v14.ref, main_call0.cst.ref, main_call0.v15.ref, main_call0.v16.ref, main_v2, main_v3, main_v4, main_v5, main_v6, main_call1.cst.ref, main_call1.v0.ref, main_call1.v1.ref, main_v8, main_call2.c.ref, main_call2.v0.ref, main_call2.v1.ref, main_call2.c_0.ref, main_call2.v2.ref, main_call2.v3.ref, main_call2.call0.v0.ref, main_call2.v5.ref, main_call2.c_1.ref, main_call2.c_2.ref, main_call2.v6.ref, main_call2.v7.ref, main_call2.v8.ref, main_call2.v9.ref, main_call2.v10.ref, main_call2.v11.ref, main_call2.c_3.ref, main_call2.v12.ref, main_call2.v13.ref, main_call2.v14.ref, main_call2.cst.ref, main_call2.v15.ref, main_call2.v16.ref, main_v10, main_v11, main_v12, main_v13, main_v14, main_call3.cst.ref, main_call3.v0.ref, main_call3.v1.ref, main_cst, main_v16, main_cst_0, main_v17, main_v18, main_v19, main_cst_1, main_v20, main_v21, main_cst_2, main_v22, main_cst_3, main_v23, main_v24, main_v25, main_cst_4, main_v26, main_v27, main_cst_5, main_v28, main_v29, main_v30, main_v31, main_v32, main_v33, main_cst_6, main_v34, main_v35, main_v36, main_v37, main_v38, main_v39, main_v40, main_v41, main_v42, main_v43, main_v44, main_v45, main_v46, main_v47, main_v48, main_v49, main_v50, main_v51, main_cst_7, main_cst_8, main_call4.v0.ref, main_call4.v1.ref, main_call4.v2.ref, main_call4.v3.ref, main_call4.v4.ref, main_call4.v5.ref ]

theorem ops_writes : (ops : List (HloOp τ sig (Elt F))).Forall fun op =>
    op.writes ⊆ ((written).map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

theorem after_arg (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig)
    ∧ after ops V (main_arg8 : DevRef τ sig) = V (main_arg8 : DevRef τ sig)
    ∧ after ops V (main_arg9 : DevRef τ sig) = V (main_arg9 : DevRef τ sig)
    ∧ after ops V (main_arg10 : DevRef τ sig) = V (main_arg10 : DevRef τ sig)
    ∧ after ops V (main_arg11 : DevRef τ sig) = V (main_arg11 : DevRef τ sig)
    ∧ after ops V (main_arg12 : DevRef τ sig) = V (main_arg12 : DevRef τ sig)
    ∧ after ops V (main_arg13 : DevRef τ sig) = V (main_arg13 : DevRef τ sig)
    ∧ after ops V (main_arg14 : DevRef τ sig) = V (main_arg14 : DevRef τ sig)
    ∧ after ops V (main_arg15 : DevRef τ sig) = V (main_arg15 : DevRef τ sig)
    ∧ after ops V (main_arg16 : DevRef τ sig) = V (main_arg16 : DevRef τ sig) :=
  ⟨after_of_writes_sub ops V ops_writes (by decide), after_of_writes_sub ops V ops_writes (by decide), after_of_writes_sub ops V ops_writes (by decide), after_of_writes_sub ops V ops_writes (by decide), after_of_writes_sub ops V ops_writes (by decide), after_of_writes_sub ops V ops_writes (by decide), after_of_writes_sub ops V ops_writes (by decide), after_of_writes_sub ops V ops_writes (by decide), after_of_writes_sub ops V ops_writes (by decide), after_of_writes_sub ops V ops_writes (by decide), after_of_writes_sub ops V ops_writes (by decide), after_of_writes_sub ops V ops_writes (by decide), after_of_writes_sub ops V ops_writes (by decide), after_of_writes_sub ops V ops_writes (by decide), after_of_writes_sub ops V ops_writes (by decide), after_of_writes_sub ops V ops_writes (by decide), after_of_writes_sub ops V ops_writes (by decide)⟩

end Cert.ReferenceIdeal.RefRun

end
-- ==== Proof.RefAfterMean.lean ====
import proofs.«163481_g30743375904785_cont_sun_c4_101_2_alg».proof.Proof.RefOps
import proofs.«163481_g30743375904785_cont_sun_c4_101_2_alg».proof.Proof.RefDefs

/-! The first result buffer after the reference's straight line of operations, from any contents: the
    operations' results substituted one into the next; the casts between a buffer's type and its
    value's type are identities at these literal references. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.gather Host.scatterAdd in
set_option maxHeartbeats 4000000 in
theorem after_v45 (V : Valuation τ sig (Elt F)) :
    after ops V (main_v45 : DevRef τ sig) = res_mean (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) := by
  after_results_simp
  rfl

end Cert.ReferenceIdeal.RefRun

end
-- ==== Proof.RefAfterStd.lean ====
import proofs.«163481_g30743375904785_cont_sun_c4_101_2_alg».proof.Proof.RefOps
import proofs.«163481_g30743375904785_cont_sun_c4_101_2_alg».proof.Proof.RefDefs

/-! The second result buffer after the reference's straight line of operations, from any contents: the
    operations' results substituted one into the next; the casts between a buffer's type and its
    value's type are identities at these literal references. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.gather Host.scatterAdd in
set_option maxHeartbeats 4000000 in
theorem after_v52 (V : Valuation τ sig (Elt F)) :
    after ops V (main_v52 : DevRef τ sig) = res_logstd (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) := by
  after_results_simp
  rfl

end Cert.ReferenceIdeal.RefRun

end
-- ==== Proof.RefAfter.lean ====
import proofs.«163481_g30743375904785_cont_sun_c4_101_2_alg».proof.Proof.RefAfterArgs
import proofs.«163481_g30743375904785_cont_sun_c4_101_2_alg».proof.Proof.RefAfterMean
import proofs.«163481_g30743375904785_cont_sun_c4_101_2_alg».proof.Proof.RefAfterStd

/-! What the two result buffers and the seventeen argument buffers hold after the reference's
    straight line of operations: the three modules above, gathered. -/
-- ==== Proof.RefRun.lean ====
import proofs.«163481_g30743375904785_cont_sun_c4_101_2_alg».proof.Proof.RefAfter

/-! The reference's run: every weakly fair execution terminates with the two results at their
    pure terms of the seventeen arguments, the arguments unchanged. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- On every device, for any float values, from any memory with zero counters: every weakly fair
    execution of @main terminates with the first result at `res_mean` of the arguments, the second at
    `res_logstd` of them, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v45) = res_mean (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v52) = res_logstd (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c main_v45).trans (after_v45 _), (h c main_v52).trans (after_v52 _),
      (h c main_arg0).trans (after_arg _).1,
      (h c main_arg1).trans (after_arg _).2.1,
      (h c main_arg2).trans (after_arg _).2.2.1,
      (h c main_arg3).trans (after_arg _).2.2.2.1,
      (h c main_arg4).trans (after_arg _).2.2.2.2.1,
      (h c main_arg5).trans (after_arg _).2.2.2.2.2.1,
      (h c main_arg6).trans (after_arg _).2.2.2.2.2.2.1,
      (h c main_arg7).trans (after_arg _).2.2.2.2.2.2.2.1,
      (h c main_arg8).trans (after_arg _).2.2.2.2.2.2.2.2.1,
      (h c main_arg9).trans (after_arg _).2.2.2.2.2.2.2.2.2.1,
      (h c main_arg10).trans (after_arg _).2.2.2.2.2.2.2.2.2.2.1,
      (h c main_arg11).trans (after_arg _).2.2.2.2.2.2.2.2.2.2.2.1,
      (h c main_arg12).trans (after_arg _).2.2.2.2.2.2.2.2.2.2.2.2.1,
      (h c main_arg13).trans (after_arg _).2.2.2.2.2.2.2.2.2.2.2.2.2.1,
      (h c main_arg14).trans (after_arg _).2.2.2.2.2.2.2.2.2.2.2.2.2.2.1,
      (h c main_arg15).trans (after_arg _).2.2.2.2.2.2.2.2.2.2.2.2.2.2.2.1,
      (h c main_arg16).trans (after_arg _).2.2.2.2.2.2.2.2.2.2.2.2.2.2.2.2⟩)
    (run_seq scopedRefs_eq scopedSems_eq defs main (fun _ => ops) main_eq (fun _ => ops_sub) m ρ)

/-- The same with the results dropped: the run terminates and leaves the arguments unchanged. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => (h c).2.2) (run m ρ)

end Cert.ReferenceIdeal.RefRun

end
-- ==== Proof.LibEdges.lean ====
/-
  The edge pass of a graph convolution: rows of a node array are gathered along the edges' sources and added into the
  rows the edges' targets name. Three facts, over the extended reals:

  * a row gather reads, at edge `e` and column `k`, the operand's row `clamp (idx e)` at column `k`;
  * an update `(e, k)` of an accumulating scatter lands in row `p` only if the target index of edge `e` IS `p`;
  * hence scaling every update of edge `e` by a coefficient that depends only on `e`'s target row can be done once per
    target row after the accumulation — provided the coefficient is a nonnegative real, because on the extended reals
    `(y + z) · c = y · c + z · c` needs `0 ≤ c < ⊤` (it fails for `c < 0` at `y = ⊤, z = ⊥`).
-/
import Idealize.ShloMosaic.PureOps.Ideal
import Idealize.ShloMosaic.Lib.ValueIdx
import Idealize.ShloMosaic.Lib.Pipeline.Value

set_option maxRecDepth 16384

noncomputable section

namespace Cert.Gcn

open Idealize.ShloMosaic Idealize.ShloMosaic.ValueIdx

/-! ## The dimension numbers -/

/-- `x[idx]` for a node array `x : [N, C]` and one index per edge, `idx : [E, 1]`: result `[E, C]`. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- `x[idx]` for a node vector `x : [N]` and one index per edge, `idx : [E, 1]`: result `[E]`. -/
abbrev entryDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The accumulation of edge rows `[E, C]` into node rows `[N, C]` at one target index per edge, `idx : [E, 1]`. -/
abbrev addDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-! ## Gathers read at an index -/

section Gather
variable {α : Type}

/-- The row gather at `(e, k)`: the operand's row `min (idx e) (N − 1)` (the index read signed, negatives at `0`), column `k`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowsDims N E C wf) x idx (ix2 e k)
      = x (ix2 ⟨min (idx (ix2 e (0 : Fin 1))).toInt.toNat (N - 1), by omega⟩ k) := by
  unfold Host.gather
  congr 1
  funext a
  refine Fin.ext ?_
  show (rowsDims N E C wf).start (ix2 e k) idx a + (rowsDims N E C wf).batchCoord (ix2 e k) a
    + (rowsDims N E C wf).offCoord (ix2 e k) a = _
  rw [GatherDims.batchCoord_eq_zero _ _ _ List.not_mem_nil]
  have h0 : (rowsDims N E C wf).start (ix2 e k) idx (0 : Fin 2) + 0 + (rowsDims N E C wf).offCoord (ix2 e k) (0 : Fin 2)
      = min (idx (ix2 e (0 : Fin 1))).toInt.toNat (N - 1) := by
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e k) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowsDims N E C wf).start (ix2 e k) idx (1 : Fin 2) + 0 + (rowsDims N E C wf).offCoord (ix2 e k) (1 : Fin 2)
      = k.val := by
    have hst : (rowsDims N E C wf).start (ix2 e k) idx (1 : Fin 2) = 0 := by
      unfold GatherDims.start
      rw [dif_neg (show (1 : Fin 2) ∉ ([0] : List (Fin 2)) from by decide)]
    rw [hst]
    simp only [Nat.zero_add]
    rfl
  match a with
  | ⟨0, _⟩ => exact h0
  | ⟨1, _⟩ => exact h1

/-- The entry gather at `e`: the operand at `min (idx e) (N − 1)`. -/
theorem gather_entry_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (entryDims N E wf).start (ix1 e) idx 0 + (entryDims N E wf).batchCoord (ix1 e) 0
    + (entryDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N E wf).startIndexMap from List.mem_singleton.mpr rfl)]
  have hsi : (entryDims N E wf).siIdx (ix1 e) ⟨List.idxOf (0 : Fin 1) (entryDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Where an update lands -/

/-- An update `(e, k)` lands in row `i 0` only if edge `e`'s target index, read signed, is that row. -/
theorem resultIdx_row {N E C w : Nat}
    (wf : ScatterDims.WF ⟨2, ![N, C]⟩ ⟨2, ![E, 1]⟩ ⟨2, ![E, C]⟩ [1] [0] [0] 1)
    (idx : IVec ⟨2, ![E, 1]⟩ w) (e : Fin E) (k : Fin C) (i : (⟨2, ![N, C]⟩ : Shape).Idx)
    (h : (addDims N E C wf).resultIdx? (ix2 e k) idx = some i) :
    (idx (ix2 e (0 : Fin 1))).toInt = ((i 0).val : ℤ) := by
  have hs : (addDims N E C wf).start (ix2 e k) idx (0 : Fin 2) = (idx (ix2 e (0 : Fin 1))).toInt := by
    unfold ScatterDims.start
    rw [dif_pos (show (0 : Fin 2) ∈ (addDims N E C wf).scatterDimsToOperandDims from List.mem_singleton.mpr rfl)]
    have hsi : (addDims N E C wf).siIdx (ix2 e k) ⟨List.idxOf (0 : Fin 2) (addDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (addDims N E C wf).window (ix2 e k) (0 : Fin 2) = 0 := by
    unfold ScatterDims.window
    rw [dif_neg (fun h => by simp [Shape.kept] at h)]
  unfold ScatterDims.resultIdx? at h
  split at h
  · rename_i hb
    have h0 := congrArg (fun f : (⟨2, ![N, C]⟩ : Shape).Idx => (f 0).val) (Option.some.inj h)
    simp only at h0
    have hb0 := (hb 0).1
    rw [hs, hw] at hb0 h0
    omega
  · cases h

/-! ## Scaling after the accumulation -/

/-- On the extended reals a finite sum times a nonnegative real is the sum of the products. -/
theorem sum_mul_of_nonneg_real {ι : Type} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top h0 ht, ih]

/-- THE EDGE LAW. Accumulate updates `U` from a zero array and then scale row `p` by `cN p`; or scale update `(e, k)` by
    `cE e` first and accumulate: the same, when `cN` is a nonnegative real everywhere and `cE e = cN p` whenever edge `e`
    targets row `p`. -/
theorem scatter_scaled {N E C w : Nat}
    (wf : ScatterDims.WF ⟨2, ![N, C]⟩ ⟨2, ![E, 1]⟩ ⟨2, ![E, C]⟩ [1] [0] [0] 1)
    (dB : IVec ⟨2, ![E, 1]⟩ w) (U : (⟨2, ![E, C]⟩ : Shape).Idx → EReal) (cE : Fin E → EReal) (cN : Fin N → EReal)
    (hc : ∀ p, 0 ≤ cN p ∧ cN p ≠ ⊤)
    (hcE : ∀ (e : Fin E) (p : Fin N), (dB (ix2 e (0 : Fin 1))).toInt = (p.val : ℤ) → cE e = cN p)
    (i : (⟨2, ![N, C]⟩ : Shape).Idx) :
    Ideal.hostScatterAdd (addDims N E C wf) (fun _ => 0) dB U i * cN ⟨(i 0).val, idx2_lt0 i⟩
      = Ideal.hostScatterAdd (addDims N E C wf) (fun _ => 0) dB (fun j => U j * cE (j 0)) i := by
  unfold Ideal.hostScatterAdd
  rw [zero_add, zero_add]
  refine (sum_mul_of_nonneg_real _ _ (hc _).1 (hc _).2).trans ?_
  refine Finset.sum_congr rfl fun j hj => ?_
  obtain ⟨e, k, rfl⟩ : ∃ (e : Fin E) (k : Fin C), j = ix2 e k := ⟨j 0, j 1, eq_ix2 j⟩
  have hrow := resultIdx_row wf dB e k i (Finset.mem_filter.mp hj).2
  show U (ix2 e k) * cN ⟨(i 0).val, idx2_lt0 i⟩ = U (ix2 e k) * cE e
  rw [hcE e ⟨(i 0).val, idx2_lt0 i⟩ hrow]

end Cert.Gcn

end
-- ==== Proof.RefScatter.lean ====
import proofs.«163481_g30743375904785_cont_sun_c4_101_2_alg».proof.Proof.LibEdges

set_option maxRecDepth 16384

/-! An accumulating scatter by one signed index per update, read at an element: the operand's element
    plus the sum of the updates whose index, read signed, is that element's row. For row updates
    [E, C] into [N, C] and for entry updates [E] into [N]. -/

noncomputable section

namespace Cert.ReferenceIdeal.RefValue

open Idealize.ShloMosaic Idealize.ShloMosaic.ValueIdx Cert.Gcn

/-! ## Signed words -/

/-- The word of a natural number below `2^31`, read signed, is that number. -/
theorem toInt_ofNat_small (b : Nat) (hb : b < 2147483648) : (BitVec.ofNat 32 b).toInt = (b : ℤ) := by
  rw [BitVec.toInt_eq_toNat_cond, BitVec.toNat_ofNat]
  have : b % 2 ^ 32 = b := Nat.mod_eq_of_lt (by omega)
  rw [this, if_pos (by omega)]

/-- A 32-bit word read signed is the natural number `b` below `2^31` exactly when it is that number's word. -/
theorem toInt_eq_iff (v : BitVec 32) (b : Nat) (hb : b < 2147483648) : v.toInt = (b : ℤ) ↔ v = BitVec.ofNat 32 b := by
  constructor
  · intro h
    apply BitVec.eq_of_toInt_eq
    rw [h, toInt_ofNat_small b hb]
  · rintro rfl
    exact toInt_ofNat_small b hb

/-! ## Row updates: where an update lands -/

theorem rows_start0 {N E C w : Nat} (wf : ScatterDims.WF ⟨2, ![N, C]⟩ ⟨2, ![E, 1]⟩ ⟨2, ![E, C]⟩ [1] [0] [0] 1)
    (idx : IVec ⟨2, ![E, 1]⟩ w) (e : Fin E) (k : Fin C) :
    (addDims N E C wf).start (ix2 e k) idx (0 : Fin 2) = (idx (ix2 e (0 : Fin 1))).toInt := by
  unfold ScatterDims.start
  rw [dif_pos (show (0 : Fin 2) ∈ (addDims N E C wf).scatterDimsToOperandDims from List.mem_singleton.mpr rfl)]
  have hsi : (addDims N E C wf).siIdx (ix2 e k) ⟨List.idxOf (0 : Fin 2) (addDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rows_start1 {N E C w : Nat} (wf : ScatterDims.WF ⟨2, ![N, C]⟩ ⟨2, ![E, 1]⟩ ⟨2, ![E, C]⟩ [1] [0] [0] 1)
    (idx : IVec ⟨2, ![E, 1]⟩ w) (e : Fin E) (k : Fin C) :
    (addDims N E C wf).start (ix2 e k) idx (1 : Fin 2) = 0 := by
  unfold ScatterDims.start
  rw [dif_neg (show (1 : Fin 2) ∉ ([0] : List (Fin 2)) from by decide)]

theorem rows_window0 {N E C : Nat} (wf : ScatterDims.WF ⟨2, ![N, C]⟩ ⟨2, ![E, 1]⟩ ⟨2, ![E, C]⟩ [1] [0] [0] 1)
    (e : Fin E) (k : Fin C) : (addDims N E C wf).window (ix2 e k) (0 : Fin 2) = 0 := by
  unfold ScatterDims.window
  rw [dif_neg (fun h => by simp [Shape.kept] at h)]

theorem rows_window1 {N E C : Nat} (wf : ScatterDims.WF ⟨2, ![N, C]⟩ ⟨2, ![E, 1]⟩ ⟨2, ![E, C]⟩ [1] [0] [0] 1)
    (e : Fin E) (k : Fin C) : (addDims N E C wf).window (ix2 e k) (1 : Fin 2) = k.val := by
  rfl

/-- Update `(e, k)` lands at `(b, k')` exactly when edge `e`'s index, read signed, is `b` and the columns agree. -/
theorem resultIdx_rows_iff {N E C w : Nat} (wf : ScatterDims.WF ⟨2, ![N, C]⟩ ⟨2, ![E, 1]⟩ ⟨2, ![E, C]⟩ [1] [0] [0] 1)
    (idx : IVec ⟨2, ![E, 1]⟩ w) (e : Fin E) (k : Fin C) (b : Fin N) (k' : Fin C) :
    (addDims N E C wf).resultIdx? (ix2 e k) idx = some (ix2 b k')
      ↔ (idx (ix2 e (0 : Fin 1))).toInt = (b.val : ℤ) ∧ k = k' := by
  unfold ScatterDims.resultIdx?
  split
  · rename_i hb
    constructor
    · intro h
      have h0 : ((addDims N E C wf).start (ix2 e k) idx (0 : Fin 2) + (addDims N E C wf).window (ix2 e k) (0 : Fin 2)).toNat = b.val :=
        congrArg (fun f : (⟨2, ![N, C]⟩ : Shape).Idx => (f 0).val) (Option.some.inj h)
      have h1 : ((addDims N E C wf).start (ix2 e k) idx (1 : Fin 2) + (addDims N E C wf).window (ix2 e k) (1 : Fin 2)).toNat = k'.val :=
        congrArg (fun f : (⟨2, ![N, C]⟩ : Shape).Idx => (f 1).val) (Option.some.inj h)
      have hb0 := (hb 0).1
      rw [rows_start0, rows_window0] at hb0 h0
      rw [rows_start1, rows_window1] at h1
      exact ⟨by omega, Fin.ext (by omega)⟩
    · rintro ⟨h0, rfl⟩
      refine congrArg some (funext fun a => Fin.ext ?_)
      match a with
      | ⟨0, _⟩ =>
        show ((addDims N E C wf).start (ix2 e k) idx (0 : Fin 2) + (addDims N E C wf).window (ix2 e k) (0 : Fin 2)).toNat = b.val
        rw [rows_start0, rows_window0, h0]; omega
      | ⟨1, _⟩ =>
        show ((addDims N E C wf).start (ix2 e k) idx (1 : Fin 2) + (addDims N E C wf).window (ix2 e k) (1 : Fin 2)).toNat = k.val
        rw [rows_start1, rows_window1]; omega
  · rename_i hb
    constructor
    · intro h; cases h
    · rintro ⟨h0, rfl⟩
      refine absurd (fun a => ?_) hb
      match a with
      | ⟨0, _⟩ =>
        show 0 ≤ (addDims N E C wf).start (ix2 e k) idx (0 : Fin 2) + (addDims N E C wf).window (ix2 e k) (0 : Fin 2)
          ∧ (addDims N E C wf).start (ix2 e k) idx (0 : Fin 2) + (addDims N E C wf).window (ix2 e k) (0 : Fin 2) < (N : ℤ)
        rw [rows_start0, rows_window0, h0]; have := b.isLt; omega
      | ⟨1, _⟩ =>
        show 0 ≤ (addDims N E C wf).start (ix2 e k) idx (1 : Fin 2) + (addDims N E C wf).window (ix2 e k) (1 : Fin 2)
          ∧ (addDims N E C wf).start (ix2 e k) idx (1 : Fin 2) + (addDims N E C wf).window (ix2 e k) (1 : Fin 2) < (C : ℤ)
        rw [rows_start1, rows_window1]; have := k.isLt; omega

/-- The accumulating row scatter at `(b, k)`: the operand there plus the sum, over the edges whose index read
    signed is `b`, of their updates at column `k`. -/
theorem scatterAdd_rows_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (b : Fin N) (k : Fin C) :
    Ideal.hostScatterAdd (addDims N E C wf) x idx upd (ix2 b k)
      = x (ix2 b k) + ∑ e ∈ Finset.univ.filter (fun e : Fin E => (idx (ix2 e (0 : Fin 1))).toInt = (b.val : ℤ)), upd (ix2 e k) := by
  classical
  unfold Ideal.hostScatterAdd
  congr 1
  rw [Finset.sum_filter, sum_idx2, Finset.sum_filter]
  refine Finset.sum_congr rfl fun e _ => ?_
  simp only [resultIdx_rows_iff]
  by_cases h : (idx (ix2 e (0 : Fin 1))).toInt = (b.val : ℤ)
  · simp [h]
  · simp [h]

/-! ## Entry updates -/

/-- The accumulation of edge entries `[E]` into node entries `[N]` at one index per edge, `idx : [E, 1]`. -/
abbrev cntDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem cnt_start0 {N E w : Nat} (wf : ScatterDims.WF ⟨1, ![N]⟩ ⟨2, ![E, 1]⟩ ⟨1, ![E]⟩ [] [0] [0] 1)
    (idx : IVec ⟨2, ![E, 1]⟩ w) (e : Fin E) :
    (cntDims N E wf).start (ix1 e) idx (0 : Fin 1) = (idx (ix2 e (0 : Fin 1))).toInt := by
  unfold ScatterDims.start
  rw [dif_pos (show (0 : Fin 1) ∈ (cntDims N E wf).scatterDimsToOperandDims from List.mem_singleton.mpr rfl)]
  have hsi : (cntDims N E wf).siIdx (ix1 e) ⟨List.idxOf (0 : Fin 1) (cntDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem cnt_window0 {N E : Nat} (wf : ScatterDims.WF ⟨1, ![N]⟩ ⟨2, ![E, 1]⟩ ⟨1, ![E]⟩ [] [0] [0] 1)
    (e : Fin E) : (cntDims N E wf).window (ix1 e) (0 : Fin 1) = 0 := by
  unfold ScatterDims.window
  rw [dif_neg (fun h => by simp [Shape.kept] at h)]

/-- Update `e` lands at `b` exactly when edge `e`'s index, read signed, is `b`. -/
theorem resultIdx_cnt_iff {N E w : Nat} (wf : ScatterDims.WF ⟨1, ![N]⟩ ⟨2, ![E, 1]⟩ ⟨1, ![E]⟩ [] [0] [0] 1)
    (idx : IVec ⟨2, ![E, 1]⟩ w) (e : Fin E) (b : Fin N) :
    (cntDims N E wf).resultIdx? (ix1 e) idx = some (ix1 b) ↔ (idx (ix2 e (0 : Fin 1))).toInt = (b.val : ℤ) := by
  unfold ScatterDims.resultIdx?
  split
  · rename_i hb
    constructor
    · intro h
      have h0 : ((cntDims N E wf).start (ix1 e) idx (0 : Fin 1) + (cntDims N E wf).window (ix1 e) (0 : Fin 1)).toNat = b.val :=
        congrArg (fun f : (⟨1, ![N]⟩ : Shape).Idx => (f 0).val) (Option.some.inj h)
      have hb0 := (hb 0).1
      rw [cnt_start0, cnt_window0] at hb0 h0
      omega
    · intro h0
      refine congrArg some (funext fun a => Fin.ext ?_)
      match a with
      | ⟨0, _⟩ =>
        show ((cntDims N E wf).start (ix1 e) idx (0 : Fin 1) + (cntDims N E wf).window (ix1 e) (0 : Fin 1)).toNat = b.val
        rw [cnt_start0, cnt_window0, h0]; omega
  · rename_i hb
    constructor
    · intro h; cases h
    · intro h0
      refine absurd (fun a => ?_) hb
      match a with
      | ⟨0, _⟩ =>
        show 0 ≤ (cntDims N E wf).start (ix1 e) idx (0 : Fin 1) + (cntDims N E wf).window (ix1 e) (0 : Fin 1)
          ∧ (cntDims N E wf).start (ix1 e) idx (0 : Fin 1) + (cntDims N E wf).window (ix1 e) (0 : Fin 1) < (N : ℤ)
        rw [cnt_start0, cnt_window0, h0]; have := b.isLt; omega

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The accumulating entry scatter at `b`: the operand there plus the sum, over the edges whose index read
    signed is `b`, of their updates. -/
theorem scatterAdd_cnt_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (b : Fin N) :
    Ideal.hostScatterAdd (cntDims N E wf) x idx upd (ix1 b)
      = x (ix1 b) + ∑ e ∈ Finset.univ.filter (fun e : Fin E => (idx (ix2 e (0 : Fin 1))).toInt = (b.val : ℤ)), upd (ix1 e) := by
  classical
  unfold Ideal.hostScatterAdd
  congr 1
  rw [Finset.sum_filter, sum_idx1, Finset.sum_filter]
  refine Finset.sum_congr rfl fun e _ => ?_
  simp only [resultIdx_cnt_iff]

end Cert.ReferenceIdeal.RefValue

end
-- ==== Proof.RefBits.lean ====
import proofs.«163481_g30743375904785_cont_sun_c4_101_2_alg».proof.Proof.LibEdges
import Idealize.ShloMosaic.Lib.StackMember
import Idealize.ShloMosaic.Lib.Affine
import Idealize.ShloMosaic.PureOps.Ideal.Laws
import Idealize.ShloMosaic.PureOps.Reduce

set_option maxRecDepth 16384

/-! Small facts the reads of the reference's stages use: a non-negative id is kept by the wrap-around of
    negative ids; a reduction by `and` of ones is one; a vector broadcast along rows or columns read at an index. -/

noncomputable section

namespace Cert.ReferenceIdeal.RefValue

open Idealize.ShloMosaic Idealize.ShloMosaic.ValueIdx Cert.Gcn

/-! ## Words -/

/-- A word that is not negative, read signed, is not moved by the wrap-around of negative ids. -/
theorem wrap_id (x : BitVec 32) (h : 0 ≤ x.toInt) :
    Scalar.select (IntOp.cmpi .slt x 0#32) (IntOp.addi x 256#32) x = x := by
  have hne : ¬ IntOp.cmpi .slt x 0#32 = 1#1 := by
    rw [IntOp.cmpi_slt, show (0#32 : BitVec 32).toInt = 0 from by decide]
    omega
  rw [eq_zero_of_ne_one hne, select_zero]

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by `and` from 1 is 1 at `j` when every operand element that reduces into `j` is 1. -/
theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, h.drop i = j → x i = 1#1) : Host.reduce IntOp.andi x init h hu j = 1#1 := by
  rw [Host.reduce_eq_foldl, hi]
  exact foldl_andi_one x _ fun i hi => hx i (of_decide_eq_true (List.mem_filter.mp hi).2)

/-! ## Broadcasts read at an index -/

section Bcast
variable {α : Type}

/-- A vector laid along every row, read at `(r, c)`: its entry `c`. -/
theorem bcast_row_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (x : (⟨1, ![n]⟩ : Shape).Idx → α) (r : Fin m) (c : Fin n) :
    broadcastInDim ⟨2, ![m, n]⟩ ![0, 1] h2 (broadcastInDim ⟨2, ![1, n]⟩ ![1] h1 x) (ix2 r c) = x (ix1 c) := by
  rw [broadcastInDim_apply _ h2 _ _ (ix2 (0 : Fin 1) c) (fun a => by
      match a with
      | ⟨0, _⟩ => rfl
      | ⟨1, _⟩ => exact (if_neg hn).symm),
    broadcastInDim_apply _ h1 _ _ (ix1 c) (fun a => by
      match a with
      | ⟨0, _⟩ => exact (if_neg hn).symm)]

/-- A vector laid down every column, read at `(r, c)`: its entry `r`. -/
theorem bcast_col_apply {m n : Nat} (hm : m ≠ 1)
    (h1 : (⟨1, ![m]⟩ : Shape).BroadcastsInDim ⟨2, ![m, 1]⟩ ![0])
    (h2 : (⟨2, ![m, 1]⟩ : Shape).BroadcastsInDim ⟨2, ![m, n]⟩ ![0, 1])
    (x : (⟨1, ![m]⟩ : Shape).Idx → α) (r : Fin m) (c : Fin n) :
    broadcastInDim ⟨2, ![m, n]⟩ ![0, 1] h2 (broadcastInDim ⟨2, ![m, 1]⟩ ![0] h1 x) (ix2 r c) = x (ix1 r) := by
  rw [broadcastInDim_apply _ h2 _ _ (ix2 r (0 : Fin 1)) (fun a => by
      match a with
      | ⟨0, _⟩ => exact (if_neg hm).symm
      | ⟨1, _⟩ => rfl),
    broadcastInDim_apply _ h1 _ _ (ix1 r) (fun a => by
      match a with
      | ⟨0, _⟩ => exact (if_neg hm).symm)]

/-- A vector as a column, read at an index whose row is `r`: its entry `r`. -/
theorem bcast_tocol_apply {m : Nat} (hm : m ≠ 1)
    (h1 : (⟨1, ![m]⟩ : Shape).BroadcastsInDim ⟨2, ![m, 1]⟩ ![0])
    (x : (⟨1, ![m]⟩ : Shape).Idx → α) (i : (⟨2, ![m, 1]⟩ : Shape).Idx) (r : Fin m) (hr : (i 0).val = r.val) :
    broadcastInDim ⟨2, ![m, 1]⟩ ![0] h1 x i = x (ix1 r) := by
  rw [broadcastInDim_apply _ h1 _ _ (ix1 r) (fun a => by
      match a with
      | ⟨0, _⟩ => exact ((if_neg hm).trans hr).symm)]

/-- A vector repeated along the columns, read at `(r, c)`: its entry `r`. -/
theorem bcast_rows_apply {m n : Nat} (hm : m ≠ 1)
    (h1 : (⟨1, ![m]⟩ : Shape).BroadcastsInDim ⟨2, ![m, n]⟩ ![0])
    (x : (⟨1, ![m]⟩ : Shape).Idx → α) (r : Fin m) (c : Fin n) :
    broadcastInDim ⟨2, ![m, n]⟩ ![0] h1 x (ix2 r c) = x (ix1 r) := by
  rw [broadcastInDim_apply _ h1 _ _ (ix1 r) (fun a => by
      match a with
      | ⟨0, _⟩ => exact (if_neg hm).symm)]

end Bcast

end Cert.ReferenceIdeal.RefValue

end
-- ==== Proof.RefTake.lean ====
import proofs.«163481_g30743375904785_cont_sun_c4_101_2_alg».proof.Proof.RefDefs
import proofs.«163481_g30743375904785_cont_sun_c4_101_2_alg».proof.Proof.RefScatter
import proofs.«163481_g30743375904785_cont_sun_c4_101_2_alg».proof.Proof.RefBits
import Idealize.ShloMosaic.Lib.IdealHost
import Idealize.ShloMosaic.Lib.StackMember
import Idealize.ShloMosaic.Lib.Affine
import Idealize.ShloMosaic.PureOps.Ideal.Laws
import Idealize.ShloMosaic.PureOps.Reduce

set_option maxRecDepth 16384

/-! The gather of a graph's feature row by a graph id, read at an index, where the id is a graph's number:
    the wrap-around of negative ids, the clamp and the out-of-range mask all leave such an id alone. -/

noncomputable section

namespace Cert.ReferenceIdeal.RefValue

open Cert.ReferenceIdeal Cert.ReferenceIdeal.Gen Cert.ReferenceIdeal.RefRun Idealize.ShloMosaic Idealize.ShloMosaic.ValueIdx Cert.Gcn

/-- The shifted id column at an index of row `e`: the id, or the id plus the number of graphs when negative. -/
theorem colE_apply (ids : IVec S320000 32) (i : S320000x1.Idx) (e : Fin 320000) (he : (i 0).val = e.val) :
    colE ids i = Scalar.select (IntOp.cmpi .slt (ids (ix1 e)) 0#32) (IntOp.addi (ids (ix1 e)) 256#32) (ids (ix1 e)) := by
  unfold colE
  rw [bcast_tocol_apply (by decide) _ _ i e he]
  rfl

/-- Where the id is a graph's number the mask is 1. -/
theorem maskE_one (ids : IVec S320000 32) (e : Fin 320000) (g : Fin 256) (hg : ids (ix1 e) = BitVec.ofNat 32 g.val) :
    maskE ids (ix1 e) = 1#1 := by
  have hgi : (BitVec.ofNat 32 g.val).toInt = (g.val : ℤ) := toInt_ofNat_small _ (by have := g.isLt; omega)
  unfold maskE
  refine reduce_andi_one _ _ _ _ _ rfl fun i hi => ?_
  have he : (i 0).val = e.val := congrArg (fun f : S320000.Idx => (f 0).val) hi
  show IntOp.andi (IntOp.cmpi .sge (colE ids i) 0#32) (IntOp.cmpi .sle (colE ids i) 255#32) = 1#1
  rw [colE_apply ids i e he, hg, wrap_id _ (by rw [hgi]; omega), IntOp.andi_eq_one, IntOp.cmpi_sge, IntOp.cmpi_sle, hgi,
    show (0#32 : BitVec 32).toInt = 0 from by decide, show (255#32 : BitVec 32).toInt = 255 from by decide]
  have := g.isLt
  omega

/-- Where the id is graph `g`'s number, the gathered row is row `g` of the graph features. -/
theorem takeE_apply (u : FVec Ideal S256x32 .f32) (e2g : IVec S320000 32) (e : Fin 320000) (g : Fin 256) (q : Fin 32)
    (hg : e2g (ix1 e) = BitVec.ofNat 32 g.val) : takeE u e2g (ix2 e q) = u (ix2 g q) := by
  have hgi : (BitVec.ofNat 32 g.val).toInt = (g.val : ℤ) := toInt_ofNat_small _ (by have := g.isLt; omega)
  unfold takeE
  rw [select_apply, bcast_rows_apply (by decide) _ _ e q, maskE_one e2g e g hg, select_one]
  show Host.gather (rowsDims 256 320000 32 gather_S256x32_S320000x1_S320000x32_1_0_n_n_0_1_132_wf) u (colE e2g) (ix2 e q) = _
  rw [gather_rows_apply (by decide)]
  have hrow : min (colE e2g (ix2 e (0 : Fin 1))).toInt.toNat (256 - 1) = g.val := by
    rw [colE_apply e2g _ e rfl, hg, wrap_id _ (by rw [hgi]; omega), hgi]; have := g.isLt; omega
  exact congrArg u (funext fun a => Fin.ext (by
    match a with
    | ⟨0, _⟩ => exact hrow
    | ⟨1, _⟩ => rfl))

/-- The shifted id column at an index of row `n`: the id, or the id plus the number of graphs when negative. -/
theorem colN_apply (ids : IVec S10000 32) (i : S10000x1.Idx) (e : Fin 10000) (he : (i 0).val = e.val) :
    colN ids i = Scalar.select (IntOp.cmpi .slt (ids (ix1 e)) 0#32) (IntOp.addi (ids (ix1 e)) 256#32) (ids (ix1 e)) := by
  unfold colN
  rw [bcast_tocol_apply (by decide) _ _ i e he]
  rfl

/-- Where the id is a graph's number the mask is 1. -/
theorem maskN_one (ids : IVec S10000 32) (e : Fin 10000) (g : Fin 256) (hg : ids (ix1 e) = BitVec.ofNat 32 g.val) :
    maskN ids (ix1 e) = 1#1 := by
  have hgi : (BitVec.ofNat 32 g.val).toInt = (g.val : ℤ) := toInt_ofNat_small _ (by have := g.isLt; omega)
  unfold maskN
  refine reduce_andi_one _ _ _ _ _ rfl fun i hi => ?_
  have he : (i 0).val = e.val := congrArg (fun f : S10000.Idx => (f 0).val) hi
  show IntOp.andi (IntOp.cmpi .sge (colN ids i) 0#32) (IntOp.cmpi .sle (colN ids i) 255#32) = 1#1
  rw [colN_apply ids i e he, hg, wrap_id _ (by rw [hgi]; omega), IntOp.andi_eq_one, IntOp.cmpi_sge, IntOp.cmpi_sle, hgi,
    show (0#32 : BitVec 32).toInt = 0 from by decide, show (255#32 : BitVec 32).toInt = 255 from by decide]
  have := g.isLt
  omega

/-- Where the id is graph `g`'s number, the gathered row is row `g` of the graph features. -/
theorem takeN_apply (u : FVec Ideal S256x32 .f32) (n2g : IVec S10000 32) (n : Fin 10000) (g : Fin 256) (q : Fin 32)
    (hg : n2g (ix1 n) = BitVec.ofNat 32 g.val) : takeN u n2g (ix2 n q) = u (ix2 g q) := by
  have hgi : (BitVec.ofNat 32 g.val).toInt = (g.val : ℤ) := toInt_ofNat_small _ (by have := g.isLt; omega)
  unfold takeN
  rw [select_apply, bcast_rows_apply (by decide) _ _ n q, maskN_one n2g n g hg, select_one]
  show Host.gather (rowsDims 256 10000 32 gather_S256x32_S10000x1_S10000x32_1_0_n_n_0_1_132_wf) u (colN n2g) (ix2 n q) = _
  rw [gather_rows_apply (by decide)]
  have hrow : min (colN n2g (ix2 n (0 : Fin 1))).toInt.toNat (256 - 1) = g.val := by
    rw [colN_apply n2g _ n rfl, hg, wrap_id _ (by rw [hgi]; omega), hgi]; have := g.isLt; omega
  exact congrArg u (funext fun a => Fin.ext (by
    match a with
    | ⟨0, _⟩ => exact hrow
    | ⟨1, _⟩ => rfl))

end Cert.ReferenceIdeal.RefValue

end
-- ==== Proof.RefStages.lean ====
import proofs.«163481_g30743375904785_cont_sun_c4_101_2_alg».proof.Proof.RefDefs
import proofs.«163481_g30743375904785_cont_sun_c4_101_2_alg».proof.Proof.RefScatter
import proofs.«163481_g30743375904785_cont_sun_c4_101_2_alg».proof.Proof.RefBits
import proofs.«163481_g30743375904785_cont_sun_c4_101_2_alg».proof.Proof.RefTake
import Idealize.ShloMosaic.Lib.IdealHost
import Idealize.ShloMosaic.Lib.StackMember
import Idealize.ShloMosaic.Lib.Affine
import Idealize.ShloMosaic.PureOps.Ideal.Laws
import Idealize.ShloMosaic.PureOps.Reduce

set_option maxRecDepth 16384

/-! Each stage of the reference read at an index, at the ideal values, as plain extended-real arithmetic:
    the four accumulating scatters as sums over the elements whose id is the graph's number, the two
    activations at such an element, the two means, a linear head and the clip. -/

noncomputable section

namespace Cert.ReferenceIdeal.RefValue

open Cert.ReferenceIdeal Cert.ReferenceIdeal.Gen Cert.ReferenceIdeal.RefRun Idealize.ShloMosaic Idealize.ShloMosaic.ValueIdx Cert.Gcn

/-! ## The four accumulating scatters -/

/-- The per-graph sum of edge rows: over the edges whose id is graph `b`'s number. -/
theorem esum_apply (e2g : IVec S320000 32) (act : FVec Ideal S320000x128 .f32) (b : Fin 256) (k : Fin 128) :
    Host.scatterAdd scatter_S256x128_S320000x1_S320000x128_1_0_0_1
        (broadcastInDim S256x128 ![] bcast_S_S256x128 (constant (F := Ideal) S_ .f32 0x00000000#32))
        (broadcastInDim S320000x1 ![0] bcast_S320000_S320000x1_0 e2g) act (ix2 b k)
      = ∑ e ∈ Finset.univ.filter (fun e : Fin 320000 => e2g (ix1 e) = BitVec.ofNat 32 b.val), act (ix2 e k) := by
  show Ideal.hostScatterAdd (addDims 256 320000 128 scatter_S256x128_S320000x1_S320000x128_1_0_0_1_wf) _ _ act (ix2 b k) = _
  rw [scatterAdd_rows_apply,
    show broadcastInDim S256x128 ![] bcast_S_S256x128 (constant (F := Ideal) S_ .f32 0x00000000#32) (ix2 b k) = 0
      from Ideal.ofBits_zero_f32, zero_add]
  refine Finset.sum_congr (Finset.filter_congr fun e _ => ?_) fun _ _ => rfl
  rw [bcast_tocol_apply (by decide) _ _ _ e rfl, toInt_eq_iff _ _ (by have := b.isLt; omega)]

/-- The per-graph sum of node rows: over the nodes whose id is graph `b`'s number. -/
theorem nsum_apply (n2g : IVec S10000 32) (act : FVec Ideal S10000x128 .f32) (b : Fin 256) (k : Fin 128) :
    Host.scatterAdd scatter_S256x128_S10000x1_S10000x128_1_0_0_1
        (broadcastInDim S256x128 ![] bcast_S_S256x128 (constant (F := Ideal) S_ .f32 0x00000000#32))
        (broadcastInDim S10000x1 ![0] bcast_S10000_S10000x1_0 n2g) act (ix2 b k)
      = ∑ n ∈ Finset.univ.filter (fun n : Fin 10000 => n2g (ix1 n) = BitVec.ofNat 32 b.val), act (ix2 n k) := by
  show Ideal.hostScatterAdd (addDims 256 10000 128 scatter_S256x128_S10000x1_S10000x128_1_0_0_1_wf) _ _ act (ix2 b k) = _
  rw [scatterAdd_rows_apply,
    show broadcastInDim S256x128 ![] bcast_S_S256x128 (constant (F := Ideal) S_ .f32 0x00000000#32) (ix2 b k) = 0
      from Ideal.ofBits_zero_f32, zero_add]
  refine Finset.sum_congr (Finset.filter_congr fun n _ => ?_) fun _ _ => rfl
  rw [bcast_tocol_apply (by decide) _ _ _ n rfl, toInt_eq_iff _ _ (by have := b.isLt; omega)]

/-- The per-graph edge count: one per edge whose id is graph `b`'s number. -/
theorem ecount_apply (e2g : IVec S320000 32) (b : Fin 256) :
    Host.scatterAdd scatter_S256_S320000x1_S320000_n_0_0_1
        (broadcastInDim S256 ![] bcast_S_S256 (constant (F := Ideal) S_ .f32 0x00000000#32))
        (broadcastInDim S320000x1 ![0] bcast_S320000_S320000x1_0 e2g)
        (broadcastInDim S320000 ![] bcast_S_S320000 (constant (F := Ideal) S_ .f32 0x3F800000#32)) (ix1 b)
      = ∑ e ∈ Finset.univ.filter (fun e : Fin 320000 => e2g (ix1 e) = BitVec.ofNat 32 b.val), Ideal.ofBits .f32 0x3F800000#32 := by
  show Ideal.hostScatterAdd (cntDims 256 320000 scatter_S256_S320000x1_S320000_n_0_0_1_wf) _ _ _ (ix1 b) = _
  rw [scatterAdd_cnt_apply,
    show broadcastInDim S256 ![] bcast_S_S256 (constant (F := Ideal) S_ .f32 0x00000000#32) (ix1 b) = 0
      from Ideal.ofBits_zero_f32, zero_add]
  refine Finset.sum_congr (Finset.filter_congr fun e _ => ?_) fun _ _ => rfl
  rw [bcast_tocol_apply (by decide) _ _ _ e rfl, toInt_eq_iff _ _ (by have := b.isLt; omega)]

/-- The per-graph node count: one per node whose id is graph `b`'s number. -/
theorem ncount_apply (n2g : IVec S10000 32) (b : Fin 256) :
    Host.scatterAdd scatter_S256_S10000x1_S10000_n_0_0_1
        (broadcastInDim S256 ![] bcast_S_S256 (constant (F := Ideal) S_ .f32 0x00000000#32))
        (broadcastInDim S10000x1 ![0] bcast_S10000_S10000x1_0 n2g)
        (broadcastInDim S10000 ![] bcast_S_S10000 (constant (F := Ideal) S_ .f32 0x3F800000#32)) (ix1 b)
      = ∑ n ∈ Finset.univ.filter (fun n : Fin 10000 => n2g (ix1 n) = BitVec.ofNat 32 b.val), Ideal.ofBits .f32 0x3F800000#32 := by
  show Ideal.hostScatterAdd (cntDims 256 10000 scatter_S256_S10000x1_S10000_n_0_0_1_wf) _ _ _ (ix1 b) = _
  rw [scatterAdd_cnt_apply,
    show broadcastInDim S256 ![] bcast_S_S256 (constant (F := Ideal) S_ .f32 0x00000000#32) (ix1 b) = 0
      from Ideal.ofBits_zero_f32, zero_add]
  refine Finset.sum_congr (Finset.filter_congr fun n _ => ?_) fun _ _ => rfl
  rw [bcast_tocol_apply (by decide) _ _ _ n rfl, toInt_eq_iff _ _ (by have := b.isLt; omega)]

/-! ## The activations at an element whose id is a graph's number -/

theorem e1_apply (ea : FVec Ideal S320000x16 .f32) (u : FVec Ideal S256x32 .f32) (e2g : IVec S320000 32)
    (We : FVec Ideal S16x128 .f32) (Wue : FVec Ideal S32x128 .f32) (be : FVec Ideal S128 .f32)
    (e : Fin 320000) (g : Fin 256) (k : Fin 128) (hg : e2g (ix1 e) = BitVec.ofNat 32 g.val) :
    e1 ea u e2g We Wue be (ix2 e k)
      = max (((∑ q : Fin 16, ea (ix2 e q) * We (ix2 q k)) + ∑ q : Fin 32, u (ix2 g q) * Wue (ix2 q k)) + be (ix1 k))
          (Ideal.ofBits .f32 0x00000000#32) := by
  unfold e1
  rw [maximumf_apply, addf_apply, addf_apply, bcast_row_apply (by decide),
    show Host.dotGeneral dot_S320000x16_S16x128_S320000x128_1_0_0_1_n_n none ea We (ix2 e k) = ∑ q : Fin 16, ea (ix2 e q) * We (ix2 q k)
      from StackMember.dotGeneral_plain_apply none ea We e k,
    show Host.dotGeneral dot_S320000x32_S32x128_S320000x128_1_0_0_1_n_n none (takeE u e2g) Wue (ix2 e k) = ∑ q : Fin 32, takeE u e2g (ix2 e q) * Wue (ix2 q k)
      from StackMember.dotGeneral_plain_apply none (takeE u e2g) Wue e k]
  simp only [takeE_apply u e2g e g _ hg]
  rfl

theorem n1_apply (x : FVec Ideal S10000x128 .f32) (u : FVec Ideal S256x32 .f32) (n2g : IVec S10000 32)
    (Wn : FVec Ideal S128x128 .f32) (Wun : FVec Ideal S32x128 .f32) (bn : FVec Ideal S128 .f32)
    (n : Fin 10000) (g : Fin 256) (k : Fin 128) (hg : n2g (ix1 n) = BitVec.ofNat 32 g.val) :
    n1 x u n2g Wn Wun bn (ix2 n k)
      = max (((∑ q : Fin 128, x (ix2 n q) * Wn (ix2 q k)) + ∑ q : Fin 32, u (ix2 g q) * Wun (ix2 q k)) + bn (ix1 k))
          (Ideal.ofBits .f32 0x00000000#32) := by
  unfold n1
  rw [maximumf_apply, addf_apply, addf_apply, bcast_row_apply (by decide),
    show Host.dotGeneral dot_S10000x128_S128x128_S10000x128_1_0_0_1_n_n none x Wn (ix2 n k) = ∑ q : Fin 128, x (ix2 n q) * Wn (ix2 q k)
      from StackMember.dotGeneral_plain_apply none x Wn n k,
    show Host.dotGeneral dot_S10000x32_S32x128_S10000x128_1_0_0_1_n_n none (takeN u n2g) Wun (ix2 n k) = ∑ q : Fin 32, takeN u n2g (ix2 n q) * Wun (ix2 q k)
      from StackMember.dotGeneral_plain_apply none (takeN u n2g) Wun n k]
  simp only [takeN_apply u n2g n g _ hg]
  rfl

/-! ## The means -/

theorem nagg_apply (act : FVec Ideal S10000x128 .f32) (n2g : IVec S10000 32) (b : Fin 256) (k : Fin 128) :
    nagg act n2g (ix2 b k)
      = Ideal.div (∑ n ∈ Finset.univ.filter (fun n : Fin 10000 => n2g (ix1 n) = BitVec.ofNat 32 b.val), act (ix2 n k))
          (max (∑ n ∈ Finset.univ.filter (fun n : Fin 10000 => n2g (ix1 n) = BitVec.ofNat 32 b.val), Ideal.ofBits .f32 0x3F800000#32) (Ideal.ofBits .f32 0x3F800000#32)) := by
  unfold nagg
  rw [hostDivf_apply, nsum_apply, bcast_col_apply (by decide)]
  unfold ncnt
  rw [maximumf_apply, ncount_apply]
  rfl

theorem eagg_apply (act : FVec Ideal S320000x128 .f32) (e2g : IVec S320000 32) (b : Fin 256) (k : Fin 128) :
    eagg act e2g (ix2 b k)
      = Ideal.div (∑ e ∈ Finset.univ.filter (fun e : Fin 320000 => e2g (ix1 e) = BitVec.ofNat 32 b.val), act (ix2 e k))
          (max (∑ e ∈ Finset.univ.filter (fun e : Fin 320000 => e2g (ix1 e) = BitVec.ofNat 32 b.val), Ideal.ofBits .f32 0x3F800000#32) (Ideal.ofBits .f32 0x3F800000#32)) := by
  unfold eagg
  rw [hostDivf_apply, esum_apply, bcast_col_apply (by decide)]
  unfold ecnt
  rw [maximumf_apply, ecount_apply]
  rfl

/-! ## The heads and the clip -/

theorem head_apply (na ea : FVec Ideal S256x128 .f32) (Wn We : FVec Ideal S128x8 .f32) (bias : FVec Ideal S8 .f32)
    (b : Fin 256) (a : Fin 8) :
    head na ea Wn We bias (ix2 b a)
      = ((∑ k : Fin 128, na (ix2 b k) * Wn (ix2 k a)) + ∑ k : Fin 128, ea (ix2 b k) * We (ix2 k a)) + bias (ix1 a) := by
  unfold head
  rw [addf_apply, addf_apply, bcast_row_apply (by decide),
    show Host.dotGeneral dot_S256x128_S128x8_S256x8_1_0_0_1_n_n none na Wn (ix2 b a) = ∑ k : Fin 128, na (ix2 b k) * Wn (ix2 k a)
      from StackMember.dotGeneral_plain_apply none na Wn b a,
    show Host.dotGeneral dot_S256x128_S128x8_S256x8_1_0_0_1_n_n none ea We (ix2 b a) = ∑ k : Fin 128, ea (ix2 b k) * We (ix2 k a)
      from StackMember.dotGeneral_plain_apply none ea We b a]

theorem clip_apply (x : FVec Ideal S256x8 .f32) (b : Fin 256) (a : Fin 8) :
    clip x (ix2 b a) = min (Ideal.ofBits .f32 0x40000000#32) (max (Ideal.ofBits .f32 0xC1A00000#32) (x (ix2 b a))) := by
  rfl

end Cert.ReferenceIdeal.RefValue

end
-- ==== Proof.RefValue.lean ====
import proofs.«163481_g30743375904785_cont_sun_c4_101_2_alg».proof.Proof.RefDefs
import proofs.«163481_g30743375904785_cont_sun_c4_101_2_alg».proof.Proof.RefScatter
import proofs.«163481_g30743375904785_cont_sun_c4_101_2_alg».proof.Proof.RefStages
import Idealize.ShloMosaic.Lib.IdealHost
import Idealize.ShloMosaic.Lib.StackMember
import Idealize.ShloMosaic.Lib.Affine
import Idealize.ShloMosaic.PureOps.Ideal.Laws
import Idealize.ShloMosaic.PureOps.Reduce

set_option maxRecDepth 16384

/-! The reference's two results read at an index, at the ideal values: the stages composed. -/

noncomputable section

namespace Cert.ReferenceIdeal.RefValue

open Cert.ReferenceIdeal Cert.ReferenceIdeal.Gen Cert.ReferenceIdeal.RefRun Idealize.ShloMosaic Idealize.ShloMosaic.ValueIdx Cert.Gcn

/-! ## The closed forms -/

/-- The node activation of node `n` of graph `g` at column `k`. -/
def n1c (x : FVec Ideal S10000x128 .f32) (u : FVec Ideal S256x32 .f32) (Wn : FVec Ideal S128x128 .f32)
    (Wun : FVec Ideal S32x128 .f32) (bn : FVec Ideal S128 .f32) (g : Fin 256) (n : Fin 10000) (k : Fin 128) : Ideal .f32 :=
  max (((∑ q : Fin 128, x (ix2 n q) * Wn (ix2 q k)) + ∑ q : Fin 32, u (ix2 g q) * Wun (ix2 q k)) + bn (ix1 k))
    (Ideal.ofBits .f32 0x00000000#32)

/-- The edge activation of edge `e` of graph `g` at column `k`. -/
def e1c (ea : FVec Ideal S320000x16 .f32) (u : FVec Ideal S256x32 .f32) (We : FVec Ideal S16x128 .f32)
    (Wue : FVec Ideal S32x128 .f32) (be : FVec Ideal S128 .f32) (g : Fin 256) (e : Fin 320000) (k : Fin 128) : Ideal .f32 :=
  max (((∑ q : Fin 16, ea (ix2 e q) * We (ix2 q k)) + ∑ q : Fin 32, u (ix2 g q) * Wue (ix2 q k)) + be (ix1 k))
    (Ideal.ofBits .f32 0x00000000#32)

/-- The mean node activation of graph `b` at column `k`: the sum over the graph's nodes over their number, at least one. -/
def naggc (x : FVec Ideal S10000x128 .f32) (u : FVec Ideal S256x32 .f32) (n2g : IVec S10000 32) (Wn : FVec Ideal S128x128 .f32)
    (Wun : FVec Ideal S32x128 .f32) (bn : FVec Ideal S128 .f32) (b : Fin 256) (k : Fin 128) : Ideal .f32 :=
  Ideal.div (∑ n ∈ Finset.univ.filter (fun n : Fin 10000 => n2g (ix1 n) = BitVec.ofNat 32 b.val), n1c x u Wn Wun bn b n k)
    (max (∑ n ∈ Finset.univ.filter (fun n : Fin 10000 => n2g (ix1 n) = BitVec.ofNat 32 b.val), Ideal.ofBits .f32 0x3F800000#32) (Ideal.ofBits .f32 0x3F800000#32))

/-- The mean edge activation of graph `b` at column `k`: the sum over the graph's edges over their number, at least one. -/
def eaggc (ea : FVec Ideal S320000x16 .f32) (u : FVec Ideal S256x32 .f32) (e2g : IVec S320000 32) (We : FVec Ideal S16x128 .f32)
    (Wue : FVec Ideal S32x128 .f32) (be : FVec Ideal S128 .f32) (b : Fin 256) (k : Fin 128) : Ideal .f32 :=
  Ideal.div (∑ e ∈ Finset.univ.filter (fun e : Fin 320000 => e2g (ix1 e) = BitVec.ofNat 32 b.val), e1c ea u We Wue be b e k)
    (max (∑ e ∈ Finset.univ.filter (fun e : Fin 320000 => e2g (ix1 e) = BitVec.ofNat 32 b.val), Ideal.ofBits .f32 0x3F800000#32) (Ideal.ofBits .f32 0x3F800000#32))

/-! ## The means of the activations -/

theorem nagg_n1_apply (x : FVec Ideal S10000x128 .f32) (u : FVec Ideal S256x32 .f32) (n2g : IVec S10000 32)
    (Wn : FVec Ideal S128x128 .f32) (Wun : FVec Ideal S32x128 .f32) (bn : FVec Ideal S128 .f32) (b : Fin 256) (k : Fin 128) :
    nagg (n1 x u n2g Wn Wun bn) n2g (ix2 b k) = naggc x u n2g Wn Wun bn b k := by
  have hs : ∑ n ∈ Finset.univ.filter (fun n : Fin 10000 => n2g (ix1 n) = BitVec.ofNat 32 b.val), n1 x u n2g Wn Wun bn (ix2 n k)
      = ∑ n ∈ Finset.univ.filter (fun n : Fin 10000 => n2g (ix1 n) = BitVec.ofNat 32 b.val), n1c x u Wn Wun bn b n k :=
    Finset.sum_congr rfl fun n hn => n1_apply x u n2g Wn Wun bn n b k (Finset.mem_filter.mp hn).2
  unfold naggc
  rw [nagg_apply, hs]

theorem eagg_e1_apply (ea : FVec Ideal S320000x16 .f32) (u : FVec Ideal S256x32 .f32) (e2g : IVec S320000 32)
    (We : FVec Ideal S16x128 .f32) (Wue : FVec Ideal S32x128 .f32) (be : FVec Ideal S128 .f32) (b : Fin 256) (k : Fin 128) :
    eagg (e1 ea u e2g We Wue be) e2g (ix2 b k) = eaggc ea u e2g We Wue be b k := by
  have hs : ∑ e ∈ Finset.univ.filter (fun e : Fin 320000 => e2g (ix1 e) = BitVec.ofNat 32 b.val), e1 ea u e2g We Wue be (ix2 e k)
      = ∑ e ∈ Finset.univ.filter (fun e : Fin 320000 => e2g (ix1 e) = BitVec.ofNat 32 b.val), e1c ea u We Wue be b e k :=
    Finset.sum_congr rfl fun e he => e1_apply ea u e2g We Wue be e b k (Finset.mem_filter.mp he).2
  unfold eaggc
  rw [eagg_apply, hs]

/-! ## The two results at an index -/

/-- The first result at `(b, a)`: the two means through the mean head's weights, plus its bias. -/
theorem res_mean_apply (a0 : FVec Ideal S10000x128 .f32) (a1 : FVec Ideal S320000x16 .f32) (a2 : FVec Ideal S256x32 .f32)
    (a3 : IVec S10000 32) (a4 : IVec S320000 32) (a5 : FVec Ideal S16x128 .f32) (a6 : FVec Ideal S32x128 .f32)
    (a7 : FVec Ideal S128 .f32) (a8 : FVec Ideal S128x128 .f32) (a9 : FVec Ideal S32x128 .f32) (a10 : FVec Ideal S128 .f32)
    (a11 a12 : FVec Ideal S128x8 .f32) (a13 : FVec Ideal S8 .f32) (a14 a15 : FVec Ideal S128x8 .f32) (a16 : FVec Ideal S8 .f32)
    (b : Fin 256) (a : Fin 8) :
    res_mean a0 a1 a2 a3 a4 a5 a6 a7 a8 a9 a10 a11 a12 a13 a14 a15 a16 (ix2 b a)
      = ((∑ k : Fin 128, naggc a0 a2 a3 a8 a9 a10 b k * a11 (ix2 k a))
          + ∑ k : Fin 128, eaggc a1 a2 a4 a5 a6 a7 b k * a12 (ix2 k a)) + a13 (ix1 a) := by
  unfold res_mean
  rw [head_apply]
  simp only [nagg_n1_apply, eagg_e1_apply]

/-- The second result at `(b, a)`: the same through the other head's weights and bias, clipped. -/
theorem res_logstd_apply (a0 : FVec Ideal S10000x128 .f32) (a1 : FVec Ideal S320000x16 .f32) (a2 : FVec Ideal S256x32 .f32)
    (a3 : IVec S10000 32) (a4 : IVec S320000 32) (a5 : FVec Ideal S16x128 .f32) (a6 : FVec Ideal S32x128 .f32)
    (a7 : FVec Ideal S128 .f32) (a8 : FVec Ideal S128x128 .f32) (a9 : FVec Ideal S32x128 .f32) (a10 : FVec Ideal S128 .f32)
    (a11 a12 : FVec Ideal S128x8 .f32) (a13 : FVec Ideal S8 .f32) (a14 a15 : FVec Ideal S128x8 .f32) (a16 : FVec Ideal S8 .f32)
    (b : Fin 256) (a : Fin 8) :
    res_logstd a0 a1 a2 a3 a4 a5 a6 a7 a8 a9 a10 a11 a12 a13 a14 a15 a16 (ix2 b a)
      = min (Ideal.ofBits .f32 0x40000000#32) (max (Ideal.ofBits .f32 0xC1A00000#32)
          (((∑ k : Fin 128, naggc a0 a2 a3 a8 a9 a10 b k * a14 (ix2 k a))
            + ∑ k : Fin 128, eaggc a1 a2 a4 a5 a6 a7 b k * a15 (ix2 k a)) + a16 (ix1 a))) := by
  unfold res_logstd
  rw [clip_apply, head_apply]
  simp only [nagg_n1_apply, eagg_e1_apply]

end Cert.ReferenceIdeal.RefValue

end
-- ==== Proof.RefBridge.lean ====
import proofs.«163481_g30743375904785_cont_sun_c4_101_2_alg».proof.Proof.RefValue
import proofs.«163481_g30743375904785_cont_sun_c4_101_2_alg».proof.Proof.HeadSpec

set_option maxRecDepth 16384

/-!
  The reference's two results in the common form. Its mean of graph `b`, column `k`, is the spec's mean of the spec's
  segment sum and segment count: item by item the reference's activation `max ((p + g) + bias) 0.0` is the spec's
  `max (p + (g + bias)) 0` (addition of extended reals is associative; the word of 0.0 is 0), and its count of the
  word of 1.0 per item is the count of ones. Its two results are then the spec's two heads.
-/

noncomputable section

namespace Cert.ReferenceIdeal.RefValue

open Cert.ReferenceIdeal Cert.ReferenceIdeal.Gen Cert.ReferenceIdeal.RefRun Idealize.ShloMosaic Idealize.ShloMosaic.ValueIdx
open Cert.Spec

theorem naggc_eq (x : FVec Ideal S10000x128 .f32) (u : FVec Ideal S256x32 .f32) (n2g : IVec S10000 32)
    (Wn : FVec Ideal S128x128 .f32) (Wun : FVec Ideal S32x128 .f32) (bn : FVec Ideal S128 .f32) (b : Fin 256) (k : Fin 128) :
    naggc x u n2g Wn Wun bn b k
      = meanOf (segSum (N := 10000) (D := 128) n2g x Wn u Wun bn b k) (segCnt (N := 10000) n2g b) := by
  unfold naggc meanOf segSum segCnt n1c
  rw [Ideal.ofBits_zero_f32, ofBits_one]
  simp only [add_assoc]

theorem eaggc_eq (ea : FVec Ideal S320000x16 .f32) (u : FVec Ideal S256x32 .f32) (e2g : IVec S320000 32)
    (We : FVec Ideal S16x128 .f32) (Wue : FVec Ideal S32x128 .f32) (be : FVec Ideal S128 .f32) (b : Fin 256) (k : Fin 128) :
    eaggc ea u e2g We Wue be b k
      = meanOf (segSum (N := 320000) (D := 16) e2g ea We u Wue be b k) (segCnt (N := 320000) e2g b) := by
  unfold eaggc meanOf segSum segCnt e1c
  rw [Ideal.ofBits_zero_f32, ofBits_one]
  simp only [add_assoc]

/-- The first result at `(b, a)` is the spec's mean head. -/
theorem res_mean_spec (a0 : FVec Ideal S10000x128 .f32) (a1 : FVec Ideal S320000x16 .f32) (a2 : FVec Ideal S256x32 .f32)
    (a3 : IVec S10000 32) (a4 : IVec S320000 32) (a5 : FVec Ideal S16x128 .f32) (a6 : FVec Ideal S32x128 .f32)
    (a7 : FVec Ideal S128 .f32) (a8 : FVec Ideal S128x128 .f32) (a9 : FVec Ideal S32x128 .f32) (a10 : FVec Ideal S128 .f32)
    (a11 a12 : FVec Ideal S128x8 .f32) (a13 : FVec Ideal S8 .f32) (a14 a15 : FVec Ideal S128x8 .f32) (a16 : FVec Ideal S8 .f32)
    (b : Fin 256) (a : Fin 8) :
    res_mean a0 a1 a2 a3 a4 a5 a6 a7 a8 a9 a10 a11 a12 a13 a14 a15 a16 (ix2 b a)
      = headSpec (segSum (N := 10000) (D := 128) a3 a0 a8 a2 a9 a10) (segCnt (N := 10000) a3)
          (segSum (N := 320000) (D := 16) a4 a1 a5 a2 a6 a7) (segCnt (N := 320000) a4) a11 a12 a13 b a := by
  rw [res_mean_apply]
  unfold headSpec
  simp only [naggc_eq, eaggc_eq]

/-- The second result at `(b, a)` is the spec's clipped head. -/
theorem res_logstd_spec (a0 : FVec Ideal S10000x128 .f32) (a1 : FVec Ideal S320000x16 .f32) (a2 : FVec Ideal S256x32 .f32)
    (a3 : IVec S10000 32) (a4 : IVec S320000 32) (a5 : FVec Ideal S16x128 .f32) (a6 : FVec Ideal S32x128 .f32)
    (a7 : FVec Ideal S128 .f32) (a8 : FVec Ideal S128x128 .f32) (a9 : FVec Ideal S32x128 .f32) (a10 : FVec Ideal S128 .f32)
    (a11 a12 : FVec Ideal S128x8 .f32) (a13 : FVec Ideal S8 .f32) (a14 a15 : FVec Ideal S128x8 .f32) (a16 : FVec Ideal S8 .f32)
    (b : Fin 256) (a : Fin 8) :
    res_logstd a0 a1 a2 a3 a4 a5 a6 a7 a8 a9 a10 a11 a12 a13 a14 a15 a16 (ix2 b a)
      = clipSpec (headSpec (segSum (N := 10000) (D := 128) a3 a0 a8 a2 a9 a10) (segCnt (N := 10000) a3)
          (segSum (N := 320000) (D := 16) a4 a1 a5 a2 a6 a7) (segCnt (N := 320000) a4) a14 a15 a16 b a) := by
  rw [res_logstd_apply]
  unfold clipSpec headSpec
  simp only [naggc_eq, eaggc_eq]

end Cert.ReferenceIdeal.RefValue

end
-- ==== Proof.lean ====
/-
  The claim: the word-level kernel, the idealized kernel and the idealized reference each run to the end, fault nowhere
  and leave their seventeen argument arrays unchanged; the idealization rewrote nothing; and the idealized kernel and
  the idealized reference, run from memories that agree on the arguments, end with equal results.

  The mathematics of the equality. The kernel computes, in its first region, for every graph `b` the sum and the
  number of its edges' rectified activations by accumulating, over 80 blocks of 4000 edges, the product of the block's
  one-hot matrix `[id_e = b]` with the block's activations; an edge's activation adds its projected attributes to its
  graph's row of a per-graph table, which the kernel obtains as the one-hot matrix's transpose times the table. In its
  second region it does the same for the nodes over 5 blocks of 2000 and, at the last block, forms the two heads from
  the node mean and the edge mean. The reference gathers the table's row by the edge's id and sums by a scatter-add
  indexed by the ids. Both are the same sums: a one-hot column times the table is the table's row; a one-hot row times
  a family is the family's sum over the matching items; a sum over blocks of consecutive items is the sum over all
  items; an item whose id is no graph's word matches no row on either side. Only `0 * x = 0`, `1 * x = x`,
  `0 + x = x` and the commutative-monoid laws of addition on the extended reals are used, so the precondition is
  never opened.
-/
import proofs.«163481_g30743375904785_cont_sun_c4_101_2_alg».proof.Defs
import proofs.«163481_g30743375904785_cont_sun_c4_101_2_alg».proof.Proof.Gen.Kernel
import proofs.«163481_g30743375904785_cont_sun_c4_101_2_alg».proof.Proof.Gen.KernelIdeal
import proofs.«163481_g30743375904785_cont_sun_c4_101_2_alg».proof.Proof.Gen.ReferenceIdeal
import proofs.«163481_g30743375904785_cont_sun_c4_101_2_alg».proof.Proof.Gen.Pre_finite_inputs
import proofs.«163481_g30743375904785_cont_sun_c4_101_2_alg».proof.Proof.KAssembly
import proofs.«163481_g30743375904785_cont_sun_c4_101_2_alg».proof.Proof.KFinal
import proofs.«163481_g30743375904785_cont_sun_c4_101_2_alg».proof.Proof.RefRun
import proofs.«163481_g30743375904785_cont_sun_c4_101_2_alg».proof.Proof.RefBridge

set_option maxRecDepth 16384

noncomputable section

namespace Cert.Proof

open Idealize.ShloMosaic Idealize.SL.Sem Idealize.ShloMosaic.ValueIdx

/-- The word-level kernel's frame: the run through its two regions, read at the arguments. -/
theorem frame_k : Cert.frame_Kernel := fun m ρ _ => Cert.Kernel.Hand.frame (F := Bits) m ρ

/-- The idealized kernel's frame: the same run at the ideal instance. -/
theorem frame_ki : Cert.frame_KernelIdeal := fun m ρ _ => Cert.KernelIdeal.Hand.frame (F := Ideal) m ρ

/-- The idealized reference's frame: its run with the results dropped. -/
theorem frame_ri : Cert.frame_ReferenceIdeal := fun m ρ _ => Cert.ReferenceIdeal.RefRun.frame (F := Ideal) m ρ

/-- The idealization rewrote no operation. -/
theorem preserves : Cert.preserves_Kernel_KernelIdeal := trivial

/-- The two idealized programs end with equal results: the kernel's are what its second region's write-backs leave in
    its two output arrays, which are the two heads over the node and edge means; the reference's results are the same
    two heads. -/
theorem algebraic : Cert.algebraic_KernelIdeal_ReferenceIdeal := by
  intro m ρ m' ρ' _ hagree
  refine ⟨fun c => (Cert.KernelIdeal.Hand.dat1 (Cert.KernelIdeal.Hand.E1 m) c).arrAt 14 Cert.KernelIdeal.cfg1.N,
    fun c => (Cert.KernelIdeal.Hand.dat1 (Cert.KernelIdeal.Hand.E1 m) c).arrAt 15 Cert.KernelIdeal.cfg1.N,
    Cert.KernelIdeal.Hand.run_main (F := Ideal) m ρ, ?_⟩
  refine (θ_run Cert.ReferenceIdeal.defs _ _).mono (fun r h c => ⟨(h c).1.trans ?_, (h c).2.1.trans ?_, (h c).2.2⟩)
    (Cert.ReferenceIdeal.RefRun.run (F := Ideal) m' ρ')
  · obtain ⟨e0, e1, e2, e3, e4, e5, e6, e7, e8, e9, e10, e11, e12, e13, e14, e15, e16⟩ := hagree c
    rw [e0, e1, e2, e3, e4, e5, e6, e7, e8, e9, e10, e11, e12, e13, e14, e15, e16]
    funext i
    obtain ⟨b, a, rfl⟩ : ∃ (b : Fin 256) (a : Fin 8), i = ix2 b a := ⟨i 0, i 1, eq_ix2 i⟩
    exact (Cert.ReferenceIdeal.RefValue.res_mean_spec _ _ _ _ _ _ _ _ _ _ _ _ _ _ _ _ _ b a).trans
      (Cert.KernelIdeal.Hand.kernel_mean m c b a).symm
  · obtain ⟨e0, e1, e2, e3, e4, e5, e6, e7, e8, e9, e10, e11, e12, e13, e14, e15, e16⟩ := hagree c
    rw [e0, e1, e2, e3, e4, e5, e6, e7, e8, e9, e10, e11, e12, e13, e14, e15, e16]
    funext i
    obtain ⟨b, a, rfl⟩ : ∃ (b : Fin 256) (a : Fin 8), i = ix2 b a := ⟨i 0, i 1, eq_ix2 i⟩
    exact (Cert.ReferenceIdeal.RefValue.res_logstd_spec _ _ _ _ _ _ _ _ _ _ _ _ _ _ _ _ _ b a).trans
      (Cert.KernelIdeal.Hand.kernel_logstd m c b a).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
